-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x373 : Shape := ⟨2, ![100000, 373]⟩
abbrev S2x400000 : Shape := ⟨2, ![2, 400000]⟩
abbrev S100000 : Shape := ⟨1, ![100000]⟩
abbrev S373x256 : Shape := ⟨2, ![373, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x373 : S_.BroadcastsInDim S100000x373 (![] : Fin 0 → Fin S100000x373.rank)
  reducesTo_S100000x373_S_d0_1 : S100000x373.ReducesTo [0, 1] S_
  h_S_ : 0 < S_.numel
  bcast_S_S373x256 : S_.BroadcastsInDim S373x256 (![] : Fin 0 → Fin S373x256.rank)
  reducesTo_S373x256_S_d0_1 : S373x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S16x1 .f32) (main_arg24 : FVec F S1 .f32) (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  let main_v104 : FVec F S16x1 .f32 := Host.absf main_arg23
  let main_cst_40 : FVec F S_ .f32 := constant S_ .f32 0x7F800000#32
  let main_v105 : FVec F S16x1 .f32 := broadcastInDim S16x1 ![] bcast_S_S16x1 main_cst_40
  let main_v106 : IVec S16x1 1 := cmpf .olt main_v104 main_v105
  let main_c_41 : IVec S_ 1 := constantI S_ 1 1#1
  let main_v107 : IVec S_ 1 := (fun x v => Host.reduce IntOp.andi x v reducesTo_S16x1_S_d0_1 h_S_) main_v106 main_c_41
  let main_v108 : IVec S_ 1 := andi main_v103 main_v107
  let main_v109 : FVec F S1 .f32 := Host.absf main_arg24
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg20 : FVec F S64 .f32) (main_arg21 : FVec F S64x16 .f32) (main_arg22 : FVec F S16 .f32) (main_arg23 : FVec F S16x1 .f32) (main_arg24 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x16 .f32 := Host.absf main_arg21
  let main_cst_36 : FVec F S_ .f32 := constant S_ .f32 0x7F800000#32
  let main_v95 : FVec F S64x16 .f32 := broadcastInDim S64x16 ![] bcast_S_S64x16 main_cst_36
  let main_v96 : IVec S64x16 1 := cmpf .olt main_v94 main_v95
  let main_c_37 : IVec S_ 1 := constantI S_ 1 1#1
  let main_v97 : IVec S_ 1 := (fun x v => Host.reduce IntOp.andi x v reducesTo_S64x16_S_d0_1 h_S_) main_v96 main_c_37
  let main_v98 : IVec S_ 1 := andi main_v93 main_v97
  let main_v99 : FVec F S16 .f32 := Host.absf main_arg22
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64x16 .f32) (main_arg22 : FVec F S16 .f32) (main_arg23 : FVec F S16x1 .f32) (main_arg24 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128 .f32) (main_arg14 : FVec F S128 .f32) (main_arg15 : FVec F S128x64 .f32) (main_arg16 : FVec F S64 .f32) (main_arg17 : FVec F S64x64 .f32) (main_arg18 : FVec F S64 .f32) (main_arg19 : FVec F S64 .f32) (main_arg20 : FVec F S64 .f32) (main_arg21 : FVec F S64x16 .f32) (main_arg22 : FVec F S16 .f32) (main_arg23 : FVec F S16x1 .f32) (main_arg24 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S256x128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x64 .f32) (main_arg18 : FVec F S64 .f32) (main_arg19 : FVec F S64 .f32) (main_arg20 : FVec F S64 .f32) (main_arg21 : FVec F S64x16 .f32) (main_arg22 : FVec F S16 .f32) (main_arg23 : FVec F S16x1 .f32) (main_arg24 : FVec F S1 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S256 .f32) (main_arg7 : FVec F S256 .f32) (main_arg8 : FVec F S256 .f32) (main_arg9 : FVec F S256x128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x64 .f32) (main_arg18 : FVec F S64 .f32) (main_arg19 : FVec F S64 .f32) (main_arg20 : FVec F S64 .f32) (main_arg21 : FVec F S64x16 .f32) (main_arg22 : FVec F S16 .f32) (main_arg23 : FVec F S16x1 .f32) (main_arg24 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x373 .f32) (main_arg1 : IVec S2x400000 32) (main_arg2 : IVec S100000 32) (main_arg3 : FVec F S373x256 .f32) (main_arg4 : FVec F S256 .f32) (main_arg5 : FVec F S256x256 .f32) (main_arg6 : FVec F S256 .f32) (main_arg7 : FVec F S256 .f32) (main_arg8 : FVec F S256 .f32) (main_arg9 : FVec F S256x128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x64 .f32) (main_arg18 : FVec F S64 .f32) (main_arg19 : FVec F S64 .f32) (main_arg20 : FVec F S64 .f32) (main_arg21 : FVec F S64x16 .f32) (main_arg22 : FVec F S16 .f32) (main_arg23 : FVec F S16x1 .f32) (main_arg24 : FVec F S1 .f32) : IVec S_ 1 :=
  let main_v0 : FVec F S100000x373 .f32 := Host.absf main_arg0
  let main_cst : FVec F S_ .f32 := constant S_ .f32 0x7F800000#32
  let main_v1 : FVec F S100000x373 .f32 := broadcastInDim S100000x373 ![] bcast_S_S100000x373 main_cst
  let main_v2 : IVec S100000x373 1 := cmpf .olt main_v0 main_v1
  let main_c : IVec S_ 1 := constantI S_ 1 1#1
  let main_v3 : IVec S_ 1 := (fun x v => Host.reduce IntOp.andi x v reducesTo_S100000x373_S_d0_1 h_S_) main_v2 main_c
  let main_v4 : FVec F S373x256 .f32 := Host.absf main_arg3
  let main_cst_0 : FVec F S_ .f32 := constant S_ .f32 0x7F800000#32
  let main_v5 : FVec F S373x256 .f32 := broadcastInDim S373x256 ![] bcast_S_S373x256 main_cst_0
  let main_v6 : IVec S373x256 1 := cmpf .olt main_v4 main_v5
  let main_c_1 : IVec S_ 1 := constantI S_ 1 1#1
  let main_v7 : IVec S_ 1 := (fun x v => Host.reduce IntOp.andi x v reducesTo_S373x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x373 : Shape := ⟨2, ![100000, 373]⟩
abbrev S2x400000 : Shape := ⟨2, ![2, 400000]⟩
abbrev S100000 : Shape := ⟨1, ![100000]⟩
abbrev S373x256 : Shape := ⟨2, ![373, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x373 : Shape := ⟨2, ![400000, 373]⟩
abbrev S1x256 : Shape := ⟨2, ![1, 256]⟩
abbrev S100000x256 : Shape := ⟨2, ![100000, 256]⟩
abbrev S2000x373 : Shape := ⟨2, ![2000, 373]⟩
abbrev S2000x256 : Shape := ⟨2, ![2000, 256]⟩
abbrev S400000x256 : Shape := ⟨2, ![400000, 256]⟩
abbrev S1x128 : Shape := ⟨2, ![1, 128]⟩
abbrev S100000x128 : Shape := ⟨2, ![100000, 128]⟩
abbrev S2000x128 : Shape := ⟨2, ![2000, 128]⟩
abbrev S400000x128 : Shape := ⟨2, ![400000, 128]⟩
abbrev S1x64 : Shape := ⟨2, ![1, 64]⟩
abbrev S100000x64 : Shape := ⟨2, ![100000, 64]⟩
abbrev S2000x64 : Shape := ⟨2, ![2000, 64]⟩
abbrev S4096x64 : Shape := ⟨2, ![4096, 64]⟩
abbrev S100000x1 : Shape := ⟨2, ![100000, 1]⟩
abbrev S1x16 : Shape := ⟨2, ![1, 16]⟩
abbrev S1x1 : Shape := ⟨2, ![1, 1]⟩
abbrev S4096x1 : Shape := ⟨2, ![4096, 1]⟩
abbrev S4096x16 : Shape := ⟨2, ![4096, 16]⟩
abbrev S4096 : Shape := ⟨1, ![4096]⟩

abbrev nBuf : Space → Nat
  | .hbm => 145
  | .vmem => 66
  | .smem => 0
  | _ => 0

abbrev hbmTy0_0 (i : Nat) : BufTy := match i % 128 with
  | 0 => ⟨S100000x373, .f32⟩
  | 1 => ⟨S2x400000, .i32⟩
  | 2 => ⟨S100000, .i32⟩
  | 3 => ⟨S373x256, .f32⟩
  | 4 => ⟨S256, .f32⟩
  | 5 => ⟨S256x256, .f32⟩
  | 6 => ⟨S256, .f32⟩
  | 7 => ⟨S256, .f32⟩
  | 8 => ⟨S256, .f32⟩
  | 9 => ⟨S256x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x64, .f32⟩
  | 16 => ⟨S64, .f32⟩
  | 17 => ⟨S64x64, .f32⟩
  | 18 => ⟨S64, .f32⟩
  | 19 => ⟨S64, .f32⟩
  | 20 => ⟨S64, .f32⟩
  | 21 => ⟨S64x16, .f32⟩
  | 22 => ⟨S16, .f32⟩
  | 23 => ⟨S16x1, .f32⟩
  | 24 => ⟨S1, .f32⟩
  | 25 => ⟨S1x400000, .i32⟩
  | 26 => ⟨S400000, .i32⟩
  | 27 => ⟨S1x400000, .i32⟩
  | 28 => ⟨S400000, .i32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x373, .f32⟩
  | 38 => ⟨S_, .f32⟩
  | 39 => ⟨S100000x373, .f32⟩
  | 40 => ⟨S400000x1, .i32⟩
  | 41 => ⟨S100000x373, .f32⟩
  | 42 => ⟨S1x256, .f32⟩
  | 43 => ⟨S1x256, .f32⟩
  | 44 => ⟨S100000x256, .f32⟩
  | 45 => ⟨S1x256, .f32⟩
  | 46 => ⟨S1x256, .f32⟩
  | 47 => ⟨S_, .f32⟩
  | 48 => ⟨S1x256, .f32⟩
  | 49 => ⟨S1x256, .f32⟩
  | 50 => ⟨S_, .f32⟩
  | 51 => ⟨S1x256, .f32⟩
  | 52 => ⟨S1x256, .f32⟩
  | 53 => ⟨S1x256, .f32⟩
  | 54 => ⟨S1x256, .f32⟩
  | 55 => ⟨S_, .f32⟩
  | 56 => ⟨S1x256, .f32⟩
  | 57 => ⟨S1x256, .f32⟩
  | 58 => ⟨S1x256, .f32⟩
  | 59 => ⟨S1x256, .f32⟩
  | 60 => ⟨S1x256, .f32⟩
  | 61 => ⟨S1x256, .f32⟩
  | 62 => ⟨S1x256, .f32⟩
  | 63 => ⟨S1x256, .f32⟩
  | 64 => ⟨S100000x256, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x256, .f32⟩
  | 74 => ⟨S_, .f32⟩
  | 75 => ⟨S100000x256, .f32⟩
  | 76 => ⟨S400000x1, .i32⟩
  | 77 => ⟨S100000x256, .f32⟩
  | 78 => ⟨S1x128, .f32⟩
  | 79 => ⟨S1x128, .f32⟩
  | 80 => ⟨S100000x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S100000x128, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x128, .f32⟩
  | 110 => ⟨S_, .f32⟩
  | 111 => ⟨S100000x128, .f32⟩
  | 112 => ⟨S400000x1, .i32⟩
  | 113 => ⟨S100000x128, .f32⟩
  | 114 => ⟨S1x64, .f32⟩
  | 115 => ⟨S1x64, .f32⟩
  | 116 => ⟨S100000x64, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S1x64, .f32⟩
  | 126 => ⟨S1x64, .f32⟩
  | 127 => ⟨S_, .f32⟩
  | _ => ⟨S100000x373, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S1x64, .f32⟩
  | 8 => ⟨S100000x64, .f32⟩
  | 9 => ⟨S_, .f32⟩
  | 10 => ⟨S4096x64, .f32⟩
  | 11 => ⟨S100000x1, .i32⟩
  | 12 => ⟨S4096x64, .f32⟩
  | 13 => ⟨S1x16, .f32⟩
  | 14 => ⟨S1x1, .f32⟩
  | 15 => ⟨S4096x1, .f32⟩
  | 16 => ⟨S4096, .f32⟩
  | _ => ⟨S100000x373, .f32⟩

abbrev hbmTy (i : Nat) : BufTy := match i / 128 with
  | 0 => hbmTy0_0 i
  | 1 => hbmTy0_1 i
  | _ => ⟨S100000x373, .f32⟩

abbrev bufTy : (tb : Table) → Fin (tcTables nBuf tb) → BufTy
  | .hbm, ⟨i, _⟩ => hbmTy i
  | .local _ .vmem, ⟨0, _⟩ => ⟨S2000x373, .f32⟩
  | .local _ .vmem, ⟨1, _⟩ => ⟨S2000x373, .f32⟩
  | .local _ .vmem, ⟨2, _⟩ => ⟨S2000x373, .f32⟩
  | .local _ .vmem, ⟨3, _⟩ => ⟨S2000x373, .f32⟩
  | .local _ .vmem, ⟨4, _⟩ => ⟨S373x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S1x64, .f32⟩
  | .local _ .vmem, ⟨53, _⟩ => ⟨S1x64, .f32⟩
  | .local _ .vmem, ⟨54, _⟩ => ⟨S2000x64, .f32⟩
  | .local _ .vmem, ⟨55, _⟩ => ⟨S2000x64, .f32⟩
  | .local _ .vmem, ⟨56, _⟩ => ⟨S1x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | .local _ .vmem, ⟨60, _⟩ => ⟨S4096x64, .f32⟩
  | .local _ .vmem, ⟨61, _⟩ => ⟨S64x16, .f32⟩
  | .local _ .vmem, ⟨62, _⟩ => ⟨S1x16, .f32⟩
  | .local _ .vmem, ⟨63, _⟩ => ⟨S16x1, .f32⟩
  | .local _ .vmem, ⟨64, _⟩ => ⟨S1x1, .f32⟩
  | .local _ .vmem, ⟨65, _⟩ => ⟨S4096x1, .f32⟩
  | _, _ => ⟨S100000x373, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17_0 : Ref sig .tc := ⟨.hbm, 45, rfl⟩
abbrev main_v17_1 : Ref sig .tc := ⟨.hbm, 46, rfl⟩
abbrev main_cst_1 : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v34 : Ref sig .tc := ⟨.hbm, 67, rfl⟩
abbrev main_c_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46_0 : Ref sig .tc := ⟨.hbm, 81, rfl⟩
abbrev main_v46_1 : Ref sig .tc := ⟨.hbm, 82, rfl⟩
abbrev main_cst_7 : Ref sig .tc := ⟨.hbm, 83, rfl⟩
abbrev main_v47 : Ref sig .tc := ⟨.hbm, 84, rfl⟩
abbrev main_v48 : Ref sig .tc := ⟨.hbm, 85, rfl⟩
abbrev main_cst_8 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_9 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_10 : Ref sig .tc := ⟨.hbm, 101, rfl⟩
abbrev main_v62 : Ref sig .tc := ⟨.hbm, 102, rfl⟩
abbrev main_v63 : Ref sig .tc := ⟨.hbm, 103, rfl⟩
abbrev main_c_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_12 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75_0 : Ref sig .tc := ⟨.hbm, 117, rfl⟩
abbrev main_v75_1 : Ref sig .tc := ⟨.hbm, 118, rfl⟩
abbrev main_cst_13 : Ref sig .tc := ⟨.hbm, 119, rfl⟩
abbrev main_v76 : Ref sig .tc := ⟨.hbm, 120, rfl⟩
abbrev main_v77 : Ref sig .tc := ⟨.hbm, 121, rfl⟩
abbrev main_cst_14 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_15 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_16 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg6_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc9_stg0_0 : Ref sig .tc := ⟨.vmem, 60, rfl⟩
abbrev cc9_stg1_0 : Ref sig .tc := ⟨.vmem, 61, rfl⟩
abbrev cc9_stg2_0 : Ref sig .tc := ⟨.vmem, 62, rfl⟩
abbrev cc9_stg3_0 : Ref sig .tc := ⟨.vmem, 63, rfl⟩
abbrev cc9_stg4_0 : Ref sig .tc := ⟨.vmem, 64, rfl⟩
abbrev cc9_stg5_0 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem6_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem1_0 : DmaSem sig := 61
abbrev cc9_sem2_0 : DmaSem sig := 62
abbrev cc9_sem3_0 : DmaSem sig := 63
abbrev cc9_sem4_0 : DmaSem sig := 64
abbrev cc9_sem5_0 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x373 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x373 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S373x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S4096x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x16 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S16x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S4096x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x373 : S_.BroadcastsInDim S100000x373 (![] : Fin 0 → Fin S100000x373.rank)
  shapeCasts_S256_S1x256 : S256.ShapeCasts S1x256
  inb_S2000x373_S2000x373_0_0 : ∀ a, (![0, 0] : Fin 2 → Nat) a + S2000x373.size a ≤ S2000x373.size a
  h_S2000x373 : 0 < S2000x373.numel
  shapeCasts_S2000x373_S2000x373 : S2000x373.ShapeCasts S2000x373
  bitsLt_bf16_f32 : FTy.bits .bf16 < FTy.bits .f32
  inb_S373x256_S373x256_0_0 : ∀ a, (![0, 0] : Fin 2 → Nat) a + S373x256.size a ≤ S373x256.size a
  h_S373x256 : 0 < S373x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S256 : S2000x256.Reduces [0] S256
  bcast_S_S1x256 : S_.BroadcastsInDim S1x256 (![] : Fin 0 → Fin S1x256.rank)
  bcast_S_S100000x256 : S_.BroadcastsInDim S100000x256 (![] : Fin 0 → Fin S100000x256.rank)
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S128 : S2000x128.Reduces [0] S128
  bcast_S_S1x128 : S_.BroadcastsInDim S1x128 (![] : Fin 0 → Fin S1x128.rank)
  bcast_S_S100000x128 : S_.BroadcastsInDim S100000x128 (![] : Fin 0 → Fin S100000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S64 : S2000x64.Reduces [0] S64
  bcast_S_S1x64 : S_.BroadcastsInDim S1x64 (![] : Fin 0 → Fin S1x64.rank)
  bcast_S_S4096x64 : S_.BroadcastsInDim S4096x64 (![] : Fin 0 → Fin S4096x64.rank)
  bcast_S100000_S100000x1_0 : S100000.BroadcastsInDim S100000x1 (![0] : Fin 1 → Fin S100000x1.rank)
  shapeCasts_S16_S1x16 : S16.ShapeCasts S1x16
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  gather_S100000x373_S400000x1_S400000x373_1_0_n_n_0_1_1373_wf : GatherDims.WF S100000x373 S400000x1 S400000x373 [1] [0] [] [0] [] 1 ![1, 373]
  scatter_S100000x373_S400000x1_S400000x373_1_0_0_1_wf : ScatterDims.WF S100000x373 S400000x1 S400000x373 [1] [0] [0] 1
  dot_S2000x373_S373x256_S2000x256_1_0_0_1_n_n_wf : DotDims.WF S2000x373 S373x256 S2000x256 [1] [0] [0] [1] [] []
  dot_S2000x256_S256x256_S2000x256_1_0_0_1_n_n_wf : DotDims.WF S2000x256 S256x256 S2000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  scatter_S4096x64_S100000x1_S100000x64_1_0_0_1_wf : ScatterDims.WF S4096x64 S100000x1 S100000x64 [1] [0] [0] 1
  dot_S4096x64_S64x16_S4096x16_1_0_0_1_n_n_wf : DotDims.WF S4096x64 S64x16 S4096x16 [1] [0] [0] [1] [] []
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x373.size a ≤ S100000x373.size a
  hwx0_0 : ∀ i : grid0.Coords, EltTy.bits .f32 = 32 ∨ (Rect.block (s := S100000x373) S2000x373.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x373.size a ≤ S100000x373.size a
  hwx0_1 : ∀ i : grid0.Coords, EltTy.bits .f32 = 32 ∨ (Rect.block (s := S100000x373) S2000x373.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S373x256.size a ≤ S373x256.size a
  hwx0_2 : ∀ i : grid0.Coords, EltTy.bits .f32 = 32 ∨ (Rect.block (s := S373x256) S373x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S100000x256.size a
  hwx2_3 : ∀ i : grid2.Coords, EltTy.bits .f32 = 32 ∨ (Rect.block (s := S100000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .f32 = 32 ∨ (Rect.block (s := S100000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x64.size a ≤ S100000x64.size a
  hwx6_6 : ∀ i : grid6.Coords, EltTy.bits .f32 = 32 ∨ (Rect.block (s := S100000x64) S2000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S100000x64.size a
  hwx8_0 : ∀ i : grid8.Coords, EltTy.bits .f32 = 32 ∨ (Rect.block (s := S100000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x64.size a ≤ S100000x64.size a
  hwx8_3 : ∀ i : grid8.Coords, EltTy.bits .f32 = 32 ∨ (Rect.block (s := S100000x64) S2000x64.size (cc8_transform_3 i) (hinb8_3 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S4096x64.size a ≤ S4096x64.size a
  hwx9_0 : ∀ i : grid9.Coords, EltTy.bits .f32 = 32 ∨ (Rect.block (s := S4096x64) S4096x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x16.size a ≤ S64x16.size a
  hwx9_1 : ∀ i : grid9.Coords, EltTy.bits .f32 = 32 ∨ (Rect.block (s := S64x16) S64x16.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x16.size a ≤ S1x16.size a
  hwx9_2 : ∀ i : grid9.Coords, EltTy.bits .f32 = 32 ∨ (Rect.block (s := S1x16) S1x16.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S16x1.size a ≤ S16x1.size a
  hwx9_3 : ∀ i : grid9.Coords, EltTy.bits .f32 = 32 ∨ (Rect.block (s := S16x1) S16x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x1.size a ≤ S1x1.size a
  hwx9_4 : ∀ i : grid9.Coords, EltTy.bits .f32 = 32 ∨ (Rect.block (s := S1x1) S1x1.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S4096x1.size a ≤ S4096x1.size a
  hwx9_5 : ∀ i : grid9.Coords, EltTy.bits .f32 = 32 ∨ (Rect.block (s := S4096x1) S4096x1.size (cc9_transform_5 i) (hinb9_5 i)).WholeWords (EltTy.packing .f32)

variable [Facts₀]

def gather_S100000x373_S400000x1_S400000x373_1_0_n_n_0_1_1373 : GatherDims S100000x373 S400000x1 S400000x373 where
  offsetDims := [1]
  collapsedSliceDims := [0]
  operandBatchingDims := []
  startIndicesBatchingDims := []
  startIndexMap := [0]
  indexVectorDim := 1
  sliceSizes := ![1, 373]
  wf := gather_S100000x373_S400000x1_S400000x373_1_0_n_n_0_1_1373_wf
def scatter_S100000x373_S400000x1_S400000x373_1_0_0_1 : ScatterDims S100000x373 S400000x1 S400000x373 where
  updateWindowDims := [1]
  insertedWindowDims := [0]
  scatterDimsToOperandDims := [0]
  indexVectorDim := 1
  wf := scatter_S100000x373_S400000x1_S400000x373_1_0_0_1_wf
def dot_S2000x373_S373x256_S2000x256_1_0_0_1_n_n : DotDims S2000x373 S373x256 S2000x256 where
  lhsContracting := [1]
  rhsContracting := [0]
  lhsNonContracting := [0]
  rhsNonContracting := [1]
  lhsBatch := []
  rhsBatch := []
  wf := dot_S2000x373_S373x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S4096x64_S100000x1_S100000x64_1_0_0_1 : ScatterDims S4096x64 S100000x1 S100000x64 where
  updateWindowDims := [1]
  insertedWindowDims := [0]
  scatterDimsToOperandDims := [0]
  indexVectorDim := 1
  wf := scatter_S4096x64_S100000x1_S100000x64_1_0_0_1_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_arg0) S2000x373.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x373.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S373x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v16) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v32) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v45) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v61) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg15) S128x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg17) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v73) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v74) S2000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v74) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v75_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v74) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v86) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v89) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v90) S2000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v93) S4096x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg21) S64x16.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v94) S1x16.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg23) S16x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v95) S1x1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v96) S4096x1.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x373 : Shape := ⟨2, ![100000, 373]⟩
abbrev S2x400000 : Shape := ⟨2, ![2, 400000]⟩
abbrev S100000 : Shape := ⟨1, ![100000]⟩
abbrev S373x256 : Shape := ⟨2, ![373, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x373 : Shape := ⟨2, ![400000, 373]⟩
abbrev S100000x256 : Shape := ⟨2, ![100000, 256]⟩
abbrev S1x256 : Shape := ⟨2, ![1, 256]⟩
abbrev S400000x256 : Shape := ⟨2, ![400000, 256]⟩
abbrev S100000x128 : Shape := ⟨2, ![100000, 128]⟩
abbrev S1x128 : Shape := ⟨2, ![1, 128]⟩
abbrev S400000x128 : Shape := ⟨2, ![400000, 128]⟩
abbrev S100000x64 : Shape := ⟨2, ![100000, 64]⟩
abbrev S1x64 : Shape := ⟨2, ![1, 64]⟩
abbrev S4096x64 : Shape := ⟨2, ![4096, 64]⟩
abbrev S100000x1 : Shape := ⟨2, ![100000, 1]⟩
abbrev S4096x16 : Shape := ⟨2, ![4096, 16]⟩
abbrev S1x16 : Shape := ⟨2, ![1, 16]⟩
abbrev S4096x1 : Shape := ⟨2, ![4096, 1]⟩
abbrev S1x1 : Shape := ⟨2, ![1, 1]⟩
abbrev S4096 : Shape := ⟨1, ![4096]⟩

abbrev nBuf : Space → Nat
  | .hbm => 264
  | .vmem => 0
  | .smem => 0
  | _ => 0

abbrev hbmTy0_0 (i : Nat) : BufTy := match i % 128 with
  | 0 => ⟨S100000x373, .f32⟩
  | 1 => ⟨S2x400000, .i32⟩
  | 2 => ⟨S100000, .i32⟩
  | 3 => ⟨S373x256, .f32⟩
  | 4 => ⟨S256, .f32⟩
  | 5 => ⟨S256x256, .f32⟩
  | 6 => ⟨S256, .f32⟩
  | 7 => ⟨S256, .f32⟩
  | 8 => ⟨S256, .f32⟩
  | 9 => ⟨S256x128, .f32⟩
  | 10 => ⟨S128, .f32⟩
  | 11 => ⟨S128x128, .f32⟩
  | 12 => ⟨S128, .f32⟩
  | 13 => ⟨S128, .f32⟩
  | 14 => ⟨S128, .f32⟩
  | 15 => ⟨S128x64, .f32⟩
  | 16 => ⟨S64, .f32⟩
  | 17 => ⟨S64x64, .f32⟩
  | 18 => ⟨S64, .f32⟩
  | 19 => ⟨S64, .f32⟩
  | 20 => ⟨S64, .f32⟩
  | 21 => ⟨S64x16, .f32⟩
  | 22 => ⟨S16, .f32⟩
  | 23 => ⟨S16x1, .f32⟩
  | 24 => ⟨S1, .f32⟩
  | 25 => ⟨S1x400000, .i32⟩
  | 26 => ⟨S400000, .i32⟩
  | 27 => ⟨S1x400000, .i32⟩
  | 28 => ⟨S400000, .i32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x373, .f32⟩
  | 38 => ⟨S_, .f32⟩
  | 39 => ⟨S100000x373, .f32⟩
  | 40 => ⟨S400000x1, .i32⟩
  | 41 => ⟨S100000x373, .f32⟩
  | 42 => ⟨S100000x373, .f32⟩
  | 43 => ⟨S100000x256, .f32⟩
  | 44 => ⟨S1x256, .f32⟩
  | 45 => ⟨S100000x256, .f32⟩
  | 46 => ⟨S100000x256, .f32⟩
  | 47 => ⟨S_, .f32⟩
  | 48 => ⟨S100000x256, .f32⟩
  | 49 => ⟨S100000x256, .f32⟩
  | 50 => ⟨S100000x256, .f32⟩
  | 51 => ⟨S1x256, .f32⟩
  | 52 => ⟨S100000x256, .f32⟩
  | 53 => ⟨S100000x256, .f32⟩
  | 54 => ⟨S_, .f32⟩
  | 55 => ⟨S100000x256, .f32⟩
  | 56 => ⟨S100000x256, .f32⟩
  | 57 => ⟨S_, .f32⟩
  | 58 => ⟨S256, .f32⟩
  | 59 => ⟨S_, .f32⟩
  | 60 => ⟨S256, .f32⟩
  | 61 => ⟨S256, .f32⟩
  | 62 => ⟨S_, .i32⟩
  | 63 => ⟨S_, .f32⟩
  | 64 => ⟨S256, .f32⟩
  | 65 => ⟨S1x256, .f32⟩
  | 66 => ⟨S_, .f32⟩
  | 67 => ⟨S1x256, .f32⟩
  | 68 => ⟨S1x256, .f32⟩
  | 69 => ⟨S100000x256, .f32⟩
  | 70 => ⟨S100000x256, .f32⟩
  | 71 => ⟨S100000x256, .f32⟩
  | 72 => ⟨S_, .f32⟩
  | 73 => ⟨S_, .f32⟩
  | 74 => ⟨S_, .f32⟩
  | 75 => ⟨S_, .f32⟩
  | 76 => ⟨S256, .f32⟩
  | 77 => ⟨S256, .f32⟩
  | 78 => ⟨S256, .f32⟩
  | 79 => ⟨S_, .f32⟩
  | 80 => ⟨S_, .i1⟩
  | 81 => ⟨S_, .f32⟩
  | 82 => ⟨S_, .f32⟩
  | 83 => ⟨S256, .f32⟩
  | 84 => ⟨S256, .f32⟩
  | 85 => ⟨S1x256, .f32⟩
  | 86 => ⟨S100000x256, .f32⟩
  | 87 => ⟨S100000x256, .f32⟩
  | 88 => ⟨S_, .f32⟩
  | 89 => ⟨S256, .f32⟩
  | 90 => ⟨S256, .f32⟩
  | 91 => ⟨S256, .f32⟩
  | 92 => ⟨S1x256, .f32⟩
  | 93 => ⟨S100000x256, .f32⟩
  | 94 => ⟨S100000x256, .f32⟩
  | 95 => ⟨S1x256, .f32⟩
  | 96 => ⟨S100000x256, .f32⟩
  | 97 => ⟨S100000x256, .f32⟩
  | 98 => ⟨S1x256, .f32⟩
  | 99 => ⟨S100000x256, .f32⟩
  | 100 => ⟨S100000x256, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x256, .f32⟩
  | 110 => ⟨S_, .f32⟩
  | 111 => ⟨S100000x256, .f32⟩
  | 112 => ⟨S400000x1, .i32⟩
  | 113 => ⟨S100000x256, .f32⟩
  | 114 => ⟨S100000x256, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x373, .f32⟩

abbrev hbmTy0_1 (i : Nat) : BufTy := match i % 128 with
  | 0 => ⟨S100000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000x128, .f32⟩
  | 54 => ⟨S_, .f32⟩
  | 55 => ⟨S100000x128, .f32⟩
  | 56 => ⟨S400000x1, .i32⟩
  | 57 => ⟨S100000x128, .f32⟩
  | 58 => ⟨S100000x128, .f32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .f32⟩
  | 74 => ⟨S64, .f32⟩
  | 75 => ⟨S_, .f32⟩
  | 76 => ⟨S64, .f32⟩
  | 77 => ⟨S64, .f32⟩
  | 78 => ⟨S_, .i32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S100000x64, .f32⟩
  | 86 => ⟨S100000x64, .f32⟩
  | 87 => ⟨S100000x64, .f32⟩
  | 88 => ⟨S_, .f32⟩
  | 89 => ⟨S_, .f32⟩
  | 90 => ⟨S_, .f32⟩
  | 91 => ⟨S_, .f32⟩
  | 92 => ⟨S64, .f32⟩
  | 93 => ⟨S64, .f32⟩
  | 94 => ⟨S64, .f32⟩
  | 95 => ⟨S_, .f32⟩
  | 96 => ⟨S_, .i1⟩
  | 97 => ⟨S_, .f32⟩
  | 98 => ⟨S_, .f32⟩
  | 99 => ⟨S64, .f32⟩
  | 100 => ⟨S64, .f32⟩
  | 101 => ⟨S1x64, .f32⟩
  | 102 => ⟨S100000x64, .f32⟩
  | 103 => ⟨S100000x64, .f32⟩
  | 104 => ⟨S_, .f32⟩
  | 105 => ⟨S64, .f32⟩
  | 106 => ⟨S64, .f32⟩
  | 107 => ⟨S64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S4096x64, .f32⟩
  | 119 => ⟨S100000x1, .i32⟩
  | 120 => ⟨S4096x64, .f32⟩
  | 121 => ⟨S4096x16, .f32⟩
  | 122 => ⟨S1x16, .f32⟩
  | 123 => ⟨S4096x16, .f32⟩
  | 124 => ⟨S4096x16, .f32⟩
  | 125 => ⟨S_, .f32⟩
  | 126 => ⟨S4096x16, .f32⟩
  | 127 => ⟨S4096x16, .f32⟩
  | _ => ⟨S100000x373, .f32⟩

abbrev hbmTy0_2 (i : Nat) : BufTy := match i % 128 with
  | 0 => ⟨S4096x1, .f32⟩
  | 1 => ⟨S1x1, .f32⟩
  | 2 => ⟨S4096x1, .f32⟩
  | 3 => ⟨S4096x1, .f32⟩
  | 4 => ⟨S_, .f32⟩
  | 5 => ⟨S4096x1, .f32⟩
  | 6 => ⟨S4096x1, .f32⟩
  | 7 => ⟨S4096, .f32⟩
  | _ => ⟨S100000x373, .f32⟩

abbrev hbmTy (i : Nat) : BufTy := match i / 128 with
  | 0 => hbmTy0_0 i
  | 1 => hbmTy0_1 i
  | 2 => hbmTy0_2 i
  | _ => ⟨S100000x373, .f32⟩

abbrev bufTy : (tb : Table) → Fin (tcTables nBuf tb) → BufTy
  | .hbm, ⟨i, _⟩ => hbmTy i
  | _, _ => ⟨S100000x373, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call0_cst : Ref sig .tc := ⟨.hbm, 47, rfl⟩
abbrev main_call0_v0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_cst : Ref sig .tc := ⟨.hbm, 54, rfl⟩
abbrev main_call1_v0 : Ref sig .tc := ⟨.hbm, 55, rfl⟩
abbrev main_v24 : Ref sig .tc := ⟨.hbm, 56, rfl⟩
abbrev main_cst_1 : Ref sig .tc := ⟨.hbm, 57, rfl⟩
abbrev main_v25 : Ref sig .tc := ⟨.hbm, 58, rfl⟩
abbrev main_cst_2 : Ref sig .tc := ⟨.hbm, 59, rfl⟩
abbrev main_v26 : Ref sig .tc := ⟨.hbm, 60, rfl⟩
abbrev main_v27 : Ref sig .tc := ⟨.hbm, 61, rfl⟩
abbrev main_c_3 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_cst_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_cst_1 : Ref sig .tc := ⟨.hbm, 73, rfl⟩
abbrev main_call2_v8 : Ref sig .tc := ⟨.hbm, 74, rfl⟩
abbrev main_call2_cst_2 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_cst_3 : Ref sig .tc := ⟨.hbm, 79, rfl⟩
abbrev main_call2_v12 : Ref sig .tc := ⟨.hbm, 80, rfl⟩
abbrev main_call2_cst_4 : Ref sig .tc := ⟨.hbm, 81, rfl⟩
abbrev main_call2_call0_v0 : Ref sig .tc := ⟨.hbm, 82, rfl⟩
abbrev main_call2_call0_v1 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_4 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_c_5 : Ref sig .tc := ⟨.hbm, 101, rfl⟩
abbrev main_v44 : Ref sig .tc := ⟨.hbm, 102, rfl⟩
abbrev main_v45 : Ref sig .tc := ⟨.hbm, 103, rfl⟩
abbrev main_c_6 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_cst_7 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_call3_cst : Ref sig .tc := ⟨.hbm, 119, rfl⟩
abbrev main_call3_v0 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_call4_cst : Ref sig .tc := ⟨.hbm, 126, rfl⟩
abbrev main_call4_v0 : Ref sig .tc := ⟨.hbm, 127, rfl⟩
abbrev main_v64 : Ref sig .tc := ⟨.hbm, 128, rfl⟩
abbrev main_cst_8 : Ref sig .tc := ⟨.hbm, 129, rfl⟩
abbrev main_v65 : Ref sig .tc := ⟨.hbm, 130, rfl⟩
abbrev main_cst_9 : Ref sig .tc := ⟨.hbm, 131, rfl⟩
abbrev main_v66 : Ref sig .tc := ⟨.hbm, 132, rfl⟩
abbrev main_v67 : Ref sig .tc := ⟨.hbm, 133, rfl⟩
abbrev main_c_10 : Ref sig .tc := ⟨.hbm, 134, rfl⟩
abbrev main_call5_cst : Ref sig .tc := ⟨.hbm, 135, rfl⟩
abbrev main_call5_v0 : Ref sig .tc := ⟨.hbm, 136, rfl⟩
abbrev main_call5_v1 : Ref sig .tc := ⟨.hbm, 137, rfl⟩
abbrev main_call5_cst_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_v6 : Ref sig .tc := ⟨.hbm, 143, rfl⟩
abbrev main_call5_v7 : Ref sig .tc := ⟨.hbm, 144, rfl⟩
abbrev main_call5_cst_1 : Ref sig .tc := ⟨.hbm, 145, rfl⟩
abbrev main_call5_v8 : Ref sig .tc := ⟨.hbm, 146, rfl⟩
abbrev main_call5_cst_2 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_cst_3 : Ref sig .tc := ⟨.hbm, 151, rfl⟩
abbrev main_call5_v12 : Ref sig .tc := ⟨.hbm, 152, rfl⟩
abbrev main_call5_cst_4 : Ref sig .tc := ⟨.hbm, 153, rfl⟩
abbrev main_call5_call0_v0 : Ref sig .tc := ⟨.hbm, 154, rfl⟩
abbrev main_call5_call0_v1 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_cst_11 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_c_12 : Ref sig .tc := ⟨.hbm, 173, rfl⟩
abbrev main_v84 : Ref sig .tc := ⟨.hbm, 174, rfl⟩
abbrev main_v85 : Ref sig .tc := ⟨.hbm, 175, rfl⟩
abbrev main_c_13 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_cst_14 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_call6_cst : Ref sig .tc := ⟨.hbm, 191, rfl⟩
abbrev main_call6_v0 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_v102 : Ref sig .tc := ⟨.hbm, 196, rfl⟩
abbrev main_v103 : Ref sig .tc := ⟨.hbm, 197, rfl⟩
abbrev main_call7_cst : Ref sig .tc := ⟨.hbm, 198, rfl⟩
abbrev main_call7_v0 : Ref sig .tc := ⟨.hbm, 199, rfl⟩
abbrev main_v104 : Ref sig .tc := ⟨.hbm, 200, rfl⟩
abbrev main_cst_15 : Ref sig .tc := ⟨.hbm, 201, rfl⟩
abbrev main_v105 : Ref sig .tc := ⟨.hbm, 202, rfl⟩
abbrev main_cst_16 : Ref sig .tc := ⟨.hbm, 203, rfl⟩
abbrev main_v106 : Ref sig .tc := ⟨.hbm, 204, rfl⟩
abbrev main_v107 : Ref sig .tc := ⟨.hbm, 205, rfl⟩
abbrev main_c_17 : Ref sig .tc := ⟨.hbm, 206, rfl⟩
abbrev main_call8_cst : Ref sig .tc := ⟨.hbm, 207, rfl⟩
abbrev main_call8_v0 : Ref sig .tc := ⟨.hbm, 208, rfl⟩
abbrev main_call8_v1 : Ref sig .tc := ⟨.hbm, 209, rfl⟩
abbrev main_call8_cst_0 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_call8_v5 : Ref sig .tc := ⟨.hbm, 214, rfl⟩
abbrev main_call8_v6 : Ref sig .tc := ⟨.hbm, 215, rfl⟩
abbrev main_call8_v7 : Ref sig .tc := ⟨.hbm, 216, rfl⟩
abbrev main_call8_cst_1 : Ref sig .tc := ⟨.hbm, 217, rfl⟩
abbrev main_call8_v8 : Ref sig .tc := ⟨.hbm, 218, rfl⟩
abbrev main_call8_cst_2 : Ref sig .tc := ⟨.hbm, 219, rfl⟩
abbrev main_call8_v9 : Ref sig .tc := ⟨.hbm, 220, rfl⟩
abbrev main_call8_v10 : Ref sig .tc := ⟨.hbm, 221, rfl⟩
abbrev main_call8_v11 : Ref sig .tc := ⟨.hbm, 222, rfl⟩
abbrev main_call8_cst_3 : Ref sig .tc := ⟨.hbm, 223, rfl⟩
abbrev main_call8_v12 : Ref sig .tc := ⟨.hbm, 224, rfl⟩
abbrev main_call8_cst_4 : Ref sig .tc := ⟨.hbm, 225, rfl⟩
abbrev main_call8_call0_v0 : Ref sig .tc := ⟨.hbm, 226, rfl⟩
abbrev main_call8_call0_v1 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_cst_18 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_v121 : Ref sig .tc := ⟨.hbm, 242, rfl⟩
abbrev main_v122 : Ref sig .tc := ⟨.hbm, 243, rfl⟩
abbrev main_v123 : Ref sig .tc := ⟨.hbm, 244, rfl⟩
abbrev main_cst_19 : Ref sig .tc := ⟨.hbm, 245, rfl⟩
abbrev main_v124 : Ref sig .tc := ⟨.hbm, 246, rfl⟩
abbrev main_v125 : Ref sig .tc := ⟨.hbm, 247, rfl⟩
abbrev main_v126 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_call9_cst : Ref sig .tc := ⟨.hbm, 253, rfl⟩
abbrev main_call9_v0 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_call10_cst : Ref sig .tc := ⟨.hbm, 260, rfl⟩
abbrev main_call10_v0 : Ref sig .tc := ⟨.hbm, 261, rfl⟩
abbrev main_v136 : Ref sig .tc := ⟨.hbm, 262, rfl⟩
abbrev main_v137 : Ref sig .tc := ⟨.hbm, 263, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x373 : S_.BroadcastsInDim S100000x373 (![] : Fin 0 → Fin S100000x373.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  bcast_S_S4096x64 : S_.BroadcastsInDim S4096x64 (![] : Fin 0 → Fin S4096x64.rank)
  bcast_S100000_S100000x1_0 : S100000.BroadcastsInDim S100000x1 (![0] : Fin 1 → Fin S100000x1.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  shapeCasts_S4096x1_S4096 : S4096x1.ShapeCasts S4096
  gather_S100000x373_S400000x1_S400000x373_1_0_n_n_0_1_1373_wf : GatherDims.WF S100000x373 S400000x1 S400000x373 [1] [0] [] [0] [] 1 ![1, 373]
  scatter_S100000x373_S400000x1_S400000x373_1_0_0_1_wf : ScatterDims.WF S100000x373 S400000x1 S400000x373 [1] [0] [0] 1
  dot_S100000x373_S373x256_S100000x256_1_0_0_1_n_n_wf : DotDims.WF S100000x373 S373x256 S100000x256 [1] [0] [0] [1] [] []
  dot_S100000x256_S256x256_S100000x256_1_0_0_1_n_n_wf : DotDims.WF S100000x256 S256x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S4096x64_S100000x1_S100000x64_1_0_0_1_wf : ScatterDims.WF S4096x64 S100000x1 S100000x64 [1] [0] [0] 1
  dot_S4096x64_S64x16_S4096x16_1_0_0_1_n_n_wf : DotDims.WF S4096x64 S64x16 S4096x16 [1] [0] [0] [1] [] []
  dot_S4096x16_S16x1_S4096x1_1_0_0_1_n_n_wf : DotDims.WF S4096x16 S16x1 S4096x1 [1] [0] [0] [1] [] []

variable [Facts₀]

def gather_S100000x373_S400000x1_S400000x373_1_0_n_n_0_1_1373 : GatherDims S100000x373 S400000x1 S400000x373 where
  offsetDims := [1]
  collapsedSliceDims := [0]
  operandBatchingDims := []
  startIndicesBatchingDims := []
  startIndexMap := [0]
  indexVectorDim := 1
  sliceSizes := ![1, 373]
  wf := gather_S100000x373_S400000x1_S400000x373_1_0_n_n_0_1_1373_wf
def scatter_S100000x373_S400000x1_S400000x373_1_0_0_1 : ScatterDims S100000x373 S400000x1 S400000x373 where
  updateWindowDims := [1]
  insertedWindowDims := [0]
  scatterDimsToOperandDims := [0]
  indexVectorDim := 1
  wf := scatter_S100000x373_S400000x1_S400000x373_1_0_0_1_wf
def dot_S100000x373_S373x256_S100000x256_1_0_0_1_n_n : DotDims S100000x373 S373x256 S100000x256 where
  lhsContracting := [1]
  rhsContracting := [0]
  lhsNonContracting := [0]
  rhsNonContracting := [1]
  lhsBatch := []
  rhsBatch := []
  wf := dot_S100000x373_S373x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S4096x64_S100000x1_S100000x64_1_0_0_1 : ScatterDims S4096x64 S100000x1 S100000x64 where
  updateWindowDims := [1]
  insertedWindowDims := [0]
  scatterDimsToOperandDims := [0]
  indexVectorDim := 1
  wf := scatter_S4096x64_S100000x1_S100000x64_1_0_0_1_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

class Facts : Prop extends Facts₀ where

variable [Facts]
-- ==== Proof.KRun.lean ====
/-
  The idealized kernel program's run with its RESULT named. The program is ten kernel regions among stretches of host
  operations; its buffer contents at every boundary are a fold from the launch memory (a stretch applies its operations, a
  region replaces its arrays by what its write-backs leave). Every weakly fair execution terminates, nothing faults, the
  argument arrays end as launched, and the result buffer ends at the last boundary's contents `W18`.
-/
import proofs.«101558_j53498112639139_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the segments, the last thread state read against the final state; the result buffer is one of
    the unscoped buffers, so it ends at the last boundary's contents. -/
theorem run : θ_run defs (onTc (τ := τ) (main (F := F))) ⟨m, fun _ => 0, ρ⟩ (fun r => ∀ c : Dev nD,
      r.2.mem ((c.tc : Thread nD τ).loc main_v97) = W18 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v97 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c),
       (h c _ (mem_uc main_arg23 (by decide))).trans (W18_main_arg23 m ρ c),
       (h c _ (mem_uc main_arg24 (by decide))).trans (W18_main_arg24 m ρ c)⟩)

end Cert.KernelIdeal.KRun

end
-- ==== Proof.RefDefs.lean ====
/-
  The reference network as whole-array functions, one per stage, each the composition of exactly the host
  operations the reference program runs for that stage, in the program's own order and with the program's own
  shape evidence: the neighbour aggregation (a gather along the edge list's first row, added into the rows the
  second row names), the two-matrix perceptron with rectified outputs, the column mean and the variance about it,
  the normalisation `(h - mean) * rsqrt (var + eps) * gamma + beta`, the pooling of rows into graphs, and the
  read-out perceptron. They hold for any float values; the run of the program is proved equal to their
  composition elsewhere, and their entries are read off index by index at the extended reals.
-/
import proofs.«101558_j53498112639139_1_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The edge list -/

/-- Row 0 of the edge list as a vector: the node each edge reads from. -/
def refSrc (ei : (⟨S2x400000, .i32⟩ : BufTy).Contents (Elt F)) : (⟨S400000, .i32⟩ : BufTy).Contents (Elt F) :=
  fun i => shapeCast S400000 (extractStridedSlice S1x400000 ![0, 0] ei slices_S2x400000_S1x400000_0_0) shapeCasts_S1x400000_S400000 i

/-- Row 1 of the edge list as a vector: the node each edge adds into. -/
def refDst (ei : (⟨S2x400000, .i32⟩ : BufTy).Contents (Elt F)) : (⟨S400000, .i32⟩ : BufTy).Contents (Elt F) :=
  fun i => shapeCast S400000 (extractStridedSlice S1x400000 ![1, 0] ei slices_S2x400000_S1x400000_1_0) shapeCasts_S1x400000_S400000 i

/-- The gather's index column: a negative entry counts from the end (`100000` is added to it), any other is kept. -/
def refIdx (src : (⟨S400000, .i32⟩ : BufTy).Contents (Elt F)) : (⟨S400000x1, .i32⟩ : BufTy).Contents (Elt F) :=
  broadcastInDim S400000x1 ![0] bcast_S400000_S400000x1_0
    (select (cmpi .slt src (broadcastInDim S400000 ![] bcast_S_S400000 (constantI S_ 32 0#32)))
      (addi src (broadcastInDim S400000 ![] bcast_S_S400000 (constantI S_ 32 100000#32))) src)

/-- The neighbour sum at width 373: row `src e` of `x` for every edge `e`, added into row `dst e` of a zero array. -/
def refAgg373 (x : (⟨S100000x373, .f32⟩ : BufTy).Contents (Elt F)) (src dst : (⟨S400000, .i32⟩ : BufTy).Contents (Elt F)) : (⟨S100000x373, .f32⟩ : BufTy).Contents (Elt F) :=
  Host.scatterAdd scatter_S100000x373_S400000x1_S400000x373_1_0_0_1
    (broadcastInDim S100000x373 ![] bcast_S_S100000x373 (constant S_ .f32 0x00000000#32))
    (broadcastInDim S400000x1 ![0] bcast_S400000_S400000x1_0 dst)
    (Host.gather gather_S100000x373_S400000x1_S400000x373_1_0_n_n_0_1_1373 x (refIdx src))

/-- The neighbour sum at width 256: row `src e` of `x` for every edge `e`, added into row `dst e` of a zero array. -/
def refAgg256 (x : (⟨S100000x256, .f32⟩ : BufTy).Contents (Elt F)) (src dst : (⟨S400000, .i32⟩ : BufTy).Contents (Elt F)) : (⟨S100000x256, .f32⟩ : BufTy).Contents (Elt F) :=
  Host.scatterAdd scatter_S100000x256_S400000x1_S400000x256_1_0_0_1
    (broadcastInDim S100000x256 ![] bcast_S_S100000x256 (constant S_ .f32 0x00000000#32))
    (broadcastInDim S400000x1 ![0] bcast_S400000_S400000x1_0 dst)
    (Host.gather gather_S100000x256_S400000x1_S400000x256_1_0_n_n_0_1_1256 x (refIdx src))

/-- The neighbour sum at width 128: row `src e` of `x` for every edge `e`, added into row `dst e` of a zero array. -/
def refAgg128 (x : (⟨S100000x128, .f32⟩ : BufTy).Contents (Elt F)) (src dst : (⟨S400000, .i32⟩ : BufTy).Contents (Elt F)) : (⟨S100000x128, .f32⟩ : BufTy).Contents (Elt F) :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 dst)
    (Host.gather gather_S100000x128_S400000x1_S400000x128_1_0_n_n_0_1_1128 x (refIdx src))

/-! ## The perceptron, the statistics and the normalisation, per width -/

/-- `max z 0` entrywise, 256 columns. -/
def refRelu256 (z : (⟨S100000x256, .f32⟩ : BufTy).Contents (Elt F)) : (⟨S100000x256, .f32⟩ : BufTy).Contents (Elt F) :=
  maximumf z (broadcastInDim S100000x256 ![] bcast_S_S100000x256 (constant S_ .f32 0x00000000#32))

/-- A vector of 256 entries as every row of a 100000-row array. -/
def refRows256 (v : (⟨S256, .f32⟩ : BufTy).Contents (Elt F)) : (⟨S100000x256, .f32⟩ : BufTy).Contents (Elt F) :=
  broadcastInDim S100000x256 ![0, 1] bcast_S1x256_S100000x256_0_1 (broadcastInDim S1x256 ![1] bcast_S256_S1x256_1 v)

/-- The column means: the column sums divided by `100000`. -/
def refMean256 (h : (⟨S100000x256, .f32⟩ : BufTy).Contents (Elt F)) : (⟨S256, .f32⟩ : BufTy).Contents (Elt F) :=
  Host.divf (Host.reduceAdd h (constant S_ .f32 0x00000000#32) reducesTo_S100000x256_S256_d0 h_S_)
    (broadcastInDim S256 ![] bcast_S_S256 (constant S_ .f32 0x47C35000#32))

/-- The row count less the degrees of freedom given up (none: the integer `0` converted), as the variance's divisor. -/
def refCount : (⟨S_, .f32⟩ : BufTy).Contents (Elt F) :=
  subf (constant S_ .f32 0x47C35000#32) (sitofp .f32 (constantI S_ 32 0#32 : (⟨S_, .i32⟩ : BufTy).Contents (Elt F)))

/-- The column variances as the reference computes them: the mean is taken within (sums over `100000`, kept as one row and
    spread over all rows), the squared deviations are summed and divided by the count, and the quotient is kept where the
    count is positive (a not-a-number otherwise). -/
def refVar256 (h : (⟨S100000x256, .f32⟩ : BufTy).Contents (Elt F)) : (⟨S256, .f32⟩ : BufTy).Contents (Elt F) :=
  select (broadcastInDim S256 ![] bcast_S_S256 (cmpf .ogt (refCount (F := F)) (constant S_ .f32 0x00000000#32)))
    (Host.divf
      (Host.reduceAdd
        (mulf
          (subf h (broadcastInDim S100000x256 ![0, 1] bcast_S1x256_S100000x256_0_1
            (Host.divf (broadcastInDim S1x256 ![1] bcast_S256_S1x256_1 (Host.reduceAdd h (constant S_ .f32 0x00000000#32) reducesTo_S100000x256_S256_d0 h_S_))
              (broadcastInDim S1x256 ![] bcast_S_S1x256 (constant S_ .f32 0x47C35000#32)))))
          (subf h (broadcastInDim S100000x256 ![0, 1] bcast_S1x256_S100000x256_0_1
            (Host.divf (broadcastInDim S1x256 ![1] bcast_S256_S1x256_1 (Host.reduceAdd h (constant S_ .f32 0x00000000#32) reducesTo_S100000x256_S256_d0 h_S_))
              (broadcastInDim S1x256 ![] bcast_S_S1x256 (constant S_ .f32 0x47C35000#32))))))
        (constant S_ .f32 0x00000000#32) reducesTo_S100000x256_S256_d0 h_S_)
      (broadcastInDim S256 ![] bcast_S_S256 (refCount (F := F))))
    (broadcastInDim S256 ![] bcast_S_S256 (id (constant S_ .f32 0x7FC00000#32)))

/-- The normalisation: `(h - mean) * rsqrt (var + eps) * gamma + beta`, each vector spread over the rows (`eps` is the
    single-precision `1e-5`). -/
def refBn256 (h : (⟨S100000x256, .f32⟩ : BufTy).Contents (Elt F)) (γ β : (⟨S256, .f32⟩ : BufTy).Contents (Elt F)) : (⟨S100000x256, .f32⟩ : BufTy).Contents (Elt F) :=
  addf
    (mulf
      (mulf (subf h (refRows256 (refMean256 h)))
        (refRows256 (Host.rsqrt (addf (refVar256 h) (broadcastInDim S256 ![] bcast_S_S256 (constant S_ .f32 0x3727C5AC#32))))))
      (refRows256 γ))
    (refRows256 β)

/-- `max z 0` entrywise, 128 columns. -/
def refRelu128 (z : (⟨S100000x128, .f32⟩ : BufTy).Contents (Elt F)) : (⟨S100000x128, .f32⟩ : BufTy).Contents (Elt F) :=
  maximumf z (broadcastInDim S100000x128 ![] bcast_S_S100000x128 (constant S_ .f32 0x00000000#32))

/-- A vector of 128 entries as every row of a 100000-row array. -/
def refRows128 (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- The column means: the column sums divided by `100000`. -/
def refMean128 (h : (⟨S100000x128, .f32⟩ : BufTy).Contents (Elt F)) : (⟨S128, .f32⟩ : BufTy).Contents (Elt F) :=
  Host.divf (Host.reduceAdd h (constant S_ .f32 0x00000000#32) reducesTo_S100000x128_S128_d0 h_S_)
    (broadcastInDim S128 ![] bcast_S_S128 (constant S_ .f32 0x47C35000#32))

/-- The column variances as the reference computes them: the mean is taken within (sums over `100000`, kept as one row and
    spread over all rows), the squared deviations are summed and divided by the count, and the quotient is kept where the
    count is positive (a not-a-number otherwise). -/
def refVar128 (h : (⟨S100000x128, .f32⟩ : BufTy).Contents (Elt F)) : (⟨S128, .f32⟩ : BufTy).Contents (Elt F) :=
  select (broadcastInDim S128 ![] bcast_S_S128 (cmpf .ogt (refCount (F := F)) (constant S_ .f32 0x00000000#32)))
    (Host.divf
      (Host.reduceAdd
        (mulf
          (subf h (broadcastInDim S100000x128 ![0, 1] bcast_S1x128_S100000x128_0_1
            (Host.divf (broadcastInDim S1x128 ![1] bcast_S128_S1x128_1 (Host.reduceAdd h (constant S_ .f32 0x00000000#32) reducesTo_S100000x128_S128_d0 h_S_))
              (broadcastInDim S1x128 ![] bcast_S_S1x128 (constant S_ .f32 0x47C35000#32)))))
          (subf h (broadcastInDim S100000x128 ![0, 1] bcast_S1x128_S100000x128_0_1
            (Host.divf (broadcastInDim S1x128 ![1] bcast_S128_S1x128_1 (Host.reduceAdd h (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128 (refCount (F := F))))
    (broadcastInDim S128 ![] bcast_S_S128 (id (constant S_ .f32 0x7FC00000#32)))

/-- The normalisation: `(h - mean) * rsqrt (var + eps) * gamma + beta`, each vector spread over the rows (`eps` is the
    single-precision `1e-5`). -/
def refBn128 (h : (⟨S100000x128, .f32⟩ : BufTy).Contents (Elt F)) (γ β : (⟨S128, .f32⟩ : BufTy).Contents (Elt F)) : (⟨S100000x128, .f32⟩ : BufTy).Contents (Elt F) :=
  addf
    (mulf
      (mulf (subf h (refRows128 (refMean128 h)))
        (refRows128 (Host.rsqrt (addf (refVar128 h) (broadcastInDim S128 ![] bcast_S_S128 (constant S_ .f32 0x3727C5AC#32))))))
      (refRows128 γ))
    (refRows128 β)

/-- `max z 0` entrywise, 64 columns. -/
def refRelu64 (z : (⟨S100000x64, .f32⟩ : BufTy).Contents (Elt F)) : (⟨S100000x64, .f32⟩ : BufTy).Contents (Elt F) :=
  maximumf z (broadcastInDim S100000x64 ![] bcast_S_S100000x64 (constant S_ .f32 0x00000000#32))

/-- A vector of 64 entries as every row of a 100000-row array. -/
def refRows64 (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)

/-- The column means: the column sums divided by `100000`. -/
def refMean64 (h : (⟨S100000x64, .f32⟩ : BufTy).Contents (Elt F)) : (⟨S64, .f32⟩ : BufTy).Contents (Elt F) :=
  Host.divf (Host.reduceAdd h (constant S_ .f32 0x00000000#32) reducesTo_S100000x64_S64_d0 h_S_)
    (broadcastInDim S64 ![] bcast_S_S64 (constant S_ .f32 0x47C35000#32))

/-- The column variances as the reference computes them: the mean is taken within (sums over `100000`, kept as one row and
    spread over all rows), the squared deviations are summed and divided by the count, and the quotient is kept where the
    count is positive (a not-a-number otherwise). -/
def refVar64 (h : (⟨S100000x64, .f32⟩ : BufTy).Contents (Elt F)) : (⟨S64, .f32⟩ : BufTy).Contents (Elt F) :=
  select (broadcastInDim S64 ![] bcast_S_S64 (cmpf .ogt (refCount (F := F)) (constant S_ .f32 0x00000000#32)))
    (Host.divf
      (Host.reduceAdd
        (mulf
          (subf h (broadcastInDim S100000x64 ![0, 1] bcast_S1x64_S100000x64_0_1
            (Host.divf (broadcastInDim S1x64 ![1] bcast_S64_S1x64_1 (Host.reduceAdd h (constant S_ .f32 0x00000000#32) reducesTo_S100000x64_S64_d0 h_S_))
              (broadcastInDim S1x64 ![] bcast_S_S1x64 (constant S_ .f32 0x47C35000#32)))))
          (subf h (broadcastInDim S100000x64 ![0, 1] bcast_S1x64_S100000x64_0_1
            (Host.divf (broadcastInDim S1x64 ![1] bcast_S64_S1x64_1 (Host.reduceAdd h (constant S_ .f32 0x00000000#32) reducesTo_S100000x64_S64_d0 h_S_))
              (broadcastInDim S1x64 ![] bcast_S_S1x64 (constant S_ .f32 0x47C35000#32))))))
        (constant S_ .f32 0x00000000#32) reducesTo_S100000x64_S64_d0 h_S_)
      (broadcastInDim S64 ![] bcast_S_S64 (refCount (F := F))))
    (broadcastInDim S64 ![] bcast_S_S64 (id (constant S_ .f32 0x7FC00000#32)))

/-- The normalisation: `(h - mean) * rsqrt (var + eps) * gamma + beta`, each vector spread over the rows (`eps` is the
    single-precision `1e-5`). -/
def refBn64 (h : (⟨S100000x64, .f32⟩ : BufTy).Contents (Elt F)) (γ β : (⟨S64, .f32⟩ : BufTy).Contents (Elt F)) : (⟨S100000x64, .f32⟩ : BufTy).Contents (Elt F) :=
  addf
    (mulf
      (mulf (subf h (refRows64 (refMean64 h)))
        (refRows64 (Host.rsqrt (addf (refVar64 h) (broadcastInDim S64 ![] bcast_S_S64 (constant S_ .f32 0x3727C5AC#32))))))
      (refRows64 γ))
    (refRows64 β)

/-! ## The layers -/

/-- Layer 1's perceptron: `relu (relu ((x + agg) · Wa + ba) · Wb + bb)`, 373 → 256 → 256. -/
def refMlp1 (x agg : (⟨S100000x373, .f32⟩ : BufTy).Contents (Elt F)) (Wa : (⟨S373x256, .f32⟩ : BufTy).Contents (Elt F)) (ba : (⟨S256, .f32⟩ : BufTy).Contents (Elt F))
    (Wb : (⟨S256x256, .f32⟩ : BufTy).Contents (Elt F)) (bb : (⟨S256, .f32⟩ : BufTy).Contents (Elt F)) : (⟨S100000x256, .f32⟩ : BufTy).Contents (Elt F) :=
  refRelu256
    (addf
      (Host.dotGeneral dot_S100000x256_S256x256_S100000x256_1_0_0_1_n_n none
        (refRelu256 (addf (Host.dotGeneral dot_S100000x373_S373x256_S100000x256_1_0_0_1_n_n none (addf x agg) Wa) (refRows256 ba)))
        Wb)
      (refRows256 bb))

/-- Layer 1: the perceptron of the features and their neighbour sum, normalised. -/
def refLayer1 (x : (⟨S100000x373, .f32⟩ : BufTy).Contents (Elt F)) (src dst : (⟨S400000, .i32⟩ : BufTy).Contents (Elt F)) (Wa : (⟨S373x256, .f32⟩ : BufTy).Contents (Elt F)) (ba : (⟨S256, .f32⟩ : BufTy).Contents (Elt F))
    (Wb : (⟨S256x256, .f32⟩ : BufTy).Contents (Elt F)) (bb γ β : (⟨S256, .f32⟩ : BufTy).Contents (Elt F)) : (⟨S100000x256, .f32⟩ : BufTy).Contents (Elt F) :=
  refBn256 (refMlp1 x (refAgg373 x src dst) Wa ba Wb bb) γ β

/-- Layer 2's perceptron: `relu (relu ((x + agg) · Wa + ba) · Wb + bb)`, 256 → 128 → 128. -/
def refMlp2 (x agg : (⟨S100000x256, .f32⟩ : BufTy).Contents (Elt F)) (Wa : (⟨S256x128, .f32⟩ : BufTy).Contents (Elt F)) (ba : (⟨S128, .f32⟩ : BufTy).Contents (Elt F))
    (Wb : (⟨S128x128, .f32⟩ : BufTy).Contents (Elt F)) (bb : (⟨S128, .f32⟩ : BufTy).Contents (Elt F)) : (⟨S100000x128, .f32⟩ : BufTy).Contents (Elt F) :=
  refRelu128
    (addf
      (Host.dotGeneral dot_S100000x128_S128x128_S100000x128_1_0_0_1_n_n none
        (refRelu128 (addf (Host.dotGeneral dot_S100000x256_S256x128_S100000x128_1_0_0_1_n_n none (addf x agg) Wa) (refRows128 ba)))
        Wb)
      (refRows128 bb))

/-- Layer 2: the perceptron of the features and their neighbour sum, normalised. -/
def refLayer2 (x : (⟨S100000x256, .f32⟩ : BufTy).Contents (Elt F)) (src dst : (⟨S400000, .i32⟩ : BufTy).Contents (Elt F)) (Wa : (⟨S256x128, .f32⟩ : BufTy).Contents (Elt F)) (ba : (⟨S128, .f32⟩ : BufTy).Contents (Elt F))
    (Wb : (⟨S128x128, .f32⟩ : BufTy).Contents (Elt F)) (bb γ β : (⟨S128, .f32⟩ : BufTy).Contents (Elt F)) : (⟨S100000x128, .f32⟩ : BufTy).Contents (Elt F) :=
  refBn128 (refMlp2 x (refAgg256 x src dst) Wa ba Wb bb) γ β

/-- Layer 3's perceptron: `relu (relu ((x + agg) · Wa + ba) · Wb + bb)`, 128 → 64 → 64. -/
def refMlp3 (x agg : (⟨S100000x128, .f32⟩ : BufTy).Contents (Elt F)) (Wa : (⟨S128x64, .f32⟩ : BufTy).Contents (Elt F)) (ba : (⟨S64, .f32⟩ : BufTy).Contents (Elt F))
    (Wb : (⟨S64x64, .f32⟩ : BufTy).Contents (Elt F)) (bb : (⟨S64, .f32⟩ : BufTy).Contents (Elt F)) : (⟨S100000x64, .f32⟩ : BufTy).Contents (Elt F) :=
  refRelu64
    (addf
      (Host.dotGeneral dot_S100000x64_S64x64_S100000x64_1_0_0_1_n_n none
        (refRelu64 (addf (Host.dotGeneral dot_S100000x128_S128x64_S100000x64_1_0_0_1_n_n none (addf x agg) Wa) (refRows64 ba)))
        Wb)
      (refRows64 bb))

/-- Layer 3: the perceptron of the features and their neighbour sum, normalised. -/
def refLayer3 (x : (⟨S100000x128, .f32⟩ : BufTy).Contents (Elt F)) (src dst : (⟨S400000, .i32⟩ : BufTy).Contents (Elt F)) (Wa : (⟨S128x64, .f32⟩ : BufTy).Contents (Elt F)) (ba : (⟨S64, .f32⟩ : BufTy).Contents (Elt F))
    (Wb : (⟨S64x64, .f32⟩ : BufTy).Contents (Elt F)) (bb γ β : (⟨S64, .f32⟩ : BufTy).Contents (Elt F)) : (⟨S100000x64, .f32⟩ : BufTy).Contents (Elt F) :=
  refBn64 (refMlp3 x (refAgg128 x src dst) Wa ba Wb bb) γ β

/-! ## The read-out -/

/-- The pooling: row `i` of `h` added into row `batch i` of a zero array of 4096 rows. -/
def refPool (h : (⟨S100000x64, .f32⟩ : BufTy).Contents (Elt F)) (batch : (⟨S100000, .i32⟩ : BufTy).Contents (Elt F)) : (⟨S4096x64, .f32⟩ : BufTy).Contents (Elt F) :=
  Host.scatterAdd scatter_S4096x64_S100000x1_S100000x64_1_0_0_1
    (broadcastInDim S4096x64 ![] bcast_S_S4096x64 (constant S_ .f32 0x00000000#32))
    (broadcastInDim S100000x1 ![0] bcast_S100000_S100000x1_0 batch) h

/-- The read-out perceptron, 64 → 16 → 1, its single column as a vector: `relu (relu (p · Wa + ba) · Wb + bb)`. -/
def refHead (p : (⟨S4096x64, .f32⟩ : BufTy).Contents (Elt F)) (Wa : (⟨S64x16, .f32⟩ : BufTy).Contents (Elt F)) (ba : (⟨S16, .f32⟩ : BufTy).Contents (Elt F)) (Wb : (⟨S16x1, .f32⟩ : BufTy).Contents (Elt F)) (bb : (⟨S1, .f32⟩ : BufTy).Contents (Elt F)) : (⟨S4096, .f32⟩ : BufTy).Contents (Elt F) :=
  fun i => shapeCast S4096
    (maximumf
      (addf
        (Host.dotGeneral dot_S4096x16_S16x1_S4096x1_1_0_0_1_n_n none
          (maximumf
            (addf (Host.dotGeneral dot_S4096x64_S64x16_S4096x16_1_0_0_1_n_n none p Wa)
              (broadcastInDim S4096x16 ![0, 1] bcast_S1x16_S4096x16_0_1 (broadcastInDim S1x16 ![1] bcast_S16_S1x16_1 ba)))
            (broadcastInDim S4096x16 ![] bcast_S_S4096x16 (constant S_ .f32 0x00000000#32)))
          Wb)
        (broadcastInDim S4096x1 ![0, 1] bcast_S1x1_S4096x1_0_1 (broadcastInDim S1x1 ![1] bcast_S1_S1x1_1 bb)))
      (broadcastInDim S4096x1 ![] bcast_S_S4096x1 (constant S_ .f32 0x00000000#32)))
    shapeCasts_S4096x1_S4096 i

/-- The whole reference: three layers over the same edge list, pooled and read out. -/
def refNet (x : (⟨S100000x373, .f32⟩ : BufTy).Contents (Elt F)) (ei : (⟨S2x400000, .i32⟩ : BufTy).Contents (Elt F)) (batch : (⟨S100000, .i32⟩ : BufTy).Contents (Elt F))
    (W1a : (⟨S373x256, .f32⟩ : BufTy).Contents (Elt F)) (b1a : (⟨S256, .f32⟩ : BufTy).Contents (Elt F)) (W1b : (⟨S256x256, .f32⟩ : BufTy).Contents (Elt F)) (b1b g1 be1 : (⟨S256, .f32⟩ : BufTy).Contents (Elt F))
    (W2a : (⟨S256x128, .f32⟩ : BufTy).Contents (Elt F)) (b2a : (⟨S128, .f32⟩ : BufTy).Contents (Elt F)) (W2b : (⟨S128x128, .f32⟩ : BufTy).Contents (Elt F)) (b2b g2 be2 : (⟨S128, .f32⟩ : BufTy).Contents (Elt F))
    (W3a : (⟨S128x64, .f32⟩ : BufTy).Contents (Elt F)) (b3a : (⟨S64, .f32⟩ : BufTy).Contents (Elt F)) (W3b : (⟨S64x64, .f32⟩ : BufTy).Contents (Elt F)) (b3b g3 be3 : (⟨S64, .f32⟩ : BufTy).Contents (Elt F))
    (Wf1 : (⟨S64x16, .f32⟩ : BufTy).Contents (Elt F)) (bf1 : (⟨S16, .f32⟩ : BufTy).Contents (Elt F)) (Wf2 : (⟨S16x1, .f32⟩ : BufTy).Contents (Elt F)) (bf2 : (⟨S1, .f32⟩ : BufTy).Contents (Elt F)) : (⟨S4096, .f32⟩ : BufTy).Contents (Elt F) :=
  refHead
    (refPool
      (refLayer3
        (refLayer2 (refLayer1 x (refSrc ei) (refDst ei) W1a b1a W1b b1b g1 be1) (refSrc ei) (refDst ei) W2a b2a W2b b2b g2 be2)
        (refSrc ei) (refDst ei) W3a b3a W3b b3b g3 be3)
      batch)
    Wf1 bf1 Wf2 bf2

end Cert.ReferenceIdeal.RefRun

end
-- ==== Proof.RefRunOps.lean ====
/-
  The reference program's @main as a straight line of host operations, and its run.

  The operations are @main's own, in order, each called function's body standing at its call over that call's
  buffers (a call executes the callee's operations on the operands; the buffers are the call's record). The line is
  cut into stretches that end where a stage of the network ends — neighbour sum, perceptron, normalisation, three
  times, then pooling and read-out — and also where the program's own statement windows end, so that each window is a
  concatenation of whole stretches. Every weakly fair execution then terminates with each buffer at the fold of the
  operations over the launch contents; a buffer that no operation writes ends as launched.
-/
import proofs.«101558_j53498112639139_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- The edge list's two rows, the index column, and layer 1's neighbour sum. -/
abbrev sA1 : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 100000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S100000x373_S400000x1_S400000x373_1_0_n_n_0_1_1373 x i) : (⟨S100000x373, .f32⟩ : BufTy).Contents (Elt F) → (⟨S400000x1, .i32⟩ : BufTy).Contents (Elt F) → (⟨S400000x373, .f32⟩ : BufTy).Contents (Elt F)),
    StableHlo.nullary main_cst (constant S_ .f32 0x00000000#32),
    StableHlo.unary main_cst main_v11 (broadcastInDim S100000x373 ![] bcast_S_S100000x373 : (⟨S_, .f32⟩ : BufTy).Contents (Elt F) → (⟨S100000x373, .f32⟩ : BufTy).Contents (Elt F)),
    StableHlo.unary main_v3 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S100000x373_S400000x1_S400000x373_1_0_0_1 x i u) : (⟨S100000x373, .f32⟩ : BufTy).Contents (Elt F) → (⟨S400000x1, .i32⟩ : BufTy).Contents (Elt F) → (⟨S400000x373, .f32⟩ : BufTy).Contents (Elt F) → (⟨S100000x373, .f32⟩ : BufTy).Contents (Elt F)) ]

/-- Layer 1's perceptron (its two rectifications are calls). -/
abbrev sM1 : List (HloOp τ sig (Elt F)) :=
  [ StableHlo.binary main_arg0 main_v13 main_v14 (addf : (⟨S100000x373, .f32⟩ : BufTy).Contents (Elt F) → (⟨S100000x373, .f32⟩ : BufTy).Contents (Elt F) → (⟨S100000x373, .f32⟩ : BufTy).Contents (Elt F)),
    StableHlo.binary main_v14 main_arg3 main_v15 ((fun l r => Host.dotGeneral dot_S100000x373_S373x256_S100000x256_1_0_0_1_n_n none l r) : (⟨S100000x373, .f32⟩ : BufTy).Contents (Elt F) → (⟨S373x256, .f32⟩ : BufTy).Contents (Elt F) → (⟨S100000x256, .f32⟩ : BufTy).Contents (Elt F)),
    StableHlo.unary main_arg4 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S100000x256 ![0, 1] bcast_S1x256_S100000x256_0_1 : (⟨S1x256, .f32⟩ : BufTy).Contents (Elt F) → (⟨S100000x256, .f32⟩ : BufTy).Contents (Elt F)),
    StableHlo.binary main_v15 main_v17 main_v18 (addf : (⟨S100000x256, .f32⟩ : BufTy).Contents (Elt F) → (⟨S100000x256, .f32⟩ : BufTy).Contents (Elt F) → (⟨S100000x256, .f32⟩ : BufTy).Contents (Elt F)),
    StableHlo.TRef.nullary main_call0.cst (constant S_ .f32 0x00000000#32),
    StableHlo.TRef.unary main_call0.cst main_call0.v0 (broadcastInDim S100000x256 ![] bcast_S_S100000x256),
    StableHlo.TRef.binary (.of main_v18 : StableHlo.TRef sig ⟨S100000x256, .f32⟩) main_call0.v0 main_call0.v1 maximumf,
    StableHlo.binary main_v19 main_arg5 main_v20 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    StableHlo.unary main_arg6 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S100000x256 ![0, 1] bcast_S1x256_S100000x256_0_1 : (⟨S1x256, .f32⟩ : BufTy).Contents (Elt F) → (⟨S100000x256, .f32⟩ : BufTy).Contents (Elt F)),
    StableHlo.binary main_v20 main_v22 main_v23 (addf : (⟨S100000x256, .f32⟩ : BufTy).Contents (Elt F) → (⟨S100000x256, .f32⟩ : BufTy).Contents (Elt F) → (⟨S100000x256, .f32⟩ : BufTy).Contents (Elt F)),
    StableHlo.TRef.nullary main_call1.cst (constant S_ .f32 0x00000000#32),
    StableHlo.TRef.unary main_call1.cst main_call1.v0 (broadcastInDim S100000x256 ![] bcast_S_S100000x256),
    StableHlo.TRef.binary (.of main_v23 : StableHlo.TRef sig ⟨S100000x256, .f32⟩) main_call1.v0 main_call1.v1 maximumf ]

/-- Layer 1's normalisation: mean, variance (a call, with the selection it calls), scale and shift. -/
abbrev sB1 : List (HloOp τ sig (Elt F)) :=
  [ StableHlo.nullary main_cst_1 (constant S_ .f32 0x00000000#32),
    StableHlo.binary main_v24 main_cst_1 main_v25 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_2 (constant S_ .f32 0x47C35000#32),
    StableHlo.unary main_cst_2 main_v26 (broadcastInDim S256 ![] bcast_S_S256 : (⟨S_, .f32⟩ : BufTy).Contents (Elt F) → (⟨S256, .f32⟩ : BufTy).Contents (Elt F)),
    StableHlo.binary main_v25 main_v26 main_v27 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call2.cst (constant S_ .f32 0x00000000#32),
    StableHlo.TRef.binary (.of main_v24 : StableHlo.TRef sig ⟨S100000x256, .f32⟩) main_call2.cst main_call2.v0 (fun x v => Host.reduceAdd x v reducesTo_S100000x256_S256_d0 h_S_),
    StableHlo.TRef.unary main_call2.v0 main_call2.v1 (broadcastInDim S1x256 ![1] bcast_S256_S1x256_1),
    StableHlo.TRef.nullary main_call2.cst_0 (constant S_ .f32 0x47C35000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S100000x256 ![0, 1] bcast_S1x256_S100000x256_0_1),
    StableHlo.TRef.binary (.of main_v24 : StableHlo.TRef sig ⟨S100000x256, .f32⟩) main_call2.v4 main_call2.v5 subf,
    StableHlo.TRef.binary main_call2.v5 main_call2.v5 main_call2.v6 mulf,
    StableHlo.TRef.unary (.of main_c_3 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v27 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S100000x256 ![0, 1] bcast_S1x256_S100000x256_0_1 : (⟨S1x256, .f32⟩ : BufTy).Contents (Elt F) → (⟨S100000x256, .f32⟩ : BufTy).Contents (Elt F)),
    StableHlo.binary main_v24 main_v30 main_v31 (subf : (⟨S100000x256, .f32⟩ : BufTy).Contents (Elt F) → (⟨S100000x256, .f32⟩ : BufTy).Contents (Elt F) → (⟨S100000x256, .f32⟩ : BufTy).Contents (Elt F)),
    StableHlo.nullary main_cst_4 (constant S_ .f32 0x3727C5AC#32),
    StableHlo.unary main_cst_4 main_v32 (broadcastInDim S256 ![] bcast_S_S256 : (⟨S_, .f32⟩ : BufTy).Contents (Elt F) → (⟨S256, .f32⟩ : BufTy).Contents (Elt F)),
    StableHlo.binary main_v28 main_v32 main_v33 (addf : (⟨S256, .f32⟩ : BufTy).Contents (Elt F) → (⟨S256, .f32⟩ : BufTy).Contents (Elt F) → (⟨S256, .f32⟩ : BufTy).Contents (Elt F)),
    StableHlo.unary main_v33 main_v34 (Host.rsqrt : (⟨S256, .f32⟩ : BufTy).Contents (Elt F) → (⟨S256, .f32⟩ : BufTy).Contents (Elt F)),
    StableHlo.unary main_v34 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S100000x256 ![0, 1] bcast_S1x256_S100000x256_0_1 : (⟨S1x256, .f32⟩ : BufTy).Contents (Elt F) → (⟨S100000x256, .f32⟩ : BufTy).Contents (Elt F)),
    StableHlo.binary main_v31 main_v36 main_v37 (mulf : (⟨S100000x256, .f32⟩ : BufTy).Contents (Elt F) → (⟨S100000x256, .f32⟩ : BufTy).Contents (Elt F) → (⟨S100000x256, .f32⟩ : BufTy).Contents (Elt F)),
    StableHlo.unary main_arg7 main_v38 (broadcastInDim S1x256 ![1] bcast_S256_S1x256_1 : (⟨S256, .f32⟩ : BufTy).Contents (Elt F) → (⟨S1x256, .f32⟩ : BufTy).Contents (Elt F)),
    StableHlo.unary main_v38 main_v39 (broadcastInDim S100000x256 ![0, 1] bcast_S1x256_S100000x256_0_1 : (⟨S1x256, .f32⟩ : BufTy).Contents (Elt F) → (⟨S100000x256, .f32⟩ : BufTy).Contents (Elt F)),
    StableHlo.binary main_v37 main_v39 main_v40 (mulf : (⟨S100000x256, .f32⟩ : BufTy).Contents (Elt F) → (⟨S100000x256, .f32⟩ : BufTy).Contents (Elt F) → (⟨S100000x256, .f32⟩ : BufTy).Contents (Elt F)),
    StableHlo.unary main_arg8 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S100000x256 ![0, 1] bcast_S1x256_S100000x256_0_1 : (⟨S1x256, .f32⟩ : BufTy).Contents (Elt F) → (⟨S100000x256, .f32⟩ : BufTy).Contents (Elt F)),
    StableHlo.binary main_v40 main_v42 main_v43 (addf : (⟨S100000x256, .f32⟩ : BufTy).Contents (Elt F) → (⟨S100000x256, .f32⟩ : BufTy).Contents (Elt F) → (⟨S100000x256, .f32⟩ : BufTy).Contents (Elt F)) ]

/-- Layer 2's index column and gather (to the end of the program's first window). -/
abbrev sA2a : List (HloOp τ sig (Elt F)) :=
  [ StableHlo.nullary main_c_5 (constantI S_ 32 0#32),
    StableHlo.unary main_c_5 main_v44 (broadcastInDim S400000 ![] bcast_S_S400000 : (⟨S_, .i32⟩ : BufTy).Contents (Elt F) → (⟨S400000, .i32⟩ : BufTy).Contents (Elt F)),
    StableHlo.binary main_v1 main_v44 main_v45 (cmpi .slt : (⟨S400000, .i32⟩ : BufTy).Contents (Elt F) → (⟨S400000, .i32⟩ : BufTy).Contents (Elt F) → (⟨S400000, .i1⟩ : BufTy).Contents (Elt F)),
    StableHlo.nullary main_c_6 (constantI S_ 32 100000#32),
    StableHlo.unary main_c_6 main_v46 (broadcastInDim S400000 ![] bcast_S_S400000 : (⟨S_, .i32⟩ : BufTy).Contents (Elt F) → (⟨S400000, .i32⟩ : BufTy).Contents (Elt F)),
    StableHlo.binary main_v1 main_v46 main_v47 (addi : (⟨S400000, .i32⟩ : BufTy).Contents (Elt F) → (⟨S400000, .i32⟩ : BufTy).Contents (Elt F) → (⟨S400000, .i32⟩ : BufTy).Contents (Elt F)),
    StableHlo.ternary main_v45 main_v47 main_v1 main_v48 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v48 main_v49 (broadcastInDim S400000x1 ![0] bcast_S400000_S400000x1_0 : (⟨S400000, .i32⟩ : BufTy).Contents (Elt F) → (⟨S400000x1, .i32⟩ : BufTy).Contents (Elt F)),
    StableHlo.binary main_v43 main_v49 main_v50 ((fun x i => Host.gather gather_S100000x256_S400000x1_S400000x256_1_0_n_n_0_1_1256 x i) : (⟨S100000x256, .f32⟩ : BufTy).Contents (Elt F) → (⟨S400000x1, .i32⟩ : BufTy).Contents (Elt F) → (⟨S400000x256, .f32⟩ : BufTy).Contents (Elt F)) ]

/-- Layer 2's neighbour sum, from the gathered rows. -/
abbrev sA2b : List (HloOp τ sig (Elt F)) :=
  [ StableHlo.nullary main_cst_7 (constant S_ .f32 0x00000000#32),
    StableHlo.unary main_cst_7 main_v51 (broadcastInDim S100000x256 ![] bcast_S_S100000x256 : (⟨S_, .f32⟩ : BufTy).Contents (Elt F) → (⟨S100000x256, .f32⟩ : BufTy).Contents (Elt F)),
    StableHlo.unary main_v3 main_v52 (broadcastInDim S400000x1 ![0] bcast_S400000_S400000x1_0 : (⟨S400000, .i32⟩ : BufTy).Contents (Elt F) → (⟨S400000x1, .i32⟩ : BufTy).Contents (Elt F)),
    StableHlo.ternary main_v51 main_v52 main_v50 main_v53 ((fun x i u => Host.scatterAdd scatter_S100000x256_S400000x1_S400000x256_1_0_0_1 x i u) : (⟨S100000x256, .f32⟩ : BufTy).Contents (Elt F) → (⟨S400000x1, .i32⟩ : BufTy).Contents (Elt F) → (⟨S400000x256, .f32⟩ : BufTy).Contents (Elt F) → (⟨S100000x256, .f32⟩ : BufTy).Contents (Elt F)) ]

/-- Layer 2's perceptron. -/
abbrev sM2 : List (HloOp τ sig (Elt F)) :=
  [ StableHlo.binary main_v43 main_v53 main_v54 (addf : (⟨S100000x256, .f32⟩ : BufTy).Contents (Elt F) → (⟨S100000x256, .f32⟩ : BufTy).Contents (Elt F) → (⟨S100000x256, .f32⟩ : BufTy).Contents (Elt F)),
    StableHlo.binary main_v54 main_arg9 main_v55 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg10 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v55 main_v57 main_v58 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v58 : StableHlo.TRef sig ⟨S100000x128, .f32⟩) main_call3.v0 main_call3.v1 maximumf,
    StableHlo.binary main_v59 main_arg11 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v63 : StableHlo.TRef sig ⟨S100000x128, .f32⟩) main_call4.v0 main_call4.v1 maximumf ]

/-- Layer 2's normalisation. -/
abbrev sB2 : List (HloOp τ sig (Elt F)) :=
  [ StableHlo.nullary main_cst_8 (constant S_ .f32 0x00000000#32),
    StableHlo.binary main_v64 main_cst_8 main_v65 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v66 (broadcastInDim S128 ![] bcast_S_S128 : (⟨S_, .f32⟩ : BufTy).Contents (Elt F) → (⟨S128, .f32⟩ : BufTy).Contents (Elt F)),
    StableHlo.binary main_v65 main_v66 main_v67 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call5.cst (constant S_ .f32 0x00000000#32),
    StableHlo.TRef.binary (.of main_v64 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v64 : StableHlo.TRef sig ⟨S100000x128, .f32⟩) main_call5.v4 main_call5.v5 subf,
    StableHlo.TRef.binary main_call5.v5 main_call5.v5 main_call5.v6 mulf,
    StableHlo.TRef.unary (.of main_c_10 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v67 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v70 main_v71 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v72 (broadcastInDim S128 ![] bcast_S_S128 : (⟨S_, .f32⟩ : BufTy).Contents (Elt F) → (⟨S128, .f32⟩ : BufTy).Contents (Elt F)),
    StableHlo.binary main_v68 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_arg13 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (mulf : (⟨S100000x128, .f32⟩ : BufTy).Contents (Elt F) → (⟨S100000x128, .f32⟩ : BufTy).Contents (Elt F) → (⟨S100000x128, .f32⟩ : BufTy).Contents (Elt F)),
    StableHlo.unary main_arg14 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)) ]

/-- Layer 3's neighbour sum. -/
abbrev sA3 : List (HloOp τ sig (Elt F)) :=
  [ StableHlo.nullary main_c_12 (constantI S_ 32 0#32),
    StableHlo.unary main_c_12 main_v84 (broadcastInDim S400000 ![] bcast_S_S400000 : (⟨S_, .i32⟩ : BufTy).Contents (Elt F) → (⟨S400000, .i32⟩ : BufTy).Contents (Elt F)),
    StableHlo.binary main_v1 main_v84 main_v85 (cmpi .slt : (⟨S400000, .i32⟩ : BufTy).Contents (Elt F) → (⟨S400000, .i32⟩ : BufTy).Contents (Elt F) → (⟨S400000, .i1⟩ : BufTy).Contents (Elt F)),
    StableHlo.nullary main_c_13 (constantI S_ 32 100000#32),
    StableHlo.unary main_c_13 main_v86 (broadcastInDim S400000 ![] bcast_S_S400000 : (⟨S_, .i32⟩ : BufTy).Contents (Elt F) → (⟨S400000, .i32⟩ : BufTy).Contents (Elt F)),
    StableHlo.binary main_v1 main_v86 main_v87 (addi : (⟨S400000, .i32⟩ : BufTy).Contents (Elt F) → (⟨S400000, .i32⟩ : BufTy).Contents (Elt F) → (⟨S400000, .i32⟩ : BufTy).Contents (Elt F)),
    StableHlo.ternary main_v85 main_v87 main_v1 main_v88 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v88 main_v89 (broadcastInDim S400000x1 ![0] bcast_S400000_S400000x1_0 : (⟨S400000, .i32⟩ : BufTy).Contents (Elt F) → (⟨S400000x1, .i32⟩ : BufTy).Contents (Elt F)),
    StableHlo.binary main_v83 main_v89 main_v90 ((fun x i => Host.gather gather_S100000x128_S400000x1_S400000x128_1_0_n_n_0_1_1128 x i) : (⟨S100000x128, .f32⟩ : BufTy).Contents (Elt F) → (⟨S400000x1, .i32⟩ : BufTy).Contents (Elt F) → (⟨S400000x128, .f32⟩ : BufTy).Contents (Elt F)),
    StableHlo.nullary main_cst_14 (constant S_ .f32 0x00000000#32),
    StableHlo.unary main_cst_14 main_v91 (broadcastInDim S100000x128 ![] bcast_S_S100000x128 : (⟨S_, .f32⟩ : BufTy).Contents (Elt F) → (⟨S100000x128, .f32⟩ : BufTy).Contents (Elt F)),
    StableHlo.unary main_v3 main_v92 (broadcastInDim S400000x1 ![0] bcast_S400000_S400000x1_0 : (⟨S400000, .i32⟩ : BufTy).Contents (Elt F) → (⟨S400000x1, .i32⟩ : BufTy).Contents (Elt F)),
    StableHlo.ternary main_v91 main_v92 main_v90 main_v93 ((fun x i u => Host.scatterAdd scatter_S100000x128_S400000x1_S400000x128_1_0_0_1 x i u) : (⟨S100000x128, .f32⟩ : BufTy).Contents (Elt F) → (⟨S400000x1, .i32⟩ : BufTy).Contents (Elt F) → (⟨S400000x128, .f32⟩ : BufTy).Contents (Elt F) → (⟨S100000x128, .f32⟩ : BufTy).Contents (Elt F)) ]

/-- Layer 3's perceptron up to the second bias's rows (the end of the program's second window). -/
abbrev sM3a : List (HloOp τ sig (Elt F)) :=
  [ StableHlo.binary main_v83 main_v93 main_v94 (addf : (⟨S100000x128, .f32⟩ : BufTy).Contents (Elt F) → (⟨S100000x128, .f32⟩ : BufTy).Contents (Elt F) → (⟨S100000x128, .f32⟩ : BufTy).Contents (Elt F)),
    StableHlo.binary main_v94 main_arg15 main_v95 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg16 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v97 main_v98 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v98 : StableHlo.TRef sig ⟨S100000x64, .f32⟩) main_call6.v0 main_call6.v1 maximumf,
    StableHlo.binary main_v99 main_arg17 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg18 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)) ]

/-- Layer 3's perceptron, the rest. -/
abbrev sM3b : List (HloOp τ sig (Elt F)) :=
  [ StableHlo.binary main_v100 main_v102 main_v103 (addf : (⟨S100000x64, .f32⟩ : BufTy).Contents (Elt F) → (⟨S100000x64, .f32⟩ : BufTy).Contents (Elt F) → (⟨S100000x64, .f32⟩ : BufTy).Contents (Elt F)),
    StableHlo.TRef.nullary main_call7.cst (constant S_ .f32 0x00000000#32),
    StableHlo.TRef.unary main_call7.cst main_call7.v0 (broadcastInDim S100000x64 ![] bcast_S_S100000x64),
    StableHlo.TRef.binary (.of main_v103 : StableHlo.TRef sig ⟨S100000x64, .f32⟩) main_call7.v0 main_call7.v1 maximumf ]

/-- Layer 3's normalisation. -/
abbrev sB3 : List (HloOp τ sig (Elt F)) :=
  [ StableHlo.nullary main_cst_15 (constant S_ .f32 0x00000000#32),
    StableHlo.binary main_v104 main_cst_15 main_v105 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_16 (constant S_ .f32 0x47C35000#32),
    StableHlo.unary main_cst_16 main_v106 (broadcastInDim S64 ![] bcast_S_S64 : (⟨S_, .f32⟩ : BufTy).Contents (Elt F) → (⟨S64, .f32⟩ : BufTy).Contents (Elt F)),
    StableHlo.binary main_v105 main_v106 main_v107 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call8.cst (constant S_ .f32 0x00000000#32),
    StableHlo.TRef.binary (.of main_v104 : StableHlo.TRef sig ⟨S100000x64, .f32⟩) main_call8.cst main_call8.v0 (fun x v => Host.reduceAdd x v reducesTo_S100000x64_S64_d0 h_S_),
    StableHlo.TRef.unary main_call8.v0 main_call8.v1 (broadcastInDim S1x64 ![1] bcast_S64_S1x64_1),
    StableHlo.TRef.nullary main_call8.cst_0 (constant S_ .f32 0x47C35000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S100000x64 ![0, 1] bcast_S1x64_S100000x64_0_1),
    StableHlo.TRef.binary (.of main_v104 : StableHlo.TRef sig ⟨S100000x64, .f32⟩) main_call8.v4 main_call8.v5 subf,
    StableHlo.TRef.binary main_call8.v5 main_call8.v5 main_call8.v6 mulf,
    StableHlo.TRef.unary (.of main_c_17 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S64 ![] bcast_S_S64),
    StableHlo.TRef.ternary main_call8.v12 main_call8.v11 main_call8.call0.v1 main_call8.call0.v2 (fun p a b => select (broadcastInDim S64 ![] bcast_S_S64 p) a b),
    StableHlo.unary main_v107 main_v109 (broadcastInDim S1x64 ![1] bcast_S64_S1x64_1 : (⟨S64, .f32⟩ : BufTy).Contents (Elt F) → (⟨S1x64, .f32⟩ : BufTy).Contents (Elt F)),
    StableHlo.unary main_v109 main_v110 (broadcastInDim S100000x64 ![0, 1] bcast_S1x64_S100000x64_0_1 : (⟨S1x64, .f32⟩ : BufTy).Contents (Elt F) → (⟨S100000x64, .f32⟩ : BufTy).Contents (Elt F)),
    StableHlo.binary main_v104 main_v110 main_v111 (subf : (⟨S100000x64, .f32⟩ : BufTy).Contents (Elt F) → (⟨S100000x64, .f32⟩ : BufTy).Contents (Elt F) → (⟨S100000x64, .f32⟩ : BufTy).Contents (Elt F)),
    StableHlo.nullary main_cst_18 (constant S_ .f32 0x3727C5AC#32),
    StableHlo.unary main_cst_18 main_v112 (broadcastInDim S64 ![] bcast_S_S64 : (⟨S_, .f32⟩ : BufTy).Contents (Elt F) → (⟨S64, .f32⟩ : BufTy).Contents (Elt F)),
    StableHlo.binary main_v108 main_v112 main_v113 (addf : (⟨S64, .f32⟩ : BufTy).Contents (Elt F) → (⟨S64, .f32⟩ : BufTy).Contents (Elt F) → (⟨S64, .f32⟩ : BufTy).Contents (Elt F)),
    StableHlo.unary main_v113 main_v114 (Host.rsqrt : (⟨S64, .f32⟩ : BufTy).Contents (Elt F) → (⟨S64, .f32⟩ : BufTy).Contents (Elt F)),
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S100000x64 ![0, 1] bcast_S1x64_S100000x64_0_1 : (⟨S1x64, .f32⟩ : BufTy).Contents (Elt F) → (⟨S100000x64, .f32⟩ : BufTy).Contents (Elt F)),
    StableHlo.binary main_v111 main_v116 main_v117 (mulf : (⟨S100000x64, .f32⟩ : BufTy).Contents (Elt F) → (⟨S100000x64, .f32⟩ : BufTy).Contents (Elt F) → (⟨S100000x64, .f32⟩ : BufTy).Contents (Elt F)),
    StableHlo.unary main_arg19 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S100000x64 ![0, 1] bcast_S1x64_S100000x64_0_1 : (⟨S1x64, .f32⟩ : BufTy).Contents (Elt F) → (⟨S100000x64, .f32⟩ : BufTy).Contents (Elt F)),
    StableHlo.binary main_v117 main_v119 main_v120 (mulf : (⟨S100000x64, .f32⟩ : BufTy).Contents (Elt F) → (⟨S100000x64, .f32⟩ : BufTy).Contents (Elt F) → (⟨S100000x64, .f32⟩ : BufTy).Contents (Elt F)),
    StableHlo.unary main_arg20 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S100000x64 ![0, 1] bcast_S1x64_S100000x64_0_1 : (⟨S1x64, .f32⟩ : BufTy).Contents (Elt F) → (⟨S100000x64, .f32⟩ : BufTy).Contents (Elt F)),
    StableHlo.binary main_v120 main_v122 main_v123 (addf : (⟨S100000x64, .f32⟩ : BufTy).Contents (Elt F) → (⟨S100000x64, .f32⟩ : BufTy).Contents (Elt F) → (⟨S100000x64, .f32⟩ : BufTy).Contents (Elt F)) ]

/-- The pooling of rows into graphs. -/
abbrev sP : List (HloOp τ sig (Elt F)) :=
  [ StableHlo.nullary main_cst_19 (constant S_ .f32 0x00000000#32),
    StableHlo.unary main_cst_19 main_v124 (broadcastInDim S4096x64 ![] bcast_S_S4096x64 : (⟨S_, .f32⟩ : BufTy).Contents (Elt F) → (⟨S4096x64, .f32⟩ : BufTy).Contents (Elt F)),
    StableHlo.unary main_arg2 main_v125 (broadcastInDim S100000x1 ![0] bcast_S100000_S100000x1_0 : (⟨S100000, .i32⟩ : BufTy).Contents (Elt F) → (⟨S100000x1, .i32⟩ : BufTy).Contents (Elt F)),
    StableHlo.ternary main_v124 main_v125 main_v123 main_v126 ((fun x i u => Host.scatterAdd scatter_S4096x64_S100000x1_S100000x64_1_0_0_1 x i u) : (⟨S4096x64, .f32⟩ : BufTy).Contents (Elt F) → (⟨S100000x1, .i32⟩ : BufTy).Contents (Elt F) → (⟨S100000x64, .f32⟩ : BufTy).Contents (Elt F) → (⟨S4096x64, .f32⟩ : BufTy).Contents (Elt F)) ]

/-- The read-out perceptron and the final reshape. -/
abbrev sH : List (HloOp τ sig (Elt F)) :=
  [ StableHlo.binary main_v126 main_arg21 main_v127 ((fun l r => Host.dotGeneral dot_S4096x64_S64x16_S4096x16_1_0_0_1_n_n none l r) : (⟨S4096x64, .f32⟩ : BufTy).Contents (Elt F) → (⟨S64x16, .f32⟩ : BufTy).Contents (Elt F) → (⟨S4096x16, .f32⟩ : BufTy).Contents (Elt F)),
    StableHlo.unary main_arg22 main_v128 (broadcastInDim S1x16 ![1] bcast_S16_S1x16_1 : (⟨S16, .f32⟩ : BufTy).Contents (Elt F) → (⟨S1x16, .f32⟩ : BufTy).Contents (Elt F)),
    StableHlo.unary main_v128 main_v129 (broadcastInDim S4096x16 ![0, 1] bcast_S1x16_S4096x16_0_1 : (⟨S1x16, .f32⟩ : BufTy).Contents (Elt F) → (⟨S4096x16, .f32⟩ : BufTy).Contents (Elt F)),
    StableHlo.binary main_v127 main_v129 main_v130 (addf : (⟨S4096x16, .f32⟩ : BufTy).Contents (Elt F) → (⟨S4096x16, .f32⟩ : BufTy).Contents (Elt F) → (⟨S4096x16, .f32⟩ : BufTy).Contents (Elt F)),
    StableHlo.TRef.nullary main_call9.cst (constant S_ .f32 0x00000000#32),
    StableHlo.TRef.unary main_call9.cst main_call9.v0 (broadcastInDim S4096x16 ![] bcast_S_S4096x16),
    StableHlo.TRef.binary (.of main_v130 : StableHlo.TRef sig ⟨S4096x16, .f32⟩) main_call9.v0 main_call9.v1 maximumf,
    StableHlo.binary main_v131 main_arg23 main_v132 ((fun l r => Host.dotGeneral dot_S4096x16_S16x1_S4096x1_1_0_0_1_n_n none l r) : (⟨S4096x16, .f32⟩ : BufTy).Contents (Elt F) → (⟨S16x1, .f32⟩ : BufTy).Contents (Elt F) → (⟨S4096x1, .f32⟩ : BufTy).Contents (Elt F)),
    StableHlo.unary main_arg24 main_v133 (broadcastInDim S1x1 ![1] bcast_S1_S1x1_1 : (⟨S1, .f32⟩ : BufTy).Contents (Elt F) → (⟨S1x1, .f32⟩ : BufTy).Contents (Elt F)),
    StableHlo.unary main_v133 main_v134 (broadcastInDim S4096x1 ![0, 1] bcast_S1x1_S4096x1_0_1 : (⟨S1x1, .f32⟩ : BufTy).Contents (Elt F) → (⟨S4096x1, .f32⟩ : BufTy).Contents (Elt F)),
    StableHlo.binary main_v132 main_v134 main_v135 (addf : (⟨S4096x1, .f32⟩ : BufTy).Contents (Elt F) → (⟨S4096x1, .f32⟩ : BufTy).Contents (Elt F) → (⟨S4096x1, .f32⟩ : BufTy).Contents (Elt F)),
    StableHlo.TRef.nullary main_call10.cst (constant S_ .f32 0x00000000#32),
    StableHlo.TRef.unary main_call10.cst main_call10.v0 (broadcastInDim S4096x1 ![] bcast_S_S4096x1),
    StableHlo.TRef.binary (.of main_v135 : StableHlo.TRef sig ⟨S4096x1, .f32⟩) main_call10.v0 main_call10.v1 maximumf,
    StableHlo.reshape main_v136 main_v137 rfl shapeCasts_S4096x1_S4096 ]

/-! ## The windows and the whole line -/

/-- The program's statement window 0, as stretches. -/
abbrev ops0 : List (HloOp τ sig (Elt F)) := sA1 ++ (sM1 ++ (sB1 ++ (sA2a)))

/-- The program's statement window 1, as stretches. -/
abbrev ops1 : List (HloOp τ sig (Elt F)) := sA2b ++ (sM2 ++ (sB2 ++ (sA3 ++ (sM3a))))

/-- The program's statement window 2, as stretches. -/
abbrev ops2 : List (HloOp τ sig (Elt F)) := sM3b ++ (sB3 ++ (sP ++ (sH)))

/-- @main's operations, in order. -/
abbrev ops : List (HloOp τ sig (Elt F)) := ops0 ++ (ops1 ++ ops2)

/-! ## @main is that line -/

set_option maxRecDepth 8192 in
set_option maxHeartbeats 4000000 in
/-- Window 0 is its stretches in a row: the called functions' definitions unfold at their calls, and sequencing
    reassociates by computation. -/
theorem main_part0_eq (c : Dev nD) : main_part0 (F := F) c = seq ops0 := rfl

set_option maxRecDepth 8192 in
set_option maxHeartbeats 4000000 in
/-- Window 1 is its stretches in a row: the called functions' definitions unfold at their calls, and sequencing
    reassociates by computation. -/
theorem main_part1_eq (c : Dev nD) : main_part1 (F := F) c = seq ops1 := rfl

set_option maxRecDepth 8192 in
set_option maxHeartbeats 4000000 in
/-- Window 2 is its stretches in a row: the called functions' definitions unfold at their calls, and sequencing
    reassociates by computation. -/
theorem main_part2_eq (c : Dev nD) : main_part2 (F := F) c = seq ops2 := rfl

/-- @main is the whole line: the windows in order are the concatenation run as one. -/
theorem main_eq (c : Dev nD) : main (F := F) c = seq ops := by
  show (main_part0 (F := F) c >>= fun _ => main_part1 (F := F) c >>= fun _ => main_part2 (F := F) c) = seq (ops0 ++ (ops1 ++ ops2))
  rw [seq_append ops0 (ops1 ++ ops2), seq_append ops1 ops2, main_part0_eq c, main_part1_eq c, main_part2_eq c]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun a ha => (List.mem_append.mp ha).elim (List.forall_iff_forall_mem.mp h₁ a) (List.forall_iff_forall_mem.mp h₂ a)

theorem sA1_sub : (sA1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem sA1_fresh : (sA1 : List (HloOp τ sig (Elt F))).Forall fun op => op.fresh = ∅ :=
  ⟨rfl, rfl, rfl, rfl, rfl, rfl, rfl, rfl, rfl, rfl, rfl, rfl, rfl, rfl, rfl, rfl, rfl⟩

theorem sM1_sub : (sM1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem sM1_fresh : (sM1 : List (HloOp τ sig (Elt F))).Forall fun op => op.fresh = ∅ :=
  ⟨rfl, rfl, rfl, rfl, rfl, rfl, rfl, rfl, rfl, rfl, rfl, rfl, rfl, rfl, rfl⟩

theorem sB1_sub : (sB1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sB1_fresh : (sB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem sA2a_sub : (sA2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem sA2a_fresh : (sA2a : List (HloOp τ sig (Elt F))).Forall fun op => op.fresh = ∅ :=
  ⟨rfl, rfl, rfl, rfl, rfl, rfl, rfl, rfl, rfl⟩

theorem sA2b_sub : (sA2b : List (HloOp τ sig (Elt F))).Forall fun op => op.bufs ⊆ tcRefs τ sig :=
  ⟨nullary_bufs_sub .., unary_bufs_sub .., unary_bufs_sub .., ternary_bufs_sub ..⟩
theorem sA2b_fresh : (sA2b : List (HloOp τ sig (Elt F))).Forall fun op => op.fresh = ∅ :=
  ⟨rfl, rfl, rfl, rfl⟩

theorem sM2_sub : (sM2 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem sM2_fresh : (sM2 : List (HloOp τ sig (Elt F))).Forall fun op => op.fresh = ∅ :=
  ⟨rfl, rfl, rfl, rfl, rfl, rfl, rfl, rfl, rfl, rfl, rfl, rfl, rfl, rfl, rfl⟩

theorem sB2_sub : (sB2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sB2_fresh : (sB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem sA3_sub : (sA3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem sA3_fresh : (sA3 : List (HloOp τ sig (Elt F))).Forall fun op => op.fresh = ∅ :=
  ⟨rfl, rfl, rfl, rfl, rfl, rfl, rfl, rfl, rfl, rfl, rfl, rfl, rfl⟩

theorem sM3a_sub : (sM3a : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub ..⟩
theorem sM3a_fresh : (sM3a : List (HloOp τ sig (Elt F))).Forall fun op => op.fresh = ∅ :=
  ⟨rfl, rfl, rfl, rfl, rfl, rfl, rfl, rfl, rfl, rfl, rfl⟩

theorem sM3b_sub : (sM3b : List (HloOp τ sig (Elt F))).Forall fun op => op.bufs ⊆ tcRefs τ sig :=
  ⟨binary_bufs_sub .., nullary_bufs_sub .., unary_bufs_sub .., binary_bufs_sub ..⟩
theorem sM3b_fresh : (sM3b : List (HloOp τ sig (Elt F))).Forall fun op => op.fresh = ∅ :=
  ⟨rfl, rfl, rfl, rfl⟩

theorem sB3_sub : (sB3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem sB3_fresh : (sB3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem sP_sub : (sP : List (HloOp τ sig (Elt F))).Forall fun op => op.bufs ⊆ tcRefs τ sig :=
  ⟨nullary_bufs_sub .., unary_bufs_sub .., unary_bufs_sub .., ternary_bufs_sub ..⟩
theorem sP_fresh : (sP : List (HloOp τ sig (Elt F))).Forall fun op => op.fresh = ∅ :=
  ⟨rfl, rfl, rfl, rfl⟩

theorem sH_sub : (sH : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., reshape_bufs_sub ..⟩
theorem sH_fresh : (sH : List (HloOp τ sig (Elt F))).Forall fun op => op.fresh = ∅ :=
  ⟨rfl, rfl, rfl, rfl, rfl, rfl, rfl, rfl, rfl, rfl, rfl, rfl, rfl, rfl, rfl⟩

theorem ops_sub : (ops : List (HloOp τ sig (Elt F))).Forall fun op => op.bufs ⊆ tcRefs τ sig :=
  forall_append (forall_append sA1_sub (forall_append sM1_sub (forall_append sB1_sub (sA2a_sub)))) (forall_append (forall_append sA2b_sub (forall_append sM2_sub (forall_append sB2_sub (forall_append sA3_sub (sM3a_sub))))) (forall_append sM3b_sub (forall_append sB3_sub (forall_append sP_sub (sH_sub)))))
theorem ops_fresh : (ops : List (HloOp τ sig (Elt F))).Forall fun op => op.fresh = ∅ :=
  forall_append (forall_append sA1_fresh (forall_append sM1_fresh (forall_append sB1_fresh (sA2a_fresh)))) (forall_append (forall_append sA2b_fresh (forall_append sM2_fresh (forall_append sB2_fresh (forall_append sA3_fresh (sM3a_fresh))))) (forall_append sM3b_fresh (forall_append sB3_fresh (forall_append sP_fresh (sH_fresh)))))

/-! ## The run -/

/-- On every device, for any float values, from any memory with zero counters: every weakly fair execution of @main
    terminates, and every final state has each TensorCore buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## What the line leaves alone -/

/-- One written reference lies in a list's image once it lies in the list. -/
theorem writes_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references stretch `sA1` writes, in order. -/
abbrev wA1 : List (Ref sig .tc) :=
  [main_v0, main_v1, main_v2, main_v3, main_c, main_v4, main_v5, main_c_0, main_v6, main_v7, main_v8, main_v9, main_v10, main_cst, main_v11, main_v12, main_v13]
theorem sA1_writes : (sA1 : List (HloOp τ sig (Elt F))).Forall fun op => op.writes ⊆ ((wA1).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sA1` does not write keeps its contents through it. -/
theorem keep_A1 (V : Valuation τ sig (Elt F)) {r : Ref sig .tc} (h : r ∉ wA1) :
    after sA1 V (Proc.devRef .tc r) = V (Proc.devRef .tc r) := after_of_writes_sub sA1 V sA1_writes h

/-- The references stretch `sM1` writes, in order. -/
abbrev wM1 : List (Ref sig .tc) :=
  [main_v14, main_v15, main_v16, main_v17, main_v18, main_call0.cst.ref, main_call0.v0.ref, main_call0.v1.ref, main_v20, main_v21, main_v22, main_v23, main_call1.cst.ref, main_call1.v0.ref, main_call1.v1.ref]
theorem sM1_writes : (sM1 : List (HloOp τ sig (Elt F))).Forall fun op => op.writes ⊆ ((wM1).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sM1` does not write keeps its contents through it. -/
theorem keep_M1 (V : Valuation τ sig (Elt F)) {r : Ref sig .tc} (h : r ∉ wM1) :
    after sM1 V (Proc.devRef .tc r) = V (Proc.devRef .tc r) := after_of_writes_sub sM1 V sM1_writes h

/-- The references stretch `sB1` writes, in order. -/
abbrev wB1 : List (Ref sig .tc) :=
  [main_cst_1, main_v25, main_cst_2, main_v26, main_v27, main_c_3, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v29, main_v30, main_v31, main_cst_4, main_v32, main_v33, main_v34, main_v35, main_v36, main_v37, main_v38, main_v39, main_v40, main_v41, main_v42, main_v43]
theorem sB1_writes : (sB1 : List (HloOp τ sig (Elt F))).Forall fun op => op.writes ⊆ ((wB1).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sB1` does not write keeps its contents through it. -/
theorem keep_B1 (V : Valuation τ sig (Elt F)) {r : Ref sig .tc} (h : r ∉ wB1) :
    after sB1 V (Proc.devRef .tc r) = V (Proc.devRef .tc r) := after_of_writes_sub sB1 V sB1_writes h

/-- The references stretch `sA2a` writes, in order. -/
abbrev wA2a : List (Ref sig .tc) :=
  [main_c_5, main_v44, main_v45, main_c_6, main_v46, main_v47, main_v48, main_v49, main_v50]
theorem sA2a_writes : (sA2a : List (HloOp τ sig (Elt F))).Forall fun op => op.writes ⊆ ((wA2a).map (Proc.devRef (τ := τ) .tc)).toFinset :=
  ⟨writes_sub (by decide), writes_sub (by decide), writes_sub (by decide), writes_sub (by decide), writes_sub (by decide), writes_sub (by decide), writes_sub (by decide), writes_sub (by decide), writes_sub (by decide)⟩
/-- A reference stretch `sA2a` does not write keeps its contents through it. -/
theorem keep_A2a (V : Valuation τ sig (Elt F)) {r : Ref sig .tc} (h : r ∉ wA2a) :
    after sA2a V (Proc.devRef .tc r) = V (Proc.devRef .tc r) := after_of_writes_sub sA2a V sA2a_writes h

/-- The references stretch `sA2b` writes, in order. -/
abbrev wA2b : List (Ref sig .tc) :=
  [main_cst_7, main_v51, main_v52, main_v53]
theorem sA2b_writes : (sA2b : List (HloOp τ sig (Elt F))).Forall fun op => op.writes ⊆ ((wA2b).map (Proc.devRef (τ := τ) .tc)).toFinset :=
  ⟨writes_sub (by decide), writes_sub (by decide), writes_sub (by decide), writes_sub (by decide)⟩
/-- A reference stretch `sA2b` does not write keeps its contents through it. -/
theorem keep_A2b (V : Valuation τ sig (Elt F)) {r : Ref sig .tc} (h : r ∉ wA2b) :
    after sA2b V (Proc.devRef .tc r) = V (Proc.devRef .tc r) := after_of_writes_sub sA2b V sA2b_writes h

/-- The references stretch `sM2` writes, in order. -/
abbrev wM2 : List (Ref sig .tc) :=
  [main_v54, main_v55, main_v56, main_v57, main_v58, main_call3.cst.ref, main_call3.v0.ref, main_call3.v1.ref, main_v60, main_v61, main_v62, main_v63, main_call4.cst.ref, main_call4.v0.ref, main_call4.v1.ref]
theorem sM2_writes : (sM2 : List (HloOp τ sig (Elt F))).Forall fun op => op.writes ⊆ ((wM2).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sM2` does not write keeps its contents through it. -/
theorem keep_M2 (V : Valuation τ sig (Elt F)) {r : Ref sig .tc} (h : r ∉ wM2) :
    after sM2 V (Proc.devRef .tc r) = V (Proc.devRef .tc r) := after_of_writes_sub sM2 V sM2_writes h

/-- The references stretch `sB2` writes, in order. -/
abbrev wB2 : List (Ref sig .tc) :=
  [main_cst_8, main_v65, main_cst_9, main_v66, main_v67, main_c_10, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v69, main_v70, main_v71, main_cst_11, main_v72, main_v73, main_v74, main_v75, main_v76, main_v77, main_v78, main_v79, main_v80, main_v81, main_v82, main_v83]
theorem sB2_writes : (sB2 : List (HloOp τ sig (Elt F))).Forall fun op => op.writes ⊆ ((wB2).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sB2` does not write keeps its contents through it. -/
theorem keep_B2 (V : Valuation τ sig (Elt F)) {r : Ref sig .tc} (h : r ∉ wB2) :
    after sB2 V (Proc.devRef .tc r) = V (Proc.devRef .tc r) := after_of_writes_sub sB2 V sB2_writes h

/-- The references stretch `sA3` writes, in order. -/
abbrev wA3 : List (Ref sig .tc) :=
  [main_c_12, main_v84, main_v85, main_c_13, main_v86, main_v87, main_v88, main_v89, main_v90, main_cst_14, main_v91, main_v92, main_v93]
theorem sA3_writes : (sA3 : List (HloOp τ sig (Elt F))).Forall fun op => op.writes ⊆ ((wA3).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sA3` does not write keeps its contents through it. -/
theorem keep_A3 (V : Valuation τ sig (Elt F)) {r : Ref sig .tc} (h : r ∉ wA3) :
    after sA3 V (Proc.devRef .tc r) = V (Proc.devRef .tc r) := after_of_writes_sub sA3 V sA3_writes h

/-- The references stretch `sM3a` writes, in order. -/
abbrev wM3a : List (Ref sig .tc) :=
  [main_v94, main_v95, main_v96, main_v97, main_v98, main_call6.cst.ref, main_call6.v0.ref, main_call6.v1.ref, main_v100, main_v101, main_v102]
theorem sM3a_writes : (sM3a : List (HloOp τ sig (Elt F))).Forall fun op => op.writes ⊆ ((wM3a).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sM3a` does not write keeps its contents through it. -/
theorem keep_M3a (V : Valuation τ sig (Elt F)) {r : Ref sig .tc} (h : r ∉ wM3a) :
    after sM3a V (Proc.devRef .tc r) = V (Proc.devRef .tc r) := after_of_writes_sub sM3a V sM3a_writes h

/-- The references stretch `sM3b` writes, in order. -/
abbrev wM3b : List (Ref sig .tc) :=
  [main_v103, main_call7.cst.ref, main_call7.v0.ref, main_call7.v1.ref]
theorem sM3b_writes : (sM3b : List (HloOp τ sig (Elt F))).Forall fun op => op.writes ⊆ ((wM3b).map (Proc.devRef (τ := τ) .tc)).toFinset :=
  ⟨writes_sub (by decide), writes_sub (by decide), writes_sub (by decide), writes_sub (by decide)⟩
/-- A reference stretch `sM3b` does not write keeps its contents through it. -/
theorem keep_M3b (V : Valuation τ sig (Elt F)) {r : Ref sig .tc} (h : r ∉ wM3b) :
    after sM3b V (Proc.devRef .tc r) = V (Proc.devRef .tc r) := after_of_writes_sub sM3b V sM3b_writes h

/-- The references stretch `sB3` writes, in order. -/
abbrev wB3 : List (Ref sig .tc) :=
  [main_cst_15, main_v105, main_cst_16, main_v106, main_v107, main_c_17, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v109, main_v110, main_v111, main_cst_18, main_v112, main_v113, main_v114, main_v115, main_v116, main_v117, main_v118, main_v119, main_v120, main_v121, main_v122, main_v123]
theorem sB3_writes : (sB3 : List (HloOp τ sig (Elt F))).Forall fun op => op.writes ⊆ ((wB3).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sB3` does not write keeps its contents through it. -/
theorem keep_B3 (V : Valuation τ sig (Elt F)) {r : Ref sig .tc} (h : r ∉ wB3) :
    after sB3 V (Proc.devRef .tc r) = V (Proc.devRef .tc r) := after_of_writes_sub sB3 V sB3_writes h

/-- The references stretch `sP` writes, in order. -/
abbrev wP : List (Ref sig .tc) :=
  [main_cst_19, main_v124, main_v125, main_v126]
theorem sP_writes : (sP : List (HloOp τ sig (Elt F))).Forall fun op => op.writes ⊆ ((wP).map (Proc.devRef (τ := τ) .tc)).toFinset :=
  ⟨writes_sub (by decide), writes_sub (by decide), writes_sub (by decide), writes_sub (by decide)⟩
/-- A reference stretch `sP` does not write keeps its contents through it. -/
theorem keep_P (V : Valuation τ sig (Elt F)) {r : Ref sig .tc} (h : r ∉ wP) :
    after sP V (Proc.devRef .tc r) = V (Proc.devRef .tc r) := after_of_writes_sub sP V sP_writes h

/-- The references stretch `sH` writes, in order. -/
abbrev wH : List (Ref sig .tc) :=
  [main_v127, main_v128, main_v129, main_v130, main_call9.cst.ref, main_call9.v0.ref, main_call9.v1.ref, main_v132, main_v133, main_v134, main_v135, main_call10.cst.ref, main_call10.v0.ref, main_call10.v1.ref, main_v137]
theorem sH_writes : (sH : List (HloOp τ sig (Elt F))).Forall fun op => op.writes ⊆ ((wH).map (Proc.devRef (τ := τ) .tc)).toFinset :=
  ⟨writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide), writes_sub (by decide)⟩
/-- A reference stretch `sH` does not write keeps its contents through it. -/
theorem keep_H (V : Valuation τ sig (Elt F)) {r : Ref sig .tc} (h : r ∉ wH) :
    after sH V (Proc.devRef .tc r) = V (Proc.devRef .tc r) := after_of_writes_sub sH V sH_writes h

/-- Every reference the line writes, in order. -/
abbrev wAll : List (Ref sig .tc) := wA1 ++ (wM1 ++ (wB1 ++ (wA2a ++ (wA2b ++ (wM2 ++ (wB2 ++ (wA3 ++ (wM3a ++ (wM3b ++ (wB3 ++ (wP ++ (wH))))))))))))

/-- A reference the line never writes ends as it began. -/
theorem keep_ops (V : Valuation τ sig (Elt F)) {r : Ref sig .tc} (h : r ∉ wAll) :
    after ops V (Proc.devRef .tc r) = V (Proc.devRef .tc r) := by
  simp only [wAll, List.mem_append, not_or] at h
  obtain ⟨h0, h1, h2, h3, h4, h5, h6, h7, h8, h9, h10, h11, h12⟩ := h
  simp only [ops, ops0, ops1, ops2, after_append]
  rw [keep_H _ h12, keep_P _ h11, keep_B3 _ h10, keep_M3b _ h9, keep_M3a _ h8, keep_A3 _ h7, keep_B2 _ h6, keep_M2 _ h5, keep_A2b _ h4, keep_A2a _ h3, keep_B1 _ h2, keep_M1 _ h1, keep_A1 _ h0]

/-! ## The arguments end as launched -/

theorem arg0_eq (m : (ℓ : Loc nD τ sig) → Buf (Elt F) ℓ) (c : Dev nD) :
    after ops (launchContents m c) (Proc.devRef .tc main_arg0) = m ((c.tc : Thread nD τ).loc main_arg0) := keep_ops _ (by decide)

theorem arg1_eq (m : (ℓ : Loc nD τ sig) → Buf (Elt F) ℓ) (c : Dev nD) :
    after ops (launchContents m c) (Proc.devRef .tc main_arg1) = m ((c.tc : Thread nD τ).loc main_arg1) := keep_ops _ (by decide)

theorem arg2_eq (m : (ℓ : Loc nD τ sig) → Buf (Elt F) ℓ) (c : Dev nD) :
    after ops (launchContents m c) (Proc.devRef .tc main_arg2) = m ((c.tc : Thread nD τ).loc main_arg2) := keep_ops _ (by decide)

theorem arg3_eq (m : (ℓ : Loc nD τ sig) → Buf (Elt F) ℓ) (c : Dev nD) :
    after ops (launchContents m c) (Proc.devRef .tc main_arg3) = m ((c.tc : Thread nD τ).loc main_arg3) := keep_ops _ (by decide)

theorem arg4_eq (m : (ℓ : Loc nD τ sig) → Buf (Elt F) ℓ) (c : Dev nD) :
    after ops (launchContents m c) (Proc.devRef .tc main_arg4) = m ((c.tc : Thread nD τ).loc main_arg4) := keep_ops _ (by decide)

theorem arg5_eq (m : (ℓ : Loc nD τ sig) → Buf (Elt F) ℓ) (c : Dev nD) :
    after ops (launchContents m c) (Proc.devRef .tc main_arg5) = m ((c.tc : Thread nD τ).loc main_arg5) := keep_ops _ (by decide)

theorem arg6_eq (m : (ℓ : Loc nD τ sig) → Buf (Elt F) ℓ) (c : Dev nD) :
    after ops (launchContents m c) (Proc.devRef .tc main_arg6) = m ((c.tc : Thread nD τ).loc main_arg6) := keep_ops _ (by decide)

theorem arg7_eq (m : (ℓ : Loc nD τ sig) → Buf (Elt F) ℓ) (c : Dev nD) :
    after ops (launchContents m c) (Proc.devRef .tc main_arg7) = m ((c.tc : Thread nD τ).loc main_arg7) := keep_ops _ (by decide)

theorem arg8_eq (m : (ℓ : Loc nD τ sig) → Buf (Elt F) ℓ) (c : Dev nD) :
    after ops (launchContents m c) (Proc.devRef .tc main_arg8) = m ((c.tc : Thread nD τ).loc main_arg8) := keep_ops _ (by decide)

theorem arg9_eq (m : (ℓ : Loc nD τ sig) → Buf (Elt F) ℓ) (c : Dev nD) :
    after ops (launchContents m c) (Proc.devRef .tc main_arg9) = m ((c.tc : Thread nD τ).loc main_arg9) := keep_ops _ (by decide)

theorem arg10_eq (m : (ℓ : Loc nD τ sig) → Buf (Elt F) ℓ) (c : Dev nD) :
    after ops (launchContents m c) (Proc.devRef .tc main_arg10) = m ((c.tc : Thread nD τ).loc main_arg10) := keep_ops _ (by decide)

theorem arg11_eq (m : (ℓ : Loc nD τ sig) → Buf (Elt F) ℓ) (c : Dev nD) :
    after ops (launchContents m c) (Proc.devRef .tc main_arg11) = m ((c.tc : Thread nD τ).loc main_arg11) := keep_ops _ (by decide)

theorem arg12_eq (m : (ℓ : Loc nD τ sig) → Buf (Elt F) ℓ) (c : Dev nD) :
    after ops (launchContents m c) (Proc.devRef .tc main_arg12) = m ((c.tc : Thread nD τ).loc main_arg12) := keep_ops _ (by decide)

theorem arg13_eq (m : (ℓ : Loc nD τ sig) → Buf (Elt F) ℓ) (c : Dev nD) :
    after ops (launchContents m c) (Proc.devRef .tc main_arg13) = m ((c.tc : Thread nD τ).loc main_arg13) := keep_ops _ (by decide)

theorem arg14_eq (m : (ℓ : Loc nD τ sig) → Buf (Elt F) ℓ) (c : Dev nD) :
    after ops (launchContents m c) (Proc.devRef .tc main_arg14) = m ((c.tc : Thread nD τ).loc main_arg14) := keep_ops _ (by decide)

theorem arg15_eq (m : (ℓ : Loc nD τ sig) → Buf (Elt F) ℓ) (c : Dev nD) :
    after ops (launchContents m c) (Proc.devRef .tc main_arg15) = m ((c.tc : Thread nD τ).loc main_arg15) := keep_ops _ (by decide)

theorem arg16_eq (m : (ℓ : Loc nD τ sig) → Buf (Elt F) ℓ) (c : Dev nD) :
    after ops (launchContents m c) (Proc.devRef .tc main_arg16) = m ((c.tc : Thread nD τ).loc main_arg16) := keep_ops _ (by decide)

theorem arg17_eq (m : (ℓ : Loc nD τ sig) → Buf (Elt F) ℓ) (c : Dev nD) :
    after ops (launchContents m c) (Proc.devRef .tc main_arg17) = m ((c.tc : Thread nD τ).loc main_arg17) := keep_ops _ (by decide)

theorem arg18_eq (m : (ℓ : Loc nD τ sig) → Buf (Elt F) ℓ) (c : Dev nD) :
    after ops (launchContents m c) (Proc.devRef .tc main_arg18) = m ((c.tc : Thread nD τ).loc main_arg18) := keep_ops _ (by decide)

theorem arg19_eq (m : (ℓ : Loc nD τ sig) → Buf (Elt F) ℓ) (c : Dev nD) :
    after ops (launchContents m c) (Proc.devRef .tc main_arg19) = m ((c.tc : Thread nD τ).loc main_arg19) := keep_ops _ (by decide)

theorem arg20_eq (m : (ℓ : Loc nD τ sig) → Buf (Elt F) ℓ) (c : Dev nD) :
    after ops (launchContents m c) (Proc.devRef .tc main_arg20) = m ((c.tc : Thread nD τ).loc main_arg20) := keep_ops _ (by decide)

theorem arg21_eq (m : (ℓ : Loc nD τ sig) → Buf (Elt F) ℓ) (c : Dev nD) :
    after ops (launchContents m c) (Proc.devRef .tc main_arg21) = m ((c.tc : Thread nD τ).loc main_arg21) := keep_ops _ (by decide)

theorem arg22_eq (m : (ℓ : Loc nD τ sig) → Buf (Elt F) ℓ) (c : Dev nD) :
    after ops (launchContents m c) (Proc.devRef .tc main_arg22) = m ((c.tc : Thread nD τ).loc main_arg22) := keep_ops _ (by decide)

theorem arg23_eq (m : (ℓ : Loc nD τ sig) → Buf (Elt F) ℓ) (c : Dev nD) :
    after ops (launchContents m c) (Proc.devRef .tc main_arg23) = m ((c.tc : Thread nD τ).loc main_arg23) := keep_ops _ (by decide)

theorem arg24_eq (m : (ℓ : Loc nD τ sig) → Buf (Elt F) ℓ) (c : Dev nD) :
    after ops (launchContents m c) (Proc.devRef .tc main_arg24) = m ((c.tc : Thread nD τ).loc main_arg24) := keep_ops _ (by decide)

end Cert.ReferenceIdeal.RefRun

end
-- ==== Proof.RefRunVal.lean ====
/-
  The value the reference's line leaves at its result, stage by stage.

  Each stage's stretch of operations, run from ANY contents `W`, leaves at the stage's result buffer the stage's
  whole-array function of what `W` holds at the stage's inputs: the fold over the stretch is unrolled, each operation's
  result read at its own buffer and passed over at every other, and what is left is the function's definition. The
  stages are then chained from the launch contents: a stage's inputs are earlier stages' results, carried unchanged
  through the stretches between (none of which writes them), or arguments, which no stretch writes. The result buffer
  ends at the network's whole-array function of the twenty-five arguments.
-/
import proofs.«101558_j53498112639139_1_alg».proof.Proof.RefDefs
import proofs.«101558_j53498112639139_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each stage read from any contents -/

set_option maxRecDepth 8192 in
set_option maxHeartbeats 4000000 in
theorem A1_v1 (W : Valuation τ sig (Elt F)) :
    after sA1 (W) (Proc.devRef .tc main_v1) = refSrc (W (Proc.devRef .tc main_arg1)) := by
  after_results_simp
  rfl

set_option maxRecDepth 8192 in
set_option maxHeartbeats 4000000 in
theorem A1_v3 (W : Valuation τ sig (Elt F)) :
    after sA1 (W) (Proc.devRef .tc main_v3) = refDst (W (Proc.devRef .tc main_arg1)) := by
  after_results_simp
  rfl

set_option maxRecDepth 8192 in
set_option maxHeartbeats 4000000 in
theorem A1_v13 (W : Valuation τ sig (Elt F)) :
    after sA1 (W) (Proc.devRef .tc main_v13) = refAgg373 (W (Proc.devRef .tc main_arg0)) (refSrc (W (Proc.devRef .tc main_arg1))) (refDst (W (Proc.devRef .tc main_arg1))) := by
  after_results_simp
  rfl

set_option maxRecDepth 8192 in
set_option maxHeartbeats 4000000 in
theorem M1_v24 (W : Valuation τ sig (Elt F)) :
    after sM1 (W) (Proc.devRef .tc main_v24) = refMlp1 (W (Proc.devRef .tc main_arg0)) (W (Proc.devRef .tc main_v13)) (W (Proc.devRef .tc main_arg3)) (W (Proc.devRef .tc main_arg4)) (W (Proc.devRef .tc main_arg5)) (W (Proc.devRef .tc main_arg6)) := by
  after_results_simp
  rfl

set_option maxRecDepth 8192 in
set_option maxHeartbeats 4000000 in
theorem B1_v43 (W : Valuation τ sig (Elt F)) :
    after sB1 (W) (Proc.devRef .tc main_v43) = refBn256 (W (Proc.devRef .tc main_v24)) (W (Proc.devRef .tc main_arg7)) (W (Proc.devRef .tc main_arg8)) := by
  after_results_simp
  rfl

set_option maxRecDepth 8192 in
set_option maxHeartbeats 4000000 in
theorem A2_v53 (W : Valuation τ sig (Elt F)) :
    after sA2b (after sA2a (W)) (Proc.devRef .tc main_v53) = refAgg256 (W (Proc.devRef .tc main_v43)) (W (Proc.devRef .tc main_v1)) (W (Proc.devRef .tc main_v3)) := by
  rw [← after_append]
  simp only [sA2a, sA2b, List.cons_append, List.nil_append]
  after_results_simp
  rfl

set_option maxRecDepth 8192 in
set_option maxHeartbeats 4000000 in
theorem M2_v64 (W : Valuation τ sig (Elt F)) :
    after sM2 (W) (Proc.devRef .tc main_v64) = refMlp2 (W (Proc.devRef .tc main_v43)) (W (Proc.devRef .tc main_v53)) (W (Proc.devRef .tc main_arg9)) (W (Proc.devRef .tc main_arg10)) (W (Proc.devRef .tc main_arg11)) (W (Proc.devRef .tc main_arg12)) := by
  after_results_simp
  rfl

set_option maxRecDepth 8192 in
set_option maxHeartbeats 4000000 in
theorem B2_v83 (W : Valuation τ sig (Elt F)) :
    after sB2 (W) (Proc.devRef .tc main_v83) = refBn128 (W (Proc.devRef .tc main_v64)) (W (Proc.devRef .tc main_arg13)) (W (Proc.devRef .tc main_arg14)) := by
  after_results_simp
  rfl

set_option maxRecDepth 8192 in
set_option maxHeartbeats 4000000 in
theorem A3_v93 (W : Valuation τ sig (Elt F)) :
    after sA3 (W) (Proc.devRef .tc main_v93) = refAgg128 (W (Proc.devRef .tc main_v83)) (W (Proc.devRef .tc main_v1)) (W (Proc.devRef .tc main_v3)) := by
  after_results_simp
  rfl

set_option maxRecDepth 8192 in
set_option maxHeartbeats 4000000 in
theorem M3_v104 (W : Valuation τ sig (Elt F)) :
    after sM3b (after sM3a (W)) (Proc.devRef .tc main_v104) = refMlp3 (W (Proc.devRef .tc main_v83)) (W (Proc.devRef .tc main_v93)) (W (Proc.devRef .tc main_arg15)) (W (Proc.devRef .tc main_arg16)) (W (Proc.devRef .tc main_arg17)) (W (Proc.devRef .tc main_arg18)) := by
  rw [← after_append]
  simp only [sM3a, sM3b, List.cons_append, List.nil_append]
  after_results_simp
  rfl

set_option maxRecDepth 8192 in
set_option maxHeartbeats 4000000 in
theorem B3_v123 (W : Valuation τ sig (Elt F)) :
    after sB3 (W) (Proc.devRef .tc main_v123) = refBn64 (W (Proc.devRef .tc main_v104)) (W (Proc.devRef .tc main_arg19)) (W (Proc.devRef .tc main_arg20)) := by
  after_results_simp
  rfl

set_option maxRecDepth 8192 in
set_option maxHeartbeats 4000000 in
theorem P_v126 (W : Valuation τ sig (Elt F)) :
    after sP (W) (Proc.devRef .tc main_v126) = refPool (W (Proc.devRef .tc main_v123)) (W (Proc.devRef .tc main_arg2)) := by
  after_results_simp
  rfl

set_option maxRecDepth 8192 in
set_option maxHeartbeats 4000000 in
theorem H_v137 (W : Valuation τ sig (Elt F)) :
    after sH (W) (Proc.devRef .tc main_v137) = refHead (W (Proc.devRef .tc main_v126)) (W (Proc.devRef .tc main_arg21)) (W (Proc.devRef .tc main_arg22)) (W (Proc.devRef .tc main_arg23)) (W (Proc.devRef .tc main_arg24)) := by
  after_results_simp
  rfl

/-! ## The stages chained from the launch contents -/

/-- A reference one stretch writes is among those the line writes. -/
theorem wA1_sub {r : Ref sig .tc} (h : r ∈ wA1) : r ∈ wAll := List.mem_append_left _ h
theorem wM1_sub {r : Ref sig .tc} (h : r ∈ wM1) : r ∈ wAll := List.mem_append_right _ (List.mem_append_left _ h)
theorem wB1_sub {r : Ref sig .tc} (h : r ∈ wB1) : r ∈ wAll := List.mem_append_right _ (List.mem_append_right _ (List.mem_append_left _ h))
theorem wA2a_sub {r : Ref sig .tc} (h : r ∈ wA2a) : r ∈ wAll := List.mem_append_right _ (List.mem_append_right _ (List.mem_append_right _ (List.mem_append_left _ h)))
theorem wA2b_sub {r : Ref sig .tc} (h : r ∈ wA2b) : r ∈ wAll := List.mem_append_right _ (List.mem_append_right _ (List.mem_append_right _ (List.mem_append_right _ (List.mem_append_left _ h))))
theorem wM2_sub {r : Ref sig .tc} (h : r ∈ wM2) : r ∈ wAll := List.mem_append_right _ (List.mem_append_right _ (List.mem_append_right _ (List.mem_append_right _ (List.mem_append_right _ (List.mem_append_left _ h)))))
theorem wB2_sub {r : Ref sig .tc} (h : r ∈ wB2) : r ∈ wAll := List.mem_append_right _ (List.mem_append_right _ (List.mem_append_right _ (List.mem_append_right _ (List.mem_append_right _ (List.mem_append_right _ (List.mem_append_left _ h))))))
theorem wA3_sub {r : Ref sig .tc} (h : r ∈ wA3) : r ∈ wAll := List.mem_append_right _ (List.mem_append_right _ (List.mem_append_right _ (List.mem_append_right _ (List.mem_append_right _ (List.mem_append_right _ (List.mem_append_right _ (List.mem_append_left _ h)))))))
theorem wM3a_sub {r : Ref sig .tc} (h : r ∈ wM3a) : r ∈ wAll := List.mem_append_right _ (List.mem_append_right _ (List.mem_append_right _ (List.mem_append_right _ (List.mem_append_right _ (List.mem_append_right _ (List.mem_append_right _ (List.mem_append_right _ (List.mem_append_left _ h))))))))
theorem wM3b_sub {r : Ref sig .tc} (h : r ∈ wM3b) : r ∈ wAll := List.mem_append_right _ (List.mem_append_right _ (List.mem_append_right _ (List.mem_append_right _ (List.mem_append_right _ (List.mem_append_right _ (List.mem_append_right _ (List.mem_append_right _ (List.mem_append_right _ (List.mem_append_left _ h)))))))))
theorem wB3_sub {r : Ref sig .tc} (h : r ∈ wB3) : r ∈ wAll := List.mem_append_right _ (List.mem_append_right _ (List.mem_append_right _ (List.mem_append_right _ (List.mem_append_right _ (List.mem_append_right _ (List.mem_append_right _ (List.mem_append_right _ (List.mem_append_right _ (List.mem_append_right _ (List.mem_append_left _ h))))))))))
theorem wP_sub {r : Ref sig .tc} (h : r ∈ wP) : r ∈ wAll := List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ h)))))))))))
theorem wH_sub {r : Ref sig .tc} (h : r ∈ wH) : r ∈ wAll := List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (h))))))))))))

/-- The contents after stage A1. -/
def st1 (V : Valuation τ sig (Elt F)) : Valuation τ sig (Elt F) := after sA1 (V)
theorem st1_keep (V : Valuation τ sig (Elt F)) {r : Ref sig .tc} (h : r ∉ wAll) : st1 V (Proc.devRef .tc r) = V (Proc.devRef .tc r) :=
  keep_A1 _ (fun hm => h (wA1_sub hm))
theorem st1_v1 (V : Valuation τ sig (Elt F)) : st1 V (Proc.devRef .tc main_v1) = refSrc (V (Proc.devRef .tc main_arg1)) := by
  unfold st1
  rw [A1_v1]
theorem st1_v3 (V : Valuation τ sig (Elt F)) : st1 V (Proc.devRef .tc main_v3) = refDst (V (Proc.devRef .tc main_arg1)) := by
  unfold st1
  rw [A1_v3]
theorem st1_v13 (V : Valuation τ sig (Elt F)) : st1 V (Proc.devRef .tc main_v13) = refAgg373 (V (Proc.devRef .tc main_arg0)) (refSrc (V (Proc.devRef .tc main_arg1))) (refDst (V (Proc.devRef .tc main_arg1))) := by
  unfold st1
  rw [A1_v13]

/-- The contents after stage M1. -/
def st2 (V : Valuation τ sig (Elt F)) : Valuation τ sig (Elt F) := after sM1 (st1 V)
theorem st2_keep (V : Valuation τ sig (Elt F)) {r : Ref sig .tc} (h : r ∉ wAll) : st2 V (Proc.devRef .tc r) = V (Proc.devRef .tc r) :=
  (keep_M1 _ (fun hm => h (wM1_sub hm))).trans (st1_keep V h)
theorem st2_v1 (V : Valuation τ sig (Elt F)) : st2 V (Proc.devRef .tc main_v1) = refSrc (V (Proc.devRef .tc main_arg1)) :=
  (keep_M1 _ (r := main_v1) (by decide)).trans (st1_v1 V)
theorem st2_v3 (V : Valuation τ sig (Elt F)) : st2 V (Proc.devRef .tc main_v3) = refDst (V (Proc.devRef .tc main_arg1)) :=
  (keep_M1 _ (r := main_v3) (by decide)).trans (st1_v3 V)
theorem st2_v24 (V : Valuation τ sig (Elt F)) : st2 V (Proc.devRef .tc main_v24) = refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6)) := by
  unfold st2
  rw [M1_v24, st1_keep V (r := main_arg0) (by decide), st1_v13 V, st1_keep V (r := main_arg3) (by decide), st1_keep V (r := main_arg4) (by decide), st1_keep V (r := main_arg5) (by decide), st1_keep V (r := main_arg6) (by decide)]

/-- The contents after stage B1. -/
def st3 (V : Valuation τ sig (Elt F)) : Valuation τ sig (Elt F) := after sB1 (st2 V)
theorem st3_keep (V : Valuation τ sig (Elt F)) {r : Ref sig .tc} (h : r ∉ wAll) : st3 V (Proc.devRef .tc r) = V (Proc.devRef .tc r) :=
  (keep_B1 _ (fun hm => h (wB1_sub hm))).trans (st2_keep V h)
theorem st3_v1 (V : Valuation τ sig (Elt F)) : st3 V (Proc.devRef .tc main_v1) = refSrc (V (Proc.devRef .tc main_arg1)) :=
  (keep_B1 _ (r := main_v1) (by decide)).trans (st2_v1 V)
theorem st3_v3 (V : Valuation τ sig (Elt F)) : st3 V (Proc.devRef .tc main_v3) = refDst (V (Proc.devRef .tc main_arg1)) :=
  (keep_B1 _ (r := main_v3) (by decide)).trans (st2_v3 V)
theorem st3_v43 (V : Valuation τ sig (Elt F)) : st3 V (Proc.devRef .tc main_v43) = refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8)) := by
  unfold st3
  rw [B1_v43, st2_v24 V, st2_keep V (r := main_arg7) (by decide), st2_keep V (r := main_arg8) (by decide)]

/-- The contents after stage A2. -/
def st4 (V : Valuation τ sig (Elt F)) : Valuation τ sig (Elt F) := after sA2b (after sA2a (st3 V))
theorem st4_keep (V : Valuation τ sig (Elt F)) {r : Ref sig .tc} (h : r ∉ wAll) : st4 V (Proc.devRef .tc r) = V (Proc.devRef .tc r) :=
  ((keep_A2b _ (fun hm => h (wA2b_sub hm))).trans (keep_A2a _ (fun hm => h (wA2a_sub hm)))).trans (st3_keep V h)
theorem st4_v1 (V : Valuation τ sig (Elt F)) : st4 V (Proc.devRef .tc main_v1) = refSrc (V (Proc.devRef .tc main_arg1)) :=
  ((keep_A2b _ (r := main_v1) (by decide)).trans (keep_A2a _ (r := main_v1) (by decide))).trans (st3_v1 V)
theorem st4_v3 (V : Valuation τ sig (Elt F)) : st4 V (Proc.devRef .tc main_v3) = refDst (V (Proc.devRef .tc main_arg1)) :=
  ((keep_A2b _ (r := main_v3) (by decide)).trans (keep_A2a _ (r := main_v3) (by decide))).trans (st3_v3 V)
theorem st4_v43 (V : Valuation τ sig (Elt F)) : st4 V (Proc.devRef .tc main_v43) = refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8)) :=
  ((keep_A2b _ (r := main_v43) (by decide)).trans (keep_A2a _ (r := main_v43) (by decide))).trans (st3_v43 V)
theorem st4_v53 (V : Valuation τ sig (Elt F)) : st4 V (Proc.devRef .tc main_v53) = refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1))) := by
  unfold st4
  rw [A2_v53, st3_v43 V, st3_v1 V, st3_v3 V]

/-- The contents after stage M2. -/
def st5 (V : Valuation τ sig (Elt F)) : Valuation τ sig (Elt F) := after sM2 (st4 V)
theorem st5_keep (V : Valuation τ sig (Elt F)) {r : Ref sig .tc} (h : r ∉ wAll) : st5 V (Proc.devRef .tc r) = V (Proc.devRef .tc r) :=
  (keep_M2 _ (fun hm => h (wM2_sub hm))).trans (st4_keep V h)
theorem st5_v1 (V : Valuation τ sig (Elt F)) : st5 V (Proc.devRef .tc main_v1) = refSrc (V (Proc.devRef .tc main_arg1)) :=
  (keep_M2 _ (r := main_v1) (by decide)).trans (st4_v1 V)
theorem st5_v3 (V : Valuation τ sig (Elt F)) : st5 V (Proc.devRef .tc main_v3) = refDst (V (Proc.devRef .tc main_arg1)) :=
  (keep_M2 _ (r := main_v3) (by decide)).trans (st4_v3 V)
theorem st5_v64 (V : Valuation τ sig (Elt F)) : st5 V (Proc.devRef .tc main_v64) = refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12)) := by
  unfold st5
  rw [M2_v64, st4_v43 V, st4_v53 V, st4_keep V (r := main_arg9) (by decide), st4_keep V (r := main_arg10) (by decide), st4_keep V (r := main_arg11) (by decide), st4_keep V (r := main_arg12) (by decide)]

/-- The contents after stage B2. -/
def st6 (V : Valuation τ sig (Elt F)) : Valuation τ sig (Elt F) := after sB2 (st5 V)
theorem st6_keep (V : Valuation τ sig (Elt F)) {r : Ref sig .tc} (h : r ∉ wAll) : st6 V (Proc.devRef .tc r) = V (Proc.devRef .tc r) :=
  (keep_B2 _ (fun hm => h (wB2_sub hm))).trans (st5_keep V h)
theorem st6_v1 (V : Valuation τ sig (Elt F)) : st6 V (Proc.devRef .tc main_v1) = refSrc (V (Proc.devRef .tc main_arg1)) :=
  (keep_B2 _ (r := main_v1) (by decide)).trans (st5_v1 V)
theorem st6_v3 (V : Valuation τ sig (Elt F)) : st6 V (Proc.devRef .tc main_v3) = refDst (V (Proc.devRef .tc main_arg1)) :=
  (keep_B2 _ (r := main_v3) (by decide)).trans (st5_v3 V)
theorem st6_v83 (V : Valuation τ sig (Elt F)) : st6 V (Proc.devRef .tc main_v83) = refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14)) := by
  unfold st6
  rw [B2_v83, st5_v64 V, st5_keep V (r := main_arg13) (by decide), st5_keep V (r := main_arg14) (by decide)]

/-- The contents after stage A3. -/
def st7 (V : Valuation τ sig (Elt F)) : Valuation τ sig (Elt F) := after sA3 (st6 V)
theorem st7_keep (V : Valuation τ sig (Elt F)) {r : Ref sig .tc} (h : r ∉ wAll) : st7 V (Proc.devRef .tc r) = V (Proc.devRef .tc r) :=
  (keep_A3 _ (fun hm => h (wA3_sub hm))).trans (st6_keep V h)
theorem st7_v83 (V : Valuation τ sig (Elt F)) : st7 V (Proc.devRef .tc main_v83) = refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14)) :=
  (keep_A3 _ (r := main_v83) (by decide)).trans (st6_v83 V)
theorem st7_v93 (V : Valuation τ sig (Elt F)) : st7 V (Proc.devRef .tc main_v93) = refAgg128 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refSrc (V (Proc.devRef .tc main_arg1))) (refDst (V (Proc.devRef .tc main_arg1))) := by
  unfold st7
  rw [A3_v93, st6_v83 V, st6_v1 V, st6_v3 V]

/-- The contents after stage M3. -/
def st8 (V : Valuation τ sig (Elt F)) : Valuation τ sig (Elt F) := after sM3b (after sM3a (st7 V))
theorem st8_keep (V : Valuation τ sig (Elt F)) {r : Ref sig .tc} (h : r ∉ wAll) : st8 V (Proc.devRef .tc r) = V (Proc.devRef .tc r) :=
  ((keep_M3b _ (fun hm => h (wM3b_sub hm))).trans (keep_M3a _ (fun hm => h (wM3a_sub hm)))).trans (st7_keep V h)
theorem st8_v104 (V : Valuation τ sig (Elt F)) : st8 V (Proc.devRef .tc main_v104) = refMlp3 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refAgg128 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refSrc (V (Proc.devRef .tc main_arg1))) (refDst (V (Proc.devRef .tc main_arg1)))) (V (Proc.devRef .tc main_arg15)) (V (Proc.devRef .tc main_arg16)) (V (Proc.devRef .tc main_arg17)) (V (Proc.devRef .tc main_arg18)) := by
  unfold st8
  rw [M3_v104, st7_v83 V, st7_v93 V, st7_keep V (r := main_arg15) (by decide), st7_keep V (r := main_arg16) (by decide), st7_keep V (r := main_arg17) (by decide), st7_keep V (r := main_arg18) (by decide)]

/-- The contents after stage B3. -/
def st9 (V : Valuation τ sig (Elt F)) : Valuation τ sig (Elt F) := after sB3 (st8 V)
theorem st9_keep (V : Valuation τ sig (Elt F)) {r : Ref sig .tc} (h : r ∉ wAll) : st9 V (Proc.devRef .tc r) = V (Proc.devRef .tc r) :=
  (keep_B3 _ (fun hm => h (wB3_sub hm))).trans (st8_keep V h)
theorem st9_v123 (V : Valuation τ sig (Elt F)) : st9 V (Proc.devRef .tc main_v123) = refBn64 (refMlp3 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refAgg128 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refSrc (V (Proc.devRef .tc main_arg1))) (refDst (V (Proc.devRef .tc main_arg1)))) (V (Proc.devRef .tc main_arg15)) (V (Proc.devRef .tc main_arg16)) (V (Proc.devRef .tc main_arg17)) (V (Proc.devRef .tc main_arg18))) (V (Proc.devRef .tc main_arg19)) (V (Proc.devRef .tc main_arg20)) := by
  unfold st9
  rw [B3_v123, st8_v104 V, st8_keep V (r := main_arg19) (by decide), st8_keep V (r := main_arg20) (by decide)]

/-- The contents after stage P. -/
def st10 (V : Valuation τ sig (Elt F)) : Valuation τ sig (Elt F) := after sP (st9 V)
theorem st10_keep (V : Valuation τ sig (Elt F)) {r : Ref sig .tc} (h : r ∉ wAll) : st10 V (Proc.devRef .tc r) = V (Proc.devRef .tc r) :=
  (keep_P _ (fun hm => h (wP_sub hm))).trans (st9_keep V h)
theorem st10_v126 (V : Valuation τ sig (Elt F)) : st10 V (Proc.devRef .tc main_v126) = refPool (refBn64 (refMlp3 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refAgg128 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refSrc (V (Proc.devRef .tc main_arg1))) (refDst (V (Proc.devRef .tc main_arg1)))) (V (Proc.devRef .tc main_arg15)) (V (Proc.devRef .tc main_arg16)) (V (Proc.devRef .tc main_arg17)) (V (Proc.devRef .tc main_arg18))) (V (Proc.devRef .tc main_arg19)) (V (Proc.devRef .tc main_arg20))) (V (Proc.devRef .tc main_arg2)) := by
  unfold st10
  rw [P_v126, st9_v123 V, st9_keep V (r := main_arg2) (by decide)]

/-- The contents after stage H. -/
def st11 (V : Valuation τ sig (Elt F)) : Valuation τ sig (Elt F) := after sH (st10 V)
theorem st11_keep (V : Valuation τ sig (Elt F)) {r : Ref sig .tc} (h : r ∉ wAll) : st11 V (Proc.devRef .tc r) = V (Proc.devRef .tc r) :=
  (keep_H _ (fun hm => h (wH_sub hm))).trans (st10_keep V h)
theorem st11_v137 (V : Valuation τ sig (Elt F)) : st11 V (Proc.devRef .tc main_v137) = refHead (refPool (refBn64 (refMlp3 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refAgg128 (refBn128 (refMlp2 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refAgg256 (refBn256 (refMlp1 (V (Proc.devRef .tc main_arg0)) (refAgg373 (V (Proc.devRef .tc main_arg0)) (refSrc (V (Proc.devRef .tc main_arg1))) (refDst (V (Proc.devRef .tc main_arg1)))) (V (Proc.devRef .tc main_arg3)) (V (Proc.devRef .tc main_arg4)) (V (Proc.devRef .tc main_arg5)) (V (Proc.devRef .tc main_arg6))) (V (Proc.devRef .tc main_arg7)) (V (Proc.devRef .tc main_arg8))) (refSrc (V (Proc.devRef .tc main_arg1))) (refDst (V (Proc.devRef .tc main_arg1)))) (V (Proc.devRef .tc main_arg9)) (V (Proc.devRef .tc main_arg10)) (V (Proc.devRef .tc main_arg11)) (V (Proc.devRef .tc main_arg12))) (V (Proc.devRef .tc main_arg13)) (V (Proc.devRef .tc main_arg14))) (refSrc (V (Proc.devRef .tc main_arg1))) (refDst (V (Proc.devRef .tc main_arg1)))) (V (Proc.devRef .tc main_arg15)) (V (Proc.devRef .tc main_arg16)) (V (Proc.devRef .tc main_arg17)) (V (Proc.devRef .tc main_arg18))) (V (Proc.devRef .tc main_arg19)) (V (Proc.devRef .tc main_arg20))) (V (Proc.devRef .tc main_arg2))) (V (Proc.devRef .tc main_arg21)) (V (Proc.devRef .tc main_arg22)) (V (Proc.devRef .tc main_arg23)) (V (Proc.devRef .tc main_arg24)) := by
  unfold st11
  rw [H_v137, st10_v126 V, st10_keep V (r := main_arg21) (by decide), st10_keep V (r := main_arg22) (by decide), st10_keep V (r := main_arg23) (by decide), st10_keep V (r := main_arg24) (by decide)]

/-! ## The result -/

/-- The whole line is the stages in a row. -/
theorem after_ops_eq (V : Valuation τ sig (Elt F)) : after ops V = st11 V := by
  simp only [ops, ops0, ops1, ops2, after_append]
  rfl

/-- From any contents, the line leaves at the result buffer the network's whole-array function of what the
    contents hold at the twenty-five arguments. -/
theorem result_eq (V : Valuation τ sig (Elt F)) :
    after ops V (Proc.devRef .tc main_v137)
      = refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) := by
  rw [after_ops_eq]
  exact st11_v137 V

/-- The same from the launch contents of a device. -/
theorem result (m : (ℓ : Loc nD τ sig) → Buf (Elt F) ℓ) (c : Dev nD) :
    after ops (launchContents m c) (Proc.devRef .tc main_v137)
      = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  result_eq (launchContents m c)

end Cert.ReferenceIdeal.RefRun

end
-- ==== Proof.RefRun.lean ====
/-
  The reference's run, in the form a comparison with another program reads it: on every device every weakly fair
  execution of @main terminates with the result buffer at the network's whole-array function of the arguments' launch
  contents, and with every argument buffer as launched.
-/
import proofs.«101558_j53498112639139_1_alg».proof.Proof.RefRunVal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The network's whole-array function of a device's launch contents at the twenty-five arguments. -/
def refOut (m : (ℓ : Loc nD τ sig) → Buf (Elt F) ℓ) (c : Dev nD) : Buf (Elt F) ((c.tc : Thread nD τ).loc main_v137) :=
  refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))

/-- On every device, for any float values, from any memory with zero counters: every weakly fair execution of @main
    terminates with the result at `refOut` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v137) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v137).trans (result m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c),
      (h c main_arg11).trans (arg11_eq m c),
      (h c main_arg12).trans (arg12_eq m c),
      (h c main_arg13).trans (arg13_eq m c),
      (h c main_arg14).trans (arg14_eq m c),
      (h c main_arg15).trans (arg15_eq m c),
      (h c main_arg16).trans (arg16_eq m c),
      (h c main_arg17).trans (arg17_eq m c),
      (h c main_arg18).trans (arg18_eq m c),
      (h c main_arg19).trans (arg19_eq m c),
      (h c main_arg20).trans (arg20_eq m c),
      (h c main_arg21).trans (arg21_eq m c),
      (h c main_arg22).trans (arg22_eq m c),
      (h c main_arg23).trans (arg23_eq m c),
      (h c main_arg24).trans (arg24_eq m c)⟩)
    (run_after m ρ)

end Cert.ReferenceIdeal.RefRun

end
-- ==== Proof.Spec.lean ====
/-
  The mathematics of the network, over families indexed by `Fin`: a graph-isomorphism layer's two-matrix perceptron with
  rectified outputs, the column sums a batch normalisation needs, and the normalisation in the two arrangements that occur
  (centred, as `(h - μ) · r · γ + β`; and folded into one scale and one shift, `h · (γ · r) + (β - μ · (γ · r))`).
  Every value is an extended real; the laws that need real (finite) entries say so.
-/
import Idealize.ShloMosaic.PureOps.Ideal.Laws

noncomputable section

namespace Cert.Gin

open scoped BigOperators

/-- Row `i`, column `j` of `relu (relu ((X + A) · Wa + ba) · Wb + bb)`: the inner sum runs over the input features, the outer
    over the hidden ones. -/
def mlpAt {N Din Dmid Dout : ℕ} (X A : Fin N → Fin Din → EReal) (Wa : Fin Din → Fin Dmid → EReal) (ba : Fin Dmid → EReal)
    (Wb : Fin Dmid → Fin Dout → EReal) (bb : Fin Dout → EReal) (i : Fin N) (j : Fin Dout) : EReal :=
  max ((∑ k : Fin Dmid, max ((∑ l : Fin Din, (X i l + A i l) * Wa l k) + ba k) 0 * Wb k j) + bb j) 0

/-- Row `i`, column `j` of `relu (relu (X · Wa + ba) · Wb + bb)`: the read-out perceptron (no neighbour term). -/
def headAt {N Din Dmid Dout : ℕ} (X : Fin N → Fin Din → EReal) (Wa : Fin Din → Fin Dmid → EReal) (ba : Fin Dmid → EReal)
    (Wb : Fin Dmid → Fin Dout → EReal) (bb : Fin Dout → EReal) (i : Fin N) (j : Fin Dout) : EReal :=
  max ((∑ k : Fin Dmid, max ((∑ l : Fin Din, X i l * Wa l k) + ba k) 0 * Wb k j) + bb j) 0

/-- The sum of column `j` over all rows. -/
def colSum {N D : ℕ} (H : Fin N → Fin D → EReal) (j : Fin D) : EReal := ∑ i : Fin N, H i j

/-- The sum of the squares of column `j` over all rows. -/
def colSumSq {N D : ℕ} (H : Fin N → Fin D → EReal) (j : Fin D) : EReal := ∑ i : Fin N, H i j * H i j

/-- One scale and one shift per column applied to every row. -/
def affineAt {N D : ℕ} (H : Fin N → Fin D → EReal) (scale shift : Fin D → EReal) (i : Fin N) (j : Fin D) : EReal :=
  H i j * scale j + shift j

end Cert.Gin

end
-- ==== Proof.BnLaw.lean ====
/-
  The law that joins the two arrangements of a batch normalisation. With column mean `μ = S / c` (`S` the column sum, `c` the
  number of rows) the centred variance `(∑ (h - μ)²) / c` equals `SS / c - μ²` (`SS` the column's sum of squares), so with
  `r = rsqrt (variance + ε)` the centred form `(h - μ) · r · γ + β` equals the folded form `h · (γ · r) + (β - μ · (γ · r))`.
  Both steps distribute a product over a sum, which on the extended reals needs every entry to be a real number: the law is
  stated for real data, and its value is again real.
-/
import proofs.«101558_j53498112639139_1_alg».proof.Proof.Spec

noncomputable section

namespace Cert.Gin

open scoped BigOperators
open Idealize.ShloMosaic

/-- A finite sum of real numbers, read in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Folded arrangement: the per-column scale `γ · rsqrt (SS / c - (S / c)² + ε)`. -/
def bnScale (C eps s ss γ : EReal) : EReal :=
  γ * Ideal.rsqrt ((Ideal.div ss C - Ideal.div s C * Ideal.div s C) + eps)

/-- Folded arrangement: the per-column shift `β - (S / c) · scale`. -/
def bnShift (C eps s ss γ β : EReal) : EReal := β - Ideal.div s C * bnScale C eps s ss γ

/-- Folded arrangement of the normalisation at row `i`, column `j`. -/
def bnFoldedAt {N D : ℕ} (C eps : EReal) (H : Fin N → Fin D → EReal) (γ β : Fin D → EReal) (i : Fin N) (j : Fin D) : EReal :=
  affineAt H (fun j => bnScale C eps (colSum H j) (colSumSq H j) (γ j))
    (fun j => bnShift C eps (colSum H j) (colSumSq H j) (γ j) (β j)) i j

/-- The column mean `S / c`. -/
def bnMean {N D : ℕ} (C : EReal) (H : Fin N → Fin D → EReal) (j : Fin D) : EReal := Ideal.div (colSum H j) C

/-- The centred variance `(∑ (h - μ)²) / c`. -/
def bnVar {N D : ℕ} (C : EReal) (H : Fin N → Fin D → EReal) (j : Fin D) : EReal :=
  Ideal.div (∑ i : Fin N, (H i j - bnMean C H j) * (H i j - bnMean C H j)) C

/-- Centred arrangement of the normalisation at row `i`, column `j`. -/
def bnCentredAt {N D : ℕ} (C eps : EReal) (H : Fin N → Fin D → EReal) (γ β : Fin D → EReal) (i : Fin N) (j : Fin D) : EReal :=
  (H i j - bnMean C H j) * Ideal.rsqrt (bnVar C H j + eps) * γ j + β j

/-- Over the reals: the sum of squared deviations from the mean is the sum of squares less `c · μ²`. -/
theorem sum_sq_dev {N : ℕ} (c : ℝ) (hN : (N : ℝ) = c) (hc : c ≠ 0) (h : Fin N → ℝ) :
    (∑ i, (h i - (∑ i, h i) * (1 / c)) * (h i - (∑ i, h i) * (1 / c))) * (1 / c)
      = (∑ i, h i * h i) * (1 / c) - (∑ i, h i) * (1 / c) * ((∑ i, h i) * (1 / c)) := by
  have e : ∀ i, (h i - (∑ i, h i) * (1 / c)) * (h i - (∑ i, h i) * (1 / c))
      = h i * h i - 2 * ((∑ i, h i) * (1 / c)) * h i + ((∑ i, h i) * (1 / c)) * ((∑ i, h i) * (1 / c)) := fun i => by ring
  simp only [e, Finset.sum_add_distrib, Finset.sum_sub_distrib, ← Finset.mul_sum, Finset.sum_const, Finset.card_univ,
    Fintype.card_fin, nsmul_eq_mul, hN]
  field_simp
  ring

/-- On real data, with `c` the (positive) number of rows and `ε > 0`: the folded and the centred arrangement agree, and the
    common value is a real number. -/
theorem bn_law {N D : ℕ} (c e : ℝ) (hN : (N : ℝ) = c) (hc : c ≠ 0) (he : 0 < e)
    (H : Fin N → Fin D → ℝ) (g b : Fin D → ℝ) (i : Fin N) (j : Fin D) :
    bnFoldedAt (c : EReal) (e : EReal) (fun i j => (H i j : EReal)) (fun j => (g j : EReal)) (fun j => (b j : EReal)) i j
        = bnCentredAt (c : EReal) (e : EReal) (fun i j => (H i j : EReal)) (fun j => (g j : EReal)) (fun j => (b j : EReal)) i j
      ∧ ∃ r : ℝ, bnCentredAt (c : EReal) (e : EReal) (fun i j => (H i j : EReal)) (fun j => (g j : EReal)) (fun j => (b j : EReal)) i j
          = (r : EReal) := by
  have cpos : 0 < c := by
    have : (0 : ℝ) ≤ c := hN ▸ Nat.cast_nonneg N
    exact lt_of_le_of_ne this (Ne.symm hc)
  set S : ℝ := ∑ i, H i j with hS
  set SS : ℝ := ∑ i, H i j * H i j with hSS
  set mu : ℝ := S * (1 / c) with hmu
  have hsum : colSum (fun i j => (H i j : EReal)) j = (S : EReal) := by
    unfold colSum; exact coe_sum _ _
  have hsumsq : colSumSq (fun i j => (H i j : EReal)) j = (SS : EReal) := by
    unfold colSumSq; simp only [← EReal.coe_mul]; exact coe_sum _ _
  have hmean : bnMean (c : EReal) (fun i j => (H i j : EReal)) j = (mu : EReal) := by
    unfold bnMean; rw [hsum, Ideal.div_coe hc, ← EReal.coe_mul]
  have hvar : bnVar (c : EReal) (fun i j => (H i j : EReal)) j
      = ((SS * (1 / c) - mu * mu : ℝ) : EReal) := by
    unfold bnVar; rw [hmean]
    simp only [← EReal.coe_sub, ← EReal.coe_mul]
    rw [coe_sum, Ideal.div_coe hc, ← EReal.coe_mul]
    exact congrArg _ (sum_sq_dev c hN hc (fun i => H i j))
  have hvnn : 0 ≤ SS * (1 / c) - mu * mu := by
    rw [← sum_sq_dev c hN hc (fun i => H i j)]
    exact mul_nonneg (Finset.sum_nonneg fun i _ => mul_self_nonneg _) (by positivity)
  have hx : 0 < SS * (1 / c) - mu * mu + e := by linarith
  have hrs : Ideal.rsqrt (((SS * (1 / c) - mu * mu + e : ℝ)) : EReal)
      = (((Real.sqrt (SS * (1 / c) - mu * mu + e))⁻¹ : ℝ) : EReal) := by
    rw [Ideal.rsqrt_coe, if_neg (not_lt.2 hx.le), if_neg hx.ne']
  set r : ℝ := (Real.sqrt (SS * (1 / c) - mu * mu + e))⁻¹ with hr
  have hcen : bnCentredAt (c : EReal) (e : EReal) (fun i j => (H i j : EReal)) (fun j => (g j : EReal)) (fun j => (b j : EReal)) i j
      = (((H i j - mu) * r * g j + b j : ℝ) : EReal) := by
    unfold bnCentredAt; rw [hvar, hmean, ← EReal.coe_add, hrs]
    simp only [← EReal.coe_sub, ← EReal.coe_mul, ← EReal.coe_add]
  refine ⟨?_, _, hcen⟩
  rw [hcen]
  unfold bnFoldedAt affineAt bnShift bnScale
  dsimp only
  rw [hsum, hsumsq, Ideal.div_coe hc, Ideal.div_coe hc]
  simp only [← EReal.coe_mul, ← EReal.coe_sub]
  rw [← EReal.coe_add, hrs]
  simp only [← EReal.coe_sub, ← EReal.coe_mul, ← EReal.coe_add]
  congr 1
  ring

end Cert.Gin

end
-- ==== Proof.Net.lean ====
/-
  One layer of the network in its two arrangements, and why they agree. A layer is the two-matrix perceptron of the features
  plus their neighbour aggregate, followed by a batch normalisation — folded into one scale and one shift per column in one
  program, centred in the other. The perceptron of real data is real (sums, products and maxima of reals), the aggregate is
  real when the features are (a gather reads entries, a scatter-add sums them), so the normalisation law applies; and the
  layer's output is real again, which is what the next layer needs.
-/
import proofs.«101558_j53498112639139_1_alg».proof.Proof.BnLaw

noncomputable section

namespace Cert.Gin

open scoped BigOperators
open Idealize.ShloMosaic

/-- Every entry of a matrix-shaped family is a real number. -/
def IsReal2 {N D : ℕ} (X : Fin N → Fin D → EReal) : Prop := ∃ Xr : Fin N → Fin D → ℝ, X = fun i j => (Xr i j : EReal)

/-- Every entry of a row-shaped family is a real number. -/
def IsReal1 {D : ℕ} (v : Fin D → EReal) : Prop := ∃ vr : Fin D → ℝ, v = fun j => (vr j : EReal)

theorem isReal2_of_forall {N D : ℕ} {X : Fin N → Fin D → EReal} (h : ∀ i j, ∃ r : ℝ, X i j = r) : IsReal2 X := by
  choose Xr hX using h
  exact ⟨Xr, funext fun i => funext fun j => hX i j⟩

theorem isReal1_of_forall {D : ℕ} {v : Fin D → EReal} (h : ∀ j, ∃ r : ℝ, v j = r) : IsReal1 v := by
  choose vr hv using h
  exact ⟨vr, funext fun j => hv j⟩

theorem IsReal2.apply {N D : ℕ} {X : Fin N → Fin D → EReal} (h : IsReal2 X) (i : Fin N) (j : Fin D) : ∃ r : ℝ, X i j = r := by
  obtain ⟨Xr, rfl⟩ := h; exact ⟨Xr i j, rfl⟩

/-- The rectifier of a real number is real. -/
theorem max_coe_zero (x : ℝ) : max (x : EReal) 0 = ((max x 0 : ℝ) : EReal) := by
  rw [← EReal.coe_zero]
  exact (EReal.coe_strictMono.monotone.map_max).symm

/-- The perceptron of real features, a real aggregate and real weights is real. -/
theorem mlpAt_isReal {N Din Dmid Dout : ℕ} {X A : Fin N → Fin Din → EReal} {Wa : Fin Din → Fin Dmid → EReal}
    {ba : Fin Dmid → EReal} {Wb : Fin Dmid → Fin Dout → EReal} {bb : Fin Dout → EReal}
    (hX : IsReal2 X) (hA : IsReal2 A) (hWa : IsReal2 Wa) (hba : IsReal1 ba) (hWb : IsReal2 Wb) (hbb : IsReal1 bb) :
    IsReal2 (mlpAt X A Wa ba Wb bb) := by
  obtain ⟨X, rfl⟩ := hX; obtain ⟨A, rfl⟩ := hA; obtain ⟨Wa, rfl⟩ := hWa
  obtain ⟨ba, rfl⟩ := hba; obtain ⟨Wb, rfl⟩ := hWb; obtain ⟨bb, rfl⟩ := hbb
  refine ⟨fun i j => max ((∑ k, max ((∑ l, (X i l + A i l) * Wa l k) + ba k) 0 * Wb k j) + bb j) 0, ?_⟩
  funext i j
  unfold mlpAt
  simp only [← EReal.coe_add, ← EReal.coe_mul, coe_sum, max_coe_zero]

/-- A layer with the normalisation folded into a scale and a shift; `agg` is the neighbour aggregation. -/
def layerFolded {N Din Dmid Dout : ℕ} (C eps : EReal) (agg : (Fin N → Fin Din → EReal) → (Fin N → Fin Din → EReal))
    (X : Fin N → Fin Din → EReal) (Wa : Fin Din → Fin Dmid → EReal) (ba : Fin Dmid → EReal)
    (Wb : Fin Dmid → Fin Dout → EReal) (bb γ β : Fin Dout → EReal) : Fin N → Fin Dout → EReal :=
  bnFoldedAt C eps (mlpAt X (agg X) Wa ba Wb bb) γ β

/-- The same layer with the centred normalisation. -/
def layerCentred {N Din Dmid Dout : ℕ} (C eps : EReal) (agg : (Fin N → Fin Din → EReal) → (Fin N → Fin Din → EReal))
    (X : Fin N → Fin Din → EReal) (Wa : Fin Din → Fin Dmid → EReal) (ba : Fin Dmid → EReal)
    (Wb : Fin Dmid → Fin Dout → EReal) (bb γ β : Fin Dout → EReal) : Fin N → Fin Dout → EReal :=
  bnCentredAt C eps (mlpAt X (agg X) Wa ba Wb bb) γ β

/-- On real features and parameters, with an aggregation that keeps real data real: the two arrangements of the layer are
    one function, and its output is real. -/
theorem layer_eq {N Din Dmid Dout : ℕ} (c e : ℝ) (hN : (N : ℝ) = c) (hc : c ≠ 0) (he : 0 < e)
    {agg : (Fin N → Fin Din → EReal) → (Fin N → Fin Din → EReal)} (hagg : ∀ X, IsReal2 X → IsReal2 (agg X))
    {X : Fin N → Fin Din → EReal} {Wa : Fin Din → Fin Dmid → EReal} {ba : Fin Dmid → EReal}
    {Wb : Fin Dmid → Fin Dout → EReal} {bb γ β : Fin Dout → EReal}
    (hX : IsReal2 X) (hWa : IsReal2 Wa) (hba : IsReal1 ba) (hWb : IsReal2 Wb) (hbb : IsReal1 bb)
    (hγ : IsReal1 γ) (hβ : IsReal1 β) :
    layerFolded (c : EReal) (e : EReal) agg X Wa ba Wb bb γ β = layerCentred (c : EReal) (e : EReal) agg X Wa ba Wb bb γ β
      ∧ IsReal2 (layerCentred (c : EReal) (e : EReal) agg X Wa ba Wb bb γ β) := by
  obtain ⟨H, hH⟩ := mlpAt_isReal hX (hagg X hX) hWa hba hWb hbb
  obtain ⟨g, rfl⟩ := hγ; obtain ⟨b, rfl⟩ := hβ
  unfold layerFolded layerCentred
  rw [hH]
  exact ⟨funext fun i => funext fun j => (bn_law c e hN hc he H g b i j).1,
    isReal2_of_forall fun i j => (bn_law c e hN hc he H g b i j).2⟩

/-- A gather reads entries of its operand: of real data it is real. -/
theorem gather_real {s si t : Shape} {w : ℕ} (d : GatherDims s si t) (x : s.Idx → EReal) (idx : IVec si w)
    (hx : ∀ i, ∃ r : ℝ, x i = r) (j : t.Idx) : ∃ r : ℝ, Host.gather d x idx j = r := hx _

/-- An accumulating scatter adds finitely many update entries to an operand entry: of real data it is real. -/
theorem scatterAdd_real {s si su : Shape} {w : ℕ} (d : ScatterDims s si su) (x : FVec Ideal s .f32) (idx : IVec si w)
    (upd : FVec Ideal su .f32) (hx : ∀ i, ∃ r : ℝ, x i = r) (hu : ∀ j, ∃ r : ℝ, upd j = r) (i : s.Idx) :
    ∃ r : ℝ, Host.scatterAdd d x idx upd i = r := by
  choose xr hxr using hx
  choose ur hur using hu
  refine ⟨xr i + ∑ j ∈ Finset.univ.filter (fun j => d.resultIdx? j idx = some i), ur j, ?_⟩
  rw [EReal.coe_add, ← coe_sum]
  show x i + ∑ j ∈ Finset.univ.filter (fun j => d.resultIdx? j idx = some i), upd j = _
  rw [hxr i]
  exact congrArg _ (Finset.sum_congr rfl fun j _ => hur j)

end Cert.Gin

end
-- ==== Proof.NetDef.lean ====
/-
  The whole network over families, in the two arrangements, sharing everything but the normalisation: three layers (each
  with its neighbour aggregation — the edge list's gather and scatter-add, the same map in both), the pooling of node rows
  into graph rows, and the read-out perceptron. On real inputs the two arrangements are one function: the layer law applied
  three times, each layer's real output feeding the next.
-/
import proofs.«101558_j53498112639139_1_alg».proof.Proof.RefDefs
import proofs.«101558_j53498112639139_1_alg».proof.Proof.Net
import Idealize.ShloMosaic.Lib.ValueIdx

noncomputable section

namespace Cert.Gin

open scoped BigOperators
open Idealize.ShloMosaic Idealize.ShloMosaic.ValueIdx Cert.ReferenceIdeal Cert.ReferenceIdeal.RefRun

/-- A matrix-shaped array as a family of its entries. -/
def fam2 {A B : ℕ} (a : (⟨2, ![A, B]⟩ : Shape).Idx → EReal) : Fin A → Fin B → EReal := fun i j => a (ix2 i j)

/-- A vector-shaped array as a family of its entries. -/
def fam1 {A : ℕ} (a : (⟨1, ![A]⟩ : Shape).Idx → EReal) : Fin A → EReal := fun i => a (ix1 i)

/-- A family as a matrix-shaped array. -/
def arr2 {A B : ℕ} (X : Fin A → Fin B → EReal) : (⟨2, ![A, B]⟩ : Shape).Idx → EReal := fun idx => X (idx 0) (idx 1)

theorem arr2_fam2 {A B : ℕ} (a : (⟨2, ![A, B]⟩ : Shape).Idx → EReal) : arr2 (fam2 a) = a :=
  funext fun idx => (congrArg a (eq_ix2 idx)).symm

theorem fam2_arr2 {A B : ℕ} (X : Fin A → Fin B → EReal) : fam2 (arr2 X) = X := rfl

/-- An entry of a zero-filled array is the real number zero. -/
theorem zero_entry (s : Shape) (h : S_.BroadcastsInDim s (![] : Fin 0 → Fin s.rank)) (k : s.Idx) :
    broadcastInDim s ![] h (constant (F := Ideal) S_ .f32 0x00000000#32) k = ((0 : ℝ) : EReal) := by
  show Ideal.ofBits .f32 0x00000000#32 = _
  rw [Ideal.ofBits_zero_f32]; rfl

/-- The neighbour aggregation at width 373 as a map on families: the family as an array, every edge's source row added into its
    destination row, read back as a family. -/
def aggF373 (src dst : (⟨S400000, .i32⟩ : BufTy).Contents (Elt Ideal)) (X : Fin 100000 → Fin 373 → EReal) : Fin 100000 → Fin 373 → EReal :=
  fam2 (A := 100000) (B := 373) (refAgg373 (F := Ideal) (arr2 (A := 100000) (B := 373) X) src dst)

/-- The aggregation of real features is real: the gather reads feature entries, the scatter adds them to zeros. -/
theorem aggF373_real (src dst : (⟨S400000, .i32⟩ : BufTy).Contents (Elt Ideal)) (X : Fin 100000 → Fin 373 → EReal) (hX : IsReal2 X) :
    IsReal2 (aggF373 src dst X) := by
  refine isReal2_of_forall fun i j => ?_
  unfold aggF373 fam2 refAgg373
  refine scatterAdd_real _ _ _ _ (fun k => ⟨0, zero_entry _ _ k⟩) (fun k => gather_real _ _ _ (fun k => hX.apply _ _) k) _

/-- The neighbour aggregation at width 256 as a map on families: the family as an array, every edge's source row added into its
    destination row, read back as a family. -/
def aggF256 (src dst : (⟨S400000, .i32⟩ : BufTy).Contents (Elt Ideal)) (X : Fin 100000 → Fin 256 → EReal) : Fin 100000 → Fin 256 → EReal :=
  fam2 (A := 100000) (B := 256) (refAgg256 (F := Ideal) (arr2 (A := 100000) (B := 256) X) src dst)

/-- The aggregation of real features is real: the gather reads feature entries, the scatter adds them to zeros. -/
theorem aggF256_real (src dst : (⟨S400000, .i32⟩ : BufTy).Contents (Elt Ideal)) (X : Fin 100000 → Fin 256 → EReal) (hX : IsReal2 X) :
    IsReal2 (aggF256 src dst X) := by
  refine isReal2_of_forall fun i j => ?_
  unfold aggF256 fam2 refAgg256
  refine scatterAdd_real _ _ _ _ (fun k => ⟨0, zero_entry _ _ k⟩) (fun k => gather_real _ _ _ (fun k => hX.apply _ _) k) _

/-- The neighbour aggregation at width 128 as a map on families: the family as an array, every edge's source row added into its
    destination row, read back as a family. -/
def aggF128 (src dst : (⟨S400000, .i32⟩ : BufTy).Contents (Elt Ideal)) (X : Fin 100000 → Fin 128 → EReal) : Fin 100000 → Fin 128 → EReal :=
  fam2 (A := 100000) (B := 128) (refAgg128 (F := Ideal) (arr2 (A := 100000) (B := 128) X) src dst)

/-- The aggregation of real features is real: the gather reads feature entries, the scatter adds them to zeros. -/
theorem aggF128_real (src dst : (⟨S400000, .i32⟩ : BufTy).Contents (Elt Ideal)) (X : Fin 100000 → Fin 128 → EReal) (hX : IsReal2 X) :
    IsReal2 (aggF128 src dst X) := by
  refine isReal2_of_forall fun i j => ?_
  unfold aggF128 fam2 refAgg128
  refine scatterAdd_real _ _ _ _ (fun k => ⟨0, zero_entry _ _ k⟩) (fun k => gather_real _ _ _ (fun k => hX.apply _ _) k) _

/-- The network with every normalisation folded into a scale and a shift, at graph `g`. -/
def netFolded (C eps : EReal) (x : (⟨S100000x373, .f32⟩ : BufTy).Contents (Elt Ideal)) (ei : (⟨S2x400000, .i32⟩ : BufTy).Contents (Elt Ideal)) (batch : (⟨S100000, .i32⟩ : BufTy).Contents (Elt Ideal)) (W1a : (⟨S373x256, .f32⟩ : BufTy).Contents (Elt Ideal)) (b1a : (⟨S256, .f32⟩ : BufTy).Contents (Elt Ideal)) (W1b : (⟨S256x256, .f32⟩ : BufTy).Contents (Elt Ideal)) (b1b : (⟨S256, .f32⟩ : BufTy).Contents (Elt Ideal)) (g1 : (⟨S256, .f32⟩ : BufTy).Contents (Elt Ideal)) (be1 : (⟨S256, .f32⟩ : BufTy).Contents (Elt Ideal)) (W2a : (⟨S256x128, .f32⟩ : BufTy).Contents (Elt Ideal)) (b2a : (⟨S128, .f32⟩ : BufTy).Contents (Elt Ideal)) (W2b : (⟨S128x128, .f32⟩ : BufTy).Contents (Elt Ideal)) (b2b : (⟨S128, .f32⟩ : BufTy).Contents (Elt Ideal)) (g2 : (⟨S128, .f32⟩ : BufTy).Contents (Elt Ideal)) (be2 : (⟨S128, .f32⟩ : BufTy).Contents (Elt Ideal)) (W3a : (⟨S128x64, .f32⟩ : BufTy).Contents (Elt Ideal)) (b3a : (⟨S64, .f32⟩ : BufTy).Contents (Elt Ideal)) (W3b : (⟨S64x64, .f32⟩ : BufTy).Contents (Elt Ideal)) (b3b : (⟨S64, .f32⟩ : BufTy).Contents (Elt Ideal)) (g3 : (⟨S64, .f32⟩ : BufTy).Contents (Elt Ideal)) (be3 : (⟨S64, .f32⟩ : BufTy).Contents (Elt Ideal)) (Wf1 : (⟨S64x16, .f32⟩ : BufTy).Contents (Elt Ideal)) (bf1 : (⟨S16, .f32⟩ : BufTy).Contents (Elt Ideal)) (Wf2 : (⟨S16x1, .f32⟩ : BufTy).Contents (Elt Ideal)) (bf2 : (⟨S1, .f32⟩ : BufTy).Contents (Elt Ideal)) (g : Fin 4096) : EReal :=
  headAt (fam2 (A := 4096) (B := 64) (refPool (F := Ideal) (arr2 (A := 100000) (B := 64)
      (layerFolded C eps (aggF128 (refSrc ei) (refDst ei))
        (layerFolded C eps (aggF256 (refSrc ei) (refDst ei))
          (layerFolded C eps (aggF373 (refSrc ei) (refDst ei)) (fam2 (A := 100000) (B := 373) x) (fam2 (A := 373) (B := 256) W1a) (fam1 (A := 256) b1a) (fam2 (A := 256) (B := 256) W1b) (fam1 (A := 256) b1b) (fam1 (A := 256) g1) (fam1 (A := 256) be1))
          (fam2 (A := 256) (B := 128) W2a) (fam1 (A := 128) b2a) (fam2 (A := 128) (B := 128) W2b) (fam1 (A := 128) b2b) (fam1 (A := 128) g2) (fam1 (A := 128) be2))
        (fam2 (A := 128) (B := 64) W3a) (fam1 (A := 64) b3a) (fam2 (A := 64) (B := 64) W3b) (fam1 (A := 64) b3b) (fam1 (A := 64) g3) (fam1 (A := 64) be3))) batch))
    (fam2 (A := 64) (B := 16) Wf1) (fam1 (A := 16) bf1) (fam2 (A := 16) (B := 1) Wf2) (fam1 (A := 1) bf2) g 0

/-- The network with every normalisation centred, at graph `g`. -/
def netCentred (C eps : EReal) (x : (⟨S100000x373, .f32⟩ : BufTy).Contents (Elt Ideal)) (ei : (⟨S2x400000, .i32⟩ : BufTy).Contents (Elt Ideal)) (batch : (⟨S100000, .i32⟩ : BufTy).Contents (Elt Ideal)) (W1a : (⟨S373x256, .f32⟩ : BufTy).Contents (Elt Ideal)) (b1a : (⟨S256, .f32⟩ : BufTy).Contents (Elt Ideal)) (W1b : (⟨S256x256, .f32⟩ : BufTy).Contents (Elt Ideal)) (b1b : (⟨S256, .f32⟩ : BufTy).Contents (Elt Ideal)) (g1 : (⟨S256, .f32⟩ : BufTy).Contents (Elt Ideal)) (be1 : (⟨S256, .f32⟩ : BufTy).Contents (Elt Ideal)) (W2a : (⟨S256x128, .f32⟩ : BufTy).Contents (Elt Ideal)) (b2a : (⟨S128, .f32⟩ : BufTy).Contents (Elt Ideal)) (W2b : (⟨S128x128, .f32⟩ : BufTy).Contents (Elt Ideal)) (b2b : (⟨S128, .f32⟩ : BufTy).Contents (Elt Ideal)) (g2 : (⟨S128, .f32⟩ : BufTy).Contents (Elt Ideal)) (be2 : (⟨S128, .f32⟩ : BufTy).Contents (Elt Ideal)) (W3a : (⟨S128x64, .f32⟩ : BufTy).Contents (Elt Ideal)) (b3a : (⟨S64, .f32⟩ : BufTy).Contents (Elt Ideal)) (W3b : (⟨S64x64, .f32⟩ : BufTy).Contents (Elt Ideal)) (b3b : (⟨S64, .f32⟩ : BufTy).Contents (Elt Ideal)) (g3 : (⟨S64, .f32⟩ : BufTy).Contents (Elt Ideal)) (be3 : (⟨S64, .f32⟩ : BufTy).Contents (Elt Ideal)) (Wf1 : (⟨S64x16, .f32⟩ : BufTy).Contents (Elt Ideal)) (bf1 : (⟨S16, .f32⟩ : BufTy).Contents (Elt Ideal)) (Wf2 : (⟨S16x1, .f32⟩ : BufTy).Contents (Elt Ideal)) (bf2 : (⟨S1, .f32⟩ : BufTy).Contents (Elt Ideal)) (g : Fin 4096) : EReal :=
  headAt (fam2 (A := 4096) (B := 64) (refPool (F := Ideal) (arr2 (A := 100000) (B := 64)
      (layerCentred C eps (aggF128 (refSrc ei) (refDst ei))
        (layerCentred C eps (aggF256 (refSrc ei) (refDst ei))
          (layerCentred C eps (aggF373 (refSrc ei) (refDst ei)) (fam2 (A := 100000) (B := 373) x) (fam2 (A := 373) (B := 256) W1a) (fam1 (A := 256) b1a) (fam2 (A := 256) (B := 256) W1b) (fam1 (A := 256) b1b) (fam1 (A := 256) g1) (fam1 (A := 256) be1))
          (fam2 (A := 256) (B := 128) W2a) (fam1 (A := 128) b2a) (fam2 (A := 128) (B := 128) W2b) (fam1 (A := 128) b2b) (fam1 (A := 128) g2) (fam1 (A := 128) be2))
        (fam2 (A := 128) (B := 64) W3a) (fam1 (A := 64) b3a) (fam2 (A := 64) (B := 64) W3b) (fam1 (A := 64) b3b) (fam1 (A := 64) g3) (fam1 (A := 64) be3))) batch))
    (fam2 (A := 64) (B := 16) Wf1) (fam1 (A := 16) bf1) (fam2 (A := 16) (B := 1) Wf2) (fam1 (A := 1) bf2) g 0

/-- On real float inputs the two arrangements of the network agree (`c` the number of nodes, `ε > 0`). -/
theorem net_eq (c e : ℝ) (hN : ((100000 : ℕ) : ℝ) = c) (hc : c ≠ 0) (he : 0 < e) (x : (⟨S100000x373, .f32⟩ : BufTy).Contents (Elt Ideal)) (ei : (⟨S2x400000, .i32⟩ : BufTy).Contents (Elt Ideal)) (batch : (⟨S100000, .i32⟩ : BufTy).Contents (Elt Ideal)) (W1a : (⟨S373x256, .f32⟩ : BufTy).Contents (Elt Ideal)) (b1a : (⟨S256, .f32⟩ : BufTy).Contents (Elt Ideal)) (W1b : (⟨S256x256, .f32⟩ : BufTy).Contents (Elt Ideal)) (b1b : (⟨S256, .f32⟩ : BufTy).Contents (Elt Ideal)) (g1 : (⟨S256, .f32⟩ : BufTy).Contents (Elt Ideal)) (be1 : (⟨S256, .f32⟩ : BufTy).Contents (Elt Ideal)) (W2a : (⟨S256x128, .f32⟩ : BufTy).Contents (Elt Ideal)) (b2a : (⟨S128, .f32⟩ : BufTy).Contents (Elt Ideal)) (W2b : (⟨S128x128, .f32⟩ : BufTy).Contents (Elt Ideal)) (b2b : (⟨S128, .f32⟩ : BufTy).Contents (Elt Ideal)) (g2 : (⟨S128, .f32⟩ : BufTy).Contents (Elt Ideal)) (be2 : (⟨S128, .f32⟩ : BufTy).Contents (Elt Ideal)) (W3a : (⟨S128x64, .f32⟩ : BufTy).Contents (Elt Ideal)) (b3a : (⟨S64, .f32⟩ : BufTy).Contents (Elt Ideal)) (W3b : (⟨S64x64, .f32⟩ : BufTy).Contents (Elt Ideal)) (b3b : (⟨S64, .f32⟩ : BufTy).Contents (Elt Ideal)) (g3 : (⟨S64, .f32⟩ : BufTy).Contents (Elt Ideal)) (be3 : (⟨S64, .f32⟩ : BufTy).Contents (Elt Ideal)) (Wf1 : (⟨S64x16, .f32⟩ : BufTy).Contents (Elt Ideal)) (bf1 : (⟨S16, .f32⟩ : BufTy).Contents (Elt Ideal)) (Wf2 : (⟨S16x1, .f32⟩ : BufTy).Contents (Elt Ideal)) (bf2 : (⟨S1, .f32⟩ : BufTy).Contents (Elt Ideal))
    (hx : IsReal2 (fam2 (A := 100000) (B := 373) x)) (hW1a : IsReal2 (fam2 (A := 373) (B := 256) W1a)) (hb1a : IsReal1 (fam1 (A := 256) b1a)) (hW1b : IsReal2 (fam2 (A := 256) (B := 256) W1b)) (hb1b : IsReal1 (fam1 (A := 256) b1b)) (hg1 : IsReal1 (fam1 (A := 256) g1)) (hbe1 : IsReal1 (fam1 (A := 256) be1)) (hW2a : IsReal2 (fam2 (A := 256) (B := 128) W2a)) (hb2a : IsReal1 (fam1 (A := 128) b2a)) (hW2b : IsReal2 (fam2 (A := 128) (B := 128) W2b)) (hb2b : IsReal1 (fam1 (A := 128) b2b)) (hg2 : IsReal1 (fam1 (A := 128) g2)) (hbe2 : IsReal1 (fam1 (A := 128) be2)) (hW3a : IsReal2 (fam2 (A := 128) (B := 64) W3a)) (hb3a : IsReal1 (fam1 (A := 64) b3a)) (hW3b : IsReal2 (fam2 (A := 64) (B := 64) W3b)) (hb3b : IsReal1 (fam1 (A := 64) b3b)) (hg3 : IsReal1 (fam1 (A := 64) g3)) (hbe3 : IsReal1 (fam1 (A := 64) be3))
    (g : Fin 4096) :
    netFolded (c : EReal) (e : EReal) x ei batch W1a b1a W1b b1b g1 be1 W2a b2a W2b b2b g2 be2 W3a b3a W3b b3b g3 be3 Wf1 bf1 Wf2 bf2 g = netCentred (c : EReal) (e : EReal) x ei batch W1a b1a W1b b1b g1 be1 W2a b2a W2b b2b g2 be2 W3a b3a W3b b3b g3 be3 Wf1 bf1 Wf2 bf2 g := by
  obtain ⟨e1, r1⟩ := layer_eq c e hN hc he (aggF373_real (refSrc ei) (refDst ei)) hx hW1a hb1a hW1b hb1b hg1 hbe1
  obtain ⟨e2, r2⟩ := layer_eq c e hN hc he (aggF256_real (refSrc ei) (refDst ei)) r1 hW2a hb2a hW2b hb2b hg2 hbe2
  obtain ⟨e3, -⟩ := layer_eq c e hN hc he (aggF128_real (refSrc ei) (refDst ei)) r2 hW3a hb3a hW3b hb3b hg3 hbe3
  unfold netFolded netCentred
  rw [e1, e2, e3]

end Cert.Gin

end
-- ==== Proof.KHost.lean ====
/-
  The host operations of the idealized kernel program, read stretch by stretch over ANY buffer contents `W`: before each
  perceptron region the neighbour aggregation (the same gather and scatter-add the reference runs, so it is stated with the
  reference's term) and the bias vectors re-laid as rows; between a statistics region and its scale-and-shift region the
  folded normalisation's arithmetic, read at a column into `scale = γ · rsqrt (SS/c - (S/c)² + ε)` and
  `shift = β - (S/c) · scale`; before the read-out region the pooling; after it the result column re-laid as a vector.
  A buffer no operation of a stretch writes is unchanged by it.
-/
import proofs.«101558_j53498112639139_1_alg».proof.Proof.Gen.KernelIdeal.Frame
import proofs.«101558_j53498112639139_1_alg».proof.Proof.NetDef
import Idealize.ShloMosaic.Lib.StableHlo.Run
import Idealize.ShloMosaic.Lib.ValueLayout
import Idealize.ShloMosaic.Lib.IdealHost
import Idealize.ShloMosaic.Lib.Pipeline.Value

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo
open Idealize.ShloMosaic.ValueIdx Cert.Gin Cert.ReferenceIdeal.RefRun

/-- The number of nodes as the float literal both programs divide by. -/
abbrev cC : EReal := Ideal.ofBits .f32 0x47C35000#32
/-- The normalisation's `ε` as the float literal both programs add. -/
abbrev cE : EReal := Ideal.ofBits .f32 0x3727C5AC#32

/-- A stretch leaves a buffer it never writes as it found it. -/
macro "host_keep " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

set_option maxHeartbeats 4000000 in
theorem hostOps0_src (W : Valuation τ sig (Elt Ideal)) :
    StableHlo.after (hostOps0 (F := Ideal)) W (Proc.devRef .tc main_v1) = refSrc (F := Ideal) (W (Proc.devRef .tc main_arg1)) := by
  after_results_simp; rfl

set_option maxHeartbeats 4000000 in
theorem hostOps0_dst (W : Valuation τ sig (Elt Ideal)) :
    StableHlo.after (hostOps0 (F := Ideal)) W (Proc.devRef .tc main_v3) = refDst (F := Ideal) (W (Proc.devRef .tc main_arg1)) := by
  after_results_simp; rfl

/-! ## The stretch before the width-373 perceptron region: the neighbour aggregation and the two bias rows -/

set_option maxHeartbeats 4000000 in
theorem hostOps0_agg (W : Valuation τ sig (Elt Ideal)) :
    StableHlo.after (hostOps0 (F := Ideal)) W (Proc.devRef .tc main_v13)
      = refAgg373 (F := Ideal) (W (Proc.devRef .tc main_arg0)) (refSrc (W (Proc.devRef .tc main_arg1))) (refDst (W (Proc.devRef .tc main_arg1))) := by
  after_results_simp; rfl

set_option maxHeartbeats 4000000 in
theorem hostOps0_ba (W : Valuation τ sig (Elt Ideal)) (k : Fin 256) :
    StableHlo.after (hostOps0 (F := Ideal)) W (Proc.devRef .tc main_v14) (ix2 (0 : Fin 1) k) = W (Proc.devRef .tc main_arg4) (ix1 k) := by
  have e : StableHlo.after (hostOps0 (F := Ideal)) W (Proc.devRef .tc main_v14) = (fun i => shapeCast S1x256 (W (Proc.devRef .tc main_arg4)) shapeCasts_S256_S1x256 i) := by
    after_results_simp; rfl
  rw [e]; exact shapeCast_a_1a_apply _ _ _ _

set_option maxHeartbeats 4000000 in
theorem hostOps0_bb (W : Valuation τ sig (Elt Ideal)) (k : Fin 256) :
    StableHlo.after (hostOps0 (F := Ideal)) W (Proc.devRef .tc main_v15) (ix2 (0 : Fin 1) k) = W (Proc.devRef .tc main_arg6) (ix1 k) := by
  have e : StableHlo.after (hostOps0 (F := Ideal)) W (Proc.devRef .tc main_v15) = (fun i => shapeCast S1x256 (W (Proc.devRef .tc main_arg6)) shapeCasts_S256_S1x256 i) := by
    after_results_simp; rfl
  rw [e]; exact shapeCast_a_1a_apply _ _ _ _

/-! ## The stretch before the width-256 perceptron region: the neighbour aggregation and the two bias rows -/

set_option maxHeartbeats 4000000 in
theorem hostOps3_agg (W : Valuation τ sig (Elt Ideal)) :
    StableHlo.after (hostOps3 (F := Ideal)) W (Proc.devRef .tc main_v42)
      = refAgg256 (F := Ideal) (W (Proc.devRef .tc main_v32)) (W (Proc.devRef .tc main_v1)) (W (Proc.devRef .tc main_v3)) := by
  after_results_simp; rfl

set_option maxHeartbeats 4000000 in
theorem hostOps3_ba (W : Valuation τ sig (Elt Ideal)) (k : Fin 128) :
    StableHlo.after (hostOps3 (F := Ideal)) W (Proc.devRef .tc main_v43) (ix2 (0 : Fin 1) k) = W (Proc.devRef .tc main_arg10) (ix1 k) := by
  have e : StableHlo.after (hostOps3 (F := Ideal)) W (Proc.devRef .tc main_v43) = (fun i => shapeCast S1x128 (W (Proc.devRef .tc main_arg10)) shapeCasts_S128_S1x128 i) := by
    after_results_simp; rfl
  rw [e]; exact shapeCast_a_1a_apply _ _ _ _

set_option maxHeartbeats 4000000 in
theorem hostOps3_bb (W : Valuation τ sig (Elt Ideal)) (k : Fin 128) :
    StableHlo.after (hostOps3 (F := Ideal)) W (Proc.devRef .tc main_v44) (ix2 (0 : Fin 1) k) = W (Proc.devRef .tc main_arg12) (ix1 k) := by
  have e : StableHlo.after (hostOps3 (F := Ideal)) W (Proc.devRef .tc main_v44) = (fun i => shapeCast S1x128 (W (Proc.devRef .tc main_arg12)) shapeCasts_S128_S1x128 i) := by
    after_results_simp; rfl
  rw [e]; exact shapeCast_a_1a_apply _ _ _ _

/-! ## The stretch before the width-128 perceptron region: the neighbour aggregation and the two bias rows -/

set_option maxHeartbeats 4000000 in
theorem hostOps6_agg (W : Valuation τ sig (Elt Ideal)) :
    StableHlo.after (hostOps6 (F := Ideal)) W (Proc.devRef .tc main_v71)
      = refAgg128 (F := Ideal) (W (Proc.devRef .tc main_v61)) (W (Proc.devRef .tc main_v1)) (W (Proc.devRef .tc main_v3)) := by
  after_results_simp; rfl

set_option maxHeartbeats 4000000 in
theorem hostOps6_ba (W : Valuation τ sig (Elt Ideal)) (k : Fin 64) :
    StableHlo.after (hostOps6 (F := Ideal)) W (Proc.devRef .tc main_v72) (ix2 (0 : Fin 1) k) = W (Proc.devRef .tc main_arg16) (ix1 k) := by
  have e : StableHlo.after (hostOps6 (F := Ideal)) W (Proc.devRef .tc main_v72) = (fun i => shapeCast S1x64 (W (Proc.devRef .tc main_arg16)) shapeCasts_S64_S1x64 i) := by
    after_results_simp; rfl
  rw [e]; exact shapeCast_a_1a_apply _ _ _ _

set_option maxHeartbeats 4000000 in
theorem hostOps6_bb (W : Valuation τ sig (Elt Ideal)) (k : Fin 64) :
    StableHlo.after (hostOps6 (F := Ideal)) W (Proc.devRef .tc main_v73) (ix2 (0 : Fin 1) k) = W (Proc.devRef .tc main_arg18) (ix1 k) := by
  have e : StableHlo.after (hostOps6 (F := Ideal)) W (Proc.devRef .tc main_v73) = (fun i => shapeCast S1x64 (W (Proc.devRef .tc main_arg18)) shapeCasts_S64_S1x64 i) := by
    after_results_simp; rfl
  rw [e]; exact shapeCast_a_1a_apply _ _ _ _

/-! ## Width 256: the folded normalisation's scale and shift, computed between the statistics region and the scale-and-shift region -/

/-- The scale row `γ · rsqrt (SS / c - (S / c)² + ε)` as the program computes it. -/
def kScale256 (s ss : FVec Ideal S1x256 .f32) (γ : FVec Ideal S256 .f32) : FVec Ideal S1x256 .f32 :=
  mulf (fun i => shapeCast S1x256 γ shapeCasts_S256_S1x256 i)
    (Host.rsqrt (F := Ideal) (addf (subf (Host.divf (F := Ideal) ss (broadcastInDim S1x256 ![] bcast_S_S1x256 (constant (F := Ideal) S_ .f32 0x47C35000#32)))
        (mulf (Host.divf (F := Ideal) s (broadcastInDim S1x256 ![] bcast_S_S1x256 (constant (F := Ideal) S_ .f32 0x47C35000#32)))
          (Host.divf (F := Ideal) s (broadcastInDim S1x256 ![] bcast_S_S1x256 (constant (F := Ideal) S_ .f32 0x47C35000#32)))))
      (broadcastInDim S1x256 ![] bcast_S_S1x256 (constant (F := Ideal) S_ .f32 0x3727C5AC#32))))

/-- The shift row `β - (S / c) · scale` as the program computes it. -/
def kShift256 (s ss : FVec Ideal S1x256 .f32) (γ β : FVec Ideal S256 .f32) : FVec Ideal S1x256 .f32 :=
  subf (fun i => shapeCast S1x256 β shapeCasts_S256_S1x256 i)
    (mulf (Host.divf (F := Ideal) s (broadcastInDim S1x256 ![] bcast_S_S1x256 (constant (F := Ideal) S_ .f32 0x47C35000#32))) (kScale256 s ss γ))

theorem kScale256_at (s ss : FVec Ideal S1x256 .f32) (γ : FVec Ideal S256 .f32) (j : Fin 256) :
    kScale256 s ss γ (ix2 (0 : Fin 1) j)
      = bnScale cC cE (s (ix2 (0 : Fin 1) j)) (ss (ix2 (0 : Fin 1) j)) (γ (ix1 j)) := by
  unfold kScale256 bnScale
  rw [mulf_apply, shapeCast_a_1a_apply]
  rfl

theorem kShift256_at (s ss : FVec Ideal S1x256 .f32) (γ β : FVec Ideal S256 .f32) (j : Fin 256) :
    kShift256 s ss γ β (ix2 (0 : Fin 1) j)
      = bnShift cC cE (s (ix2 (0 : Fin 1) j)) (ss (ix2 (0 : Fin 1) j)) (γ (ix1 j)) (β (ix1 j)) := by
  unfold kShift256 bnShift
  rw [subf_apply, mulf_apply, shapeCast_a_1a_apply, kScale256_at]
  rfl

set_option maxHeartbeats 4000000 in
theorem hostOps2_scale (W : Valuation τ sig (Elt Ideal)) :
    StableHlo.after (hostOps2 (F := Ideal)) W (Proc.devRef .tc main_v28) = kScale256 (W (Proc.devRef .tc main_v17_0)) (W (Proc.devRef .tc main_v17_1)) (W (Proc.devRef .tc main_arg7)) := by
  after_results_simp; rfl

set_option maxHeartbeats 4000000 in
theorem hostOps2_shift (W : Valuation τ sig (Elt Ideal)) :
    StableHlo.after (hostOps2 (F := Ideal)) W (Proc.devRef .tc main_v31) = kShift256 (W (Proc.devRef .tc main_v17_0)) (W (Proc.devRef .tc main_v17_1)) (W (Proc.devRef .tc main_arg7)) (W (Proc.devRef .tc main_arg8)) := by
  after_results_simp; rfl

/-! ## Width 128: the folded normalisation's scale and shift, computed between the statistics region and the scale-and-shift region -/

/-- The scale row `γ · rsqrt (SS / c - (S / c)² + ε)` as the program computes it. -/
def kScale128 (s ss : FVec Ideal S1x128 .f32) (γ : FVec Ideal S128 .f32) : FVec Ideal S1x128 .f32 :=
  mulf (fun i => shapeCast S1x128 γ shapeCasts_S128_S1x128 i)
    (Host.rsqrt (F := Ideal) (addf (subf (Host.divf (F := Ideal) ss (broadcastInDim S1x128 ![] bcast_S_S1x128 (constant (F := Ideal) S_ .f32 0x47C35000#32)))
        (mulf (Host.divf (F := Ideal) s (broadcastInDim S1x128 ![] bcast_S_S1x128 (constant (F := Ideal) S_ .f32 0x47C35000#32)))
          (Host.divf (F := Ideal) s (broadcastInDim S1x128 ![] bcast_S_S1x128 (constant (F := Ideal) S_ .f32 0x47C35000#32)))))
      (broadcastInDim S1x128 ![] bcast_S_S1x128 (constant (F := Ideal) S_ .f32 0x3727C5AC#32))))

/-- The shift row `β - (S / c) · scale` as the program computes it. -/
def kShift128 (s ss : FVec Ideal S1x128 .f32) (γ β : FVec Ideal S128 .f32) : FVec Ideal S1x128 .f32 :=
  subf (fun i => shapeCast S1x128 β shapeCasts_S128_S1x128 i)
    (mulf (Host.divf (F := Ideal) s (broadcastInDim S1x128 ![] bcast_S_S1x128 (constant (F := Ideal) S_ .f32 0x47C35000#32))) (kScale128 s ss γ))

theorem kScale128_at (s ss : FVec Ideal S1x128 .f32) (γ : FVec Ideal S128 .f32) (j : Fin 128) :
    kScale128 s ss γ (ix2 (0 : Fin 1) j)
      = bnScale cC cE (s (ix2 (0 : Fin 1) j)) (ss (ix2 (0 : Fin 1) j)) (γ (ix1 j)) := by
  unfold kScale128 bnScale
  rw [mulf_apply, shapeCast_a_1a_apply]
  rfl

theorem kShift128_at (s ss : FVec Ideal S1x128 .f32) (γ β : FVec Ideal S128 .f32) (j : Fin 128) :
    kShift128 s ss γ β (ix2 (0 : Fin 1) j)
      = bnShift cC cE (s (ix2 (0 : Fin 1) j)) (ss (ix2 (0 : Fin 1) j)) (γ (ix1 j)) (β (ix1 j)) := by
  unfold kShift128 bnShift
  rw [subf_apply, mulf_apply, shapeCast_a_1a_apply, kScale128_at]
  rfl

set_option maxHeartbeats 4000000 in
theorem hostOps5_scale (W : Valuation τ sig (Elt Ideal)) :
    StableHlo.after (hostOps5 (F := Ideal)) W (Proc.devRef .tc main_v57) = kScale128 (W (Proc.devRef .tc main_v46_0)) (W (Proc.devRef .tc main_v46_1)) (W (Proc.devRef .tc main_arg13)) := by
  after_results_simp; rfl

set_option maxHeartbeats 4000000 in
theorem hostOps5_shift (W : Valuation τ sig (Elt Ideal)) :
    StableHlo.after (hostOps5 (F := Ideal)) W (Proc.devRef .tc main_v60) = kShift128 (W (Proc.devRef .tc main_v46_0)) (W (Proc.devRef .tc main_v46_1)) (W (Proc.devRef .tc main_arg13)) (W (Proc.devRef .tc main_arg14)) := by
  after_results_simp; rfl

/-! ## Width 64: the folded normalisation's scale and shift, computed between the statistics region and the scale-and-shift region -/

/-- The scale row `γ · rsqrt (SS / c - (S / c)² + ε)` as the program computes it. -/
def kScale64 (s ss : FVec Ideal S1x64 .f32) (γ : FVec Ideal S64 .f32) : FVec Ideal S1x64 .f32 :=
  mulf (fun i => shapeCast S1x64 γ shapeCasts_S64_S1x64 i)
    (Host.rsqrt (F := Ideal) (addf (subf (Host.divf (F := Ideal) ss (broadcastInDim S1x64 ![] bcast_S_S1x64 (constant (F := Ideal) S_ .f32 0x47C35000#32)))
        (mulf (Host.divf (F := Ideal) s (broadcastInDim S1x64 ![] bcast_S_S1x64 (constant (F := Ideal) S_ .f32 0x47C35000#32)))
          (Host.divf (F := Ideal) s (broadcastInDim S1x64 ![] bcast_S_S1x64 (constant (F := Ideal) S_ .f32 0x47C35000#32)))))
      (broadcastInDim S1x64 ![] bcast_S_S1x64 (constant (F := Ideal) S_ .f32 0x3727C5AC#32))))

/-- The shift row `β - (S / c) · scale` as the program computes it. -/
def kShift64 (s ss : FVec Ideal S1x64 .f32) (γ β : FVec Ideal S64 .f32) : FVec Ideal S1x64 .f32 :=
  subf (fun i => shapeCast S1x64 β shapeCasts_S64_S1x64 i)
    (mulf (Host.divf (F := Ideal) s (broadcastInDim S1x64 ![] bcast_S_S1x64 (constant (F := Ideal) S_ .f32 0x47C35000#32))) (kScale64 s ss γ))

theorem kScale64_at (s ss : FVec Ideal S1x64 .f32) (γ : FVec Ideal S64 .f32) (j : Fin 64) :
    kScale64 s ss γ (ix2 (0 : Fin 1) j)
      = bnScale cC cE (s (ix2 (0 : Fin 1) j)) (ss (ix2 (0 : Fin 1) j)) (γ (ix1 j)) := by
  unfold kScale64 bnScale
  rw [mulf_apply, shapeCast_a_1a_apply]
  rfl

theorem kShift64_at (s ss : FVec Ideal S1x64 .f32) (γ β : FVec Ideal S64 .f32) (j : Fin 64) :
    kShift64 s ss γ β (ix2 (0 : Fin 1) j)
      = bnShift cC cE (s (ix2 (0 : Fin 1) j)) (ss (ix2 (0 : Fin 1) j)) (γ (ix1 j)) (β (ix1 j)) := by
  unfold kShift64 bnShift
  rw [subf_apply, mulf_apply, shapeCast_a_1a_apply, kScale64_at]
  rfl

set_option maxHeartbeats 4000000 in
theorem hostOps8_scale (W : Valuation τ sig (Elt Ideal)) :
    StableHlo.after (hostOps8 (F := Ideal)) W (Proc.devRef .tc main_v86) = kScale64 (W (Proc.devRef .tc main_v75_0)) (W (Proc.devRef .tc main_v75_1)) (W (Proc.devRef .tc main_arg19)) := by
  after_results_simp; rfl

set_option maxHeartbeats 4000000 in
theorem hostOps8_shift (W : Valuation τ sig (Elt Ideal)) :
    StableHlo.after (hostOps8 (F := Ideal)) W (Proc.devRef .tc main_v89) = kShift64 (W (Proc.devRef .tc main_v75_0)) (W (Proc.devRef .tc main_v75_1)) (W (Proc.devRef .tc main_arg19)) (W (Proc.devRef .tc main_arg20)) := by
  after_results_simp; rfl

/-! ## The stretch before the read-out region: the pooling and the two bias rows; and the stretch after it -/

set_option maxHeartbeats 4000000 in
theorem hostOps9_pool (W : Valuation τ sig (Elt Ideal)) :
    StableHlo.after (hostOps9 (F := Ideal)) W (Proc.devRef .tc main_v93) = refPool (F := Ideal) (W (Proc.devRef .tc main_v90)) (W (Proc.devRef .tc main_arg2)) := by
  after_results_simp; rfl

set_option maxHeartbeats 4000000 in
theorem hostOps9_ba (W : Valuation τ sig (Elt Ideal)) (k : Fin 16) :
    StableHlo.after (hostOps9 (F := Ideal)) W (Proc.devRef .tc main_v94) (ix2 (0 : Fin 1) k) = W (Proc.devRef .tc main_arg22) (ix1 k) := by
  have e : StableHlo.after (hostOps9 (F := Ideal)) W (Proc.devRef .tc main_v94) = (fun i => shapeCast S1x16 (W (Proc.devRef .tc main_arg22)) shapeCasts_S16_S1x16 i) := by
    after_results_simp; rfl
  rw [e]; exact shapeCast_a_1a_apply _ _ _ _

set_option maxHeartbeats 4000000 in
theorem hostOps9_bb (W : Valuation τ sig (Elt Ideal)) (k : Fin 1) :
    StableHlo.after (hostOps9 (F := Ideal)) W (Proc.devRef .tc main_v95) (ix2 (0 : Fin 1) k) = W (Proc.devRef .tc main_arg24) (ix1 k) := by
  have e : StableHlo.after (hostOps9 (F := Ideal)) W (Proc.devRef .tc main_v95) = (fun i => shapeCast S1x1 (W (Proc.devRef .tc main_arg24)) shapeCasts_S1_S1x1 i) := by
    after_results_simp; rfl
  rw [e]; exact shapeCast_a_1a_apply _ _ _ _

/-- The result column `[4096, 1]` re-laid as a vector reads, at `g`, the column's entry `(g, 0)`. -/
theorem hostOps10_out (W : Valuation τ sig (Elt Ideal)) (g : Fin 4096) :
    StableHlo.after (hostOps10 (F := Ideal)) W (Proc.devRef .tc main_v97) (ix1 g) = W (Proc.devRef .tc main_v96) (ix2 g (0 : Fin 1)) := by
  have e : StableHlo.after (hostOps10 (F := Ideal)) W (Proc.devRef .tc main_v97) = (fun i => shapeCast S4096 (W (Proc.devRef .tc main_v96)) shapeCasts_S4096x1_S4096 i) := by
    after_results_simp; rfl
  rw [e]
  exact shapeCast_apply _ _ _ _ (by
    show ((⟨2, ![4096, 1]⟩ : Shape).rowMajor (ix2 g (0 : Fin 1))).val = ((⟨1, ![4096]⟩ : Shape).rowMajor (ix1 g)).val
    rw [Shape.rowMajor_val_two, Shape.rowMajor_val_one]
    show g.val * 1 + 0 = g.val
    omega)

end Cert.KernelIdeal.KHost

end
-- ==== Proof.PreReal.lean ====
/-
  From the printed precondition to "every float input entry is a real number".

  The precondition computes, for each float input x, the test all(|x| < +inf) as an and-reduction of
  the elementwise comparison, and ands the 23 results. At the ideal interpretation floats are extended
  reals, |x| is max x (-x) and the pattern 0x7F800000 denotes the top element; so the test being 1 says
  that every entry lies strictly between the two infinities, hence is a real number.
-/
import proofs.«101558_j53498112639139_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.PreReal

open Idealize.ShloMosaic Cert.Pre_finite_inputs

/-- The rank-0 shape has one index. -/
instance subsingleton_S_Idx : Subsingleton S_.Idx := ⟨fun a b => funext fun d => d.elim0⟩

/-- An extended real whose absolute value max x (-x) lies strictly below the top element is a real. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 denotes the top element. -/
theorem inf_bits : Ideal.ofBits .f32 0x7F800000#32 = (⊤ : EReal) := by
  simp [Ideal.ofBits, Ideal.ieee]

/-- One test all(|x| < +inf) that came out 1: every entry of x is a real number. -/
theorem real_of_all {s : Shape} (x : FVec Ideal s .f32)
    (bc : S_.BroadcastsInDim s (![] : Fin 0 → Fin s.rank)) {axes : List (Fin s.rank)}
    (h : s.ReducesTo axes S_) (hS : 0 < S_.numel)
    (e : Host.reduce IntOp.andi
      (cmpf .olt (Host.absf x) (broadcastInDim s ![] bc (constant S_ .f32 0x7F800000#32)))
      (constantI S_ 1 1#1) h hS ValueIdx.ix0 = 1#1) :
    ∀ i, ∃ r : ℝ, x i = (r : EReal) := by
  intro i
  have hi := Host.reduce_andi_all _ _ h hS ValueIdx.ix0 e i
  have hlt : max (x i) (-(x i)) < (⊤ : EReal) := by
    have h2 : Ideal.cmp .olt (max (x i) (-(x i))) (Ideal.ofBits .f32 0x7F800000#32) = 1#1 := hi
    rw [inf_bits] at h2
    have h3 : BitVec.ofBool (decide (max (x i) (-(x i)) < (⊤ : EReal))) = 1#1 := h2
    by_contra hn
    rw [decide_eq_false hn] at h3
    exact absurd h3 (by decide)
  exact real_of_abs_lt_top _ hlt

/-- The precondition at the ideal interpretation: every entry of every float input is a real number. -/
theorem real_of_pre (a0 : FVec Ideal S100000x373 .f32) (a1 : IVec S2x400000 32) (a2 : IVec S100000 32) (a3 : FVec Ideal S373x256 .f32) (a4 : FVec Ideal S256 .f32) (a5 : FVec Ideal S256x256 .f32) (a6 : FVec Ideal S256 .f32) (a7 : FVec Ideal S256 .f32) (a8 : FVec Ideal S256 .f32) (a9 : FVec Ideal S256x128 .f32) (a10 : FVec Ideal S128 .f32) (a11 : FVec Ideal S128x128 .f32) (a12 : FVec Ideal S128 .f32) (a13 : FVec Ideal S128 .f32) (a14 : FVec Ideal S128 .f32) (a15 : FVec Ideal S128x64 .f32) (a16 : FVec Ideal S64 .f32) (a17 : FVec Ideal S64x64 .f32) (a18 : FVec Ideal S64 .f32) (a19 : FVec Ideal S64 .f32) (a20 : FVec Ideal S64 .f32) (a21 : FVec Ideal S64x16 .f32) (a22 : FVec Ideal S16 .f32) (a23 : FVec Ideal S16x1 .f32) (a24 : FVec Ideal S1 .f32)
    (h : Cert.Pre_finite_inputs.fn (F := Ideal) a0 a1 a2 a3 a4 a5 a6 a7 a8 a9 a10 a11 a12 a13 a14 a15 a16 a17 a18 a19 a20 a21 a22 a23 a24 = (fun _ => 1#1)) :
    (∀ i, ∃ r : ℝ, a0 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, ∃ r : ℝ, a9 i = (r : EReal)) ∧
    (∀ i, ∃ r : ℝ, a10 i = (r : EReal)) ∧
    (∀ i, ∃ r : ℝ, a11 i = (r : EReal)) ∧
    (∀ i, ∃ r : ℝ, a12 i = (r : EReal)) ∧
    (∀ i, ∃ r : ℝ, a13 i = (r : EReal)) ∧
    (∀ i, ∃ r : ℝ, a14 i = (r : EReal)) ∧
    (∀ i, ∃ r : ℝ, a15 i = (r : EReal)) ∧
    (∀ i, ∃ r : ℝ, a16 i = (r : EReal)) ∧
    (∀ i, ∃ r : ℝ, a17 i = (r : EReal)) ∧
    (∀ i, ∃ r : ℝ, a18 i = (r : EReal)) ∧
    (∀ i, ∃ r : ℝ, a19 i = (r : EReal)) ∧
    (∀ i, ∃ r : ℝ, a20 i = (r : EReal)) ∧
    (∀ i, ∃ r : ℝ, a21 i = (r : EReal)) ∧
    (∀ i, ∃ r : ℝ, a22 i = (r : EReal)) ∧
    (∀ i, ∃ r : ℝ, a23 i = (r : EReal)) ∧
    (∀ i, ∃ r : ℝ, a24 i = (r : EReal)) := by
  have e := congrFun h ValueIdx.ix0
  dsimp only [fn, fn_part1, fn_part2, fn_part3, fn_part4, fn_part5, fn_part6, Idealize.ShloMosaic.andi] at e
  simp only [IntOp.andi_eq_one, and_assoc] at e
  obtain ⟨h0, h3, h4, h5, h6, h7, h8, h9, h10, h11, h12, h13, h14, h15, h16, h17, h18, h19, h20, h21, h22, h23, h24⟩ := e
  exact ⟨real_of_all a0 _ _ _ h0,
    real_of_all a3 _ _ _ h3,
    real_of_all a4 _ _ _ h4,
    real_of_all a5 _ _ _ h5,
    real_of_all a6 _ _ _ h6,
    real_of_all a7 _ _ _ h7,
    real_of_all a8 _ _ _ h8,
    real_of_all a9 _ _ _ h9,
    real_of_all a10 _ _ _ h10,
    real_of_all a11 _ _ _ h11,
    real_of_all a12 _ _ _ h12,
    real_of_all a13 _ _ _ h13,
    real_of_all a14 _ _ _ h14,
    real_of_all a15 _ _ _ h15,
    real_of_all a16 _ _ _ h16,
    real_of_all a17 _ _ _ h17,
    real_of_all a18 _ _ _ h18,
    real_of_all a19 _ _ _ h19,
    real_of_all a20 _ _ _ h20,
    real_of_all a21 _ _ _ h21,
    real_of_all a22 _ _ _ h22,
    real_of_all a23 _ _ _ h23,
    real_of_all a24 _ _ _ h24⟩

end Cert.Pre_finite_inputs.PreReal
-- ==== Proof.PreFam.lean ====
/-
  The precondition at a memory, read as facts about families: every float input the network's law takes
  (the node features and the three layers' weights, biases and normalisation parameters), seen as a family
  of its entries, is a family of real numbers.
-/
import proofs.«101558_j53498112639139_1_alg».proof.Defs
import proofs.«101558_j53498112639139_1_alg».proof.Proof.PreReal
import proofs.«101558_j53498112639139_1_alg».proof.Proof.NetDef
import proofs.«101558_j53498112639139_1_alg».proof.Proof.Gen.Pre_finite_inputs

noncomputable section

namespace Cert.Proof.PreFam

open Idealize.ShloMosaic Idealize.ShloMosaic.ValueIdx Idealize.SL.Sem

/-- Under the precondition every float input of the three layers is, as a family of entries, real. -/
theorem reals (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Gin.IsReal2 (Cert.Gin.fam2 (A := 100000) (B := 373) (m ((c.tc : Thread Cert.KernelIdeal.nD Cert.KernelIdeal.τ).loc Cert.KernelIdeal.main_arg0))) ∧
    Cert.Gin.IsReal2 (Cert.Gin.fam2 (A := 373) (B := 256) (m ((c.tc : Thread Cert.KernelIdeal.nD Cert.KernelIdeal.τ).loc Cert.KernelIdeal.main_arg3))) ∧
    Cert.Gin.IsReal1 (Cert.Gin.fam1 (A := 256) (m ((c.tc : Thread Cert.KernelIdeal.nD Cert.KernelIdeal.τ).loc Cert.KernelIdeal.main_arg4))) ∧
    Cert.Gin.IsReal2 (Cert.Gin.fam2 (A := 256) (B := 256) (m ((c.tc : Thread Cert.KernelIdeal.nD Cert.KernelIdeal.τ).loc Cert.KernelIdeal.main_arg5))) ∧
    Cert.Gin.IsReal1 (Cert.Gin.fam1 (A := 256) (m ((c.tc : Thread Cert.KernelIdeal.nD Cert.KernelIdeal.τ).loc Cert.KernelIdeal.main_arg6))) ∧
    Cert.Gin.IsReal1 (Cert.Gin.fam1 (A := 256) (m ((c.tc : Thread Cert.KernelIdeal.nD Cert.KernelIdeal.τ).loc Cert.KernelIdeal.main_arg7))) ∧
    Cert.Gin.IsReal1 (Cert.Gin.fam1 (A := 256) (m ((c.tc : Thread Cert.KernelIdeal.nD Cert.KernelIdeal.τ).loc Cert.KernelIdeal.main_arg8))) ∧
    Cert.Gin.IsReal2 (Cert.Gin.fam2 (A := 256) (B := 128) (m ((c.tc : Thread Cert.KernelIdeal.nD Cert.KernelIdeal.τ).loc Cert.KernelIdeal.main_arg9))) ∧
    Cert.Gin.IsReal1 (Cert.Gin.fam1 (A := 128) (m ((c.tc : Thread Cert.KernelIdeal.nD Cert.KernelIdeal.τ).loc Cert.KernelIdeal.main_arg10))) ∧
    Cert.Gin.IsReal2 (Cert.Gin.fam2 (A := 128) (B := 128) (m ((c.tc : Thread Cert.KernelIdeal.nD Cert.KernelIdeal.τ).loc Cert.KernelIdeal.main_arg11))) ∧
    Cert.Gin.IsReal1 (Cert.Gin.fam1 (A := 128) (m ((c.tc : Thread Cert.KernelIdeal.nD Cert.KernelIdeal.τ).loc Cert.KernelIdeal.main_arg12))) ∧
    Cert.Gin.IsReal1 (Cert.Gin.fam1 (A := 128) (m ((c.tc : Thread Cert.KernelIdeal.nD Cert.KernelIdeal.τ).loc Cert.KernelIdeal.main_arg13))) ∧
    Cert.Gin.IsReal1 (Cert.Gin.fam1 (A := 128) (m ((c.tc : Thread Cert.KernelIdeal.nD Cert.KernelIdeal.τ).loc Cert.KernelIdeal.main_arg14))) ∧
    Cert.Gin.IsReal2 (Cert.Gin.fam2 (A := 128) (B := 64) (m ((c.tc : Thread Cert.KernelIdeal.nD Cert.KernelIdeal.τ).loc Cert.KernelIdeal.main_arg15))) ∧
    Cert.Gin.IsReal1 (Cert.Gin.fam1 (A := 64) (m ((c.tc : Thread Cert.KernelIdeal.nD Cert.KernelIdeal.τ).loc Cert.KernelIdeal.main_arg16))) ∧
    Cert.Gin.IsReal2 (Cert.Gin.fam2 (A := 64) (B := 64) (m ((c.tc : Thread Cert.KernelIdeal.nD Cert.KernelIdeal.τ).loc Cert.KernelIdeal.main_arg17))) ∧
    Cert.Gin.IsReal1 (Cert.Gin.fam1 (A := 64) (m ((c.tc : Thread Cert.KernelIdeal.nD Cert.KernelIdeal.τ).loc Cert.KernelIdeal.main_arg18))) ∧
    Cert.Gin.IsReal1 (Cert.Gin.fam1 (A := 64) (m ((c.tc : Thread Cert.KernelIdeal.nD Cert.KernelIdeal.τ).loc Cert.KernelIdeal.main_arg19))) ∧
    Cert.Gin.IsReal1 (Cert.Gin.fam1 (A := 64) (m ((c.tc : Thread Cert.KernelIdeal.nD Cert.KernelIdeal.τ).loc Cert.KernelIdeal.main_arg20))) := by
  obtain ⟨p0, p3, p4, p5, p6, p7, p8, p9, p10, p11, p12, p13, p14, p15, p16, p17, p18, p19, p20, p21, p22, p23, p24⟩ :=
    Cert.Pre_finite_inputs.PreReal.real_of_pre _ _ _ _ _ _ _ _ _ _ _ _ _ _ _ _ _ _ _ _ _ _ _ _ _ (h c)
  exact ⟨Cert.Gin.isReal2_of_forall fun i j => p0 _,
    Cert.Gin.isReal2_of_forall fun i j => p3 _,
    Cert.Gin.isReal1_of_forall fun i => p4 _,
    Cert.Gin.isReal2_of_forall fun i j => p5 _,
    Cert.Gin.isReal1_of_forall fun i => p6 _,
    Cert.Gin.isReal1_of_forall fun i => p7 _,
    Cert.Gin.isReal1_of_forall fun i => p8 _,
    Cert.Gin.isReal2_of_forall fun i j => p9 _,
    Cert.Gin.isReal1_of_forall fun i => p10 _,
    Cert.Gin.isReal2_of_forall fun i j => p11 _,
    Cert.Gin.isReal1_of_forall fun i => p12 _,
    Cert.Gin.isReal1_of_forall fun i => p13 _,
    Cert.Gin.isReal1_of_forall fun i => p14 _,
    Cert.Gin.isReal2_of_forall fun i j => p15 _,
    Cert.Gin.isReal1_of_forall fun i => p16 _,
    Cert.Gin.isReal2_of_forall fun i j => p17 _,
    Cert.Gin.isReal1_of_forall fun i => p18 _,
    Cert.Gin.isReal1_of_forall fun i => p19 _,
    Cert.Gin.isReal1_of_forall fun i => p20 _⟩

end Cert.Proof.PreFam
-- ==== Proof.KCarry.lean ====
/-
  A buffer that nothing writes between two boundaries of the kernel program holds the same contents at both: a stretch of
  host operations leaves alone every buffer none of its operations writes, a region leaves alone every buffer that is not one
  of its arrays, and an input array of a region is left as the region found it.
-/
import proofs.«101558_j53498112639139_1_alg».proof.Proof.KHost

set_option maxRecDepth 16384

noncomputable section

namespace Cert.KernelIdeal.KCarry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem carry_main_arg7_3 : W3 m ρ c (Proc.devRef .tc main_arg7) = W0 m ρ c (Proc.devRef .tc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by host_keep hostOps0

theorem carry_main_arg8_3 : W3 m ρ c (Proc.devRef .tc main_arg8) = W0 m ρ c (Proc.devRef .tc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by host_keep hostOps0

theorem carry_main_v1_5 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := by host_keep hostOps2
    _ = W2 m ρ c (Proc.devRef .tc main_v1) := W3_of_ne m ρ c main_v1 (by decide)
    _ = W1 m ρ c (Proc.devRef .tc main_v1) := W2_of_ne m ρ c main_v1 (by decide)

theorem carry_main_v3_5 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := by host_keep hostOps2
    _ = W2 m ρ c (Proc.devRef .tc main_v3) := W3_of_ne m ρ c main_v3 (by decide)
    _ = W1 m ρ c (Proc.devRef .tc main_v3) := W2_of_ne m ρ c main_v3 (by decide)

theorem carry_main_arg10_5 : W5 m ρ c (Proc.devRef .tc main_arg10) = W0 m ρ c (Proc.devRef .tc main_arg10) :=
  calc W5 m ρ c (Proc.devRef .tc main_arg10)
    _ = W4 m ρ c (Proc.devRef .tc main_arg10) := W5_of_ne m ρ c main_arg10 (by decide)
    _ = W3 m ρ c (Proc.devRef .tc main_arg10) := by host_keep hostOps2
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by host_keep hostOps0

theorem carry_main_arg12_5 : W5 m ρ c (Proc.devRef .tc main_arg12) = W0 m ρ c (Proc.devRef .tc main_arg12) :=
  calc W5 m ρ c (Proc.devRef .tc main_arg12)
    _ = W4 m ρ c (Proc.devRef .tc main_arg12) := W5_of_ne m ρ c main_arg12 (by decide)
    _ = W3 m ρ c (Proc.devRef .tc main_arg12) := by host_keep hostOps2
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := by host_keep hostOps0

theorem carry_main_arg9_6 : W6 m ρ c (Proc.devRef .tc main_arg9) = W0 m ρ c (Proc.devRef .tc main_arg9) :=
  calc W6 m ρ c (Proc.devRef .tc main_arg9)
    _ = W5 m ρ c (Proc.devRef .tc main_arg9) := by host_keep hostOps3
    _ = W4 m ρ c (Proc.devRef .tc main_arg9) := W5_of_ne m ρ c main_arg9 (by decide)
    _ = W3 m ρ c (Proc.devRef .tc main_arg9) := by host_keep hostOps2
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by host_keep hostOps0

theorem carry_main_arg11_6 : W6 m ρ c (Proc.devRef .tc main_arg11) = W0 m ρ c (Proc.devRef .tc main_arg11) :=
  calc W6 m ρ c (Proc.devRef .tc main_arg11)
    _ = W5 m ρ c (Proc.devRef .tc main_arg11) := by host_keep hostOps3
    _ = W4 m ρ c (Proc.devRef .tc main_arg11) := W5_of_ne m ρ c main_arg11 (by decide)
    _ = W3 m ρ c (Proc.devRef .tc main_arg11) := by host_keep hostOps2
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by host_keep hostOps0

theorem carry_main_v32_6 : W6 m ρ c (Proc.devRef .tc main_v32) = W5 m ρ c (Proc.devRef .tc main_v32) :=
  calc W6 m ρ c (Proc.devRef .tc main_v32)
    _ = W5 m ρ c (Proc.devRef .tc main_v32) := by host_keep hostOps3

theorem carry_main_arg13_8 : W8 m ρ c (Proc.devRef .tc main_arg13) = W0 m ρ c (Proc.devRef .tc main_arg13) :=
  calc W8 m ρ c (Proc.devRef .tc main_arg13)
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := by host_keep hostOps3
    _ = W4 m ρ c (Proc.devRef .tc main_arg13) := W5_of_ne m ρ c main_arg13 (by decide)
    _ = W3 m ρ c (Proc.devRef .tc main_arg13) := by host_keep hostOps2
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by host_keep hostOps0

theorem carry_main_arg14_8 : W8 m ρ c (Proc.devRef .tc main_arg14) = W0 m ρ c (Proc.devRef .tc main_arg14) :=
  calc W8 m ρ c (Proc.devRef .tc main_arg14)
    _ = W7 m ρ c (Proc.devRef .tc main_arg14) := W8_of_ne m ρ c main_arg14 (by decide)
    _ = W6 m ρ c (Proc.devRef .tc main_arg14) := W7_of_ne m ρ c main_arg14 (by decide)
    _ = W5 m ρ c (Proc.devRef .tc main_arg14) := by host_keep hostOps3
    _ = W4 m ρ c (Proc.devRef .tc main_arg14) := W5_of_ne m ρ c main_arg14 (by decide)
    _ = W3 m ρ c (Proc.devRef .tc main_arg14) := by host_keep hostOps2
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := by host_keep hostOps0

theorem carry_main_v1_10 : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := by host_keep hostOps5
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := by host_keep hostOps3
    _ = W4 m ρ c (Proc.devRef .tc main_v1) := W5_of_ne m ρ c main_v1 (by decide)
    _ = W3 m ρ c (Proc.devRef .tc main_v1) := by host_keep hostOps2
    _ = W2 m ρ c (Proc.devRef .tc main_v1) := W3_of_ne m ρ c main_v1 (by decide)
    _ = W1 m ρ c (Proc.devRef .tc main_v1) := W2_of_ne m ρ c main_v1 (by decide)

theorem carry_main_v3_10 : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keep hostOps5
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by host_keep hostOps3
    _ = W4 m ρ c (Proc.devRef .tc main_v3) := W5_of_ne m ρ c main_v3 (by decide)
    _ = W3 m ρ c (Proc.devRef .tc main_v3) := by host_keep hostOps2
    _ = W2 m ρ c (Proc.devRef .tc main_v3) := W3_of_ne m ρ c main_v3 (by decide)
    _ = W1 m ρ c (Proc.devRef .tc main_v3) := W2_of_ne m ρ c main_v3 (by decide)

theorem carry_main_arg16_10 : W10 m ρ c (Proc.devRef .tc main_arg16) = W0 m ρ c (Proc.devRef .tc main_arg16) :=
  calc W10 m ρ c (Proc.devRef .tc main_arg16)
    _ = W9 m ρ c (Proc.devRef .tc main_arg16) := W10_of_ne m ρ c main_arg16 (by decide)
    _ = W8 m ρ c (Proc.devRef .tc main_arg16) := by host_keep hostOps5
    _ = W7 m ρ c (Proc.devRef .tc main_arg16) := W8_of_ne m ρ c main_arg16 (by decide)
    _ = W6 m ρ c (Proc.devRef .tc main_arg16) := W7_of_ne m ρ c main_arg16 (by decide)
    _ = W5 m ρ c (Proc.devRef .tc main_arg16) := by host_keep hostOps3
    _ = W4 m ρ c (Proc.devRef .tc main_arg16) := W5_of_ne m ρ c main_arg16 (by decide)
    _ = W3 m ρ c (Proc.devRef .tc main_arg16) := by host_keep hostOps2
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := by host_keep hostOps0

theorem carry_main_arg18_10 : W10 m ρ c (Proc.devRef .tc main_arg18) = W0 m ρ c (Proc.devRef .tc main_arg18) :=
  calc W10 m ρ c (Proc.devRef .tc main_arg18)
    _ = W9 m ρ c (Proc.devRef .tc main_arg18) := W10_of_ne m ρ c main_arg18 (by decide)
    _ = W8 m ρ c (Proc.devRef .tc main_arg18) := by host_keep hostOps5
    _ = W7 m ρ c (Proc.devRef .tc main_arg18) := W8_of_ne m ρ c main_arg18 (by decide)
    _ = W6 m ρ c (Proc.devRef .tc main_arg18) := W7_of_ne m ρ c main_arg18 (by decide)
    _ = W5 m ρ c (Proc.devRef .tc main_arg18) := by host_keep hostOps3
    _ = W4 m ρ c (Proc.devRef .tc main_arg18) := W5_of_ne m ρ c main_arg18 (by decide)
    _ = W3 m ρ c (Proc.devRef .tc main_arg18) := by host_keep hostOps2
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := by host_keep hostOps0

theorem carry_main_arg15_11 : W11 m ρ c (Proc.devRef .tc main_arg15) = W0 m ρ c (Proc.devRef .tc main_arg15) :=
  calc W11 m ρ c (Proc.devRef .tc main_arg15)
    _ = W10 m ρ c (Proc.devRef .tc main_arg15) := by host_keep hostOps6
    _ = W9 m ρ c (Proc.devRef .tc main_arg15) := W10_of_ne m ρ c main_arg15 (by decide)
    _ = W8 m ρ c (Proc.devRef .tc main_arg15) := by host_keep hostOps5
    _ = W7 m ρ c (Proc.devRef .tc main_arg15) := W8_of_ne m ρ c main_arg15 (by decide)
    _ = W6 m ρ c (Proc.devRef .tc main_arg15) := W7_of_ne m ρ c main_arg15 (by decide)
    _ = W5 m ρ c (Proc.devRef .tc main_arg15) := by host_keep hostOps3
    _ = W4 m ρ c (Proc.devRef .tc main_arg15) := W5_of_ne m ρ c main_arg15 (by decide)
    _ = W3 m ρ c (Proc.devRef .tc main_arg15) := by host_keep hostOps2
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := by host_keep hostOps0

theorem carry_main_arg17_11 : W11 m ρ c (Proc.devRef .tc main_arg17) = W0 m ρ c (Proc.devRef .tc main_arg17) :=
  calc W11 m ρ c (Proc.devRef .tc main_arg17)
    _ = W10 m ρ c (Proc.devRef .tc main_arg17) := by host_keep hostOps6
    _ = W9 m ρ c (Proc.devRef .tc main_arg17) := W10_of_ne m ρ c main_arg17 (by decide)
    _ = W8 m ρ c (Proc.devRef .tc main_arg17) := by host_keep hostOps5
    _ = W7 m ρ c (Proc.devRef .tc main_arg17) := W8_of_ne m ρ c main_arg17 (by decide)
    _ = W6 m ρ c (Proc.devRef .tc main_arg17) := W7_of_ne m ρ c main_arg17 (by decide)
    _ = W5 m ρ c (Proc.devRef .tc main_arg17) := by host_keep hostOps3
    _ = W4 m ρ c (Proc.devRef .tc main_arg17) := W5_of_ne m ρ c main_arg17 (by decide)
    _ = W3 m ρ c (Proc.devRef .tc main_arg17) := by host_keep hostOps2
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := by host_keep hostOps0

theorem carry_main_v61_11 : W11 m ρ c (Proc.devRef .tc main_v61) = W10 m ρ c (Proc.devRef .tc main_v61) :=
  calc W11 m ρ c (Proc.devRef .tc main_v61)
    _ = W10 m ρ c (Proc.devRef .tc main_v61) := by host_keep hostOps6

theorem carry_main_arg19_13 : W13 m ρ c (Proc.devRef .tc main_arg19) = W0 m ρ c (Proc.devRef .tc main_arg19) :=
  calc W13 m ρ c (Proc.devRef .tc main_arg19)
    _ = W12 m ρ c (Proc.devRef .tc main_arg19) := W13_of_ne m ρ c main_arg19 (by decide)
    _ = W11 m ρ c (Proc.devRef .tc main_arg19) := W12_of_ne m ρ c main_arg19 (by decide)
    _ = W10 m ρ c (Proc.devRef .tc main_arg19) := by host_keep hostOps6
    _ = W9 m ρ c (Proc.devRef .tc main_arg19) := W10_of_ne m ρ c main_arg19 (by decide)
    _ = W8 m ρ c (Proc.devRef .tc main_arg19) := by host_keep hostOps5
    _ = W7 m ρ c (Proc.devRef .tc main_arg19) := W8_of_ne m ρ c main_arg19 (by decide)
    _ = W6 m ρ c (Proc.devRef .tc main_arg19) := W7_of_ne m ρ c main_arg19 (by decide)
    _ = W5 m ρ c (Proc.devRef .tc main_arg19) := by host_keep hostOps3
    _ = W4 m ρ c (Proc.devRef .tc main_arg19) := W5_of_ne m ρ c main_arg19 (by decide)
    _ = W3 m ρ c (Proc.devRef .tc main_arg19) := by host_keep hostOps2
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := by host_keep hostOps0

theorem carry_main_arg20_13 : W13 m ρ c (Proc.devRef .tc main_arg20) = W0 m ρ c (Proc.devRef .tc main_arg20) :=
  calc W13 m ρ c (Proc.devRef .tc main_arg20)
    _ = W12 m ρ c (Proc.devRef .tc main_arg20) := W13_of_ne m ρ c main_arg20 (by decide)
    _ = W11 m ρ c (Proc.devRef .tc main_arg20) := W12_of_ne m ρ c main_arg20 (by decide)
    _ = W10 m ρ c (Proc.devRef .tc main_arg20) := by host_keep hostOps6
    _ = W9 m ρ c (Proc.devRef .tc main_arg20) := W10_of_ne m ρ c main_arg20 (by decide)
    _ = W8 m ρ c (Proc.devRef .tc main_arg20) := by host_keep hostOps5
    _ = W7 m ρ c (Proc.devRef .tc main_arg20) := W8_of_ne m ρ c main_arg20 (by decide)
    _ = W6 m ρ c (Proc.devRef .tc main_arg20) := W7_of_ne m ρ c main_arg20 (by decide)
    _ = W5 m ρ c (Proc.devRef .tc main_arg20) := by host_keep hostOps3
    _ = W4 m ρ c (Proc.devRef .tc main_arg20) := W5_of_ne m ρ c main_arg20 (by decide)
    _ = W3 m ρ c (Proc.devRef .tc main_arg20) := by host_keep hostOps2
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := by host_keep hostOps0

theorem carry_main_arg2_15 : W15 m ρ c (Proc.devRef .tc main_arg2) = W0 m ρ c (Proc.devRef .tc main_arg2) :=
  calc W15 m ρ c (Proc.devRef .tc main_arg2)
    _ = W14 m ρ c (Proc.devRef .tc main_arg2) := W15_of_ne m ρ c main_arg2 (by decide)
    _ = W13 m ρ c (Proc.devRef .tc main_arg2) := by host_keep hostOps8
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := by host_keep hostOps6
    _ = W9 m ρ c (Proc.devRef .tc main_arg2) := W10_of_ne m ρ c main_arg2 (by decide)
    _ = W8 m ρ c (Proc.devRef .tc main_arg2) := by host_keep hostOps5
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := by host_keep hostOps3
    _ = W4 m ρ c (Proc.devRef .tc main_arg2) := W5_of_ne m ρ c main_arg2 (by decide)
    _ = W3 m ρ c (Proc.devRef .tc main_arg2) := by host_keep hostOps2
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := by host_keep hostOps0

theorem carry_main_arg22_15 : W15 m ρ c (Proc.devRef .tc main_arg22) = W0 m ρ c (Proc.devRef .tc main_arg22) :=
  calc W15 m ρ c (Proc.devRef .tc main_arg22)
    _ = W14 m ρ c (Proc.devRef .tc main_arg22) := W15_of_ne m ρ c main_arg22 (by decide)
    _ = W13 m ρ c (Proc.devRef .tc main_arg22) := by host_keep hostOps8
    _ = W12 m ρ c (Proc.devRef .tc main_arg22) := W13_of_ne m ρ c main_arg22 (by decide)
    _ = W11 m ρ c (Proc.devRef .tc main_arg22) := W12_of_ne m ρ c main_arg22 (by decide)
    _ = W10 m ρ c (Proc.devRef .tc main_arg22) := by host_keep hostOps6
    _ = W9 m ρ c (Proc.devRef .tc main_arg22) := W10_of_ne m ρ c main_arg22 (by decide)
    _ = W8 m ρ c (Proc.devRef .tc main_arg22) := by host_keep hostOps5
    _ = W7 m ρ c (Proc.devRef .tc main_arg22) := W8_of_ne m ρ c main_arg22 (by decide)
    _ = W6 m ρ c (Proc.devRef .tc main_arg22) := W7_of_ne m ρ c main_arg22 (by decide)
    _ = W5 m ρ c (Proc.devRef .tc main_arg22) := by host_keep hostOps3
    _ = W4 m ρ c (Proc.devRef .tc main_arg22) := W5_of_ne m ρ c main_arg22 (by decide)
    _ = W3 m ρ c (Proc.devRef .tc main_arg22) := by host_keep hostOps2
    _ = W2 m ρ c (Proc.devRef .tc main_arg22) := W3_of_ne m ρ c main_arg22 (by decide)
    _ = W1 m ρ c (Proc.devRef .tc main_arg22) := W2_of_ne m ρ c main_arg22 (by decide)
    _ = W0 m ρ c (Proc.devRef .tc main_arg22) := by host_keep hostOps0

theorem carry_main_arg24_15 : W15 m ρ c (Proc.devRef .tc main_arg24) = W0 m ρ c (Proc.devRef .tc main_arg24) :=
  calc W15 m ρ c (Proc.devRef .tc main_arg24)
    _ = W14 m ρ c (Proc.devRef .tc main_arg24) := W15_of_ne m ρ c main_arg24 (by decide)
    _ = W13 m ρ c (Proc.devRef .tc main_arg24) := by host_keep hostOps8
    _ = W12 m ρ c (Proc.devRef .tc main_arg24) := W13_of_ne m ρ c main_arg24 (by decide)
    _ = W11 m ρ c (Proc.devRef .tc main_arg24) := W12_of_ne m ρ c main_arg24 (by decide)
    _ = W10 m ρ c (Proc.devRef .tc main_arg24) := by host_keep hostOps6
    _ = W9 m ρ c (Proc.devRef .tc main_arg24) := W10_of_ne m ρ c main_arg24 (by decide)
    _ = W8 m ρ c (Proc.devRef .tc main_arg24) := by host_keep hostOps5
    _ = W7 m ρ c (Proc.devRef .tc main_arg24) := W8_of_ne m ρ c main_arg24 (by decide)
    _ = W6 m ρ c (Proc.devRef .tc main_arg24) := W7_of_ne m ρ c main_arg24 (by decide)
    _ = W5 m ρ c (Proc.devRef .tc main_arg24) := by host_keep hostOps3
    _ = W4 m ρ c (Proc.devRef .tc main_arg24) := W5_of_ne m ρ c main_arg24 (by decide)
    _ = W3 m ρ c (Proc.devRef .tc main_arg24) := by host_keep hostOps2
    _ = W2 m ρ c (Proc.devRef .tc main_arg24) := W3_of_ne m ρ c main_arg24 (by decide)
    _ = W1 m ρ c (Proc.devRef .tc main_arg24) := W2_of_ne m ρ c main_arg24 (by decide)
    _ = W0 m ρ c (Proc.devRef .tc main_arg24) := by host_keep hostOps0

theorem carry_main_arg21_16 : W16 m ρ c (Proc.devRef .tc main_arg21) = W0 m ρ c (Proc.devRef .tc main_arg21) :=
  calc W16 m ρ c (Proc.devRef .tc main_arg21)
    _ = W15 m ρ c (Proc.devRef .tc main_arg21) := by host_keep hostOps9
    _ = W14 m ρ c (Proc.devRef .tc main_arg21) := W15_of_ne m ρ c main_arg21 (by decide)
    _ = W13 m ρ c (Proc.devRef .tc main_arg21) := by host_keep hostOps8
    _ = W12 m ρ c (Proc.devRef .tc main_arg21) := W13_of_ne m ρ c main_arg21 (by decide)
    _ = W11 m ρ c (Proc.devRef .tc main_arg21) := W12_of_ne m ρ c main_arg21 (by decide)
    _ = W10 m ρ c (Proc.devRef .tc main_arg21) := by host_keep hostOps6
    _ = W9 m ρ c (Proc.devRef .tc main_arg21) := W10_of_ne m ρ c main_arg21 (by decide)
    _ = W8 m ρ c (Proc.devRef .tc main_arg21) := by host_keep hostOps5
    _ = W7 m ρ c (Proc.devRef .tc main_arg21) := W8_of_ne m ρ c main_arg21 (by decide)
    _ = W6 m ρ c (Proc.devRef .tc main_arg21) := W7_of_ne m ρ c main_arg21 (by decide)
    _ = W5 m ρ c (Proc.devRef .tc main_arg21) := by host_keep hostOps3
    _ = W4 m ρ c (Proc.devRef .tc main_arg21) := W5_of_ne m ρ c main_arg21 (by decide)
    _ = W3 m ρ c (Proc.devRef .tc main_arg21) := by host_keep hostOps2
    _ = W2 m ρ c (Proc.devRef .tc main_arg21) := W3_of_ne m ρ c main_arg21 (by decide)
    _ = W1 m ρ c (Proc.devRef .tc main_arg21) := W2_of_ne m ρ c main_arg21 (by decide)
    _ = W0 m ρ c (Proc.devRef .tc main_arg21) := by host_keep hostOps0

theorem carry_main_arg23_16 : W16 m ρ c (Proc.devRef .tc main_arg23) = W0 m ρ c (Proc.devRef .tc main_arg23) :=
  calc W16 m ρ c (Proc.devRef .tc main_arg23)
    _ = W15 m ρ c (Proc.devRef .tc main_arg23) := by host_keep hostOps9
    _ = W14 m ρ c (Proc.devRef .tc main_arg23) := W15_of_ne m ρ c main_arg23 (by decide)
    _ = W13 m ρ c (Proc.devRef .tc main_arg23) := by host_keep hostOps8
    _ = W12 m ρ c (Proc.devRef .tc main_arg23) := W13_of_ne m ρ c main_arg23 (by decide)
    _ = W11 m ρ c (Proc.devRef .tc main_arg23) := W12_of_ne m ρ c main_arg23 (by decide)
    _ = W10 m ρ c (Proc.devRef .tc main_arg23) := by host_keep hostOps6
    _ = W9 m ρ c (Proc.devRef .tc main_arg23) := W10_of_ne m ρ c main_arg23 (by decide)
    _ = W8 m ρ c (Proc.devRef .tc main_arg23) := by host_keep hostOps5
    _ = W7 m ρ c (Proc.devRef .tc main_arg23) := W8_of_ne m ρ c main_arg23 (by decide)
    _ = W6 m ρ c (Proc.devRef .tc main_arg23) := W7_of_ne m ρ c main_arg23 (by decide)
    _ = W5 m ρ c (Proc.devRef .tc main_arg23) := by host_keep hostOps3
    _ = W4 m ρ c (Proc.devRef .tc main_arg23) := W5_of_ne m ρ c main_arg23 (by decide)
    _ = W3 m ρ c (Proc.devRef .tc main_arg23) := by host_keep hostOps2
    _ = W2 m ρ c (Proc.devRef .tc main_arg23) := W3_of_ne m ρ c main_arg23 (by decide)
    _ = W1 m ρ c (Proc.devRef .tc main_arg23) := W2_of_ne m ρ c main_arg23 (by decide)
    _ = W0 m ρ c (Proc.devRef .tc main_arg23) := by host_keep hostOps0

theorem carry_main_v16_4 : W4 m ρ c (Proc.devRef .tc main_v16) = W2 m ρ c (Proc.devRef .tc main_v16) :=
  calc W4 m ρ c (Proc.devRef .tc main_v16)
    _ = W3 m ρ c (Proc.devRef .tc main_v16) := by host_keep hostOps2
    _ = W2 m ρ c (Proc.devRef .tc main_v16) := (W3_arr m ρ c 0).trans (((dat1 (V2 m ρ) c).arrAt_in 0 rfl _).trans (A_eq1 (V2 m ρ) c 0))

theorem carry_main_v45_9 : W9 m ρ c (Proc.devRef .tc main_v45) = W7 m ρ c (Proc.devRef .tc main_v45) :=
  calc W9 m ρ c (Proc.devRef .tc main_v45)
    _ = W8 m ρ c (Proc.devRef .tc main_v45) := by host_keep hostOps5
    _ = W7 m ρ c (Proc.devRef .tc main_v45) := (W8_arr m ρ c 0).trans (((dat4 (V7 m ρ) c).arrAt_in 0 rfl _).trans (A_eq4 (V7 m ρ) c 0))

theorem carry_main_v74_14 : W14 m ρ c (Proc.devRef .tc main_v74) = W12 m ρ c (Proc.devRef .tc main_v74) :=
  calc W14 m ρ c (Proc.devRef .tc main_v74)
    _ = W13 m ρ c (Proc.devRef .tc main_v74) := by host_keep hostOps8
    _ = W12 m ρ c (Proc.devRef .tc main_v74) := (W13_arr m ρ c 0).trans (((dat7 (V12 m ρ) c).arrAt_in 0 rfl _).trans (A_eq7 (V12 m ρ) c 0))

end Cert.KernelIdeal.KCarry

end
-- ==== Proof.MlpBlock.lean ====
/-
  A row block of a two-matrix perceptron with rectified layers, on extended reals, read one entry at a time.
  A plain `M×K` by `K×N` product into a zero accumulator is, at row `r` and column `c`, the sum over the shared axis of
  `lhs (r, k) * rhs (k, c)`; a change of float format is the identity; a `1×D` bias row broadcast over the rows reads
  its one row; the rectifier is `max · 0`. Put together, the block's entry `(r, j)` is
  `max (∑ k, max (∑ l, (x0 (r, l) + x1 (r, l)) * wa (l, k) + ba k) 0 * wb (k, j) + bb j) 0`,
  which depends on row `r` of the inputs only: this is why a grid of row blocks computes the whole array's perceptron.
-/
import Idealize.ShloMosaic.Lib.ValueLayout
import Idealize.ShloMosaic.PureOps.Ideal.Laws

noncomputable section

namespace Cert.Gin.Block

open Idealize.ShloMosaic Idealize.ShloMosaic.ValueIdx
open scoped BigOperators

/-- A plain `M×K` by `K×N` matrix product into a zero accumulator, read at row `r` and column `c`: the sum over the
    shared axis of the products of the row's and the column's entries. -/
theorem plain_matmul_zero_at (M K N : ℕ) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- The f32 zero a rectifier compares with is the extended real `0`. -/
theorem scalar_zero_f32 : (Scalar.ofBits (F := Ideal) .f32 0x00000000#32 : Ideal .f32) = 0 := Ideal.ofBits_zero_f32

/-- One row block of a two-matrix perceptron with rectified layers, read at row `r` and column `j`:
    `relu (relu ((x0 + x1) · wa + ba) · wb + bb)`, the bias rows broadcast over the block's rows, every change of float
    format the identity on extended reals, each product into a zero accumulator a plain sum of products. -/
theorem mlp_block_at (R Din Dmid Dout : ℕ)
    (x0 x1 : FVec Ideal ⟨2, ![R, Din]⟩ .f32) (wa : FVec Ideal ⟨2, ![Din, Dmid]⟩ .f32) (ba : FVec Ideal ⟨2, ![1, Dmid]⟩ .f32)
    (wb : FVec Ideal ⟨2, ![Dmid, Dout]⟩ .f32) (bb : FVec Ideal ⟨2, ![1, Dout]⟩ .f32)
    (hb : FTy.bf16.bits < FTy.f32.bits)
    (hba : (⟨2, ![1, Dmid]⟩ : Shape).Broadcasts ⟨2, ![R, Dmid]⟩) (hbb : (⟨2, ![1, Dout]⟩ : Shape).Broadcasts ⟨2, ![R, Dout]⟩)
    (r : Fin R) (j : Fin Dout) :
    maximumf (addf (matmul (DotDims.plain R Dmid Dout) none
        (truncf .bf16 (maximumf (addf (matmul (DotDims.plain R Din Dmid) none (truncf .bf16 (addf x0 x1) hb) (truncf .bf16 wa hb)
              (constant ⟨2, ![R, Dmid]⟩ .f32 0x00000000#32))
            (broadcastTo ⟨2, ![R, Dmid]⟩ ba hba)) (broadcast ⟨2, ![R, Dmid]⟩ (Scalar.ofBits .f32 0x00000000#32))) hb)
        (truncf .bf16 wb hb) (constant ⟨2, ![R, Dout]⟩ .f32 0x00000000#32))
      (broadcastTo ⟨2, ![R, Dout]⟩ bb hbb)) (broadcast ⟨2, ![R, Dout]⟩ (Scalar.ofBits .f32 0x00000000#32)) (ix2 r j)
    = max ((∑ k : Fin Dmid, max ((∑ l : Fin Din, (x0 (ix2 r l) + x1 (ix2 r l)) * wa (ix2 l k)) + ba (ix2 (0 : Fin 1) k)) 0
        * wb (ix2 k j)) + bb (ix2 (0 : Fin 1) j)) 0 := by
  simp only [maximumf_apply, addf_apply, broadcast_apply, broadcastTo_1b_ab_apply, truncf_apply, plain_matmul_zero_at,
    scalar_zero_f32]

/-- The same perceptron without a second summand on its input: `relu (relu (x0 · wa + ba) · wb + bb)`. -/
theorem head_block_at (R Din Dmid Dout : ℕ)
    (x0 : FVec Ideal ⟨2, ![R, Din]⟩ .f32) (wa : FVec Ideal ⟨2, ![Din, Dmid]⟩ .f32) (ba : FVec Ideal ⟨2, ![1, Dmid]⟩ .f32)
    (wb : FVec Ideal ⟨2, ![Dmid, Dout]⟩ .f32) (bb : FVec Ideal ⟨2, ![1, Dout]⟩ .f32)
    (hb : FTy.bf16.bits < FTy.f32.bits)
    (hba : (⟨2, ![1, Dmid]⟩ : Shape).Broadcasts ⟨2, ![R, Dmid]⟩) (hbb : (⟨2, ![1, Dout]⟩ : Shape).Broadcasts ⟨2, ![R, Dout]⟩)
    (r : Fin R) (j : Fin Dout) :
    maximumf (addf (matmul (DotDims.plain R Dmid Dout) none
        (truncf .bf16 (maximumf (addf (matmul (DotDims.plain R Din Dmid) none (truncf .bf16 x0 hb) (truncf .bf16 wa hb)
              (constant ⟨2, ![R, Dmid]⟩ .f32 0x00000000#32))
            (broadcastTo ⟨2, ![R, Dmid]⟩ ba hba)) (broadcast ⟨2, ![R, Dmid]⟩ (Scalar.ofBits .f32 0x00000000#32))) hb)
        (truncf .bf16 wb hb) (constant ⟨2, ![R, Dout]⟩ .f32 0x00000000#32))
      (broadcastTo ⟨2, ![R, Dout]⟩ bb hbb)) (broadcast ⟨2, ![R, Dout]⟩ (Scalar.ofBits .f32 0x00000000#32)) (ix2 r j)
    = max ((∑ k : Fin Dmid, max ((∑ l : Fin Din, x0 (ix2 r l) * wa (ix2 l k)) + ba (ix2 (0 : Fin 1) k)) 0
        * wb (ix2 k j)) + bb (ix2 (0 : Fin 1) j)) 0 := by
  simp only [maximumf_apply, addf_apply, broadcast_apply, broadcastTo_1b_ab_apply, truncf_apply, plain_matmul_zero_at,
    scalar_zero_f32]

end Cert.Gin.Block

end
-- ==== Proof.Reg0.lean ====
/-
  The first layer's perceptron region. Its grid has 50 points; point `t` is handed rows `2000 t … 2000 t + 1999` of the
  two `100000×373` inputs (the node features and their aggregated neighbours) and the whole of the weights
  (`373×256`, `256×256`) and biases (`1×256`, `1×256`), and writes back the same rows of the `100000×256` output. Entry
  `(r, j)` of what a point stores is `relu (relu ((x + a) · Wa + ba) · Wb + bb)` at row `r` of its blocks, which reads
  only that row of the inputs; row `2000 t + r` of an input array is row `r` of its block at `t`; and every row `i` lies in
  exactly the block of point `i / 2000`. Hence the output array ends as the perceptron of the arrays the region found,
  entry by entry.
-/
import proofs.«101558_j53498112639139_1_alg».proof.Proof.Gen.KernelIdeal.Frame
import proofs.«101558_j53498112639139_1_alg».proof.Proof.Spec
import proofs.«101558_j53498112639139_1_alg».proof.Proof.MlpBlock
import Idealize.ShloMosaic.Lib.Pipeline.Value
import Idealize.ShloMosaic.Lib.ValueLayout

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The body's one stored value at row `r`, column `j` of its block: the perceptron of the loaded blocks, which reads row
    `r` of the two input blocks and the whole of the weights and biases. -/
theorem pay_at (x0 x1 : Vec Ideal S2000x373 .f32) (x2 : Vec Ideal S373x256 .f32) (x3 : Vec Ideal S1x256 .f32)
    (x4 : Vec Ideal S256x256 .f32) (x5 : Vec Ideal S1x256 .f32) (r : Fin 2000) (j : Fin 256) :
    k0_pay1 x0 x1 x2 x3 x4 x5 (ix2 r j)
      = Cert.Gin.mlpAt (fun i l => x0 (ix2 i l)) (fun i l => x1 (ix2 i l)) (fun l k => x2 (ix2 l k)) (fun k => x3 (ix2 (0 : Fin 1) k))
          (fun k j => x4 (ix2 k j)) (fun j => x5 (ix2 (0 : Fin 1) j)) r j := by
  unfold k0_pay1
  simp only [shapeCast_self]
  exact Cert.Gin.Block.mlp_block_at 2000 373 256 256 x0 x1 x2 x3 x4 x5 _ _ _ r j

/-- The perceptron of the arrays as the region finds them, entry by entry of the output array. -/
def G (c : Dev nD) : S100000x256.Idx → EReal := fun y =>
  Cert.Gin.mlpAt (fun i l => V c (Pipeline.arrRef spec0 0) (ix2 i l)) (fun i l => V c (Pipeline.arrRef spec0 1) (ix2 i l))
    (fun l k => V c (Pipeline.arrRef spec0 2) (ix2 l k)) (fun k => V c (Pipeline.arrRef spec0 3) (ix2 0 k))
    (fun k j => V c (Pipeline.arrRef spec0 4) (ix2 k j)) (fun j => V c (Pipeline.arrRef spec0 5) (ix2 0 j)) (y 0) (y 1)

/-- The printed index maps over the 50 grid points: the two row-blocked inputs and the output sit at block row `t`, block
    column 0; the weights and biases are whole arrays, at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of the first input's block at point `t` is row `2000 t + r` of its array. -/
theorem blk0_row (c : Dev nD) (t : Fin cfg0.N) (r : Fin 2000) (i : Fin 100000) (hi : i.val = t.val * 2000 + r.val) (l : Fin 373) :
    iblk0 V c 0 t (ix2 r l) = V c (Pipeline.arrRef spec0 0) (ix2 i l) := by
  obtain ⟨e0, e1, -⟩ := idx_facts t
  show V c (Pipeline.arrRef spec0 0) (((cfg0.win 0).blk t).view.emb (ix2 r l)) = V c (Pipeline.arrRef spec0 0) (ix2 i l)
  refine congrArg (V c (Pipeline.arrRef spec0 0)) (funext fun a => Fin.ext ?_)
  match a with
  | ⟨0, _⟩ => show win0_0.index t (0 : Fin 2) * 2000 + 1 * r.val = i.val; omega
  | ⟨1, _⟩ => show win0_0.index t (1 : Fin 2) * 373 + 1 * l.val = l.val; omega

/-- Row `r` of the second input's block at point `t` is row `2000 t + r` of its array. -/
theorem blk1_row (c : Dev nD) (t : Fin cfg0.N) (r : Fin 2000) (i : Fin 100000) (hi : i.val = t.val * 2000 + r.val) (l : Fin 373) :
    iblk0 V c 1 t (ix2 r l) = V c (Pipeline.arrRef spec0 1) (ix2 i l) := by
  obtain ⟨-, -, e0, e1, -⟩ := idx_facts t
  show V c (Pipeline.arrRef spec0 1) (((cfg0.win 1).blk t).view.emb (ix2 r l)) = V c (Pipeline.arrRef spec0 1) (ix2 i l)
  refine congrArg (V c (Pipeline.arrRef spec0 1)) (funext fun a => Fin.ext ?_)
  match a with
  | ⟨0, _⟩ => show win0_1.index t (0 : Fin 2) * 2000 + 1 * r.val = i.val; omega
  | ⟨1, _⟩ => show win0_1.index t (1 : Fin 2) * 373 + 1 * l.val = l.val; omega

/-- The first weight matrix is staged whole at every point. -/
theorem blk2 (c : Dev nD) (t : Fin cfg0.N) (y : S373x256.Idx) : iblk0 V c 2 t y = V c (Pipeline.arrRef spec0 2) y := by
  obtain ⟨-, -, -, -, e0, e1, -⟩ := idx_facts t
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 373 + 1 * (y 0).val = (y 0).val; omega
  | ⟨1, _⟩ => show win0_2.index t (1 : Fin 2) * 256 + 1 * (y 1).val = (y 1).val; omega

/-- The first bias row is staged whole at every point. -/
theorem blk3 (c : Dev nD) (t : Fin cfg0.N) (y : S1x256.Idx) : iblk0 V c 3 t y = V c (Pipeline.arrRef spec0 3) y := by
  obtain ⟨-, -, -, -, -, -, e0, e1, -⟩ := idx_facts t
  show V c (Pipeline.arrRef spec0 3) (((cfg0.win 3).blk t).view.emb y) = V c (Pipeline.arrRef spec0 3) y
  refine congrArg (V c (Pipeline.arrRef spec0 3)) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The second weight matrix is staged whole at every point. -/
theorem blk4 (c : Dev nD) (t : Fin cfg0.N) (y : S256x256.Idx) : iblk0 V c 4 t y = V c (Pipeline.arrRef spec0 4) y := by
  obtain ⟨-, -, -, -, -, -, -, -, e0, e1, -⟩ := idx_facts t
  show V c (Pipeline.arrRef spec0 4) (((cfg0.win 4).blk t).view.emb y) = V c (Pipeline.arrRef spec0 4) y
  refine congrArg (V c (Pipeline.arrRef spec0 4)) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The second bias row is staged whole at every point. -/
theorem blk5 (c : Dev nD) (t : Fin cfg0.N) (y : S1x256.Idx) : iblk0 V c 5 t y = V c (Pipeline.arrRef spec0 5) y := by
  obtain ⟨-, -, -, -, -, -, -, -, -, -, e0, e1, -⟩ := idx_facts t
  show V c (Pipeline.arrRef spec0 5) (((cfg0.win 5).blk t).view.emb y) = V c (Pipeline.arrRef spec0 5) y
  refine congrArg (V c (Pipeline.arrRef spec0 5)) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- What point `t` writes back is block `t` of the perceptron of the arrays: rows `2000 t … 2000 t + 1999`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x373) hz, View.ld_unit_zero (S := S373x256) hz, View.ld_unit_zero (S := S1x256) hz, View.ld_unit_zero (S := S256x256) hz]
  have hN : cfg0.N = 50 := N_0
  have ht : t.val < 50 := hN ▸ t.isLt
  obtain ⟨-, -, -, -, -, -, -, -, -, -, -, -, e60, e61⟩ := idx_facts t
  funext y
  obtain ⟨r, q, rfl⟩ : ∃ (r : Fin 2000) (q : Fin 256), y = ix2 r q := ⟨y 0, y 1, eq_ix2 y⟩
  have hemb : ((cfg0.win 6).blk t).view.emb (ix2 r q) = ix2 (⟨t.val * 2000 + r.val, by have := r.isLt; omega⟩ : Fin 100000) q :=
    funext fun a => Fin.ext (by
      match a with
      | ⟨0, _⟩ => show win0_6.index t (0 : Fin 2) * 2000 + 1 * r.val = t.val * 2000 + r.val; omega
      | ⟨1, _⟩ => show win0_6.index t (1 : Fin 2) * 256 + 1 * q.val = q.val; omega)
  show k0_pay1 (iblk0 V c 0 t) (iblk0 V c 1 t) (iblk0 V c 2 t) (iblk0 V c 3 t) (iblk0 V c 4 t) (iblk0 V c 5 t) (ix2 r q)
    = G V c (((cfg0.win 6).blk t).view.emb (ix2 r q))
  rw [hemb]
  refine (pay_at (iblk0 V c 0 t) (iblk0 V c 1 t) (iblk0 V c 2 t) (iblk0 V c 3 t) (iblk0 V c 4 t) (iblk0 V c 5 t) r q).trans ?_
  show _ = Cert.Gin.mlpAt _ _ _ _ _ _ (⟨t.val * 2000 + r.val, _⟩ : Fin 100000) q
  unfold Cert.Gin.mlpAt
  simp only [blk0_row V c t r ⟨t.val * 2000 + r.val, by have := r.isLt; omega⟩ rfl,
    blk1_row V c t r ⟨t.val * 2000 + r.val, by have := r.isLt; omega⟩ rfl, blk2 V c t, blk3 V c t, blk4 V c t, blk5 V c t]

/-- An index of the output array is in point `t`'s block iff each coordinate is in the block's range on its axis. -/
theorem mem_blk (t : Fin cfg0.N) (i : S100000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v16).slice (win0_6.rect t)).set ↔ _
  rw [View.set_slice_whole, Rect.mem_set_unit]
  exact Iff.rfl

/-- Every row of the output is written back by one point: row `i` by point `i / 2000`. -/
theorem cover (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have hN : cfg0.N = 50 := N_0
  obtain ⟨t, htv⟩ : ∃ t : Fin cfg0.N, t.val = (i 0).val / 2000 := ⟨⟨(i 0).val / 2000, by rw [hN]; omega⟩, rfl⟩
  obtain ⟨-, -, -, -, -, -, -, -, -, -, -, -, e60, e61⟩ := idx_facts t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 256 ≤ (i 1).val ∧ (i 1).val < win0_6.index t (1 : Fin 2) * 256 + 256
    omega

/-- The output array after the region's last point is the perceptron of the arrays the region found. -/
theorem final_arr (c : Dev nD) : (dat0 V c).arrAt 6 cfg0.N = G V c :=
  (dat0 V c).arrAt_eq_of_cover 6 (G V c) (fun t _ => flushed_eq V c t) cover

/-- Entry `(i, j)` of the first layer's perceptron output. -/
theorem final (c : Dev nD) (i : Fin 100000) (j : Fin 256) :
    (dat0 V c).arrAt 6 cfg0.N (ix2 i j)
      = Cert.Gin.mlpAt (fun i l => V c (Pipeline.arrRef spec0 0) (ix2 i l)) (fun i l => V c (Pipeline.arrRef spec0 1) (ix2 i l))
          (fun l k => V c (Pipeline.arrRef spec0 2) (ix2 l k)) (fun k => V c (Pipeline.arrRef spec0 3) (ix2 0 k))
          (fun k j => V c (Pipeline.arrRef spec0 4) (ix2 k j)) (fun j => V c (Pipeline.arrRef spec0 5) (ix2 0 j)) i j := by
  rw [final_arr]
  rfl

end Cert.KernelIdeal.Reg0

end
-- ==== Proof.Reg1.lean ====
/-
  The batch-normalisation statistics of the first layer. The region walks the 100000×256 input in fifty blocks of 2000 rows
  and keeps two rows of 256 running totals: the first grid point sets both rows to zero, and every point then adds, column by
  column, the sum of its block (first row) and the sum of the squares of its block (second row). Both rows stay in place from
  one point to the next and are written out once, after the last point.

  So after point n the first row holds, at column j, the sum of column j over the rows of blocks 0 … n, and the second row the
  sum of the squares (induction on the point: 0 + x = x for the zeroed start, then one more block per point). The last point's
  rows are the result arrays, and fifty blocks of two thousand rows are all hundred thousand rows, so the results are the
  column sums and the column sums of squares of the whole input. Only associativity and commutativity of the extended reals'
  addition are used, so nothing here asks the entries to be finite.
-/
import proofs.«101558_j53498112639139_1_alg».proof.Proof.Gen.KernelIdeal.Frame
import proofs.«101558_j53498112639139_1_alg».proof.Proof.Spec
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Reg1

open Cert.KernelIdeal Cert.KernelIdeal.Gen
open Facts₀ Facts

section AnyF
variable {F : FTy → Type} [FloatOps F]

/-- The offsets of an access to a whole buffer, all zero. -/
theorem hz : (![0, 0] : Fin 2 → Nat) = fun _ => 0 := funext fun a => by fin_cases a <;> rfl

/-- At a point after the first the body's one store into the first row buffer covers it: the buffer, which held `xo1`, ends
    holding the running-sum term of the block `x` and `xo1`. -/
theorem out_B_1 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S2000x256 .f32) (xo1 xo2 : Vec F S1x256 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S2000x256) hz,
    View.ld_unit_zero (S := S1x256) hz]

/-- Likewise the second row buffer, which held `xo2`, ends holding the running-sum-of-squares term of `x` and `xo2`. -/
theorem out_B_2 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : ¬cond1_0 i) (x : Vec F S2000x256 .f32) (xo1 xo2 : Vec F S1x256 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S2000x256) hz,
    View.ld_unit_zero (S := S1x256) hz]

/-- At the first point the body first stores the zero row and then the running-sum term over what it has just stored: the
    first row buffer ends holding that term of the block `x` and the zero row, whatever it held before. -/
theorem out_A_1 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S2000x256 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x256) hz, View.readCov_unit_zero (S := S1x256) _ hz]
  simp only [View.readAt_eq_ld, h1.read_unread, View.ld_unit_zero (S := S2000x256) hz]

/-- Likewise the second row buffer at the first point: the running-sum-of-squares term of `x` and the zero row. -/
theorem out_A_2 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (hc : cond1_0 i) (x : Vec F S2000x256 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x256) hz, View.readCov_unit_zero (S := S1x256) _ hz]
  simp only [View.readAt_eq_ld, h1.read_unread, View.ld_unit_zero (S := S2000x256) hz]

end AnyF

section AtIdeal

open Idealize.ShloMosaic.ValueIdx

/-- The zero rows the first grid point stores. -/
theorem pay1_at (j : Fin 256) : k1_pay1 (F := Ideal) (ix2 (0 : Fin 1) j) = 0 := by
  unfold k1_pay1
  show Ideal.ofBits .f32 0x00000000#32 = 0
  exact Ideal.ofBits_zero_f32

/-- The second zero row likewise. -/
theorem pay2_at (j : Fin 256) : k1_pay2 (F := Ideal) (ix2 (0 : Fin 1) j) = 0 := by
  unfold k1_pay2
  show Ideal.ofBits .f32 0x00000000#32 = 0
  exact Ideal.ofBits_zero_f32

/-- The reduction over the row axis of a 2000×256 block, at column `j`: the sum over the block's rows. -/
theorem laneSum (x : FVec Ideal S2000x256 .f32) (h : S2000x256.Reduces [0] S256)
    (hφ : FKind.Formats .f32) (hacc : (0x00000000#32 : BitVec 32) = FKind.add.neutral .f32 hφ) (j : Fin 256) :
    multiReduction .add [0] S256 x 0x00000000#32 h hφ hacc (ix1 j) = ∑ r : Fin 2000, x (ix2 r j) := by
  refine (Ideal.multiReduction_add_single x 0x00000000#32 h hφ hacc (ix1 j)).trans ?_
  refine Finset.sum_congr rfl (fun r _ => congrArg x ?_)
  funext a; match a with | ⟨0, _⟩ => rfl | ⟨1, _⟩ => rfl

/-- A vector of 256 entries recast as one row of 256: entry `(0, j)` is entry `j`. -/
theorem addUnit (v : S256.Idx → EReal) (h : S256.ShapeCasts S1x256) (j : Fin 256) :
    shapeCast S1x256 v h (ix2 (0 : Fin 1) j) = v (ix1 j) := by
  refine (shapeCast_addUnit_apply ![256] v h (ix2 (0 : Fin 1) j)).trans ?_
  refine congrArg v ?_
  funext a; match a with | ⟨0, _⟩ => rfl

/-- The running column sum after a point: the accumulator row plus the block's column sums. -/
theorem pay4_at (x : Vec Ideal S2000x256 .f32) (acc : Vec Ideal S1x256 .f32) (j : Fin 256) :
    k1_pay4 (F := Ideal) x acc (ix2 (0 : Fin 1) j) = acc (ix2 (0 : Fin 1) j) + ∑ r : Fin 2000, x (ix2 r j) := by
  unfold k1_pay4 k1_pay3
  dsimp only
  refine (addf_apply _ _ _).trans ?_
  refine congrArg₂ (· + ·) ?_ ?_
  · exact congrFun (shapeCast_self acc _) _
  · refine (addUnit _ _ j).trans ?_
    refine (laneSum _ _ _ _ j).trans ?_
    exact Finset.sum_congr rfl fun r _ => congrFun (shapeCast_self x _) _

/-- The running column sum of squares after a point. -/
theorem pay5_at (x : Vec Ideal S2000x256 .f32) (acc : Vec Ideal S1x256 .f32) (j : Fin 256) :
    k1_pay5 (F := Ideal) x acc (ix2 (0 : Fin 1) j)
      = acc (ix2 (0 : Fin 1) j) + ∑ r : Fin 2000, x (ix2 r j) * x (ix2 r j) := by
  unfold k1_pay5 k1_pay3
  dsimp only
  refine (addf_apply _ _ _).trans ?_
  refine congrArg₂ (· + ·) ?_ ?_
  · exact congrFun (shapeCast_self acc _) _
  · refine (addUnit _ _ j).trans ?_
    refine (laneSum _ _ _ _ j).trans ?_
    refine Finset.sum_congr rfl fun r _ => ?_
    refine (mulf_apply _ _ _).trans ?_
    exact congrArg₂ (· * ·) (congrFun (shapeCast_self x _) _) (congrFun (shapeCast_self x _) _)

end AtIdeal

section Accumulate

open Idealize.ShloMosaic.ValueIdx

variable (V : (c : Dev nD) → (b : Ref sig .tc) → Buf (Elt Ideal) ((c : Thread nD τ).loc b))

/-- The input window's block at point `t` is block `(t, 0)` of the array, decided over the grid. -/
theorem idx_facts : ∀ t : Fin cfg1.N, win1_0.index t 0 = t.val ∧ win1_0.index t 1 = 0 :=
  (by decide +kernel : ∀ t : Fin grid1.N, win1_0.index t 0 = t.val ∧ win1_0.index t 1 = 0)

/-- Row `r` of the block fetched at point `t` is row `2000 t + r` of the array. -/
theorem iblk_at (c : Dev nD) (t : Fin cfg1.N) (r : Fin 2000) (j : Fin 256) (hb : 2000 * t.val + r.val < 100000) :
    (iblk1 V c 0 t : Vec Ideal S2000x256 .f32) (ix2 r j)
      = V c (Pipeline.arrRef spec1 0) (ix2 (⟨2000 * t.val + r.val, hb⟩ : Fin 100000) j) := by
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t 0 * 2000 + 1 * r.val = 2000 * t.val + r.val; rw [(idx_facts t).1]; omega
  | ⟨1, _⟩ => show win1_0.index t 1 * 256 + 1 * j.val = j.val; rw [(idx_facts t).2]; omega

/-- The sum of `f` over the rows of block `s` (nothing beyond the fiftieth block). -/
def blkSum (f : Fin 100000 → EReal) (s : ℕ) : EReal :=
  if h : s < 50 then ∑ r : Fin 2000, f ⟨2000 * s + r.val, by have := r.isLt; omega⟩ else 0

/-- After point `n` the first accumulator row holds, at column `j`, the sum of that column over the rows of blocks `0 … n`. -/
theorem acc1 (c : Dev nD) (j : Fin 256) : ∀ (n : ℕ) (h : n < cfg1.N),
    (outsAt1 V c n h).1 (ix2 (0 : Fin 1) j)
      = ∑ s ∈ Finset.range (n + 1), blkSum (fun i => V c (Pipeline.arrRef spec1 0) (ix2 i j)) s
  | 0, h => by
    have e := congrArg Prod.fst (outsAt1_A V c ⟨0, h⟩ rfl)
    refine (congrFun e (ix2 (0 : Fin 1) j)).trans ?_
    dsimp only
    refine (congrFun (out_A_1 c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) _ (iblk1 V c 0 ⟨0, h⟩)) (ix2 (0 : Fin 1) j)).trans ?_
    refine (pay4_at (iblk1 V c 0 ⟨0, h⟩) (k1_pay1 (F := Ideal)) j).trans ?_
    rw [pay1_at, zero_add, Finset.sum_range_one, blkSum, dif_pos (by norm_num)]
    exact Finset.sum_congr rfl fun r _ => iblk_at V c ⟨0, h⟩ r j _
  | n + 1, h => by
    have hN : cfg1.N = 50 := N_1
    have hB : ¬(⟨n + 1, h⟩ : Fin cfg1.N).val % 50 = 0 := by dsimp only; omega
    have e := congrArg Prod.fst (outsAt1_B V c ⟨n + 1, h⟩ hB)
    refine (congrFun e (ix2 (0 : Fin 1) j)).trans ?_
    dsimp only
    refine (congrFun (out_B_1 c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) _ (iblk1 V c 0 ⟨n + 1, h⟩) _ _) (ix2 (0 : Fin 1) j)).trans ?_
    refine (pay4_at (iblk1 V c 0 ⟨n + 1, h⟩) _ j).trans ?_
    rw [Finset.sum_range_succ _ (n + 1)]
    refine congrArg₂ (· + ·) (acc1 c j n (Nat.lt_of_succ_lt h)) ?_
    rw [blkSum, dif_pos (by omega)]
    exact Finset.sum_congr rfl fun r _ => iblk_at V c ⟨n + 1, h⟩ r j _

end Accumulate

section Accumulate2

open Idealize.ShloMosaic.ValueIdx

variable (V : (c : Dev nD) → (b : Ref sig .tc) → Buf (Elt Ideal) ((c : Thread nD τ).loc b))

/-- Row i, column l of the array the region reads, as an extended real. -/
abbrev inp (c : Dev nD) (i : Fin 100000) (l : Fin 256) : EReal := V c (Pipeline.arrRef spec1 0) (ix2 i l)

/-- After point `n` the second accumulator row holds, at column `j`, the sum of the squares of that column over the rows of blocks `0 … n`. -/
theorem acc2 (c : Dev nD) (j : Fin 256) : ∀ (n : ℕ) (h : n < cfg1.N),
    (outsAt1 V c n h).2 (ix2 (0 : Fin 1) j)
      = ∑ s ∈ Finset.range (n + 1),
          blkSum (fun i => inp V c i j * inp V c i j) s
  | 0, h => by
    have e := congrArg Prod.snd (outsAt1_A V c ⟨0, h⟩ rfl)
    refine (congrFun e (ix2 (0 : Fin 1) j)).trans ?_
    dsimp only
    refine (congrFun (out_A_2 c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) _ (iblk1 V c 0 ⟨0, h⟩)) (ix2 (0 : Fin 1) j)).trans ?_
    refine (pay5_at (iblk1 V c 0 ⟨0, h⟩) (k1_pay2 (F := Ideal)) j).trans ?_
    rw [pay2_at, zero_add, Finset.sum_range_one, blkSum, dif_pos (by norm_num)]
    exact Finset.sum_congr rfl fun r _ => congrArg₂ (fun a b : EReal => a * b) (iblk_at V c ⟨0, h⟩ r j _) (iblk_at V c ⟨0, h⟩ r j _)
  | n + 1, h => by
    have hN : cfg1.N = 50 := N_1
    have hB : ¬(⟨n + 1, h⟩ : Fin cfg1.N).val % 50 = 0 := by dsimp only; omega
    have e := congrArg Prod.snd (outsAt1_B V c ⟨n + 1, h⟩ hB)
    refine (congrFun e (ix2 (0 : Fin 1) j)).trans ?_
    dsimp only
    refine (congrFun (out_B_2 c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) _ (iblk1 V c 0 ⟨n + 1, h⟩) _ _) (ix2 (0 : Fin 1) j)).trans ?_
    refine (pay5_at (iblk1 V c 0 ⟨n + 1, h⟩) _ j).trans ?_
    rw [Finset.sum_range_succ _ (n + 1)]
    refine congrArg₂ (· + ·) (acc2 c j n (Nat.lt_of_succ_lt h)) ?_
    rw [blkSum, dif_pos (by omega)]
    exact Finset.sum_congr rfl fun r _ =>
      congrArg₂ (fun a b : EReal => a * b) (iblk_at V c ⟨n + 1, h⟩ r j _) (iblk_at V c ⟨n + 1, h⟩ r j _)

end Accumulate2

section Final

open Idealize.ShloMosaic.ValueIdx

variable (V : (c : Dev nD) → (b : Ref sig .tc) → Buf (Elt Ideal) ((c : Thread nD τ).loc b))

/-- Fifty consecutive blocks of two thousand rows are all hundred thousand rows. -/
theorem sum_blocks (f : Fin 100000 → EReal) : ∑ s ∈ Finset.range 50, blkSum f s = ∑ i : Fin 100000, f i := by
  rw [← Fin.sum_univ_eq_sum_range (fun s => blkSum f s) 50]
  have e : ∀ s : Fin 50, blkSum f s.val
      = ∑ r : Fin 2000, f ⟨2000 * s.val + r.val, by have := s.isLt; have := r.isLt; omega⟩ := fun s => by
    rw [blkSum, dif_pos s.isLt]
  rw [Finset.sum_congr rfl fun s _ => e s, ← Fintype.sum_prod_type']
  refine Fintype.sum_equiv (finProdFinEquiv (m := 50) (n := 2000)) _ _ (fun p => ?_)
  refine congrArg f (Fin.ext ?_)
  show 2000 * p.1.val + p.2.val = p.2.val + 2000 * p.1.val
  omega

/-- The last grid point. -/
def tLast : Fin cfg1.N := ⟨49, by rw [show cfg1.N = 50 from N_1]; decide⟩

/-- The rows are written out at the last point only, and that point's block is the whole one-row array: what is written is
    what the last point leaves in the first row buffer. -/
theorem flushed_eq_1 (c : Dev nD) (t : Fin cfg1.N) (hf : (cfg1.win 1).flush t = true) :
    (dat1 V c).flushed 1 t = ((cfg1.win 1).blk t).view.read (Elt Ideal) (outsAt1 V c tLast.val tLast.isLt).1 := by
  have hN : cfg1.N = 50 := N_1
  have h49 : t.val = 49 := by have := (flush1_1 t).mp hf; have := t.isLt; omega
  obtain rfl : t = tLast := Fin.ext h49
  show (cfg1.win 1).cut (grid1.coords tLast) ((dat1 V c).after 1 tLast) = _
  rw [after1_1]
  have hz' : (fun a => win1_1.index tLast a * main_v17_0.ty.shape.size a) = fun _ => 0 := funext fun a => by fin_cases a <;> decide
  exact (Memref.read_access_unit_zero (Elt Ideal) main_v17_0 hz' (fun a => by rw [congrFun hz' a]; simp) _).symm

end Final

section Final2

open Idealize.ShloMosaic.ValueIdx

variable (V : (c : Dev nD) → (b : Ref sig .tc) → Buf (Elt Ideal) ((c : Thread nD τ).loc b))

/-- The same for the second row. -/
theorem flushed_eq_2 (c : Dev nD) (t : Fin cfg1.N) (hf : (cfg1.win 2).flush t = true) :
    (dat1 V c).flushed 2 t = ((cfg1.win 2).blk t).view.read (Elt Ideal) (outsAt1 V c tLast.val tLast.isLt).2 := by
  have hN : cfg1.N = 50 := N_1
  have h49 : t.val = 49 := by have := (flush1_2 t).mp hf; have := t.isLt; omega
  obtain rfl : t = tLast := Fin.ext h49
  show (cfg1.win 2).cut (grid1.coords tLast) ((dat1 V c).after 2 tLast) = _
  rw [after1_2]
  have hz' : (fun a => win1_2.index tLast a * main_v17_1.ty.shape.size a) = fun _ => 0 := funext fun a => by fin_cases a <;> decide
  exact (Memref.read_access_unit_zero (Elt Ideal) main_v17_1 hz' (fun a => by rw [congrFun hz' a]; simp) _).symm

/-- The first result row is what the last point leaves: that point's block is the whole one-row array. -/
theorem arr1 (c : Dev nD) : (dat1 V c).arrAt 1 cfg1.N = (outsAt1 V c tLast.val tLast.isLt).1 :=
  (dat1 V c).arrAt_eq_of_cover 1 _ (flushed_eq_1 V c) fun i =>
    ⟨tLast, (flush1_1 tLast).mpr rfl, by
      show i ∈ ((View.whole main_v17_0).slice (win1_1.rect tLast)).set
      rw [View.set_slice_whole, Rect.mem_set_unit]
      intro a
      have h0 : (i 0 : Nat) < 1 := (i 0).isLt
      have h1 : (i 1 : Nat) < 256 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 1 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 256 from by decide +kernel]; omega⟩

/-- The second result row likewise. -/
theorem arr2 (c : Dev nD) : (dat1 V c).arrAt 2 cfg1.N = (outsAt1 V c tLast.val tLast.isLt).2 :=
  (dat1 V c).arrAt_eq_of_cover 2 _ (flushed_eq_2 V c) fun i =>
    ⟨tLast, (flush1_2 tLast).mpr rfl, by
      show i ∈ ((View.whole main_v17_1).slice (win1_2.rect tLast)).set
      rw [View.set_slice_whole, Rect.mem_set_unit]
      intro a
      have h0 : (i 0 : Nat) < 1 := (i 0).isLt
      have h1 : (i 1 : Nat) < 256 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 256 from by decide +kernel]; omega⟩

end Final2

section Result

open Idealize.ShloMosaic.ValueIdx

variable (V : (c : Dev nD) → (b : Ref sig .tc) → Buf (Elt Ideal) ((c : Thread nD τ).loc b))

/-- After the region the first result row holds, at column `j`, the sum of column `j` of the input over all its rows. -/
theorem final_sum (c : Dev nD) (j : Fin 256) :
    (dat1 V c).arrAt 1 cfg1.N (ix2 (0 : Fin 1) j)
      = Cert.Gin.colSum (fun i l => V c (Pipeline.arrRef spec1 0) (ix2 i l)) j := by
  refine (congrFun (arr1 V c) (ix2 (0 : Fin 1) j)).trans ?_
  refine (acc1 V c j tLast.val tLast.isLt).trans ?_
  exact sum_blocks (fun i => V c (Pipeline.arrRef spec1 0) (ix2 i j))

/-- After the region the second result row holds, at column `j`, the sum of the squares of column `j` of the input over all its rows. -/
theorem final_sumsq (c : Dev nD) (j : Fin 256) :
    (dat1 V c).arrAt 2 cfg1.N (ix2 (0 : Fin 1) j)
      = Cert.Gin.colSumSq (fun i l => V c (Pipeline.arrRef spec1 0) (ix2 i l)) j := by
  refine (congrFun (arr2 V c) (ix2 (0 : Fin 1) j)).trans ?_
  refine (acc2 V c j tLast.val tLast.isLt).trans ?_
  exact sum_blocks (fun i => inp V c i j * inp V c i j)

end Result

end Cert.KernelIdeal.Reg1

end
-- ==== Proof.Reg2.lean ====
/-
  The scale-and-shift region of the first layer: each point of the grid takes a block of 2000 rows of the activations,
  multiplies every row by the one row of scales and adds the one row of shifts.  Read over the whole array, row `i`,
  column `j` of the result is `h i j * scale j + shift j`.
-/
import proofs.«101558_j53498112639139_1_alg».proof.Proof.Gen.KernelIdeal.Frame
import proofs.«101558_j53498112639139_1_alg».proof.Proof.Spec
import Idealize.ShloMosaic.Lib.Pipeline.Value
import Idealize.ShloMosaic.Lib.ValueIdx
import Idealize.ShloMosaic.Lib.ValueLayout

noncomputable section

namespace Cert.KernelIdeal.Reg2

open Cert.KernelIdeal Cert.KernelIdeal.Gen Idealize.ShloMosaic Idealize.ShloMosaic.TcCoe
open Idealize.ShloMosaic.Pipeline (Dat)
open Idealize.ShloMosaic.ValueIdx

/-- The all-zero offset of a whole-buffer access. -/
theorem hz : (![0, 0] : Fin 2 → Nat) = fun _ => 0 := funext fun a => by fin_cases a <;> rfl

/-- The result array as one function of the three operand arrays: entry `k` is the activation at `k` times the scale of
    `k`'s column plus the shift of `k`'s column. -/
def G (H : S100000x256.Idx → EReal) (s b : S1x256.Idx → EReal) (k : S100000x256.Idx) : EReal :=
  H k * s (ix2 (0 : Fin 1) (k 1 : Fin 256)) + b (ix2 (0 : Fin 1) (k 1 : Fin 256))

/-- The body's arithmetic at row `r`, column `j` of a block: the block's entry times the scale row's entry of that column
    plus the shift row's entry of that column (the two rows are broadcast over the 2000 rows of the block). -/
theorem pay_at (x0 : Vec Ideal S2000x256 .f32) (x1 x2 : Vec Ideal S1x256 .f32) (r : Fin 2000) (j : Fin 256) :
    k2_pay1 (F := Ideal) x0 x1 x2 (ix2 r j) = x0 (ix2 r j) * x1 (ix2 (0 : Fin 1) j) + x2 (ix2 (0 : Fin 1) j) := by
  unfold k2_pay1
  simp only [shapeCast_self]
  rw [addf_apply, mulf_apply, broadcastTo_1b_ab_apply, broadcastTo_1b_ab_apply]

variable (V : (c : Dev nD) → (b : Ref sig .tc) → Buf (Elt Ideal) ((c : Thread nD τ).loc b))

/-- A block of the body's result is the block of `G` when the activation block is read off `H` through `e`, the two rows
    are the scale and shift rows, and `e` keeps the column. -/
theorem block_eq (H : S100000x256.Idx → EReal) (s b : S1x256.Idx → EReal)
    (x0 : Vec Ideal S2000x256 .f32) (x1 x2 : Vec Ideal S1x256 .f32) (e : S2000x256.Idx → S100000x256.Idx)
    (h0 : ∀ y, x0 y = H (e y)) (h1 : x1 = s) (h2 : x2 = b) (he : ∀ y, ((e y) 1).val = (y 1).val) :
    k2_pay1 (F := Ideal) x0 x1 x2 = fun y => G H s b (e y) := by
  funext y
  obtain ⟨r, q, rfl⟩ : ∃ (r : Fin 2000) (q : Fin 256), y = ix2 r q := ⟨y 0, y 1, eq_ix2 y⟩
  rw [pay_at, h0, h1, h2]
  unfold G
  have hq : ((e (ix2 r q)) 1 : Fin 256) = q := Fin.ext (he (ix2 r q))
  rw [hq]

/-- The printed index maps over the 50 points: the activation and result blocks are block `t` of the rows, the scale and
    shift rows are always the whole one-row arrays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 1000000 in
/-- What point `t` writes back is block `t` of `G` of the three operand arrays as the region finds them. -/
theorem flushed_eq (c : Dev nD) (t : Fin cfg2.N) :
    (dat2 V c).flushed 3 t = ((cfg2.win 3).blk t).view.read (Elt Ideal)
      (G (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S2000x256) hz, View.ld_unit_zero (S := S1x256) hz]
  obtain ⟨e0, e1, e2, e3, e4, e5, e6, e7⟩ := idx_facts t
  refine block_eq _ _ _ (iblk2 V c 0 t) (iblk2 V c 1 t) (iblk2 V c 2 t) (((cfg2.win 3).blk t).view.emb) ?_ ?_ ?_ ?_
  · intro y
    show V c (Pipeline.arrRef spec2 0) (((cfg2.win 0).blk t).view.emb y) = V c (Pipeline.arrRef spec2 0) (((cfg2.win 3).blk t).view.emb y)
    refine congrArg (V c (Pipeline.arrRef spec2 0)) (funext fun a => Fin.ext ?_)
    match a with
    | ⟨0, _⟩ => show win2_0.index t (0 : Fin 2) * 2000 + 1 * (y 0).val = win2_3.index t (0 : Fin 2) * 2000 + 1 * (y 0).val; rw [e0, e6]
    | ⟨1, _⟩ => show win2_0.index t (1 : Fin 2) * 256 + 1 * (y 1).val = win2_3.index t (1 : Fin 2) * 256 + 1 * (y 1).val; rw [e1, e7]
  · funext y
    show V c (Pipeline.arrRef spec2 1) (((cfg2.win 1).blk t).view.emb y) = V c (Pipeline.arrRef spec2 1) y
    refine congrArg (V c (Pipeline.arrRef spec2 1)) (funext fun a => Fin.ext ?_)
    match a with
    | ⟨0, _⟩ => show win2_1.index t (0 : Fin 2) * 1 + 1 * (y 0).val = (y 0).val; rw [e2]; omega
    | ⟨1, _⟩ => show win2_1.index t (1 : Fin 2) * 256 + 1 * (y 1).val = (y 1).val; rw [e3]; omega
  · funext y
    show V c (Pipeline.arrRef spec2 2) (((cfg2.win 2).blk t).view.emb y) = V c (Pipeline.arrRef spec2 2) y
    refine congrArg (V c (Pipeline.arrRef spec2 2)) (funext fun a => Fin.ext ?_)
    match a with
    | ⟨0, _⟩ => show win2_2.index t (0 : Fin 2) * 1 + 1 * (y 0).val = (y 0).val; rw [e4]; omega
    | ⟨1, _⟩ => show win2_2.index t (1 : Fin 2) * 256 + 1 * (y 1).val = (y 1).val; rw [e5]; omega
  · intro y
    show win2_3.index t (1 : Fin 2) * 256 + 1 * (y 1).val = (y 1).val
    rw [e7]; omega

/-- An index of the result array is in point `t`'s block iff each coordinate is in the block's range on its axis. -/
theorem mem_blk (t : Fin cfg2.N) (i : S100000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v32).slice (win2_3.rect t)).set ↔ _
  rw [View.set_slice_whole, Rect.mem_set_unit]
  exact Iff.rfl

/-- Every index of the result array lies in the block of the point that owns its row: row `r` belongs to point `r / 2000`. -/
theorem cover (i : S100000x256.Idx) :
    ∃ t : Fin cfg2.N, (cfg2.win 3).flush t = true ∧ i ∈ ((cfg2.win 3).blk t).view.set := by
  have hN : cfg2.N = 50 := N_2
  have hi0 : (i 0).val < 100000 := (i 0).isLt
  have hi1 : (i 1).val < 256 := (i 1).isLt
  let t : Fin cfg2.N := ⟨(i 0).val / 2000, by rw [hN]; omega⟩
  obtain ⟨-, -, -, -, -, -, e6, e7⟩ := idx_facts t
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; rw [e6, ht]; omega
  | ⟨1, _⟩ => show win2_3.index t (1 : Fin 2) * 256 ≤ (i 1).val ∧ (i 1).val < win2_3.index t (1 : Fin 2) * 256 + 256; rw [e7]; omega

/-- The result array after the region is `G` of the three operand arrays as the region finds them. -/
theorem arr_eq (c : Dev nD) :
    (dat2 V c).arrAt 3 cfg2.N = G (V c (Pipeline.arrRef spec2 0)) (V c (Pipeline.arrRef spec2 1)) (V c (Pipeline.arrRef spec2 2)) :=
  (dat2 V c).arrAt_eq_of_cover 3 _ (fun t _ => flushed_eq V c t) cover

/-- Row `i`, column `j` of the result array after the region: the activation entry times the column's scale plus the
    column's shift, each read off the arrays as the region finds them. -/
theorem final (c : Dev nD) (i : Fin 100000) (j : Fin 256) :
    (dat2 V c).arrAt 3 cfg2.N (ix2 i j)
      = Cert.Gin.affineAt (fun i l => V c (Pipeline.arrRef spec2 0) (ix2 i l)) (fun l => V c (Pipeline.arrRef spec2 1) (ix2 (0 : Fin 1) l))
          (fun l => V c (Pipeline.arrRef spec2 2) (ix2 (0 : Fin 1) l)) i j := by
  rw [arr_eq]
  rfl

end Cert.KernelIdeal.Reg2

end
-- ==== Proof.Reg3.lean ====
/-
  The second layer's perceptron region. Its grid has 50 points; point `t` is handed rows `2000 t … 2000 t + 1999` of the
  two `100000×256` inputs (the node features and their aggregated neighbours) and the whole of the weights
  (`256×128`, `128×128`) and biases (`1×128`, `1×128`), and writes back the same rows of the `100000×128` output. Entry
  `(r, j)` of what a point stores is `relu (relu ((x + a) · Wa + ba) · Wb + bb)` at row `r` of its blocks, which reads
  only that row of the inputs; row `2000 t + r` of an input array is row `r` of its block at `t`; and every row `i` lies in
  exactly the block of point `i / 2000`. Hence the output array ends as the perceptron of the arrays the region found,
  entry by entry.
-/
import proofs.«101558_j53498112639139_1_alg».proof.Proof.Gen.KernelIdeal.Frame
import proofs.«101558_j53498112639139_1_alg».proof.Proof.Spec
import proofs.«101558_j53498112639139_1_alg».proof.Proof.MlpBlock
import Idealize.ShloMosaic.Lib.Pipeline.Value
import Idealize.ShloMosaic.Lib.ValueLayout

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The body's one stored value at row `r`, column `j` of its block: the perceptron of the loaded blocks, which reads row
    `r` of the two input blocks and the whole of the weights and biases. -/
theorem pay_at (x0 x1 : Vec Ideal S2000x256 .f32) (x2 : Vec Ideal S256x128 .f32) (x3 : Vec Ideal S1x128 .f32)
    (x4 : Vec Ideal S128x128 .f32) (x5 : Vec Ideal S1x128 .f32) (r : Fin 2000) (j : Fin 128) :
    k3_pay1 x0 x1 x2 x3 x4 x5 (ix2 r j)
      = Cert.Gin.mlpAt (fun i l => x0 (ix2 i l)) (fun i l => x1 (ix2 i l)) (fun l k => x2 (ix2 l k)) (fun k => x3 (ix2 (0 : Fin 1) k))
          (fun k j => x4 (ix2 k j)) (fun j => x5 (ix2 (0 : Fin 1) j)) r j := by
  unfold k3_pay1
  simp only [shapeCast_self]
  exact Cert.Gin.Block.mlp_block_at 2000 256 128 128 x0 x1 x2 x3 x4 x5 _ _ _ r j

/-- The perceptron of the arrays as the region finds them, entry by entry of the output array. -/
def G (c : Dev nD) : S100000x128.Idx → EReal := fun y =>
  Cert.Gin.mlpAt (fun i l => V c (Pipeline.arrRef spec3 0) (ix2 i l)) (fun i l => V c (Pipeline.arrRef spec3 1) (ix2 i l))
    (fun l k => V c (Pipeline.arrRef spec3 2) (ix2 l k)) (fun k => V c (Pipeline.arrRef spec3 3) (ix2 0 k))
    (fun k j => V c (Pipeline.arrRef spec3 4) (ix2 k j)) (fun j => V c (Pipeline.arrRef spec3 5) (ix2 0 j)) (y 0) (y 1)

/-- The printed index maps over the 50 grid points: the two row-blocked inputs and the output sit at block row `t`, block
    column 0; the weights and biases are whole arrays, at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `r` of the first input's block at point `t` is row `2000 t + r` of its array. -/
theorem blk0_row (c : Dev nD) (t : Fin cfg3.N) (r : Fin 2000) (i : Fin 100000) (hi : i.val = t.val * 2000 + r.val) (l : Fin 256) :
    iblk3 V c 0 t (ix2 r l) = V c (Pipeline.arrRef spec3 0) (ix2 i l) := by
  obtain ⟨e0, e1, -⟩ := idx_facts t
  show V c (Pipeline.arrRef spec3 0) (((cfg3.win 0).blk t).view.emb (ix2 r l)) = V c (Pipeline.arrRef spec3 0) (ix2 i l)
  refine congrArg (V c (Pipeline.arrRef spec3 0)) (funext fun a => Fin.ext ?_)
  match a with
  | ⟨0, _⟩ => show win3_0.index t (0 : Fin 2) * 2000 + 1 * r.val = i.val; omega
  | ⟨1, _⟩ => show win3_0.index t (1 : Fin 2) * 256 + 1 * l.val = l.val; omega

/-- Row `r` of the second input's block at point `t` is row `2000 t + r` of its array. -/
theorem blk1_row (c : Dev nD) (t : Fin cfg3.N) (r : Fin 2000) (i : Fin 100000) (hi : i.val = t.val * 2000 + r.val) (l : Fin 256) :
    iblk3 V c 1 t (ix2 r l) = V c (Pipeline.arrRef spec3 1) (ix2 i l) := by
  obtain ⟨-, -, e0, e1, -⟩ := idx_facts t
  show V c (Pipeline.arrRef spec3 1) (((cfg3.win 1).blk t).view.emb (ix2 r l)) = V c (Pipeline.arrRef spec3 1) (ix2 i l)
  refine congrArg (V c (Pipeline.arrRef spec3 1)) (funext fun a => Fin.ext ?_)
  match a with
  | ⟨0, _⟩ => show win3_1.index t (0 : Fin 2) * 2000 + 1 * r.val = i.val; omega
  | ⟨1, _⟩ => show win3_1.index t (1 : Fin 2) * 256 + 1 * l.val = l.val; omega

/-- The first weight matrix is staged whole at every point. -/
theorem blk2 (c : Dev nD) (t : Fin cfg3.N) (y : S256x128.Idx) : iblk3 V c 2 t y = V c (Pipeline.arrRef spec3 2) y := by
  obtain ⟨-, -, -, -, e0, e1, -⟩ := idx_facts t
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 2) * 256 + 1 * (y 0).val = (y 0).val; omega
  | ⟨1, _⟩ => show win3_2.index t (1 : Fin 2) * 128 + 1 * (y 1).val = (y 1).val; omega

/-- The first bias row is staged whole at every point. -/
theorem blk3 (c : Dev nD) (t : Fin cfg3.N) (y : S1x128.Idx) : iblk3 V c 3 t y = V c (Pipeline.arrRef spec3 3) y := by
  obtain ⟨-, -, -, -, -, -, e0, e1, -⟩ := idx_facts t
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The second weight matrix is staged whole at every point. -/
theorem blk4 (c : Dev nD) (t : Fin cfg3.N) (y : S128x128.Idx) : iblk3 V c 4 t y = V c (Pipeline.arrRef spec3 4) y := by
  obtain ⟨-, -, -, -, -, -, -, -, e0, e1, -⟩ := idx_facts t
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- The second bias row is staged whole at every point. -/
theorem blk5 (c : Dev nD) (t : Fin cfg3.N) (y : S1x128.Idx) : iblk3 V c 5 t y = V c (Pipeline.arrRef spec3 5) y := by
  obtain ⟨-, -, -, -, -, -, -, -, -, -, e0, e1, -⟩ := idx_facts t
  show V c (Pipeline.arrRef spec3 5) (((cfg3.win 5).blk t).view.emb y) = V c (Pipeline.arrRef spec3 5) y
  refine congrArg (V c (Pipeline.arrRef spec3 5)) (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- What point `t` writes back is block `t` of the perceptron of the arrays: rows `2000 t … 2000 t + 1999`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x256) hz, View.ld_unit_zero (S := S256x128) hz, View.ld_unit_zero (S := S1x128) hz, View.ld_unit_zero (S := S128x128) hz]
  have hN : cfg3.N = 50 := N_3
  have ht : t.val < 50 := hN ▸ t.isLt
  obtain ⟨-, -, -, -, -, -, -, -, -, -, -, -, e60, e61⟩ := idx_facts t
  funext y
  obtain ⟨r, q, rfl⟩ : ∃ (r : Fin 2000) (q : Fin 128), y = ix2 r q := ⟨y 0, y 1, eq_ix2 y⟩
  have hemb : ((cfg3.win 6).blk t).view.emb (ix2 r q) = ix2 (⟨t.val * 2000 + r.val, by have := r.isLt; omega⟩ : Fin 100000) q :=
    funext fun a => Fin.ext (by
      match a with
      | ⟨0, _⟩ => show win3_6.index t (0 : Fin 2) * 2000 + 1 * r.val = t.val * 2000 + r.val; omega
      | ⟨1, _⟩ => show win3_6.index t (1 : Fin 2) * 128 + 1 * q.val = q.val; omega)
  show k3_pay1 (iblk3 V c 0 t) (iblk3 V c 1 t) (iblk3 V c 2 t) (iblk3 V c 3 t) (iblk3 V c 4 t) (iblk3 V c 5 t) (ix2 r q)
    = G V c (((cfg3.win 6).blk t).view.emb (ix2 r q))
  rw [hemb]
  refine (pay_at (iblk3 V c 0 t) (iblk3 V c 1 t) (iblk3 V c 2 t) (iblk3 V c 3 t) (iblk3 V c 4 t) (iblk3 V c 5 t) r q).trans ?_
  show _ = Cert.Gin.mlpAt _ _ _ _ _ _ (⟨t.val * 2000 + r.val, _⟩ : Fin 100000) q
  unfold Cert.Gin.mlpAt
  simp only [blk0_row V c t r ⟨t.val * 2000 + r.val, by have := r.isLt; omega⟩ rfl,
    blk1_row V c t r ⟨t.val * 2000 + r.val, by have := r.isLt; omega⟩ rfl, blk2 V c t, blk3 V c t, blk4 V c t, blk5 V c t]

/-- An index of the output array is in point `t`'s block iff each coordinate is in the block's range on its axis. -/
theorem mem_blk (t : Fin cfg3.N) (i : S100000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v45).slice (win3_6.rect t)).set ↔ _
  rw [View.set_slice_whole, Rect.mem_set_unit]
  exact Iff.rfl

/-- Every row of the output is written back by one point: row `i` by point `i / 2000`. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 50 := N_3
  obtain ⟨t, htv⟩ : ∃ t : Fin cfg3.N, t.val = (i 0).val / 2000 := ⟨⟨(i 0).val / 2000, by rw [hN]; omega⟩, rfl⟩
  obtain ⟨-, -, -, -, -, -, -, -, -, -, -, -, e60, e61⟩ := idx_facts t
  refine ⟨t, flush3_6 t, ?_⟩
  rw [mem_blk]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 128 ≤ (i 1).val ∧ (i 1).val < win3_6.index t (1 : Fin 2) * 128 + 128
    omega

/-- The output array after the region's last point is the perceptron of the arrays the region found. -/
theorem final_arr (c : Dev nD) : (dat3 V c).arrAt 6 cfg3.N = G V c :=
  (dat3 V c).arrAt_eq_of_cover 6 (G V c) (fun t _ => flushed_eq V c t) cover

/-- Entry `(i, j)` of the second layer's perceptron output. -/
theorem final (c : Dev nD) (i : Fin 100000) (j : Fin 128) :
    (dat3 V c).arrAt 6 cfg3.N (ix2 i j)
      = Cert.Gin.mlpAt (fun i l => V c (Pipeline.arrRef spec3 0) (ix2 i l)) (fun i l => V c (Pipeline.arrRef spec3 1) (ix2 i l))
          (fun l k => V c (Pipeline.arrRef spec3 2) (ix2 l k)) (fun k => V c (Pipeline.arrRef spec3 3) (ix2 0 k))
          (fun k j => V c (Pipeline.arrRef spec3 4) (ix2 k j)) (fun j => V c (Pipeline.arrRef spec3 5) (ix2 0 j)) i j := by
  rw [final_arr]
  rfl

end Cert.KernelIdeal.Reg3

end
-- ==== Proof.Reg4.lean ====
/-
  The batch-normalisation statistics of the second layer. The region walks the 100000×128 input in fifty blocks of 2000 rows
  and keeps two rows of 128 running totals: the first grid point sets both rows to zero, and every point then adds, column by
  column, the sum of its block (first row) and the sum of the squares of its block (second row). Both rows stay in place from
  one point to the next and are written out once, after the last point.

  So after point n the first row holds, at column j, the sum of column j over the rows of blocks 0 … n, and the second row the
  sum of the squares (induction on the point: 0 + x = x for the zeroed start, then one more block per point). The last point's
  rows are the result arrays, and fifty blocks of two thousand rows are all hundred thousand rows, so the results are the
  column sums and the column sums of squares of the whole input. Only associativity and commutativity of the extended reals'
  addition are used, so nothing here asks the entries to be finite.
-/
import proofs.«101558_j53498112639139_1_alg».proof.Proof.Gen.KernelIdeal.Frame
import proofs.«101558_j53498112639139_1_alg».proof.Proof.Spec
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Reg4

open Cert.KernelIdeal Cert.KernelIdeal.Gen
open Facts₀ Facts

section AnyF
variable {F : FTy → Type} [FloatOps F]

/-- The offsets of an access to a whole buffer, all zero. -/
theorem hz : (![0, 0] : Fin 2 → Nat) = fun _ => 0 := funext fun a => by fin_cases a <;> rfl

/-- At a point after the first the body's one store into the first row buffer covers it: the buffer, which held `xo1`, ends
    holding the running-sum term of the block `x` and `xo1`. -/
theorem out_B_1 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S2000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S2000x128) hz,
    View.ld_unit_zero (S := S1x128) hz]

/-- Likewise the second row buffer, which held `xo2`, ends holding the running-sum-of-squares term of `x` and `xo2`. -/
theorem out_B_2 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S2000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S2000x128) hz,
    View.ld_unit_zero (S := S1x128) hz]

/-- At the first point the body first stores the zero row and then the running-sum term over what it has just stored: the
    first row buffer ends holding that term of the block `x` and the zero row, whatever it held before. -/
theorem out_A_1 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S2000x128 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S2000x128) hz]

/-- Likewise the second row buffer at the first point: the running-sum-of-squares term of `x` and the zero row. -/
theorem out_A_2 (c : Dev nD) (i : grid4.Coords) (a1 : Memref sig .tc .vmem S2000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S2000x128 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S2000x128) hz]

end AnyF

section AtIdeal

open Idealize.ShloMosaic.ValueIdx

/-- The zero rows the first grid point stores. -/
theorem pay1_at (j : Fin 128) : k4_pay1 (F := Ideal) (ix2 (0 : Fin 1) j) = 0 := by
  unfold k4_pay1
  show Ideal.ofBits .f32 0x00000000#32 = 0
  exact Ideal.ofBits_zero_f32

/-- The second zero row likewise. -/
theorem pay2_at (j : Fin 128) : k4_pay2 (F := Ideal) (ix2 (0 : Fin 1) j) = 0 := by
  unfold k4_pay2
  show Ideal.ofBits .f32 0x00000000#32 = 0
  exact Ideal.ofBits_zero_f32

/-- The reduction over the row axis of a 2000×128 block, at column `j`: the sum over the block's rows. -/
theorem laneSum (x : FVec Ideal S2000x128 .f32) (h : S2000x128.Reduces [0] S128)
    (hφ : FKind.Formats .f32) (hacc : (0x00000000#32 : BitVec 32) = FKind.add.neutral .f32 hφ) (j : Fin 128) :
    multiReduction .add [0] S128 x 0x00000000#32 h hφ hacc (ix1 j) = ∑ r : Fin 2000, x (ix2 r j) := by
  refine (Ideal.multiReduction_add_single x 0x00000000#32 h hφ hacc (ix1 j)).trans ?_
  refine Finset.sum_congr rfl (fun r _ => congrArg x ?_)
  funext a; match a with | ⟨0, _⟩ => rfl | ⟨1, _⟩ => rfl

/-- A vector of 128 entries recast as one row of 128: entry `(0, j)` is entry `j`. -/
theorem addUnit (v : S128.Idx → EReal) (h : S128.ShapeCasts S1x128) (j : Fin 128) :
    shapeCast S1x128 v h (ix2 (0 : Fin 1) j) = v (ix1 j) := by
  refine (shapeCast_addUnit_apply ![128] v h (ix2 (0 : Fin 1) j)).trans ?_
  refine congrArg v ?_
  funext a; match a with | ⟨0, _⟩ => rfl

/-- The running column sum after a point: the accumulator row plus the block's column sums. -/
theorem pay4_at (x : Vec Ideal S2000x128 .f32) (acc : Vec Ideal S1x128 .f32) (j : Fin 128) :
    k4_pay4 (F := Ideal) x acc (ix2 (0 : Fin 1) j) = acc (ix2 (0 : Fin 1) j) + ∑ r : Fin 2000, x (ix2 r j) := by
  unfold k4_pay4 k4_pay3
  dsimp only
  refine (addf_apply _ _ _).trans ?_
  refine congrArg₂ (· + ·) ?_ ?_
  · exact congrFun (shapeCast_self acc _) _
  · refine (addUnit _ _ j).trans ?_
    refine (laneSum _ _ _ _ j).trans ?_
    exact Finset.sum_congr rfl fun r _ => congrFun (shapeCast_self x _) _

/-- The running column sum of squares after a point. -/
theorem pay5_at (x : Vec Ideal S2000x128 .f32) (acc : Vec Ideal S1x128 .f32) (j : Fin 128) :
    k4_pay5 (F := Ideal) x acc (ix2 (0 : Fin 1) j)
      = acc (ix2 (0 : Fin 1) j) + ∑ r : Fin 2000, x (ix2 r j) * x (ix2 r j) := by
  unfold k4_pay5 k4_pay3
  dsimp only
  refine (addf_apply _ _ _).trans ?_
  refine congrArg₂ (· + ·) ?_ ?_
  · exact congrFun (shapeCast_self acc _) _
  · refine (addUnit _ _ j).trans ?_
    refine (laneSum _ _ _ _ j).trans ?_
    refine Finset.sum_congr rfl fun r _ => ?_
    refine (mulf_apply _ _ _).trans ?_
    exact congrArg₂ (· * ·) (congrFun (shapeCast_self x _) _) (congrFun (shapeCast_self x _) _)

end AtIdeal

section Accumulate

open Idealize.ShloMosaic.ValueIdx

variable (V : (c : Dev nD) → (b : Ref sig .tc) → Buf (Elt Ideal) ((c : Thread nD τ).loc b))

/-- The input window's block at point `t` is block `(t, 0)` of the array, decided over the grid. -/
theorem idx_facts : ∀ t : Fin cfg4.N, win4_0.index t 0 = t.val ∧ win4_0.index t 1 = 0 :=
  (by decide +kernel : ∀ t : Fin grid4.N, win4_0.index t 0 = t.val ∧ win4_0.index t 1 = 0)

/-- Row `r` of the block fetched at point `t` is row `2000 t + r` of the array. -/
theorem iblk_at (c : Dev nD) (t : Fin cfg4.N) (r : Fin 2000) (j : Fin 128) (hb : 2000 * t.val + r.val < 100000) :
    (iblk4 V c 0 t : Vec Ideal S2000x128 .f32) (ix2 r j)
      = V c (Pipeline.arrRef spec4 0) (ix2 (⟨2000 * t.val + r.val, hb⟩ : Fin 100000) j) := by
  unfold iblk4
  rw [View.read_apply]
  show V c (Pipeline.arrRef spec4 0) _ = V c (Pipeline.arrRef spec4 0) _
  refine congrArg (V c (Pipeline.arrRef spec4 0)) ?_
  funext a
  apply Fin.ext
  match a with
  | ⟨0, _⟩ => show win4_0.index t 0 * 2000 + 1 * r.val = 2000 * t.val + r.val; rw [(idx_facts t).1]; omega
  | ⟨1, _⟩ => show win4_0.index t 1 * 128 + 1 * j.val = j.val; rw [(idx_facts t).2]; omega

/-- The sum of `f` over the rows of block `s` (nothing beyond the fiftieth block). -/
def blkSum (f : Fin 100000 → EReal) (s : ℕ) : EReal :=
  if h : s < 50 then ∑ r : Fin 2000, f ⟨2000 * s + r.val, by have := r.isLt; omega⟩ else 0

/-- After point `n` the first accumulator row holds, at column `j`, the sum of that column over the rows of blocks `0 … n`. -/
theorem acc1 (c : Dev nD) (j : Fin 128) : ∀ (n : ℕ) (h : n < cfg4.N),
    (outsAt4 V c n h).1 (ix2 (0 : Fin 1) j)
      = ∑ s ∈ Finset.range (n + 1), blkSum (fun i => V c (Pipeline.arrRef spec4 0) (ix2 i j)) s
  | 0, h => by
    have e := congrArg Prod.fst (outsAt4_A V c ⟨0, h⟩ rfl)
    refine (congrFun e (ix2 (0 : Fin 1) j)).trans ?_
    dsimp only
    refine (congrFun (out_A_1 c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) _ (iblk4 V c 0 ⟨0, h⟩)) (ix2 (0 : Fin 1) j)).trans ?_
    refine (pay4_at (iblk4 V c 0 ⟨0, h⟩) (k4_pay1 (F := Ideal)) j).trans ?_
    rw [pay1_at, zero_add, Finset.sum_range_one, blkSum, dif_pos (by norm_num)]
    exact Finset.sum_congr rfl fun r _ => iblk_at V c ⟨0, h⟩ r j _
  | n + 1, h => by
    have hN : cfg4.N = 50 := N_4
    have hB : ¬(⟨n + 1, h⟩ : Fin cfg4.N).val % 50 = 0 := by dsimp only; omega
    have e := congrArg Prod.fst (outsAt4_B V c ⟨n + 1, h⟩ hB)
    refine (congrFun e (ix2 (0 : Fin 1) j)).trans ?_
    dsimp only
    refine (congrFun (out_B_1 c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) _ (iblk4 V c 0 ⟨n + 1, h⟩) _ _) (ix2 (0 : Fin 1) j)).trans ?_
    refine (pay4_at (iblk4 V c 0 ⟨n + 1, h⟩) _ j).trans ?_
    rw [Finset.sum_range_succ _ (n + 1)]
    refine congrArg₂ (· + ·) (acc1 c j n (Nat.lt_of_succ_lt h)) ?_
    rw [blkSum, dif_pos (by omega)]
    exact Finset.sum_congr rfl fun r _ => iblk_at V c ⟨n + 1, h⟩ r j _

end Accumulate

section Accumulate2

open Idealize.ShloMosaic.ValueIdx

variable (V : (c : Dev nD) → (b : Ref sig .tc) → Buf (Elt Ideal) ((c : Thread nD τ).loc b))

/-- Row i, column l of the array the region reads, as an extended real. -/
abbrev inp (c : Dev nD) (i : Fin 100000) (l : Fin 128) : EReal := V c (Pipeline.arrRef spec4 0) (ix2 i l)

/-- After point `n` the second accumulator row holds, at column `j`, the sum of the squares of that column over the rows of blocks `0 … n`. -/
theorem acc2 (c : Dev nD) (j : Fin 128) : ∀ (n : ℕ) (h : n < cfg4.N),
    (outsAt4 V c n h).2 (ix2 (0 : Fin 1) j)
      = ∑ s ∈ Finset.range (n + 1),
          blkSum (fun i => inp V c i j * inp V c i j) s
  | 0, h => by
    have e := congrArg Prod.snd (outsAt4_A V c ⟨0, h⟩ rfl)
    refine (congrFun e (ix2 (0 : Fin 1) j)).trans ?_
    dsimp only
    refine (congrFun (out_A_2 c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) _ (iblk4 V c 0 ⟨0, h⟩)) (ix2 (0 : Fin 1) j)).trans ?_
    refine (pay5_at (iblk4 V c 0 ⟨0, h⟩) (k4_pay2 (F := Ideal)) j).trans ?_
    rw [pay2_at, zero_add, Finset.sum_range_one, blkSum, dif_pos (by norm_num)]
    exact Finset.sum_congr rfl fun r _ => congrArg₂ (fun a b : EReal => a * b) (iblk_at V c ⟨0, h⟩ r j _) (iblk_at V c ⟨0, h⟩ r j _)
  | n + 1, h => by
    have hN : cfg4.N = 50 := N_4
    have hB : ¬(⟨n + 1, h⟩ : Fin cfg4.N).val % 50 = 0 := by dsimp only; omega
    have e := congrArg Prod.snd (outsAt4_B V c ⟨n + 1, h⟩ hB)
    refine (congrFun e (ix2 (0 : Fin 1) j)).trans ?_
    dsimp only
    refine (congrFun (out_B_2 c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) _ (iblk4 V c 0 ⟨n + 1, h⟩) _ _) (ix2 (0 : Fin 1) j)).trans ?_
    refine (pay5_at (iblk4 V c 0 ⟨n + 1, h⟩) _ j).trans ?_
    rw [Finset.sum_range_succ _ (n + 1)]
    refine congrArg₂ (· + ·) (acc2 c j n (Nat.lt_of_succ_lt h)) ?_
    rw [blkSum, dif_pos (by omega)]
    exact Finset.sum_congr rfl fun r _ =>
      congrArg₂ (fun a b : EReal => a * b) (iblk_at V c ⟨n + 1, h⟩ r j _) (iblk_at V c ⟨n + 1, h⟩ r j _)

end Accumulate2

section Final

open Idealize.ShloMosaic.ValueIdx

variable (V : (c : Dev nD) → (b : Ref sig .tc) → Buf (Elt Ideal) ((c : Thread nD τ).loc b))

/-- Fifty consecutive blocks of two thousand rows are all hundred thousand rows. -/
theorem sum_blocks (f : Fin 100000 → EReal) : ∑ s ∈ Finset.range 50, blkSum f s = ∑ i : Fin 100000, f i := by
  rw [← Fin.sum_univ_eq_sum_range (fun s => blkSum f s) 50]
  have e : ∀ s : Fin 50, blkSum f s.val
      = ∑ r : Fin 2000, f ⟨2000 * s.val + r.val, by have := s.isLt; have := r.isLt; omega⟩ := fun s => by
    rw [blkSum, dif_pos s.isLt]
  rw [Finset.sum_congr rfl fun s _ => e s, ← Fintype.sum_prod_type']
  refine Fintype.sum_equiv (finProdFinEquiv (m := 50) (n := 2000)) _ _ (fun p => ?_)
  refine congrArg f (Fin.ext ?_)
  show 2000 * p.1.val + p.2.val = p.2.val + 2000 * p.1.val
  omega

/-- The last grid point. -/
def tLast : Fin cfg4.N := ⟨49, by rw [show cfg4.N = 50 from N_4]; decide⟩

/-- The rows are written out at the last point only, and that point's block is the whole one-row array: what is written is
    what the last point leaves in the first row buffer. -/
theorem flushed_eq_1 (c : Dev nD) (t : Fin cfg4.N) (hf : (cfg4.win 1).flush t = true) :
    (dat4 V c).flushed 1 t = ((cfg4.win 1).blk t).view.read (Elt Ideal) (outsAt4 V c tLast.val tLast.isLt).1 := by
  have hN : cfg4.N = 50 := N_4
  have h49 : t.val = 49 := by have := (flush4_1 t).mp hf; have := t.isLt; omega
  obtain rfl : t = tLast := Fin.ext h49
  show (cfg4.win 1).cut (grid4.coords tLast) ((dat4 V c).after 1 tLast) = _
  rw [after4_1]
  have hz' : (fun a => win4_1.index tLast a * main_v46_0.ty.shape.size a) = fun _ => 0 := funext fun a => by fin_cases a <;> decide
  exact (Memref.read_access_unit_zero (Elt Ideal) main_v46_0 hz' (fun a => by rw [congrFun hz' a]; simp) _).symm

end Final

section Final2

open Idealize.ShloMosaic.ValueIdx

variable (V : (c : Dev nD) → (b : Ref sig .tc) → Buf (Elt Ideal) ((c : Thread nD τ).loc b))

/-- The same for the second row. -/
theorem flushed_eq_2 (c : Dev nD) (t : Fin cfg4.N) (hf : (cfg4.win 2).flush t = true) :
    (dat4 V c).flushed 2 t = ((cfg4.win 2).blk t).view.read (Elt Ideal) (outsAt4 V c tLast.val tLast.isLt).2 := by
  have hN : cfg4.N = 50 := N_4
  have h49 : t.val = 49 := by have := (flush4_2 t).mp hf; have := t.isLt; omega
  obtain rfl : t = tLast := Fin.ext h49
  show (cfg4.win 2).cut (grid4.coords tLast) ((dat4 V c).after 2 tLast) = _
  rw [after4_2]
  have hz' : (fun a => win4_2.index tLast a * main_v46_1.ty.shape.size a) = fun _ => 0 := funext fun a => by fin_cases a <;> decide
  exact (Memref.read_access_unit_zero (Elt Ideal) main_v46_1 hz' (fun a => by rw [congrFun hz' a]; simp) _).symm

/-- The first result row is what the last point leaves: that point's block is the whole one-row array. -/
theorem arr1 (c : Dev nD) : (dat4 V c).arrAt 1 cfg4.N = (outsAt4 V c tLast.val tLast.isLt).1 :=
  (dat4 V c).arrAt_eq_of_cover 1 _ (flushed_eq_1 V c) fun i =>
    ⟨tLast, (flush4_1 tLast).mpr rfl, by
      show i ∈ ((View.whole main_v46_0).slice (win4_1.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_1.index tLast 0 * win4_1.size 0 ≤ (i 0 : Nat) ∧ (i 0 : Nat) < win4_1.index tLast 0 * win4_1.size 0 + win4_1.xsize (grid4.coords tLast) 0
                  rw [show win4_1.index tLast 0 * win4_1.size 0 = 0 from by decide +kernel, show win4_1.xsize (grid4.coords tLast) 0 = 1 from by decide +kernel]; omega
      | ⟨1, _⟩ => show win4_1.index tLast 1 * win4_1.size 1 ≤ (i 1 : Nat) ∧ (i 1 : Nat) < win4_1.index tLast 1 * win4_1.size 1 + win4_1.xsize (grid4.coords tLast) 1
                  rw [show win4_1.index tLast 1 * win4_1.size 1 = 0 from by decide +kernel, show win4_1.xsize (grid4.coords tLast) 1 = 128 from by decide +kernel]; omega⟩

/-- The second result row likewise. -/
theorem arr2 (c : Dev nD) : (dat4 V c).arrAt 2 cfg4.N = (outsAt4 V c tLast.val tLast.isLt).2 :=
  (dat4 V c).arrAt_eq_of_cover 2 _ (flushed_eq_2 V c) fun i =>
    ⟨tLast, (flush4_2 tLast).mpr rfl, by
      show i ∈ ((View.whole main_v46_1).slice (win4_2.rect tLast)).set
      rw [View.set_slice_whole, Rect.mem_set_unit]
      intro a
      have h0 : (i 0 : Nat) < 1 := (i 0).isLt
      have h1 : (i 1 : Nat) < 128 := (i 1).isLt
      match a with
      | ⟨0, _⟩ => show win4_2.index tLast 0 * win4_2.size 0 ≤ (i 0 : Nat) ∧ (i 0 : Nat) < win4_2.index tLast 0 * win4_2.size 0 + win4_2.xsize (grid4.coords tLast) 0
                  rw [show win4_2.index tLast 0 * win4_2.size 0 = 0 from by decide +kernel, show win4_2.xsize (grid4.coords tLast) 0 = 1 from by decide +kernel]; omega
      | ⟨1, _⟩ => show win4_2.index tLast 1 * win4_2.size 1 ≤ (i 1 : Nat) ∧ (i 1 : Nat) < win4_2.index tLast 1 * win4_2.size 1 + win4_2.xsize (grid4.coords tLast) 1
                  rw [show win4_2.index tLast 1 * win4_2.size 1 = 0 from by decide +kernel, show win4_2.xsize (grid4.coords tLast) 1 = 128 from by decide +kernel]; omega⟩

end Final2

section Result

open Idealize.ShloMosaic.ValueIdx

variable (V : (c : Dev nD) → (b : Ref sig .tc) → Buf (Elt Ideal) ((c : Thread nD τ).loc b))

/-- After the region the first result row holds, at column `j`, the sum of column `j` of the input over all its rows. -/
theorem final_sum (c : Dev nD) (j : Fin 128) :
    (dat4 V c).arrAt 1 cfg4.N (ix2 (0 : Fin 1) j)
      = Cert.Gin.colSum (fun i l => V c (Pipeline.arrRef spec4 0) (ix2 i l)) j := by
  refine (congrFun (arr1 V c) (ix2 (0 : Fin 1) j)).trans ?_
  refine (acc1 V c j tLast.val tLast.isLt).trans ?_
  exact sum_blocks (fun i => V c (Pipeline.arrRef spec4 0) (ix2 i j))

/-- After the region the second result row holds, at column `j`, the sum of the squares of column `j` of the input over all its rows. -/
theorem final_sumsq (c : Dev nD) (j : Fin 128) :
    (dat4 V c).arrAt 2 cfg4.N (ix2 (0 : Fin 1) j)
      = Cert.Gin.colSumSq (fun i l => V c (Pipeline.arrRef spec4 0) (ix2 i l)) j := by
  refine (congrFun (arr2 V c) (ix2 (0 : Fin 1) j)).trans ?_
  refine (acc2 V c j tLast.val tLast.isLt).trans ?_
  exact sum_blocks (fun i => inp V c i j * inp V c i j)

end Result

end Cert.KernelIdeal.Reg4

end
-- ==== Proof.Reg5.lean ====
/-
  The scale-and-shift region of the second layer: each point of the grid takes a block of 2000 rows of the activations,
  multiplies every row by the one row of scales and adds the one row of shifts.  Read over the whole array, row `i`,
  column `j` of the result is `h i j * scale j + shift j`.
-/
import proofs.«101558_j53498112639139_1_alg».proof.Proof.Gen.KernelIdeal.Frame
import proofs.«101558_j53498112639139_1_alg».proof.Proof.Spec
import Idealize.ShloMosaic.Lib.Pipeline.Value
import Idealize.ShloMosaic.Lib.ValueIdx
import Idealize.ShloMosaic.Lib.ValueLayout

noncomputable section

namespace Cert.KernelIdeal.Reg5

open Cert.KernelIdeal Cert.KernelIdeal.Gen Idealize.ShloMosaic Idealize.ShloMosaic.TcCoe
open Idealize.ShloMosaic.Pipeline (Dat)
open Idealize.ShloMosaic.ValueIdx

/-- The all-zero offset of a whole-buffer access. -/
theorem hz : (![0, 0] : Fin 2 → Nat) = fun _ => 0 := funext fun a => by fin_cases a <;> rfl

/-- The result array as one function of the three operand arrays: entry `k` is the activation at `k` times the scale of
    `k`'s column plus the shift of `k`'s column. -/
def G (H : S100000x128.Idx → EReal) (s b : S1x128.Idx → EReal) (k : S100000x128.Idx) : EReal :=
  H k * s (ix2 (0 : Fin 1) (k 1 : Fin 128)) + b (ix2 (0 : Fin 1) (k 1 : Fin 128))

/-- The body's arithmetic at row `r`, column `j` of a block: the block's entry times the scale row's entry of that column
    plus the shift row's entry of that column (the two rows are broadcast over the 2000 rows of the block). -/
theorem pay_at (x0 : Vec Ideal S2000x128 .f32) (x1 x2 : Vec Ideal S1x128 .f32) (r : Fin 2000) (j : Fin 128) :
    k5_pay1 (F := Ideal) x0 x1 x2 (ix2 r j) = x0 (ix2 r j) * x1 (ix2 (0 : Fin 1) j) + x2 (ix2 (0 : Fin 1) j) := by
  unfold k5_pay1
  simp only [shapeCast_self]
  rw [addf_apply, mulf_apply, broadcastTo_1b_ab_apply, broadcastTo_1b_ab_apply]

variable (V : (c : Dev nD) → (b : Ref sig .tc) → Buf (Elt Ideal) ((c : Thread nD τ).loc b))

/-- A block of the body's result is the block of `G` when the activation block is read off `H` through `e`, the two rows
    are the scale and shift rows, and `e` keeps the column. -/
theorem block_eq (H : S100000x128.Idx → EReal) (s b : S1x128.Idx → EReal)
    (x0 : Vec Ideal S2000x128 .f32) (x1 x2 : Vec Ideal S1x128 .f32) (e : S2000x128.Idx → S100000x128.Idx)
    (h0 : ∀ y, x0 y = H (e y)) (h1 : x1 = s) (h2 : x2 = b) (he : ∀ y, ((e y) 1).val = (y 1).val) :
    k5_pay1 (F := Ideal) x0 x1 x2 = fun y => G H s b (e y) := by
  funext y
  obtain ⟨r, q, rfl⟩ : ∃ (r : Fin 2000) (q : Fin 128), y = ix2 r q := ⟨y 0, y 1, eq_ix2 y⟩
  rw [pay_at, h0, h1, h2]
  unfold G
  have hq : ((e (ix2 r q)) 1 : Fin 128) = q := Fin.ext (he (ix2 r q))
  rw [hq]

/-- The printed index maps over the 50 points: the activation and result blocks are block `t` of the rows, the scale and
    shift rows are always the whole one-row arrays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 1000000 in
/-- What point `t` writes back is block `t` of `G` of the three operand arrays as the region finds them. -/
theorem flushed_eq (c : Dev nD) (t : Fin cfg5.N) :
    (dat5 V c).flushed 3 t = ((cfg5.win 3).blk t).view.read (Elt Ideal)
      (G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S2000x128) hz, View.ld_unit_zero (S := S1x128) hz]
  obtain ⟨e0, e1, e2, e3, e4, e5, e6, e7⟩ := idx_facts t
  refine block_eq _ _ _ (iblk5 V c 0 t) (iblk5 V c 1 t) (iblk5 V c 2 t) (((cfg5.win 3).blk t).view.emb) ?_ ?_ ?_ ?_
  · intro y
    show V c (Pipeline.arrRef spec5 0) (((cfg5.win 0).blk t).view.emb y) = V c (Pipeline.arrRef spec5 0) (((cfg5.win 3).blk t).view.emb y)
    refine congrArg (V c (Pipeline.arrRef spec5 0)) (funext fun a => Fin.ext ?_)
    match a with
    | ⟨0, _⟩ => show win5_0.index t (0 : Fin 2) * 2000 + 1 * (y 0).val = win5_3.index t (0 : Fin 2) * 2000 + 1 * (y 0).val; rw [e0, e6]
    | ⟨1, _⟩ => show win5_0.index t (1 : Fin 2) * 128 + 1 * (y 1).val = win5_3.index t (1 : Fin 2) * 128 + 1 * (y 1).val; rw [e1, e7]
  · funext y
    show V c (Pipeline.arrRef spec5 1) (((cfg5.win 1).blk t).view.emb y) = V c (Pipeline.arrRef spec5 1) y
    refine congrArg (V c (Pipeline.arrRef spec5 1)) (funext fun a => Fin.ext ?_)
    match a with
    | ⟨0, _⟩ => show win5_1.index t (0 : Fin 2) * 1 + 1 * (y 0).val = (y 0).val; rw [e2]; omega
    | ⟨1, _⟩ => show win5_1.index t (1 : Fin 2) * 128 + 1 * (y 1).val = (y 1).val; rw [e3]; omega
  · funext y
    show V c (Pipeline.arrRef spec5 2) (((cfg5.win 2).blk t).view.emb y) = V c (Pipeline.arrRef spec5 2) y
    refine congrArg (V c (Pipeline.arrRef spec5 2)) (funext fun a => Fin.ext ?_)
    match a with
    | ⟨0, _⟩ => show win5_2.index t (0 : Fin 2) * 1 + 1 * (y 0).val = (y 0).val; rw [e4]; omega
    | ⟨1, _⟩ => show win5_2.index t (1 : Fin 2) * 128 + 1 * (y 1).val = (y 1).val; rw [e5]; omega
  · intro y
    show win5_3.index t (1 : Fin 2) * 128 + 1 * (y 1).val = (y 1).val
    rw [e7]; omega

/-- An index of the result array is in point `t`'s block iff each coordinate is in the block's range on its axis. -/
theorem mem_blk (t : Fin cfg5.N) (i : S100000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v61).slice (win5_3.rect t)).set ↔ _
  rw [View.set_slice_whole, Rect.mem_set_unit]
  exact Iff.rfl

/-- Every index of the result array lies in the block of the point that owns its row: row `r` belongs to point `r / 2000`. -/
theorem cover (i : S100000x128.Idx) :
    ∃ t : Fin cfg5.N, (cfg5.win 3).flush t = true ∧ i ∈ ((cfg5.win 3).blk t).view.set := by
  have hN : cfg5.N = 50 := N_5
  have hi0 : (i 0).val < 100000 := (i 0).isLt
  have hi1 : (i 1).val < 128 := (i 1).isLt
  let t : Fin cfg5.N := ⟨(i 0).val / 2000, by rw [hN]; omega⟩
  obtain ⟨-, -, -, -, -, -, e6, e7⟩ := idx_facts t
  have ht : t.val = (i 0).val / 2000 := rfl
  refine ⟨t, flush5_3 t, ?_⟩
  rw [mem_blk]
  intro a
  match a with
  | ⟨0, _⟩ => show win5_3.index t (0 : Fin 2) * 2000 ≤ (i 0).val ∧ (i 0).val < win5_3.index t (0 : Fin 2) * 2000 + 2000; rw [e6, ht]; omega
  | ⟨1, _⟩ => show win5_3.index t (1 : Fin 2) * 128 ≤ (i 1).val ∧ (i 1).val < win5_3.index t (1 : Fin 2) * 128 + 128; rw [e7]; omega

/-- The result array after the region is `G` of the three operand arrays as the region finds them. -/
theorem arr_eq (c : Dev nD) :
    (dat5 V c).arrAt 3 cfg5.N = G (V c (Pipeline.arrRef spec5 0)) (V c (Pipeline.arrRef spec5 1)) (V c (Pipeline.arrRef spec5 2)) :=
  (dat5 V c).arrAt_eq_of_cover 3 _ (fun t _ => flushed_eq V c t) cover

/-- Row `i`, column `j` of the result array after the region: the activation entry times the column's scale plus the
    column's shift, each read off the arrays as the region finds them. -/
theorem final (c : Dev nD) (i : Fin 100000) (j : Fin 128) :
    (dat5 V c).arrAt 3 cfg5.N (ix2 i j)
      = Cert.Gin.affineAt (fun i l => V c (Pipeline.arrRef spec5 0) (ix2 i l)) (fun l => V c (Pipeline.arrRef spec5 1) (ix2 (0 : Fin 1) l))
          (fun l => V c (Pipeline.arrRef spec5 2) (ix2 (0 : Fin 1) l)) i j := by
  rw [arr_eq]
  rfl

end Cert.KernelIdeal.Reg5

end
-- ==== Proof.Reg6.lean ====
/-
  The third layer's perceptron region. Its grid has 50 points; point `t` is handed rows `2000 t … 2000 t + 1999` of the
  two `100000×128` inputs (the node features and their aggregated neighbours) and the whole of the weights
  (`128×64`, `64×64`) and biases (`1×64`, `1×64`), and writes back the same rows of the `100000×64` output. Entry
  `(r, j)` of what a point stores is `relu (relu ((x + a) · Wa + ba) · Wb + bb)` at row `r` of its blocks, which reads
  only that row of the inputs; row `2000 t + r` of an input array is row `r` of its block at `t`; and every row `i` lies in
  exactly the block of point `i / 2000`. Hence the output array ends as the perceptron of the arrays the region found,
  entry by entry.
-/
import proofs.«101558_j53498112639139_1_alg».proof.Proof.Gen.KernelIdeal.Frame
import proofs.«101558_j53498112639139_1_alg».proof.Proof.Spec
import proofs.«101558_j53498112639139_1_alg».proof.Proof.MlpBlock
import Idealize.ShloMosaic.Lib.Pipeline.Value
import Idealize.ShloMosaic.Lib.ValueLayout

noncomputable section

namespace Cert.KernelIdeal.Reg6

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The body's one stored value at row `r`, column `j` of its block: the perceptron of the loaded blocks, which reads row
    `r` of the two input blocks and the whole of the weights and biases. -/
theorem pay_at (x0 x1 : Vec Ideal S2000x128 .f32) (x2 : Vec Ideal S128x64 .f32) (x3 : Vec Ideal S1x64 .f32)
    (x4 : Vec Ideal S64x64 .f32) (x5 : Vec Ideal S1x64 .f32) (r : Fin 2000) (j : Fin 64) :
    k6_pay1 x0 x1 x2 x3 x4 x5 (ix2 r j)
      = Cert.Gin.mlpAt (fun i l => x0 (ix2 i l)) (fun i l => x1 (ix2 i l)) (fun l k => x2 (ix2 l k)) (fun k => x3 (ix2 (0 : Fin 1) k))
          (fun k j => x4 (ix2 k j)) (fun j => x5 (ix2 (0 : Fin 1) j)) r j := by
  unfold k6_pay1
  simp only [shapeCast_self]
  exact Cert.Gin.Block.mlp_block_at 2000 128 64 64 x0 x1 x2 x3 x4 x5 _ _ _ r j

/-- The perceptron of the arrays as the region finds them, entry by entry of the output array. -/
def G (c : Dev nD) : S100000x64.Idx → EReal := fun y =>
  Cert.Gin.mlpAt (fun i l => V c (Pipeline.arrRef spec6 0) (ix2 i l)) (fun i l => V c (Pipeline.arrRef spec6 1) (ix2 i l))
    (fun l k => V c (Pipeline.arrRef spec6 2) (ix2 l k)) (fun k => V c (Pipeline.arrRef spec6 3) (ix2 0 k))
    (fun k j => V c (Pipeline.arrRef spec6 4) (ix2 k j)) (fun j => V c (Pipeline.arrRef spec6 5) (ix2 0 j)) (y 0) (y 1)

/-- The printed index maps over the 50 grid points: the two row-blocked inputs and the output sit at block row `t`, block
    column 0; the weights and biases are whole arrays, at block (0, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row `r` of the first input's block at point `t` is row `2000 t + r` of its array. -/
theorem blk0_row (c : Dev nD) (t : Fin cfg6.N) (r : Fin 2000) (i : Fin 100000) (hi : i.val = t.val * 2000 + r.val) (l : Fin 128) :
    iblk6 V c 0 t (ix2 r l) = V c (Pipeline.arrRef spec6 0) (ix2 i l) := by
  obtain ⟨e0, e1, -⟩ := idx_facts t
  show V c (Pipeline.arrRef spec6 0) (((cfg6.win 0).blk t).view.emb (ix2 r l)) = V c (Pipeline.arrRef spec6 0) (ix2 i l)
  refine congrArg (V c (Pipeline.arrRef spec6 0)) (funext fun a => Fin.ext ?_)
  match a with
  | ⟨0, _⟩ => show win6_0.index t (0 : Fin 2) * 2000 + 1 * r.val = i.val; omega
  | ⟨1, _⟩ => show win6_0.index t (1 : Fin 2) * 128 + 1 * l.val = l.val; omega

/-- Row `r` of the second input's block at point `t` is row `2000 t + r` of its array. -/
theorem blk1_row (c : Dev nD) (t : Fin cfg6.N) (r : Fin 2000) (i : Fin 100000) (hi : i.val = t.val * 2000 + r.val) (l : Fin 128) :
    iblk6 V c 1 t (ix2 r l) = V c (Pipeline.arrRef spec6 1) (ix2 i l) := by
  obtain ⟨-, -, e0, e1, -⟩ := idx_facts t
  show V c (Pipeline.arrRef spec6 1) (((cfg6.win 1).blk t).view.emb (ix2 r l)) = V c (Pipeline.arrRef spec6 1) (ix2 i l)
  refine congrArg (V c (Pipeline.arrRef spec6 1)) (funext fun a => Fin.ext ?_)
  match a with
  | ⟨0, _⟩ => show win6_1.index t (0 : Fin 2) * 2000 + 1 * r.val = i.val; omega
  | ⟨1, _⟩ => show win6_1.index t (1 : Fin 2) * 128 + 1 * l.val = l.val; omega

/-- The first weight matrix is staged whole at every point. -/
theorem blk2 (c : Dev nD) (t : Fin cfg6.N) (y : S128x64.Idx) : iblk6 V c 2 t y = V c (Pipeline.arrRef spec6 2) y := by
  obtain ⟨-, -, -, -, e0, e1, -⟩ := idx_facts t
  show V c (Pipeline.arrRef spec6 2) (((cfg6.win 2).blk t).view.emb y) = V c (Pipeline.arrRef spec6 2) y
  refine congrArg (V c (Pipeline.arrRef spec6 2)) (funext fun a => Fin.ext ?_)
  match a with
  | ⟨0, _⟩ => show win6_2.index t (0 : Fin 2) * 128 + 1 * (y 0).val = (y 0).val; omega
  | ⟨1, _⟩ => show win6_2.index t (1 : Fin 2) * 64 + 1 * (y 1).val = (y 1).val; omega

/-- The first bias row is staged whole at every point. -/
theorem blk3 (c : Dev nD) (t : Fin cfg6.N) (y : S1x64.Idx) : iblk6 V c 3 t y = V c (Pipeline.arrRef spec6 3) y := by
  obtain ⟨-, -, -, -, -, -, e0, e1, -⟩ := idx_facts t
  show V c (Pipeline.arrRef spec6 3) (((cfg6.win 3).blk t).view.emb y) = V c (Pipeline.arrRef spec6 3) y
  refine congrArg (V c (Pipeline.arrRef spec6 3)) (funext fun a => Fin.ext ?_)
  match a with
  | ⟨0, _⟩ => show win6_3.index t (0 : Fin 2) * 1 + 1 * (y 0).val = (y 0).val; omega
  | ⟨1, _⟩ => show win6_3.index t (1 : Fin 2) * 64 + 1 * (y 1).val = (y 1).val; omega

/-- The second weight matrix is staged whole at every point. -/
theorem blk4 (c : Dev nD) (t : Fin cfg6.N) (y : S64x64.Idx) : iblk6 V c 4 t y = V c (Pipeline.arrRef spec6 4) y := by
  obtain ⟨-, -, -, -, -, -, -, -, e0, e1, -⟩ := idx_facts t
  show V c (Pipeline.arrRef spec6 4) (((cfg6.win 4).blk t).view.emb y) = V c (Pipeline.arrRef spec6 4) y
  refine congrArg (V c (Pipeline.arrRef spec6 4)) (funext fun a => Fin.ext ?_)
  match a with
  | ⟨0, _⟩ => show win6_4.index t (0 : Fin 2) * 64 + 1 * (y 0).val = (y 0).val; omega
  | ⟨1, _⟩ => show win6_4.index t (1 : Fin 2) * 64 + 1 * (y 1).val = (y 1).val; omega

/-- The second bias row is staged whole at every point. -/
theorem blk5 (c : Dev nD) (t : Fin cfg6.N) (y : S1x64.Idx) : iblk6 V c 5 t y = V c (Pipeline.arrRef spec6 5) y := by
  obtain ⟨-, -, -, -, -, -, -, -, -, -, e0, e1, -⟩ := idx_facts t
  show V c (Pipeline.arrRef spec6 5) (((cfg6.win 5).blk t).view.emb y) = V c (Pipeline.arrRef spec6 5) y
  refine congrArg (V c (Pipeline.arrRef spec6 5)) (funext fun a => Fin.ext ?_)
  match a with
  | ⟨0, _⟩ => show win6_5.index t (0 : Fin 2) * 1 + 1 * (y 0).val = (y 0).val; omega
  | ⟨1, _⟩ => show win6_5.index t (1 : Fin 2) * 64 + 1 * (y 1).val = (y 1).val; omega

/-- What point `t` writes back is block `t` of the perceptron of the arrays: rows `2000 t … 2000 t + 1999`. -/
theorem flushed_eq (c : Dev nD) (t : Fin cfg6.N) :
    (dat6 V c).flushed 6 t = ((cfg6.win 6).blk t).view.read (Elt Ideal) (G V c) := by
  show (cfg6.win 6).cut (grid6.coords t) ((dat6 V c).after 6 t) = _
  rw [after6_6]
  unfold out6_6
  rw [View.canon_unit_zero hz]
  simp only [View.ld_unit_zero (S := S2000x128) hz, View.ld_unit_zero (S := S128x64) hz, View.ld_unit_zero (S := S1x64) hz, View.ld_unit_zero (S := S64x64) hz]
  have hN : cfg6.N = 50 := N_6
  have ht : t.val < 50 := hN ▸ t.isLt
  obtain ⟨-, -, -, -, -, -, -, -, -, -, -, -, e60, e61⟩ := idx_facts t
  funext y
  obtain ⟨r, q, rfl⟩ : ∃ (r : Fin 2000) (q : Fin 64), y = ix2 r q := ⟨y 0, y 1, eq_ix2 y⟩
  have hemb : ((cfg6.win 6).blk t).view.emb (ix2 r q) = ix2 (⟨t.val * 2000 + r.val, by have := r.isLt; omega⟩ : Fin 100000) q :=
    funext fun a => Fin.ext (by
      match a with
      | ⟨0, _⟩ => show win6_6.index t (0 : Fin 2) * 2000 + 1 * r.val = t.val * 2000 + r.val; omega
      | ⟨1, _⟩ => show win6_6.index t (1 : Fin 2) * 64 + 1 * q.val = q.val; omega)
  show k6_pay1 (iblk6 V c 0 t) (iblk6 V c 1 t) (iblk6 V c 2 t) (iblk6 V c 3 t) (iblk6 V c 4 t) (iblk6 V c 5 t) (ix2 r q)
    = G V c (((cfg6.win 6).blk t).view.emb (ix2 r q))
  rw [hemb]
  refine (pay_at (iblk6 V c 0 t) (iblk6 V c 1 t) (iblk6 V c 2 t) (iblk6 V c 3 t) (iblk6 V c 4 t) (iblk6 V c 5 t) r q).trans ?_
  show _ = Cert.Gin.mlpAt _ _ _ _ _ _ (⟨t.val * 2000 + r.val, _⟩ : Fin 100000) q
  unfold Cert.Gin.mlpAt
  simp only [blk0_row V c t r ⟨t.val * 2000 + r.val, by have := r.isLt; omega⟩ rfl,
    blk1_row V c t r ⟨t.val * 2000 + r.val, by have := r.isLt; omega⟩ rfl, blk2 V c t, blk3 V c t, blk4 V c t, blk5 V c t]

/-- An index of the output array is in point `t`'s block iff each coordinate is in the block's range on its axis. -/
theorem mem_blk (t : Fin cfg6.N) (i : S100000x64.Idx) :
    i ∈ ((cfg6.win 6).blk t).view.set ↔ ∀ a : Fin 2, win6_6.index t a * S2000x64.size a ≤ (i a).val
      ∧ (i a).val < win6_6.index t a * S2000x64.size a + S2000x64.size a := by
  show i ∈ ((View.whole main_v74).slice (win6_6.rect t)).set ↔ _
  rw [View.set_slice_whole, Rect.mem_set_unit]
  exact Iff.rfl

/-- Every row of the output is written back by one point: row `i` by point `i / 2000`. -/
theorem cover (i : S100000x64.Idx) :
    ∃ t : Fin cfg6.N, (cfg6.win 6).flush t = true ∧ i ∈ ((cfg6.win 6).blk t).view.set := by
  have hi0 : (i 0).val < 100000 := (i 0).isLt
  have hi1 : (i 1).val < 64 := (i 1).isLt
  have hN : cfg6.N = 50 := N_6
  obtain ⟨t, htv⟩ : ∃ t : Fin cfg6.N, t.val = (i 0).val / 2000 := ⟨⟨(i 0).val / 2000, by rw [hN]; omega⟩, rfl⟩
  obtain ⟨-, -, -, -, -, -, -, -, -, -, -, -, e60, e61⟩ := idx_facts t
  refine ⟨t, flush6_6 t, ?_⟩
  rw [mem_blk]
  intro a
  match a with
  | ⟨0, _⟩ =>
    show win6_6.index t (0 : Fin 2) * 2000 ≤ (i 0).val ∧ (i 0).val < win6_6.index t (0 : Fin 2) * 2000 + 2000
    omega
  | ⟨1, _⟩ =>
    show win6_6.index t (1 : Fin 2) * 64 ≤ (i 1).val ∧ (i 1).val < win6_6.index t (1 : Fin 2) * 64 + 64
    omega

/-- The output array after the region's last point is the perceptron of the arrays the region found. -/
theorem final_arr (c : Dev nD) : (dat6 V c).arrAt 6 cfg6.N = G V c :=
  (dat6 V c).arrAt_eq_of_cover 6 (G V c) (fun t _ => flushed_eq V c t) cover

/-- Entry `(i, j)` of the third layer's perceptron output. -/
theorem final (c : Dev nD) (i : Fin 100000) (j : Fin 64) :
    (dat6 V c).arrAt 6 cfg6.N (ix2 i j)
      = Cert.Gin.mlpAt (fun i l => V c (Pipeline.arrRef spec6 0) (ix2 i l)) (fun i l => V c (Pipeline.arrRef spec6 1) (ix2 i l))
          (fun l k => V c (Pipeline.arrRef spec6 2) (ix2 l k)) (fun k => V c (Pipeline.arrRef spec6 3) (ix2 0 k))
          (fun k j => V c (Pipeline.arrRef spec6 4) (ix2 k j)) (fun j => V c (Pipeline.arrRef spec6 5) (ix2 0 j)) i j := by
  rw [final_arr]
  rfl

end Cert.KernelIdeal.Reg6

end
-- ==== Proof.Reg7.lean ====
/-
  The batch-normalisation statistics of the third layer. The region walks the 100000×64 input in fifty blocks of 2000 rows
  and keeps two rows of 64 running totals: the first grid point sets both rows to zero, and every point then adds, column by
  column, the sum of its block (first row) and the sum of the squares of its block (second row). Both rows stay in place from
  one point to the next and are written out once, after the last point.

  So after point n the first row holds, at column j, the sum of column j over the rows of blocks 0 … n, and the second row the
  sum of the squares (induction on the point: 0 + x = x for the zeroed start, then one more block per point). The last point's
  rows are the result arrays, and fifty blocks of two thousand rows are all hundred thousand rows, so the results are the
  column sums and the column sums of squares of the whole input. Only associativity and commutativity of the extended reals'
  addition are used, so nothing here asks the entries to be finite.
-/
import proofs.«101558_j53498112639139_1_alg».proof.Proof.Gen.KernelIdeal.Frame
import proofs.«101558_j53498112639139_1_alg».proof.Proof.Spec
import Idealize.ShloMosaic.Lib.Pipeline.Value
import Idealize.ShloMosaic.PureOps.Ideal.Laws
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Reg7

open Cert.KernelIdeal Cert.KernelIdeal.Gen
open Facts₀ Facts

section AnyF
variable {F : FTy → Type} [FloatOps F]

/-- The offsets of an access to a whole buffer, all zero. -/
theorem hz : (![0, 0] : Fin 2 → Nat) = fun _ => 0 := funext fun a => by fin_cases a <;> rfl

/-- At a point after the first the body's one store into the first row buffer covers it: the buffer, which held `xo1`, ends
    holding the running-sum term of the block `x` and `xo1`. -/
theorem out_B_1 (c : Dev nD) (i : grid7.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S2000x64 .f32) (xo1 xo2 : Vec F S1x64 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  rw [View.canon_unit_zero hz]
  simp only [View.readAt_eq_ld, h1.read_unread, h2.read_unread, View.ld_unit_zero (S := S2000x64) hz,
    View.ld_unit_zero (S := S1x64) hz]

/-- Likewise the second row buffer, which held `xo2`, ends holding the running-sum-of-squares term of `x` and `xo2`. -/
theorem out_B_2 (c : Dev nD) (i : grid7.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S2000x64 .f32) (xo1 xo2 : Vec F S1x64 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  rw [View.canon_unit_zero hz]
  simp only [View.readAt_eq_ld, h1.read_unread, h3.read_unread, View.ld_unit_zero (S := S2000x64) hz,
    View.ld_unit_zero (S := S1x64) hz]

/-- At the first point the body first stores the zero row and then the running-sum term over what it has just stored: the
    first row buffer ends holding that term of the block `x` and the zero row, whatever it held before. -/
theorem out_A_1 (c : Dev nD) (i : grid7.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S2000x64 .f32) :
    out7_A_1 c i a1 h1 a2 h2 a3 h3 hc x = k7_pay4 x k7_pay1 := by
  unfold out7_A_1
  rw [View.read_writes_eq_canon _ _ _ (cover7_A_1 c i a1 h1 a2 h2 a3 h3 hc x)]
  unfold kernelRun7_A
  dsimp only
  sl_unfold_words
  rw [View.canon_cons_unit_zero (S := S1x64) hz, View.readCov_unit_zero (S := S1x64) _ hz]
  simp only [View.readAt_eq_ld, h1.read_unread, View.ld_unit_zero (S := S2000x64) hz]

/-- Likewise the second row buffer at the first point: the running-sum-of-squares term of `x` and the zero row. -/
theorem out_A_2 (c : Dev nD) (i : grid7.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S2000x64 .f32) :
    out7_A_2 c i a1 h1 a2 h2 a3 h3 hc x = k7_pay5 x k7_pay2 := by
  unfold out7_A_2
  rw [View.read_writes_eq_canon _ _ _ (cover7_A_2 c i a1 h1 a2 h2 a3 h3 hc x)]
  unfold kernelRun7_A
  dsimp only
  sl_unfold_words
  rw [View.canon_cons_unit_zero (S := S1x64) hz, View.readCov_unit_zero (S := S1x64) _ hz]
  simp only [View.readAt_eq_ld, h1.read_unread, View.ld_unit_zero (S := S2000x64) hz]

end AnyF

section AtIdeal

open Idealize.ShloMosaic.ValueIdx

/-- The zero rows the first grid point stores. -/
theorem pay1_at (j : Fin 64) : k7_pay1 (F := Ideal) (ix2 (0 : Fin 1) j) = 0 := by
  unfold k7_pay1
  show Ideal.ofBits .f32 0x00000000#32 = 0
  exact Ideal.ofBits_zero_f32

/-- The second zero row likewise. -/
theorem pay2_at (j : Fin 64) : k7_pay2 (F := Ideal) (ix2 (0 : Fin 1) j) = 0 := by
  unfold k7_pay2
  show Ideal.ofBits .f32 0x00000000#32 = 0
  exact Ideal.ofBits_zero_f32

/-- The reduction over the row axis of a 2000×64 block, at column `j`: the sum over the block's rows. -/
theorem laneSum (x : FVec Ideal S2000x64 .f32) (h : S2000x64.Reduces [0] S64)
    (hφ : FKind.Formats .f32) (hacc : (0x00000000#32 : BitVec 32) = FKind.add.neutral .f32 hφ) (j : Fin 64) :
    multiReduction .add [0] S64 x 0x00000000#32 h hφ hacc (ix1 j) = ∑ r : Fin 2000, x (ix2 r j) := by
  refine (Ideal.multiReduction_add_single x 0x00000000#32 h hφ hacc (ix1 j)).trans ?_
  refine Finset.sum_congr rfl (fun r _ => congrArg x ?_)
  funext a; match a with | ⟨0, _⟩ => rfl | ⟨1, _⟩ => rfl

/-- A vector of 64 entries recast as one row of 64: entry `(0, j)` is entry `j`. -/
theorem addUnit (v : S64.Idx → EReal) (h : S64.ShapeCasts S1x64) (j : Fin 64) :
    shapeCast S1x64 v h (ix2 (0 : Fin 1) j) = v (ix1 j) := by
  refine (shapeCast_addUnit_apply ![64] v h (ix2 (0 : Fin 1) j)).trans ?_
  refine congrArg v ?_
  funext a; match a with | ⟨0, _⟩ => rfl

/-- The running column sum after a point: the accumulator row plus the block's column sums. -/
theorem pay4_at (x : Vec Ideal S2000x64 .f32) (acc : Vec Ideal S1x64 .f32) (j : Fin 64) :
    k7_pay4 (F := Ideal) x acc (ix2 (0 : Fin 1) j) = acc (ix2 (0 : Fin 1) j) + ∑ r : Fin 2000, x (ix2 r j) := by
  unfold k7_pay4 k7_pay3
  dsimp only
  refine (addf_apply _ _ _).trans ?_
  refine congrArg₂ (· + ·) ?_ ?_
  · exact congrFun (shapeCast_self acc _) _
  · refine (addUnit _ _ j).trans ?_
    refine (laneSum _ _ _ _ j).trans ?_
    exact Finset.sum_congr rfl fun r _ => congrFun (shapeCast_self x _) _

/-- The running column sum of squares after a point. -/
theorem pay5_at (x : Vec Ideal S2000x64 .f32) (acc : Vec Ideal S1x64 .f32) (j : Fin 64) :
    k7_pay5 (F := Ideal) x acc (ix2 (0 : Fin 1) j)
      = acc (ix2 (0 : Fin 1) j) + ∑ r : Fin 2000, x (ix2 r j) * x (ix2 r j) := by
  unfold k7_pay5 k7_pay3
  dsimp only
  refine (addf_apply _ _ _).trans ?_
  refine congrArg₂ (· + ·) ?_ ?_
  · exact congrFun (shapeCast_self acc _) _
  · refine (addUnit _ _ j).trans ?_
    refine (laneSum _ _ _ _ j).trans ?_
    refine Finset.sum_congr rfl fun r _ => ?_
    refine (mulf_apply _ _ _).trans ?_
    exact congrArg₂ (· * ·) (congrFun (shapeCast_self x _) _) (congrFun (shapeCast_self x _) _)

end AtIdeal

section Accumulate

open Idealize.ShloMosaic.ValueIdx

variable (V : (c : Dev nD) → (b : Ref sig .tc) → Buf (Elt Ideal) ((c : Thread nD τ).loc b))

/-- The input window's block at point `t` is block `(t, 0)` of the array, decided over the grid. -/
theorem idx_facts : ∀ t : Fin cfg7.N, win7_0.index t 0 = t.val ∧ win7_0.index t 1 = 0 :=
  (by decide +kernel : ∀ t : Fin grid7.N, win7_0.index t 0 = t.val ∧ win7_0.index t 1 = 0)

/-- Row `r` of the block fetched at point `t` is row `2000 t + r` of the array. -/
theorem iblk_at (c : Dev nD) (t : Fin cfg7.N) (r : Fin 2000) (j : Fin 64) (hb : 2000 * t.val + r.val < 100000) :
    (iblk7 V c 0 t : Vec Ideal S2000x64 .f32) (ix2 r j)
      = V c (Pipeline.arrRef spec7 0) (ix2 (⟨2000 * t.val + r.val, hb⟩ : Fin 100000) j) := by
  unfold iblk7
  rw [View.read_apply]
  show V c (Pipeline.arrRef spec7 0) _ = V c (Pipeline.arrRef spec7 0) _
  refine congrArg (V c (Pipeline.arrRef spec7 0)) ?_
  funext a
  apply Fin.ext
  match a with
  | ⟨0, _⟩ => show win7_0.index t 0 * 2000 + 1 * r.val = 2000 * t.val + r.val; rw [(idx_facts t).1]; omega
  | ⟨1, _⟩ => show win7_0.index t 1 * 64 + 1 * j.val = j.val; rw [(idx_facts t).2]; omega

/-- The sum of `f` over the rows of block `s` (nothing beyond the fiftieth block). -/
def blkSum (f : Fin 100000 → EReal) (s : ℕ) : EReal :=
  if h : s < 50 then ∑ r : Fin 2000, f ⟨2000 * s + r.val, by have := r.isLt; omega⟩ else 0

/-- After point `n` the first accumulator row holds, at column `j`, the sum of that column over the rows of blocks `0 … n`. -/
theorem acc1 (c : Dev nD) (j : Fin 64) : ∀ (n : ℕ) (h : n < cfg7.N),
    (outsAt7 V c n h).1 (ix2 (0 : Fin 1) j)
      = ∑ s ∈ Finset.range (n + 1), blkSum (fun i => V c (Pipeline.arrRef spec7 0) (ix2 i j)) s
  | 0, h => by
    have e := congrArg Prod.fst (outsAt7_A V c ⟨0, h⟩ rfl)
    refine (congrFun e (ix2 (0 : Fin 1) j)).trans ?_
    dsimp only
    refine (congrFun (out_A_1 c (grid7.coords ⟨0, h⟩) (ms7_0 ⟨0, h⟩) (hs7_0 ⟨0, h⟩) (ms7_1 ⟨0, h⟩) (hs7_1 ⟨0, h⟩)
      (ms7_2 ⟨0, h⟩) (hs7_2 ⟨0, h⟩) _ (iblk7 V c 0 ⟨0, h⟩)) (ix2 (0 : Fin 1) j)).trans ?_
    refine (pay4_at (iblk7 V c 0 ⟨0, h⟩) (k7_pay1 (F := Ideal)) j).trans ?_
    rw [pay1_at, zero_add, Finset.sum_range_one, blkSum, dif_pos (by norm_num)]
    exact Finset.sum_congr rfl fun r _ => iblk_at V c ⟨0, h⟩ r j _
  | n + 1, h => by
    have hN : cfg7.N = 50 := N_7
    have hB : ¬(⟨n + 1, h⟩ : Fin cfg7.N).val % 50 = 0 := by dsimp only; omega
    have e := congrArg Prod.fst (outsAt7_B V c ⟨n + 1, h⟩ hB)
    refine (congrFun e (ix2 (0 : Fin 1) j)).trans ?_
    dsimp only
    refine (congrFun (out_B_1 c (grid7.coords ⟨n + 1, h⟩) (ms7_0 ⟨n + 1, h⟩) (hs7_0 ⟨n + 1, h⟩) (ms7_1 ⟨n + 1, h⟩) (hs7_1 ⟨n + 1, h⟩)
      (ms7_2 ⟨n + 1, h⟩) (hs7_2 ⟨n + 1, h⟩) _ (iblk7 V c 0 ⟨n + 1, h⟩) _ _) (ix2 (0 : Fin 1) j)).trans ?_
    refine (pay4_at (iblk7 V c 0 ⟨n + 1, h⟩) _ j).trans ?_
    rw [Finset.sum_range_succ _ (n + 1)]
    refine congrArg₂ (· + ·) (acc1 c j n (Nat.lt_of_succ_lt h)) ?_
    rw [blkSum, dif_pos (by omega)]
    exact Finset.sum_congr rfl fun r _ => iblk_at V c ⟨n + 1, h⟩ r j _

end Accumulate

section Accumulate2

open Idealize.ShloMosaic.ValueIdx

variable (V : (c : Dev nD) → (b : Ref sig .tc) → Buf (Elt Ideal) ((c : Thread nD τ).loc b))

/-- Row i, column l of the array the region reads, as an extended real. -/
abbrev inp (c : Dev nD) (i : Fin 100000) (l : Fin 64) : EReal := V c (Pipeline.arrRef spec7 0) (ix2 i l)

/-- After point `n` the second accumulator row holds, at column `j`, the sum of the squares of that column over the rows of blocks `0 … n`. -/
theorem acc2 (c : Dev nD) (j : Fin 64) : ∀ (n : ℕ) (h : n < cfg7.N),
    (outsAt7 V c n h).2 (ix2 (0 : Fin 1) j)
      = ∑ s ∈ Finset.range (n + 1),
          blkSum (fun i => inp V c i j * inp V c i j) s
  | 0, h => by
    have e := congrArg Prod.snd (outsAt7_A V c ⟨0, h⟩ rfl)
    refine (congrFun e (ix2 (0 : Fin 1) j)).trans ?_
    dsimp only
    refine (congrFun (out_A_2 c (grid7.coords ⟨0, h⟩) (ms7_0 ⟨0, h⟩) (hs7_0 ⟨0, h⟩) (ms7_1 ⟨0, h⟩) (hs7_1 ⟨0, h⟩)
      (ms7_2 ⟨0, h⟩) (hs7_2 ⟨0, h⟩) _ (iblk7 V c 0 ⟨0, h⟩)) (ix2 (0 : Fin 1) j)).trans ?_
    refine (pay5_at (iblk7 V c 0 ⟨0, h⟩) (k7_pay2 (F := Ideal)) j).trans ?_
    rw [pay2_at, zero_add, Finset.sum_range_one, blkSum, dif_pos (by norm_num)]
    exact Finset.sum_congr rfl fun r _ => congrArg₂ (fun a b : EReal => a * b) (iblk_at V c ⟨0, h⟩ r j _) (iblk_at V c ⟨0, h⟩ r j _)
  | n + 1, h => by
    have hN : cfg7.N = 50 := N_7
    have hB : ¬(⟨n + 1, h⟩ : Fin cfg7.N).val % 50 = 0 := by dsimp only; omega
    have e := congrArg Prod.snd (outsAt7_B V c ⟨n + 1, h⟩ hB)
    refine (congrFun e (ix2 (0 : Fin 1) j)).trans ?_
    dsimp only
    refine (congrFun (out_B_2 c (grid7.coords ⟨n + 1, h⟩) (ms7_0 ⟨n + 1, h⟩) (hs7_0 ⟨n + 1, h⟩) (ms7_1 ⟨n + 1, h⟩) (hs7_1 ⟨n + 1, h⟩)
      (ms7_2 ⟨n + 1, h⟩) (hs7_2 ⟨n + 1, h⟩) _ (iblk7 V c 0 ⟨n + 1, h⟩) _ _) (ix2 (0 : Fin 1) j)).trans ?_
    refine (pay5_at (iblk7 V c 0 ⟨n + 1, h⟩) _ j).trans ?_
    rw [Finset.sum_range_succ _ (n + 1)]
    refine congrArg₂ (· + ·) (acc2 c j n (Nat.lt_of_succ_lt h)) ?_
    rw [blkSum, dif_pos (by omega)]
    exact Finset.sum_congr rfl fun r _ =>
      congrArg₂ (fun a b : EReal => a * b) (iblk_at V c ⟨n + 1, h⟩ r j _) (iblk_at V c ⟨n + 1, h⟩ r j _)

end Accumulate2

section Final

open Idealize.ShloMosaic.ValueIdx

variable (V : (c : Dev nD) → (b : Ref sig .tc) → Buf (Elt Ideal) ((c : Thread nD τ).loc b))

/-- Fifty consecutive blocks of two thousand rows are all hundred thousand rows. -/
theorem sum_blocks (f : Fin 100000 → EReal) : ∑ s ∈ Finset.range 50, blkSum f s = ∑ i : Fin 100000, f i := by
  rw [← Fin.sum_univ_eq_sum_range (fun s => blkSum f s) 50]
  have e : ∀ s : Fin 50, blkSum f s.val
      = ∑ r : Fin 2000, f ⟨2000 * s.val + r.val, by have := s.isLt; have := r.isLt; omega⟩ := fun s => by
    rw [blkSum, dif_pos s.isLt]
  rw [Finset.sum_congr rfl fun s _ => e s, ← Fintype.sum_prod_type']
  refine Fintype.sum_equiv (finProdFinEquiv (m := 50) (n := 2000)) _ _ (fun p => ?_)
  refine congrArg f (Fin.ext ?_)
  show 2000 * p.1.val + p.2.val = p.2.val + 2000 * p.1.val
  omega

/-- The last grid point. -/
def tLast : Fin cfg7.N := ⟨49, by rw [show cfg7.N = 50 from N_7]; decide⟩

/-- The rows are written out at the last point only, and that point's block is the whole one-row array: what is written is
    what the last point leaves in the first row buffer. -/
theorem flushed_eq_1 (c : Dev nD) (t : Fin cfg7.N) (hf : (cfg7.win 1).flush t = true) :
    (dat7 V c).flushed 1 t = ((cfg7.win 1).blk t).view.read (Elt Ideal) (outsAt7 V c tLast.val tLast.isLt).1 := by
  have hN : cfg7.N = 50 := N_7
  have h49 : t.val = 49 := by have := (flush7_1 t).mp hf; have := t.isLt; omega
  obtain rfl : t = tLast := Fin.ext h49
  show (cfg7.win 1).cut (grid7.coords tLast) ((dat7 V c).after 1 tLast) = _
  rw [after7_1]
  have hz' : (fun a => win7_1.index tLast a * main_v75_0.ty.shape.size a) = fun _ => 0 := funext fun a => by fin_cases a <;> decide
  exact (Memref.read_access_unit_zero (Elt Ideal) main_v75_0 hz' (fun a => by rw [congrFun hz' a]; simp) _).symm

end Final

section Final2

open Idealize.ShloMosaic.ValueIdx

variable (V : (c : Dev nD) → (b : Ref sig .tc) → Buf (Elt Ideal) ((c : Thread nD τ).loc b))

/-- The same for the second row. -/
theorem flushed_eq_2 (c : Dev nD) (t : Fin cfg7.N) (hf : (cfg7.win 2).flush t = true) :
    (dat7 V c).flushed 2 t = ((cfg7.win 2).blk t).view.read (Elt Ideal) (outsAt7 V c tLast.val tLast.isLt).2 := by
  have hN : cfg7.N = 50 := N_7
  have h49 : t.val = 49 := by have := (flush7_2 t).mp hf; have := t.isLt; omega
  obtain rfl : t = tLast := Fin.ext h49
  show (cfg7.win 2).cut (grid7.coords tLast) ((dat7 V c).after 2 tLast) = _
  rw [after7_2]
  have hz' : (fun a => win7_2.index tLast a * main_v75_1.ty.shape.size a) = fun _ => 0 := funext fun a => by fin_cases a <;> decide
  exact (Memref.read_access_unit_zero (Elt Ideal) main_v75_1 hz' (fun a => by rw [congrFun hz' a]; simp) _).symm

/-- The first result row is what the last point leaves: that point's block is the whole one-row array. -/
theorem arr1 (c : Dev nD) : (dat7 V c).arrAt 1 cfg7.N = (outsAt7 V c tLast.val tLast.isLt).1 :=
  (dat7 V c).arrAt_eq_of_cover 1 _ (flushed_eq_1 V c) fun i =>
    ⟨tLast, (flush7_1 tLast).mpr rfl, by
      show i ∈ ((View.whole main_v75_0).slice (win7_1.rect tLast)).set
      rw [View.set_slice_whole, Rect.mem_set_unit]
      intro a
      have h0 : (i 0 : Nat) < 1 := (i 0).isLt
      have h1 : (i 1 : Nat) < 64 := (i 1).isLt
      match a with
      | ⟨0, _⟩ => show win7_1.index tLast 0 * win7_1.size 0 ≤ (i 0 : Nat) ∧ (i 0 : Nat) < win7_1.index tLast 0 * win7_1.size 0 + win7_1.xsize (grid7.coords tLast) 0
                  rw [show win7_1.index tLast 0 * win7_1.size 0 = 0 from by decide +kernel, show win7_1.xsize (grid7.coords tLast) 0 = 1 from by decide +kernel]; omega
      | ⟨1, _⟩ => show win7_1.index tLast 1 * win7_1.size 1 ≤ (i 1 : Nat) ∧ (i 1 : Nat) < win7_1.index tLast 1 * win7_1.size 1 + win7_1.xsize (grid7.coords tLast) 1
                  rw [show win7_1.index tLast 1 * win7_1.size 1 = 0 from by decide +kernel, show win7_1.xsize (grid7.coords tLast) 1 = 64 from by decide +kernel]; omega⟩

/-- The second result row likewise. -/
theorem arr2 (c : Dev nD) : (dat7 V c).arrAt 2 cfg7.N = (outsAt7 V c tLast.val tLast.isLt).2 :=
  (dat7 V c).arrAt_eq_of_cover 2 _ (flushed_eq_2 V c) fun i =>
    ⟨tLast, (flush7_2 tLast).mpr rfl, by
      show i ∈ ((View.whole main_v75_1).slice (win7_2.rect tLast)).set
      rw [View.set_slice_whole, Rect.mem_set_unit]
      intro a
      have h0 : (i 0 : Nat) < 1 := (i 0).isLt
      have h1 : (i 1 : Nat) < 64 := (i 1).isLt
      match a with
      | ⟨0, _⟩ => show win7_2.index tLast 0 * win7_2.size 0 ≤ (i 0 : Nat) ∧ (i 0 : Nat) < win7_2.index tLast 0 * win7_2.size 0 + win7_2.xsize (grid7.coords tLast) 0
                  rw [show win7_2.index tLast 0 * win7_2.size 0 = 0 from by decide +kernel, show win7_2.xsize (grid7.coords tLast) 0 = 1 from by decide +kernel]; omega
      | ⟨1, _⟩ => show win7_2.index tLast 1 * win7_2.size 1 ≤ (i 1 : Nat) ∧ (i 1 : Nat) < win7_2.index tLast 1 * win7_2.size 1 + win7_2.xsize (grid7.coords tLast) 1
                  rw [show win7_2.index tLast 1 * win7_2.size 1 = 0 from by decide +kernel, show win7_2.xsize (grid7.coords tLast) 1 = 64 from by decide +kernel]; omega⟩

end Final2

section Result

open Idealize.ShloMosaic.ValueIdx

variable (V : (c : Dev nD) → (b : Ref sig .tc) → Buf (Elt Ideal) ((c : Thread nD τ).loc b))

/-- After the region the first result row holds, at column `j`, the sum of column `j` of the input over all its rows. -/
theorem final_sum (c : Dev nD) (j : Fin 64) :
    (dat7 V c).arrAt 1 cfg7.N (ix2 (0 : Fin 1) j)
      = Cert.Gin.colSum (fun i l => V c (Pipeline.arrRef spec7 0) (ix2 i l)) j := by
  refine (congrFun (arr1 V c) (ix2 (0 : Fin 1) j)).trans ?_
  refine (acc1 V c j tLast.val tLast.isLt).trans ?_
  exact sum_blocks (fun i => V c (Pipeline.arrRef spec7 0) (ix2 i j))

/-- After the region the second result row holds, at column `j`, the sum of the squares of column `j` of the input over all its rows. -/
theorem final_sumsq (c : Dev nD) (j : Fin 64) :
    (dat7 V c).arrAt 2 cfg7.N (ix2 (0 : Fin 1) j)
      = Cert.Gin.colSumSq (fun i l => V c (Pipeline.arrRef spec7 0) (ix2 i l)) j := by
  refine (congrFun (arr2 V c) (ix2 (0 : Fin 1) j)).trans ?_
  refine (acc2 V c j tLast.val tLast.isLt).trans ?_
  exact sum_blocks (fun i => inp V c i j * inp V c i j)

end Result

end Cert.KernelIdeal.Reg7

end
-- ==== Proof.Reg8.lean ====
/-
  The scale-and-shift region of the third layer: each point of the grid takes a block of 2000 rows of the activations,
  multiplies every row by the one row of scales and adds the one row of shifts.  Read over the whole array, row `i`,
  column `j` of the result is `h i j * scale j + shift j`.
-/
import proofs.«101558_j53498112639139_1_alg».proof.Proof.Gen.KernelIdeal.Frame
import proofs.«101558_j53498112639139_1_alg».proof.Proof.Spec
import Idealize.ShloMosaic.Lib.Pipeline.Value
import Idealize.ShloMosaic.Lib.ValueIdx
import Idealize.ShloMosaic.Lib.ValueLayout

noncomputable section

namespace Cert.KernelIdeal.Reg8

open Cert.KernelIdeal Cert.KernelIdeal.Gen Idealize.ShloMosaic Idealize.ShloMosaic.TcCoe
open Idealize.ShloMosaic.Pipeline (Dat)
open Idealize.ShloMosaic.ValueIdx

/-- The all-zero offset of a whole-buffer access. -/
theorem hz : (![0, 0] : Fin 2 → Nat) = fun _ => 0 := funext fun a => by fin_cases a <;> rfl

/-- The result array as one function of the three operand arrays: entry `k` is the activation at `k` times the scale of
    `k`'s column plus the shift of `k`'s column. -/
def G (H : S100000x64.Idx → EReal) (s b : S1x64.Idx → EReal) (k : S100000x64.Idx) : EReal :=
  H k * s (ix2 (0 : Fin 1) (k 1 : Fin 64)) + b (ix2 (0 : Fin 1) (k 1 : Fin 64))

/-- The body's arithmetic at row `r`, column `j` of a block: the block's entry times the scale row's entry of that column
    plus the shift row's entry of that column (the two rows are broadcast over the 2000 rows of the block). -/
theorem pay_at (x0 : Vec Ideal S2000x64 .f32) (x1 x2 : Vec Ideal S1x64 .f32) (r : Fin 2000) (j : Fin 64) :
    k8_pay1 (F := Ideal) x0 x1 x2 (ix2 r j) = x0 (ix2 r j) * x1 (ix2 (0 : Fin 1) j) + x2 (ix2 (0 : Fin 1) j) := by
  unfold k8_pay1
  simp only [shapeCast_self]
  rw [addf_apply, mulf_apply, broadcastTo_1b_ab_apply, broadcastTo_1b_ab_apply]

variable (V : (c : Dev nD) → (b : Ref sig .tc) → Buf (Elt Ideal) ((c : Thread nD τ).loc b))

/-- A block of the body's result is the block of `G` when the activation block is read off `H` through `e`, the two rows
    are the scale and shift rows, and `e` keeps the column. -/
theorem block_eq (H : S100000x64.Idx → EReal) (s b : S1x64.Idx → EReal)
    (x0 : Vec Ideal S2000x64 .f32) (x1 x2 : Vec Ideal S1x64 .f32) (e : S2000x64.Idx → S100000x64.Idx)
    (h0 : ∀ y, x0 y = H (e y)) (h1 : x1 = s) (h2 : x2 = b) (he : ∀ y, ((e y) 1).val = (y 1).val) :
    k8_pay1 (F := Ideal) x0 x1 x2 = fun y => G H s b (e y) := by
  funext y
  obtain ⟨r, q, rfl⟩ : ∃ (r : Fin 2000) (q : Fin 64), y = ix2 r q := ⟨y 0, y 1, eq_ix2 y⟩
  rw [pay_at, h0, h1, h2]
  unfold G
  have hq : ((e (ix2 r q)) 1 : Fin 64) = q := Fin.ext (he (ix2 r q))
  rw [hq]

/-- The printed index maps over the 50 points: the activation and result blocks are block `t` of the rows, the scale and
    shift rows are always the whole one-row arrays. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

set_option maxHeartbeats 1000000 in
/-- What point `t` writes back is block `t` of `G` of the three operand arrays as the region finds them. -/
theorem flushed_eq (c : Dev nD) (t : Fin cfg8.N) :
    (dat8 V c).flushed 3 t = ((cfg8.win 3).blk t).view.read (Elt Ideal)
      (G (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz]
  simp only [View.ld_unit_zero (S := S2000x64) hz, View.ld_unit_zero (S := S1x64) hz]
  obtain ⟨e0, e1, e2, e3, e4, e5, e6, e7⟩ := idx_facts t
  refine block_eq _ _ _ (iblk8 V c 0 t) (iblk8 V c 1 t) (iblk8 V c 2 t) (((cfg8.win 3).blk t).view.emb) ?_ ?_ ?_ ?_
  · intro y
    show V c (Pipeline.arrRef spec8 0) (((cfg8.win 0).blk t).view.emb y) = V c (Pipeline.arrRef spec8 0) (((cfg8.win 3).blk t).view.emb y)
    refine congrArg (V c (Pipeline.arrRef spec8 0)) (funext fun a => Fin.ext ?_)
    match a with
    | ⟨0, _⟩ => show win8_0.index t (0 : Fin 2) * 2000 + 1 * (y 0).val = win8_3.index t (0 : Fin 2) * 2000 + 1 * (y 0).val; rw [e0, e6]
    | ⟨1, _⟩ => show win8_0.index t (1 : Fin 2) * 64 + 1 * (y 1).val = win8_3.index t (1 : Fin 2) * 64 + 1 * (y 1).val; rw [e1, e7]
  · funext y
    show V c (Pipeline.arrRef spec8 1) (((cfg8.win 1).blk t).view.emb y) = V c (Pipeline.arrRef spec8 1) y
    refine congrArg (V c (Pipeline.arrRef spec8 1)) (funext fun a => Fin.ext ?_)
    match a with
    | ⟨0, _⟩ => show win8_1.index t (0 : Fin 2) * 1 + 1 * (y 0).val = (y 0).val; rw [e2]; omega
    | ⟨1, _⟩ => show win8_1.index t (1 : Fin 2) * 64 + 1 * (y 1).val = (y 1).val; rw [e3]; omega
  · funext y
    show V c (Pipeline.arrRef spec8 2) (((cfg8.win 2).blk t).view.emb y) = V c (Pipeline.arrRef spec8 2) y
    refine congrArg (V c (Pipeline.arrRef spec8 2)) (funext fun a => Fin.ext ?_)
    match a with
    | ⟨0, _⟩ => show win8_2.index t (0 : Fin 2) * 1 + 1 * (y 0).val = (y 0).val; rw [e4]; omega
    | ⟨1, _⟩ => show win8_2.index t (1 : Fin 2) * 64 + 1 * (y 1).val = (y 1).val; rw [e5]; omega
  · intro y
    show win8_3.index t (1 : Fin 2) * 64 + 1 * (y 1).val = (y 1).val
    rw [e7]; omega

/-- An index of the result array is in point `t`'s block iff each coordinate is in the block's range on its axis. -/
theorem mem_blk (t : Fin cfg8.N) (i : S100000x64.Idx) :
    i ∈ ((cfg8.win 3).blk t).view.set ↔ ∀ a : Fin 2, win8_3.index t a * S2000x64.size a ≤ (i a).val ∧ (i a).val < win8_3.index t a * S2000x64.size a + S2000x64.size a := by
  show i ∈ ((View.whole main_v90).slice (win8_3.rect t)).set ↔ _
  rw [View.set_slice_whole, Rect.mem_set_unit]
  exact Iff.rfl

/-- Every index of the result array lies in the block of the point that owns its row: row `r` belongs to point `r / 2000`. -/
theorem cover (i : S100000x64.Idx) :
    ∃ t : Fin cfg8.N, (cfg8.win 3).flush t = true ∧ i ∈ ((cfg8.win 3).blk t).view.set := by
  have hN : cfg8.N = 50 := N_8
  have hi0 : (i 0).val < 100000 := (i 0).isLt
  have hi1 : (i 1).val < 64 := (i 1).isLt
  let t : Fin cfg8.N := ⟨(i 0).val / 2000, by rw [hN]; omega⟩
  obtain ⟨-, -, -, -, -, -, e6, e7⟩ := idx_facts t
  have ht : t.val = (i 0).val / 2000 := rfl
  refine ⟨t, flush8_3 t, ?_⟩
  rw [mem_blk]
  intro a
  match a with
  | ⟨0, _⟩ => show win8_3.index t (0 : Fin 2) * 2000 ≤ (i 0).val ∧ (i 0).val < win8_3.index t (0 : Fin 2) * 2000 + 2000; rw [e6, ht]; omega
  | ⟨1, _⟩ => show win8_3.index t (1 : Fin 2) * 64 ≤ (i 1).val ∧ (i 1).val < win8_3.index t (1 : Fin 2) * 64 + 64; rw [e7]; omega

/-- The result array after the region is `G` of the three operand arrays as the region finds them. -/
theorem arr_eq (c : Dev nD) :
    (dat8 V c).arrAt 3 cfg8.N = G (V c (Pipeline.arrRef spec8 0)) (V c (Pipeline.arrRef spec8 1)) (V c (Pipeline.arrRef spec8 2)) :=
  (dat8 V c).arrAt_eq_of_cover 3 _ (fun t _ => flushed_eq V c t) cover

/-- Row `i`, column `j` of the result array after the region: the activation entry times the column's scale plus the
    column's shift, each read off the arrays as the region finds them. -/
theorem final (c : Dev nD) (i : Fin 100000) (j : Fin 64) :
    (dat8 V c).arrAt 3 cfg8.N (ix2 i j)
      = Cert.Gin.affineAt (fun i l => V c (Pipeline.arrRef spec8 0) (ix2 i l)) (fun l => V c (Pipeline.arrRef spec8 1) (ix2 (0 : Fin 1) l))
          (fun l => V c (Pipeline.arrRef spec8 2) (ix2 (0 : Fin 1) l)) i j := by
  rw [arr_eq]
  rfl

end Cert.KernelIdeal.Reg8

end
-- ==== Proof.Reg9.lean ====
/-
  The read-out perceptron region. Its grid has one point, which is handed every array whole: the `4096×64` pooled
  features, the weights (`64×16`, `16×1`) and biases (`1×16`, `1×1`), and writes back the whole `4096×1` output. Entry
  `(r, j)` of what it stores is `relu (relu (x · Wa + ba) · Wb + bb)` at row `r`; a whole-array block read at an index is
  the array there; and the one block covers the output. Hence the output array ends as the perceptron of the arrays the
  region found, entry by entry.
-/
import proofs.«101558_j53498112639139_1_alg».proof.Proof.Gen.KernelIdeal.Frame
import proofs.«101558_j53498112639139_1_alg».proof.Proof.Spec
import proofs.«101558_j53498112639139_1_alg».proof.Proof.MlpBlock
import Idealize.ShloMosaic.Lib.Pipeline.Value
import Idealize.ShloMosaic.Lib.ValueLayout

noncomputable section

namespace Cert.KernelIdeal.Reg9

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The body's one stored value at row `r`, column `j`: the read-out perceptron of the loaded arrays, which reads row `r`
    of the features and the whole of the weights and biases. -/
theorem pay_at (x0 : Vec Ideal S4096x64 .f32) (x1 : Vec Ideal S64x16 .f32) (x2 : Vec Ideal S1x16 .f32)
    (x3 : Vec Ideal S16x1 .f32) (x4 : Vec Ideal S1x1 .f32) (r : Fin 4096) (j : Fin 1) :
    k9_pay1 x0 x1 x2 x3 x4 (ix2 r j)
      = Cert.Gin.headAt (fun i l => x0 (ix2 i l)) (fun l k => x1 (ix2 l k)) (fun k => x2 (ix2 (0 : Fin 1) k))
          (fun k j => x3 (ix2 k j)) (fun j => x4 (ix2 (0 : Fin 1) j)) r j := by
  unfold k9_pay1
  simp only [shapeCast_self]
  exact Cert.Gin.Block.head_block_at 4096 64 16 1 x0 x1 x2 x3 x4 _ _ _ r j

/-- The read-out perceptron of the arrays as the region finds them, entry by entry of the output array. -/
def G (c : Dev nD) : S4096x1.Idx → EReal := fun y =>
  Cert.Gin.headAt (fun i l => V c (Pipeline.arrRef spec9 0) (ix2 i l)) (fun l k => V c (Pipeline.arrRef spec9 1) (ix2 l k))
    (fun k => V c (Pipeline.arrRef spec9 2) (ix2 0 k)) (fun k j => V c (Pipeline.arrRef spec9 3) (ix2 k j))
    (fun j => V c (Pipeline.arrRef spec9 4) (ix2 0 j)) (y 0) (y 1)

/-- The printed index maps at the one grid point: every window is a whole array, at block (0, 0). -/
theorem idx_facts : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

/-- The pooled features are staged whole at the one point. -/
theorem blk0 (c : Dev nD) (t : Fin cfg9.N) (y : S4096x64.Idx) : iblk9 V c 0 t y = V c (Pipeline.arrRef spec9 0) y := by
  obtain ⟨e0, e1, -⟩ := idx_facts t
  show V c (Pipeline.arrRef spec9 0) (((cfg9.win 0).blk t).view.emb y) = V c (Pipeline.arrRef spec9 0) y
  refine congrArg (V c (Pipeline.arrRef spec9 0)) (funext fun a => Fin.ext ?_)
  match a with
  | ⟨0, _⟩ => show win9_0.index t (0 : Fin 2) * 4096 + 1 * (y 0).val = (y 0).val; omega
  | ⟨1, _⟩ => show win9_0.index t (1 : Fin 2) * 64 + 1 * (y 1).val = (y 1).val; omega

/-- The first weight matrix is staged whole at the one point. -/
theorem blk1 (c : Dev nD) (t : Fin cfg9.N) (y : S64x16.Idx) : iblk9 V c 1 t y = V c (Pipeline.arrRef spec9 1) y := by
  obtain ⟨-, -, e0, e1, -⟩ := idx_facts t
  show V c (Pipeline.arrRef spec9 1) (((cfg9.win 1).blk t).view.emb y) = V c (Pipeline.arrRef spec9 1) y
  refine congrArg (V c (Pipeline.arrRef spec9 1)) (funext fun a => Fin.ext ?_)
  match a with
  | ⟨0, _⟩ => show win9_1.index t (0 : Fin 2) * 64 + 1 * (y 0).val = (y 0).val; omega
  | ⟨1, _⟩ => show win9_1.index t (1 : Fin 2) * 16 + 1 * (y 1).val = (y 1).val; omega

/-- The first bias row is staged whole at the one point. -/
theorem blk2 (c : Dev nD) (t : Fin cfg9.N) (y : S1x16.Idx) : iblk9 V c 2 t y = V c (Pipeline.arrRef spec9 2) y := by
  obtain ⟨-, -, -, -, e0, e1, -⟩ := idx_facts t
  show V c (Pipeline.arrRef spec9 2) (((cfg9.win 2).blk t).view.emb y) = V c (Pipeline.arrRef spec9 2) y
  refine congrArg (V c (Pipeline.arrRef spec9 2)) (funext fun a => Fin.ext ?_)
  match a with
  | ⟨0, _⟩ => show win9_2.index t (0 : Fin 2) * 1 + 1 * (y 0).val = (y 0).val; omega
  | ⟨1, _⟩ => show win9_2.index t (1 : Fin 2) * 16 + 1 * (y 1).val = (y 1).val; omega

/-- The second weight matrix is staged whole at the one point. -/
theorem blk3 (c : Dev nD) (t : Fin cfg9.N) (y : S16x1.Idx) : iblk9 V c 3 t y = V c (Pipeline.arrRef spec9 3) y := by
  obtain ⟨-, -, -, -, -, -, e0, e1, -⟩ := idx_facts t
  show V c (Pipeline.arrRef spec9 3) (((cfg9.win 3).blk t).view.emb y) = V c (Pipeline.arrRef spec9 3) y
  refine congrArg (V c (Pipeline.arrRef spec9 3)) (funext fun a => Fin.ext ?_)
  match a with
  | ⟨0, _⟩ => show win9_3.index t (0 : Fin 2) * 16 + 1 * (y 0).val = (y 0).val; omega
  | ⟨1, _⟩ => show win9_3.index t (1 : Fin 2) * 1 + 1 * (y 1).val = (y 1).val; omega

/-- The second bias is staged whole at the one point. -/
theorem blk4 (c : Dev nD) (t : Fin cfg9.N) (y : S1x1.Idx) : iblk9 V c 4 t y = V c (Pipeline.arrRef spec9 4) y := by
  obtain ⟨-, -, -, -, -, -, -, -, e0, e1, -⟩ := idx_facts t
  show V c (Pipeline.arrRef spec9 4) (((cfg9.win 4).blk t).view.emb y) = V c (Pipeline.arrRef spec9 4) y
  refine congrArg (V c (Pipeline.arrRef spec9 4)) (funext fun a => Fin.ext ?_)
  match a with
  | ⟨0, _⟩ => show win9_4.index t (0 : Fin 2) * 1 + 1 * (y 0).val = (y 0).val; omega
  | ⟨1, _⟩ => show win9_4.index t (1 : Fin 2) * 1 + 1 * (y 1).val = (y 1).val; omega

/-- What the one point writes back is the read-out perceptron of the arrays, whole. -/
theorem flushed_eq (c : Dev nD) (t : Fin cfg9.N) :
    (dat9 V c).flushed 5 t = ((cfg9.win 5).blk t).view.read (Elt Ideal) (G V c) := by
  show (cfg9.win 5).cut (grid9.coords t) ((dat9 V c).after 5 t) = _
  rw [after9_5]
  unfold out9_5
  rw [View.canon_unit_zero hz]
  simp only [View.ld_unit_zero (S := S4096x64) hz, View.ld_unit_zero (S := S64x16) hz, View.ld_unit_zero (S := S1x16) hz, View.ld_unit_zero (S := S16x1) hz, View.ld_unit_zero (S := S1x1) hz]
  obtain ⟨-, -, -, -, -, -, -, -, -, -, e50, e51⟩ := idx_facts t
  funext y
  obtain ⟨r, q, rfl⟩ : ∃ (r : Fin 4096) (q : Fin 1), y = ix2 r q := ⟨y 0, y 1, eq_ix2 y⟩
  have hemb : ((cfg9.win 5).blk t).view.emb (ix2 r q) = ix2 r q :=
    funext fun a => Fin.ext (by
      match a with
      | ⟨0, _⟩ => show win9_5.index t (0 : Fin 2) * 4096 + 1 * r.val = r.val; omega
      | ⟨1, _⟩ => show win9_5.index t (1 : Fin 2) * 1 + 1 * q.val = q.val; omega)
  show k9_pay1 (iblk9 V c 0 t) (iblk9 V c 1 t) (iblk9 V c 2 t) (iblk9 V c 3 t) (iblk9 V c 4 t) (ix2 r q)
    = G V c (((cfg9.win 5).blk t).view.emb (ix2 r q))
  rw [hemb]
  refine (pay_at (iblk9 V c 0 t) (iblk9 V c 1 t) (iblk9 V c 2 t) (iblk9 V c 3 t) (iblk9 V c 4 t) r q).trans ?_
  show _ = Cert.Gin.headAt _ _ _ _ _ r q
  unfold Cert.Gin.headAt
  simp only [blk0 V c t, blk1 V c t, blk2 V c t, blk3 V c t, blk4 V c t]

/-- An index of the output array is in the point's block iff each coordinate is in the block's range on its axis. -/
theorem mem_blk (t : Fin cfg9.N) (i : S4096x1.Idx) :
    i ∈ ((cfg9.win 5).blk t).view.set ↔ ∀ a : Fin 2, win9_5.index t a * S4096x1.size a ≤ (i a).val
      ∧ (i a).val < win9_5.index t a * S4096x1.size a + S4096x1.size a := by
  show i ∈ ((View.whole main_v96).slice (win9_5.rect t)).set ↔ _
  rw [View.set_slice_whole, Rect.mem_set_unit]
  exact Iff.rfl

/-- The one point's block is the whole output. -/
theorem cover (i : S4096x1.Idx) :
    ∃ t : Fin cfg9.N, (cfg9.win 5).flush t = true ∧ i ∈ ((cfg9.win 5).blk t).view.set := by
  have hi0 : (i 0).val < 4096 := (i 0).isLt
  have hi1 : (i 1).val < 1 := (i 1).isLt
  have hN : cfg9.N = 1 := N_9
  obtain ⟨t, htv⟩ : ∃ t : Fin cfg9.N, t.val = 0 := ⟨⟨0, by rw [hN]; omega⟩, rfl⟩
  obtain ⟨-, -, -, -, -, -, -, -, -, -, e50, e51⟩ := idx_facts t
  refine ⟨t, flush9_5 t, ?_⟩
  rw [mem_blk]
  intro a
  match a with
  | ⟨0, _⟩ =>
    show win9_5.index t (0 : Fin 2) * 4096 ≤ (i 0).val ∧ (i 0).val < win9_5.index t (0 : Fin 2) * 4096 + 4096
    omega
  | ⟨1, _⟩ =>
    show win9_5.index t (1 : Fin 2) * 1 ≤ (i 1).val ∧ (i 1).val < win9_5.index t (1 : Fin 2) * 1 + 1
    omega

/-- The output array after the region's one point is the read-out perceptron of the arrays the region found. -/
theorem final_arr (c : Dev nD) : (dat9 V c).arrAt 5 cfg9.N = G V c :=
  (dat9 V c).arrAt_eq_of_cover 5 (G V c) (fun t _ => flushed_eq V c t) cover

/-- Entry `(i, j)` of the read-out perceptron's output. -/
theorem final (c : Dev nD) (i : Fin 4096) (j : Fin 1) :
    (dat9 V c).arrAt 5 cfg9.N (ix2 i j)
      = Cert.Gin.headAt (fun i l => V c (Pipeline.arrRef spec9 0) (ix2 i l)) (fun l k => V c (Pipeline.arrRef spec9 1) (ix2 l k))
          (fun k => V c (Pipeline.arrRef spec9 2) (ix2 0 k)) (fun k j => V c (Pipeline.arrRef spec9 3) (ix2 k j))
          (fun j => V c (Pipeline.arrRef spec9 4) (ix2 0 j)) i j := by
  rw [final_arr]
  rfl

end Cert.KernelIdeal.Reg9

end
-- ==== Proof.KFold.lean ====
/-
  The idealized kernel program's result, read through the fold of its buffer contents: each layer's perceptron region leaves
  the perceptron of the layer's input and its neighbour aggregate; its statistics region leaves the column sums and sums of
  squares; the host turns them into one scale and one shift per column; the scale-and-shift region leaves the layer with its
  normalisation folded — which is the next layer's input. After the third layer the rows are pooled into graphs and the
  read-out region leaves the read-out perceptron, re-laid as the result vector.
-/
import proofs.«101558_j53498112639139_1_alg».proof.Proof.KHost
import proofs.«101558_j53498112639139_1_alg».proof.Proof.KCarry
import proofs.«101558_j53498112639139_1_alg».proof.Proof.Reg0
import proofs.«101558_j53498112639139_1_alg».proof.Proof.Reg1
import proofs.«101558_j53498112639139_1_alg».proof.Proof.Reg2
import proofs.«101558_j53498112639139_1_alg».proof.Proof.Reg3
import proofs.«101558_j53498112639139_1_alg».proof.Proof.Reg4
import proofs.«101558_j53498112639139_1_alg».proof.Proof.Reg5
import proofs.«101558_j53498112639139_1_alg».proof.Proof.Reg6
import proofs.«101558_j53498112639139_1_alg».proof.Proof.Reg7
import proofs.«101558_j53498112639139_1_alg».proof.Proof.Reg8
import proofs.«101558_j53498112639139_1_alg».proof.Proof.Reg9

set_option maxRecDepth 16384

noncomputable section

namespace Cert.KernelIdeal.KFold

open Cert.KernelIdeal Cert.KernelIdeal.Gen Idealize.ShloMosaic Idealize.ShloMosaic.TcCoe Idealize.SL.Sem Idealize.ShloMosaic.StableHlo
open Idealize.ShloMosaic.ValueIdx Cert.Gin Cert.ReferenceIdeal.RefRun Cert.KernelIdeal.KHost Cert.KernelIdeal.KCarry

variable (m : (ℓ : Loc nD τ sig) → Buf (Elt Ideal) ℓ) (ρ : Dev nD → PrngReg) (c : Dev nD)

/-- Argument 0 as launched. -/
abbrev a0 : (⟨S100000x373, .f32⟩ : BufTy).Contents (Elt Ideal) := m ((c.tc : Thread nD τ).loc main_arg0)
/-- Argument 1 as launched. -/
abbrev a1 : (⟨S2x400000, .i32⟩ : BufTy).Contents (Elt Ideal) := m ((c.tc : Thread nD τ).loc main_arg1)
/-- Argument 2 as launched. -/
abbrev a2 : (⟨S100000, .i32⟩ : BufTy).Contents (Elt Ideal) := m ((c.tc : Thread nD τ).loc main_arg2)
/-- Argument 3 as launched. -/
abbrev a3 : (⟨S373x256, .f32⟩ : BufTy).Contents (Elt Ideal) := m ((c.tc : Thread nD τ).loc main_arg3)
/-- Argument 4 as launched. -/
abbrev a4 : (⟨S256, .f32⟩ : BufTy).Contents (Elt Ideal) := m ((c.tc : Thread nD τ).loc main_arg4)
/-- Argument 5 as launched. -/
abbrev a5 : (⟨S256x256, .f32⟩ : BufTy).Contents (Elt Ideal) := m ((c.tc : Thread nD τ).loc main_arg5)
/-- Argument 6 as launched. -/
abbrev a6 : (⟨S256, .f32⟩ : BufTy).Contents (Elt Ideal) := m ((c.tc : Thread nD τ).loc main_arg6)
/-- Argument 7 as launched. -/
abbrev a7 : (⟨S256, .f32⟩ : BufTy).Contents (Elt Ideal) := m ((c.tc : Thread nD τ).loc main_arg7)
/-- Argument 8 as launched. -/
abbrev a8 : (⟨S256, .f32⟩ : BufTy).Contents (Elt Ideal) := m ((c.tc : Thread nD τ).loc main_arg8)
/-- Argument 9 as launched. -/
abbrev a9 : (⟨S256x128, .f32⟩ : BufTy).Contents (Elt Ideal) := m ((c.tc : Thread nD τ).loc main_arg9)
/-- Argument 10 as launched. -/
abbrev a10 : (⟨S128, .f32⟩ : BufTy).Contents (Elt Ideal) := m ((c.tc : Thread nD τ).loc main_arg10)
/-- Argument 11 as launched. -/
abbrev a11 : (⟨S128x128, .f32⟩ : BufTy).Contents (Elt Ideal) := m ((c.tc : Thread nD τ).loc main_arg11)
/-- Argument 12 as launched. -/
abbrev a12 : (⟨S128, .f32⟩ : BufTy).Contents (Elt Ideal) := m ((c.tc : Thread nD τ).loc main_arg12)
/-- Argument 13 as launched. -/
abbrev a13 : (⟨S128, .f32⟩ : BufTy).Contents (Elt Ideal) := m ((c.tc : Thread nD τ).loc main_arg13)
/-- Argument 14 as launched. -/
abbrev a14 : (⟨S128, .f32⟩ : BufTy).Contents (Elt Ideal) := m ((c.tc : Thread nD τ).loc main_arg14)
/-- Argument 15 as launched. -/
abbrev a15 : (⟨S128x64, .f32⟩ : BufTy).Contents (Elt Ideal) := m ((c.tc : Thread nD τ).loc main_arg15)
/-- Argument 16 as launched. -/
abbrev a16 : (⟨S64, .f32⟩ : BufTy).Contents (Elt Ideal) := m ((c.tc : Thread nD τ).loc main_arg16)
/-- Argument 17 as launched. -/
abbrev a17 : (⟨S64x64, .f32⟩ : BufTy).Contents (Elt Ideal) := m ((c.tc : Thread nD τ).loc main_arg17)
/-- Argument 18 as launched. -/
abbrev a18 : (⟨S64, .f32⟩ : BufTy).Contents (Elt Ideal) := m ((c.tc : Thread nD τ).loc main_arg18)
/-- Argument 19 as launched. -/
abbrev a19 : (⟨S64, .f32⟩ : BufTy).Contents (Elt Ideal) := m ((c.tc : Thread nD τ).loc main_arg19)
/-- Argument 20 as launched. -/
abbrev a20 : (⟨S64, .f32⟩ : BufTy).Contents (Elt Ideal) := m ((c.tc : Thread nD τ).loc main_arg20)
/-- Argument 21 as launched. -/
abbrev a21 : (⟨S64x16, .f32⟩ : BufTy).Contents (Elt Ideal) := m ((c.tc : Thread nD τ).loc main_arg21)
/-- Argument 22 as launched. -/
abbrev a22 : (⟨S16, .f32⟩ : BufTy).Contents (Elt Ideal) := m ((c.tc : Thread nD τ).loc main_arg22)
/-- Argument 23 as launched. -/
abbrev a23 : (⟨S16x1, .f32⟩ : BufTy).Contents (Elt Ideal) := m ((c.tc : Thread nD τ).loc main_arg23)
/-- Argument 24 as launched. -/
abbrev a24 : (⟨S1, .f32⟩ : BufTy).Contents (Elt Ideal) := m ((c.tc : Thread nD τ).loc main_arg24)

/-! ## Layer 1 (width 373 → 256) -/

/-- Layer 1's perceptron output, as a family. -/
def H1 : Fin 100000 → Fin 256 → EReal :=
  mlpAt (fam2 (A := 100000) (B := 373) (a0 m c)) (aggF373 (refSrc (F := Ideal) (a1 m c)) (refDst (F := Ideal) (a1 m c)) (fam2 (A := 100000) (B := 373) (a0 m c))) (fam2 (A := 373) (B := 256) (a3 m c)) (fam1 (A := 256) (a4 m c)) (fam2 (A := 256) (B := 256) (a5 m c)) (fam1 (A := 256) (a6 m c))

/-- Layer 1's output with the normalisation folded, as a family. -/
def Y1 : Fin 100000 → Fin 256 → EReal :=
  layerFolded cC cE (aggF373 (refSrc (F := Ideal) (a1 m c)) (refDst (F := Ideal) (a1 m c))) (fam2 (A := 100000) (B := 373) (a0 m c)) (fam2 (A := 373) (B := 256) (a3 m c)) (fam1 (A := 256) (a4 m c)) (fam2 (A := 256) (B := 256) (a5 m c)) (fam1 (A := 256) (a6 m c)) (fam1 (A := 256) (a7 m c)) (fam1 (A := 256) (a8 m c))

/-- After the perceptron region the output array holds the perceptron of the layer's input and its neighbour aggregate. -/
theorem mlp_out1 : (W2 m ρ c (Proc.devRef .tc main_v16) : S100000x256.Idx → EReal) = arr2 (H1 m c) := by
  funext idx
  obtain ⟨i, j, rfl⟩ : ∃ (i : Fin 100000) (j : Fin 256), idx = ix2 i j := ⟨idx 0, idx 1, eq_ix2 idx⟩
  have hX : (W1 m ρ c (Proc.devRef .tc main_arg0) : S100000x373.Idx → EReal) = arr2 (fam2 (A := 100000) (B := 373) (a0 m c)) :=
    (show W1 m ρ c (Proc.devRef .tc main_arg0) = W0 m ρ c (Proc.devRef .tc main_arg0) from by host_keep hostOps0).trans (arr2_fam2 _).symm
  have hA : (W1 m ρ c (Proc.devRef .tc main_v13) : S100000x373.Idx → EReal) = refAgg373 (F := Ideal) (arr2 (fam2 (A := 100000) (B := 373) (a0 m c))) (refSrc (F := Ideal) (a1 m c)) (refDst (F := Ideal) (a1 m c)) := by
    have e := hostOps0_agg (W0 m ρ c)
    rw [show (W0 m ρ c (Proc.devRef .tc main_arg0) : S100000x373.Idx → EReal) = arr2 (fam2 (A := 100000) (B := 373) (a0 m c)) from (arr2_fam2 _).symm] at e
    exact e
  have hWa : W1 m ρ c (Proc.devRef .tc main_arg3) = a3 m c := by host_keep hostOps0
  have hWb : W1 m ρ c (Proc.devRef .tc main_arg5) = a5 m c := by host_keep hostOps0
  have hba : ∀ k : Fin 256, W1 m ρ c (Proc.devRef .tc main_v14) (ix2 (0 : Fin 1) k) = a4 m c (ix1 k) := fun k => hostOps0_ba (W0 m ρ c) k
  have hbb : ∀ k : Fin 256, W1 m ρ c (Proc.devRef .tc main_v15) (ix2 (0 : Fin 1) k) = a6 m c (ix1 k) := fun k => hostOps0_bb (W0 m ρ c) k
  refine (congrFun (W2_arr m ρ c 6) (ix2 i j)).trans ?_
  rw [Reg0.final (V1 m ρ) c i j]
  show mlpAt (fun i l => W1 m ρ c (Proc.devRef .tc main_arg0) (ix2 i l)) (fun i l => W1 m ρ c (Proc.devRef .tc main_v13) (ix2 i l))
      (fun l k => W1 m ρ c (Proc.devRef .tc main_arg3) (ix2 l k)) (fun k => W1 m ρ c (Proc.devRef .tc main_v14) (ix2 (0 : Fin 1) k))
      (fun k j => W1 m ρ c (Proc.devRef .tc main_arg5) (ix2 k j)) (fun j => W1 m ρ c (Proc.devRef .tc main_v15) (ix2 (0 : Fin 1) j)) i j = _
  rw [hX, hA, hWa, hWb]
  simp only [hba, hbb]
  rfl

/-- After the statistics region the first accumulator row holds the column sums of the perceptron output. -/
theorem sum1 (j : Fin 256) : W3 m ρ c (Proc.devRef .tc main_v17_0) (ix2 (0 : Fin 1) j) = colSum (H1 m c) j := by
  refine (congrFun (W3_arr m ρ c 1) (ix2 (0 : Fin 1) j)).trans ?_
  rw [Reg1.final_sum (V2 m ρ) c j]
  show colSum (fun i l => W2 m ρ c (Proc.devRef .tc main_v16) (ix2 i l)) j = _
  rw [mlp_out1 m ρ c]
  rfl

/-- After the statistics region the second accumulator row holds the column sums of squares. -/
theorem sumsq1 (j : Fin 256) : W3 m ρ c (Proc.devRef .tc main_v17_1) (ix2 (0 : Fin 1) j) = colSumSq (H1 m c) j := by
  refine (congrFun (W3_arr m ρ c 2) (ix2 (0 : Fin 1) j)).trans ?_
  rw [Reg1.final_sumsq (V2 m ρ) c j]
  show colSumSq (fun i l => W2 m ρ c (Proc.devRef .tc main_v16) (ix2 i l)) j = _
  rw [mlp_out1 m ρ c]
  rfl

/-- The scale row the host computes from the two accumulator rows. -/
theorem scale1 (j : Fin 256) : W4 m ρ c (Proc.devRef .tc main_v28) (ix2 (0 : Fin 1) j)
    = bnScale cC cE (colSum (H1 m c) j) (colSumSq (H1 m c) j) (a7 m c (ix1 j)) := by
  have e := congrFun (hostOps2_scale (W3 m ρ c)) (ix2 (0 : Fin 1) j)
  rw [kScale256_at, sum1 m ρ c j, sumsq1 m ρ c j, carry_main_arg7_3 m ρ c] at e
  exact e

/-- The shift row the host computes from the two accumulator rows. -/
theorem shift1 (j : Fin 256) : W4 m ρ c (Proc.devRef .tc main_v31) (ix2 (0 : Fin 1) j)
    = bnShift cC cE (colSum (H1 m c) j) (colSumSq (H1 m c) j) (a7 m c (ix1 j)) (a8 m c (ix1 j)) := by
  have e := congrFun (hostOps2_shift (W3 m ρ c)) (ix2 (0 : Fin 1) j)
  rw [kShift256_at, sum1 m ρ c j, sumsq1 m ρ c j, carry_main_arg7_3 m ρ c, carry_main_arg8_3 m ρ c] at e
  exact e

/-- After the scale-and-shift region the output array holds the layer with its normalisation folded. -/
theorem out1 : (W5 m ρ c (Proc.devRef .tc main_v32) : S100000x256.Idx → EReal) = arr2 (Y1 m c) := by
  funext idx
  obtain ⟨i, j, rfl⟩ : ∃ (i : Fin 100000) (j : Fin 256), idx = ix2 i j := ⟨idx 0, idx 1, eq_ix2 idx⟩
  have hH : (W4 m ρ c (Proc.devRef .tc main_v16) : S100000x256.Idx → EReal) = arr2 (H1 m c) :=
    (carry_main_v16_4 m ρ c).trans (mlp_out1 m ρ c)
  refine (congrFun (W5_arr m ρ c 3) (ix2 i j)).trans ?_
  rw [Reg2.final (V4 m ρ) c i j]
  show affineAt (fun i l => W4 m ρ c (Proc.devRef .tc main_v16) (ix2 i l)) (fun l => W4 m ρ c (Proc.devRef .tc main_v28) (ix2 (0 : Fin 1) l))
      (fun l => W4 m ρ c (Proc.devRef .tc main_v31) (ix2 (0 : Fin 1) l)) i j = _
  rw [hH]
  simp only [scale1 m ρ c, shift1 m ρ c]
  rfl

/-! ## Layer 2 (width 256 → 128) -/

/-- Layer 2's perceptron output, as a family. -/
def H2 : Fin 100000 → Fin 128 → EReal :=
  mlpAt (Y1 m c) (aggF256 (refSrc (F := Ideal) (a1 m c)) (refDst (F := Ideal) (a1 m c)) (Y1 m c)) (fam2 (A := 256) (B := 128) (a9 m c)) (fam1 (A := 128) (a10 m c)) (fam2 (A := 128) (B := 128) (a11 m c)) (fam1 (A := 128) (a12 m c))

/-- Layer 2's output with the normalisation folded, as a family. -/
def Y2 : Fin 100000 → Fin 128 → EReal :=
  layerFolded cC cE (aggF256 (refSrc (F := Ideal) (a1 m c)) (refDst (F := Ideal) (a1 m c))) (Y1 m c) (fam2 (A := 256) (B := 128) (a9 m c)) (fam1 (A := 128) (a10 m c)) (fam2 (A := 128) (B := 128) (a11 m c)) (fam1 (A := 128) (a12 m c)) (fam1 (A := 128) (a13 m c)) (fam1 (A := 128) (a14 m c))

/-- After the perceptron region the output array holds the perceptron of the layer's input and its neighbour aggregate. -/
theorem mlp_out2 : (W7 m ρ c (Proc.devRef .tc main_v45) : S100000x128.Idx → EReal) = arr2 (H2 m c) := by
  funext idx
  obtain ⟨i, j, rfl⟩ : ∃ (i : Fin 100000) (j : Fin 128), idx = ix2 i j := ⟨idx 0, idx 1, eq_ix2 idx⟩
  have hX : (W6 m ρ c (Proc.devRef .tc main_v32) : S100000x256.Idx → EReal) = arr2 (Y1 m c) :=
    (carry_main_v32_6 m ρ c).trans (out1 m ρ c)
  have hA : (W6 m ρ c (Proc.devRef .tc main_v42) : S100000x256.Idx → EReal) = refAgg256 (F := Ideal) (arr2 (Y1 m c)) (refSrc (F := Ideal) (a1 m c)) (refDst (F := Ideal) (a1 m c)) := by
    have e := hostOps3_agg (W5 m ρ c)
    rw [out1 m ρ c, carry_main_v1_5 m ρ c, carry_main_v3_5 m ρ c] at e
    rw [show W1 m ρ c (Proc.devRef .tc main_v1) = (refSrc (F := Ideal) (a1 m c)) from hostOps0_src (W0 m ρ c), show W1 m ρ c (Proc.devRef .tc main_v3) = (refDst (F := Ideal) (a1 m c)) from hostOps0_dst (W0 m ρ c)] at e
    exact e
  have hWa : W6 m ρ c (Proc.devRef .tc main_arg9) = a9 m c := carry_main_arg9_6 m ρ c
  have hWb : W6 m ρ c (Proc.devRef .tc main_arg11) = a11 m c := carry_main_arg11_6 m ρ c
  have hba : ∀ k : Fin 128, W6 m ρ c (Proc.devRef .tc main_v43) (ix2 (0 : Fin 1) k) = a10 m c (ix1 k) := fun k =>
    (hostOps3_ba (W5 m ρ c) k).trans (congrFun (carry_main_arg10_5 m ρ c) _)
  have hbb : ∀ k : Fin 128, W6 m ρ c (Proc.devRef .tc main_v44) (ix2 (0 : Fin 1) k) = a12 m c (ix1 k) := fun k =>
    (hostOps3_bb (W5 m ρ c) k).trans (congrFun (carry_main_arg12_5 m ρ c) _)
  refine (congrFun (W7_arr m ρ c 6) (ix2 i j)).trans ?_
  rw [Reg3.final (V6 m ρ) c i j]
  show mlpAt (fun i l => W6 m ρ c (Proc.devRef .tc main_v32) (ix2 i l)) (fun i l => W6 m ρ c (Proc.devRef .tc main_v42) (ix2 i l))
      (fun l k => W6 m ρ c (Proc.devRef .tc main_arg9) (ix2 l k)) (fun k => W6 m ρ c (Proc.devRef .tc main_v43) (ix2 (0 : Fin 1) k))
      (fun k j => W6 m ρ c (Proc.devRef .tc main_arg11) (ix2 k j)) (fun j => W6 m ρ c (Proc.devRef .tc main_v44) (ix2 (0 : Fin 1) j)) i j = _
  rw [hX, hA, hWa, hWb]
  simp only [hba, hbb]
  rfl

/-- After the statistics region the first accumulator row holds the column sums of the perceptron output. -/
theorem sum2 (j : Fin 128) : W8 m ρ c (Proc.devRef .tc main_v46_0) (ix2 (0 : Fin 1) j) = colSum (H2 m c) j := by
  refine (congrFun (W8_arr m ρ c 1) (ix2 (0 : Fin 1) j)).trans ?_
  rw [Reg4.final_sum (V7 m ρ) c j]
  show colSum (fun i l => W7 m ρ c (Proc.devRef .tc main_v45) (ix2 i l)) j = _
  rw [mlp_out2 m ρ c]
  rfl

/-- After the statistics region the second accumulator row holds the column sums of squares. -/
theorem sumsq2 (j : Fin 128) : W8 m ρ c (Proc.devRef .tc main_v46_1) (ix2 (0 : Fin 1) j) = colSumSq (H2 m c) j := by
  refine (congrFun (W8_arr m ρ c 2) (ix2 (0 : Fin 1) j)).trans ?_
  rw [Reg4.final_sumsq (V7 m ρ) c j]
  show colSumSq (fun i l => W7 m ρ c (Proc.devRef .tc main_v45) (ix2 i l)) j = _
  rw [mlp_out2 m ρ c]
  rfl

/-- The scale row the host computes from the two accumulator rows. -/
theorem scale2 (j : Fin 128) : W9 m ρ c (Proc.devRef .tc main_v57) (ix2 (0 : Fin 1) j)
    = bnScale cC cE (colSum (H2 m c) j) (colSumSq (H2 m c) j) (a13 m c (ix1 j)) := by
  have e := congrFun (hostOps5_scale (W8 m ρ c)) (ix2 (0 : Fin 1) j)
  rw [kScale128_at, sum2 m ρ c j, sumsq2 m ρ c j, carry_main_arg13_8 m ρ c] at e
  exact e

/-- The shift row the host computes from the two accumulator rows. -/
theorem shift2 (j : Fin 128) : W9 m ρ c (Proc.devRef .tc main_v60) (ix2 (0 : Fin 1) j)
    = bnShift cC cE (colSum (H2 m c) j) (colSumSq (H2 m c) j) (a13 m c (ix1 j)) (a14 m c (ix1 j)) := by
  have e := congrFun (hostOps5_shift (W8 m ρ c)) (ix2 (0 : Fin 1) j)
  rw [kShift128_at, sum2 m ρ c j, sumsq2 m ρ c j, carry_main_arg13_8 m ρ c, carry_main_arg14_8 m ρ c] at e
  exact e

/-- After the scale-and-shift region the output array holds the layer with its normalisation folded. -/
theorem out2 : (W10 m ρ c (Proc.devRef .tc main_v61) : S100000x128.Idx → EReal) = arr2 (Y2 m c) := by
  funext idx
  obtain ⟨i, j, rfl⟩ : ∃ (i : Fin 100000) (j : Fin 128), idx = ix2 i j := ⟨idx 0, idx 1, eq_ix2 idx⟩
  have hH : (W9 m ρ c (Proc.devRef .tc main_v45) : S100000x128.Idx → EReal) = arr2 (H2 m c) :=
    (carry_main_v45_9 m ρ c).trans (mlp_out2 m ρ c)
  refine (congrFun (W10_arr m ρ c 3) (ix2 i j)).trans ?_
  rw [Reg5.final (V9 m ρ) c i j]
  show affineAt (fun i l => W9 m ρ c (Proc.devRef .tc main_v45) (ix2 i l)) (fun l => W9 m ρ c (Proc.devRef .tc main_v57) (ix2 (0 : Fin 1) l))
      (fun l => W9 m ρ c (Proc.devRef .tc main_v60) (ix2 (0 : Fin 1) l)) i j = _
  rw [hH]
  simp only [scale2 m ρ c, shift2 m ρ c]
  rfl

/-! ## Layer 3 (width 128 → 64) -/

/-- Layer 3's perceptron output, as a family. -/
def H3 : Fin 100000 → Fin 64 → EReal :=
  mlpAt (Y2 m c) (aggF128 (refSrc (F := Ideal) (a1 m c)) (refDst (F := Ideal) (a1 m c)) (Y2 m c)) (fam2 (A := 128) (B := 64) (a15 m c)) (fam1 (A := 64) (a16 m c)) (fam2 (A := 64) (B := 64) (a17 m c)) (fam1 (A := 64) (a18 m c))

/-- Layer 3's output with the normalisation folded, as a family. -/
def Y3 : Fin 100000 → Fin 64 → EReal :=
  layerFolded cC cE (aggF128 (refSrc (F := Ideal) (a1 m c)) (refDst (F := Ideal) (a1 m c))) (Y2 m c) (fam2 (A := 128) (B := 64) (a15 m c)) (fam1 (A := 64) (a16 m c)) (fam2 (A := 64) (B := 64) (a17 m c)) (fam1 (A := 64) (a18 m c)) (fam1 (A := 64) (a19 m c)) (fam1 (A := 64) (a20 m c))

/-- After the perceptron region the output array holds the perceptron of the layer's input and its neighbour aggregate. -/
theorem mlp_out3 : (W12 m ρ c (Proc.devRef .tc main_v74) : S100000x64.Idx → EReal) = arr2 (H3 m c) := by
  funext idx
  obtain ⟨i, j, rfl⟩ : ∃ (i : Fin 100000) (j : Fin 64), idx = ix2 i j := ⟨idx 0, idx 1, eq_ix2 idx⟩
  have hX : (W11 m ρ c (Proc.devRef .tc main_v61) : S100000x128.Idx → EReal) = arr2 (Y2 m c) :=
    (carry_main_v61_11 m ρ c).trans (out2 m ρ c)
  have hA : (W11 m ρ c (Proc.devRef .tc main_v71) : S100000x128.Idx → EReal) = refAgg128 (F := Ideal) (arr2 (Y2 m c)) (refSrc (F := Ideal) (a1 m c)) (refDst (F := Ideal) (a1 m c)) := by
    have e := hostOps6_agg (W10 m ρ c)
    rw [out2 m ρ c, carry_main_v1_10 m ρ c, carry_main_v3_10 m ρ c] at e
    rw [show W1 m ρ c (Proc.devRef .tc main_v1) = (refSrc (F := Ideal) (a1 m c)) from hostOps0_src (W0 m ρ c), show W1 m ρ c (Proc.devRef .tc main_v3) = (refDst (F := Ideal) (a1 m c)) from hostOps0_dst (W0 m ρ c)] at e
    exact e
  have hWa : W11 m ρ c (Proc.devRef .tc main_arg15) = a15 m c := carry_main_arg15_11 m ρ c
  have hWb : W11 m ρ c (Proc.devRef .tc main_arg17) = a17 m c := carry_main_arg17_11 m ρ c
  have hba : ∀ k : Fin 64, W11 m ρ c (Proc.devRef .tc main_v72) (ix2 (0 : Fin 1) k) = a16 m c (ix1 k) := fun k =>
    (hostOps6_ba (W10 m ρ c) k).trans (congrFun (carry_main_arg16_10 m ρ c) _)
  have hbb : ∀ k : Fin 64, W11 m ρ c (Proc.devRef .tc main_v73) (ix2 (0 : Fin 1) k) = a18 m c (ix1 k) := fun k =>
    (hostOps6_bb (W10 m ρ c) k).trans (congrFun (carry_main_arg18_10 m ρ c) _)
  refine (congrFun (W12_arr m ρ c 6) (ix2 i j)).trans ?_
  rw [Reg6.final (V11 m ρ) c i j]
  show mlpAt (fun i l => W11 m ρ c (Proc.devRef .tc main_v61) (ix2 i l)) (fun i l => W11 m ρ c (Proc.devRef .tc main_v71) (ix2 i l))
      (fun l k => W11 m ρ c (Proc.devRef .tc main_arg15) (ix2 l k)) (fun k => W11 m ρ c (Proc.devRef .tc main_v72) (ix2 (0 : Fin 1) k))
      (fun k j => W11 m ρ c (Proc.devRef .tc main_arg17) (ix2 k j)) (fun j => W11 m ρ c (Proc.devRef .tc main_v73) (ix2 (0 : Fin 1) j)) i j = _
  rw [hX, hA, hWa, hWb]
  simp only [hba, hbb]
  rfl

/-- After the statistics region the first accumulator row holds the column sums of the perceptron output. -/
theorem sum3 (j : Fin 64) : W13 m ρ c (Proc.devRef .tc main_v75_0) (ix2 (0 : Fin 1) j) = colSum (H3 m c) j := by
  refine (congrFun (W13_arr m ρ c 1) (ix2 (0 : Fin 1) j)).trans ?_
  rw [Reg7.final_sum (V12 m ρ) c j]
  show colSum (fun i l => W12 m ρ c (Proc.devRef .tc main_v74) (ix2 i l)) j = _
  rw [mlp_out3 m ρ c]
  rfl

/-- After the statistics region the second accumulator row holds the column sums of squares. -/
theorem sumsq3 (j : Fin 64) : W13 m ρ c (Proc.devRef .tc main_v75_1) (ix2 (0 : Fin 1) j) = colSumSq (H3 m c) j := by
  refine (congrFun (W13_arr m ρ c 2) (ix2 (0 : Fin 1) j)).trans ?_
  rw [Reg7.final_sumsq (V12 m ρ) c j]
  show colSumSq (fun i l => W12 m ρ c (Proc.devRef .tc main_v74) (ix2 i l)) j = _
  rw [mlp_out3 m ρ c]
  rfl

/-- The scale row the host computes from the two accumulator rows. -/
theorem scale3 (j : Fin 64) : W14 m ρ c (Proc.devRef .tc main_v86) (ix2 (0 : Fin 1) j)
    = bnScale cC cE (colSum (H3 m c) j) (colSumSq (H3 m c) j) (a19 m c (ix1 j)) := by
  have e := congrFun (hostOps8_scale (W13 m ρ c)) (ix2 (0 : Fin 1) j)
  rw [kScale64_at, sum3 m ρ c j, sumsq3 m ρ c j, carry_main_arg19_13 m ρ c] at e
  exact e

/-- The shift row the host computes from the two accumulator rows. -/
theorem shift3 (j : Fin 64) : W14 m ρ c (Proc.devRef .tc main_v89) (ix2 (0 : Fin 1) j)
    = bnShift cC cE (colSum (H3 m c) j) (colSumSq (H3 m c) j) (a19 m c (ix1 j)) (a20 m c (ix1 j)) := by
  have e := congrFun (hostOps8_shift (W13 m ρ c)) (ix2 (0 : Fin 1) j)
  rw [kShift64_at, sum3 m ρ c j, sumsq3 m ρ c j, carry_main_arg19_13 m ρ c, carry_main_arg20_13 m ρ c] at e
  exact e

/-- After the scale-and-shift region the output array holds the layer with its normalisation folded. -/
theorem out3 : (W15 m ρ c (Proc.devRef .tc main_v90) : S100000x64.Idx → EReal) = arr2 (Y3 m c) := by
  funext idx
  obtain ⟨i, j, rfl⟩ : ∃ (i : Fin 100000) (j : Fin 64), idx = ix2 i j := ⟨idx 0, idx 1, eq_ix2 idx⟩
  have hH : (W14 m ρ c (Proc.devRef .tc main_v74) : S100000x64.Idx → EReal) = arr2 (H3 m c) :=
    (carry_main_v74_14 m ρ c).trans (mlp_out3 m ρ c)
  refine (congrFun (W15_arr m ρ c 3) (ix2 i j)).trans ?_
  rw [Reg8.final (V14 m ρ) c i j]
  show affineAt (fun i l => W14 m ρ c (Proc.devRef .tc main_v74) (ix2 i l)) (fun l => W14 m ρ c (Proc.devRef .tc main_v86) (ix2 (0 : Fin 1) l))
      (fun l => W14 m ρ c (Proc.devRef .tc main_v89) (ix2 (0 : Fin 1) l)) i j = _
  rw [hH]
  simp only [scale3 m ρ c, shift3 m ρ c]
  rfl

/-! ## The pooling, the read-out and the result -/

/-- Before the read-out region the pooled array is the scatter-add of the third layer's rows into their graphs' rows. -/
theorem pool : (W16 m ρ c (Proc.devRef .tc main_v93) : S4096x64.Idx → EReal) = refPool (F := Ideal) (arr2 (Y3 m c)) (a2 m c) := by
  have e := hostOps9_pool (W15 m ρ c)
  rw [out3 m ρ c, carry_main_arg2_15 m ρ c] at e
  exact e

/-- After the read-out region its output column holds the read-out perceptron of the pooled rows. -/
theorem head (g : Fin 4096) : W17 m ρ c (Proc.devRef .tc main_v96) (ix2 g (0 : Fin 1))
    = headAt (fam2 (A := 4096) (B := 64) (refPool (F := Ideal) (arr2 (Y3 m c)) (a2 m c))) (fam2 (A := 64) (B := 16) (a21 m c)) (fam1 (A := 16) (a22 m c)) (fam2 (A := 16) (B := 1) (a23 m c)) (fam1 (A := 1) (a24 m c)) g 0 := by
  have h1 : W16 m ρ c (Proc.devRef .tc main_arg21) = a21 m c := carry_main_arg21_16 m ρ c
  have h3 : W16 m ρ c (Proc.devRef .tc main_arg23) = a23 m c := carry_main_arg23_16 m ρ c
  have h2 : ∀ k : Fin 16, W16 m ρ c (Proc.devRef .tc main_v94) (ix2 (0 : Fin 1) k) = a22 m c (ix1 k) := fun k =>
    (hostOps9_ba (W15 m ρ c) k).trans (congrFun (carry_main_arg22_15 m ρ c) _)
  have h4 : ∀ k : Fin 1, W16 m ρ c (Proc.devRef .tc main_v95) (ix2 (0 : Fin 1) k) = a24 m c (ix1 k) := fun k =>
    (hostOps9_bb (W15 m ρ c) k).trans (congrFun (carry_main_arg24_15 m ρ c) _)
  refine (congrFun (W17_arr m ρ c 5) (ix2 g (0 : Fin 1))).trans ?_
  rw [Reg9.final (V16 m ρ) c g 0]
  show headAt (fun i l => W16 m ρ c (Proc.devRef .tc main_v93) (ix2 i l)) (fun l k => W16 m ρ c (Proc.devRef .tc main_arg21) (ix2 l k))
      (fun k => W16 m ρ c (Proc.devRef .tc main_v94) (ix2 (0 : Fin 1) k)) (fun k j => W16 m ρ c (Proc.devRef .tc main_arg23) (ix2 k j))
      (fun j => W16 m ρ c (Proc.devRef .tc main_v95) (ix2 (0 : Fin 1) j)) g 0 = _
  rw [pool m ρ c, h1, h3]
  simp only [h2, h4]
  rfl

/-- The result vector of the idealized kernel program is the network with every normalisation folded, of the arguments. -/
theorem final (g : Fin 4096) : W18 m ρ c (Proc.devRef .tc main_v97) (ix1 g)
    = netFolded cC cE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) g :=
  (hostOps10_out (W17 m ρ c) g).trans ((head m ρ c g).trans (by unfold netFolded Y3 Y2 Y1; rfl))

end Cert.KernelIdeal.KFold

end
-- ==== Proof.RefRead.lean ====
/-
  The reference network's whole-array functions read entry by entry on the extended reals.

  A product of matrices read at (i, j) is the sum over the contracted coordinate of the products of entries; a vector
  spread over rows reads the vector's entry at the column; a column sum read at j is the sum over the rows; the rectifier
  against a zero array is the maximum with zero. With these the perceptron stage reads as the specification's perceptron,
  and the normalisation stage as the centred normalisation: the mean is the column sum over the row count, the variance
  the sum of squared deviations over the row count (the count, one hundred thousand, is positive, so the guarded quotient
  takes the quotient), and the scale is the reciprocal square root of the variance plus the small constant. The layers
  then compose as families, and the pooled read-out is the specification's read-out.
-/
import proofs.«101558_j53498112639139_1_alg».proof.Proof.NetDef
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value
import Idealize.ShloMosaic.PureOps.Ideal.Laws

noncomputable section

namespace Cert.ReferenceIdeal.RefRead

open scoped BigOperators
open Idealize.ShloMosaic Idealize.ShloMosaic.ValueIdx Cert.ReferenceIdeal Cert.ReferenceIdeal.Gen Cert.ReferenceIdeal.RefRun Cert.Gin

/-! ## The two constants -/

/-- The single-precision word `0x47C35000` is one hundred thousand, the number of rows. -/
theorem count_eq : Ideal.ofBits .f32 0x47C35000#32 = ((100000 : ℝ) : EReal) := by
  simp [Ideal.ofBits, Ideal.ieee, -EReal.coe_mul]; norm_num

/-- The single-precision word `0x3727C5AC` (the nearest to one hundred-thousandth) is a positive real number. -/
theorem eps_pos : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

/-! ## Layout and contraction at an entry, at any extents -/

section Generic
variable {m n : ℕ}

/-- An entry of a zero-filled array is zero. -/
theorem zeros_apply (s : Shape) (h : S_.BroadcastsInDim s (![] : Fin 0 → Fin s.rank)) (k : s.Idx) :
    broadcastInDim s ![] h (constant (F := Ideal) S_ .f32 0x00000000#32) k = (0 : EReal) := by
  show Ideal.ofBits .f32 0x00000000#32 = _
  exact Ideal.ofBits_zero_f32

/-- A vector made one row and spread down `m` rows reads, at (i, j), the vector's entry j. -/
theorem rows_apply {α : Type} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (i : Fin m) (j : Fin n) :
    broadcastInDim ⟨2, ![m, n]⟩ ![0, 1] h2 (broadcastInDim ⟨2, ![1, n]⟩ ![1] h1 v) (ix2 i j) = v (ix1 j) := by
  rw [broadcastInDim_oneRow_apply]
  refine broadcastInDim_apply ![1] h1 v (ix2 (0 : Fin 1) j) (ix1 j) ?_
  intro a
  fin_cases a
  show j.val = if n = 1 then 0 else j.val
  split_ifs with hn
  · have := j.isLt; omega
  · rfl

/-- A column sum from zero reads, at j, the sum of column j over the rows. -/
theorem colsum_apply (h' : (⟨2, ![m, n]⟩ : Shape).ReducesTo [0] ⟨1, ![n]⟩) (hu : 0 < S_.numel)
    (x : FVec Ideal ⟨2, ![m, n]⟩ .f32) (j : Fin n) :
    Host.reduceAdd x (constant (F := Ideal) S_ .f32 0x00000000#32) h' hu (ix1 j) = ∑ i : Fin m, x (ix2 i j) := by
  have h : (⟨2, ![m, n]⟩ : Shape).Reduces [0] ⟨1, ![n]⟩ := ⟨rfl, Nat.one_pos, fun b => by fin_cases b; rfl⟩
  rw [hostReduceAdd_apply]
  show Ideal.hostReduceAdd h' x (Ideal.ofBits .f32 0x00000000#32) (ix1 j) = _
  rw [Ideal.hostReduceAdd_single h' h, Ideal.ofBits_zero_f32, zero_add]
  refine Finset.sum_congr rfl fun k _ => congrArg x ?_
  funext a; apply Fin.ext
  match a with
  | ⟨0, _⟩ => rfl
  | ⟨1, _⟩ => rfl

/-- A product of an m×k by a k×n matrix reads, at (a, b), the sum over the contracted coordinate of the products. -/
theorem dot_apply {k : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact StackMember.dotGeneral_plain_apply none A B a b

end Generic

section Stages
variable {m : ℕ}

/-- The two-matrix perceptron with rectified outputs, on an input `z`, read at (i, j). -/
theorem mlp_apply {a b c : ℕ}
    (D1 : DotDims ⟨2, ![m, a]⟩ ⟨2, ![a, b]⟩ ⟨2, ![m, b]⟩) (hD1 : D1 = DotDims.plain m a b)
    (D2 : DotDims ⟨2, ![m, b]⟩ ⟨2, ![b, c]⟩ ⟨2, ![m, c]⟩) (hD2 : D2 = DotDims.plain m b c)
    (zb : S_.BroadcastsInDim ⟨2, ![m, b]⟩ (![] : Fin 0 → Fin 2)) (zc : S_.BroadcastsInDim ⟨2, ![m, c]⟩ (![] : Fin 0 → Fin 2))
    (b1 : (⟨1, ![b]⟩ : Shape).BroadcastsInDim ⟨2, ![1, b]⟩ ![1]) (b2 : (⟨2, ![1, b]⟩ : Shape).BroadcastsInDim ⟨2, ![m, b]⟩ ![0, 1])
    (c1 : (⟨1, ![c]⟩ : Shape).BroadcastsInDim ⟨2, ![1, c]⟩ ![1]) (c2 : (⟨2, ![1, c]⟩ : Shape).BroadcastsInDim ⟨2, ![m, c]⟩ ![0, 1])
    (z : FVec Ideal ⟨2, ![m, a]⟩ .f32) (Wa : FVec Ideal ⟨2, ![a, b]⟩ .f32) (ba : FVec Ideal ⟨1, ![b]⟩ .f32)
    (Wb : FVec Ideal ⟨2, ![b, c]⟩ .f32) (bb : FVec Ideal ⟨1, ![c]⟩ .f32) (i : Fin m) (j : Fin c) :
    maximumf
        (addf
          (Host.dotGeneral D2 none
            (maximumf
              (addf (Host.dotGeneral D1 none z Wa) (broadcastInDim ⟨2, ![m, b]⟩ ![0, 1] b2 (broadcastInDim ⟨2, ![1, b]⟩ ![1] b1 ba)))
              (broadcastInDim ⟨2, ![m, b]⟩ ![] zb (constant (F := Ideal) S_ .f32 0x00000000#32)))
            Wb)
          (broadcastInDim ⟨2, ![m, c]⟩ ![0, 1] c2 (broadcastInDim ⟨2, ![1, c]⟩ ![1] c1 bb)))
        (broadcastInDim ⟨2, ![m, c]⟩ ![] zc (constant (F := Ideal) S_ .f32 0x00000000#32)) (ix2 i j)
      = max ((∑ k : Fin b, max ((∑ l : Fin a, z (ix2 i l) * Wa (ix2 l k)) + ba (ix1 k)) 0 * Wb (ix2 k j)) + bb (ix1 j)) 0 := by
  rw [maximumf_apply, addf_apply, zeros_apply, rows_apply, dot_apply D2 hD2]
  refine congrArg (fun t => max (t + bb (ix1 j)) 0) (Finset.sum_congr rfl fun k _ => ?_)
  rw [maximumf_apply, addf_apply, zeros_apply, rows_apply, dot_apply D1 hD1]

variable {n : ℕ}

/-- The column mean: the column sum over the count, read at j. -/
theorem mean_apply (hr : (⟨2, ![m, n]⟩ : Shape).ReducesTo [0] ⟨1, ![n]⟩) (hu : 0 < S_.numel)
    (k0 : S_.BroadcastsInDim ⟨1, ![n]⟩ (![] : Fin 0 → Fin 1)) (C : BitVec 32)
    (h : FVec Ideal ⟨2, ![m, n]⟩ .f32) (j : Fin n) :
    Host.divf (Host.reduceAdd h (constant (F := Ideal) S_ .f32 0x00000000#32) hr hu)
        (broadcastInDim ⟨1, ![n]⟩ ![] k0 (constant (F := Ideal) S_ .f32 C)) (ix1 j)
      = bnMean (Ideal.ofBits .f32 C) (fam2 h) j := by
  rw [hostDivf_apply, colsum_apply]
  rfl

/-- The centred deviation the variance squares: the entry less the mean kept as one row and spread over all rows. -/
theorem dev_apply (hr : (⟨2, ![m, n]⟩ : Shape).ReducesTo [0] ⟨1, ![n]⟩) (hu : 0 < S_.numel)
    (r1 : (⟨1, ![n]⟩ : Shape).BroadcastsInDim ⟨2, ![1, n]⟩ ![1]) (r2 : (⟨2, ![1, n]⟩ : Shape).BroadcastsInDim ⟨2, ![m, n]⟩ ![0, 1])
    (k1 : S_.BroadcastsInDim ⟨2, ![1, n]⟩ (![] : Fin 0 → Fin 2)) (C : BitVec 32)
    (h : FVec Ideal ⟨2, ![m, n]⟩ .f32) (i : Fin m) (j : Fin n) :
    subf h (broadcastInDim ⟨2, ![m, n]⟩ ![0, 1] r2
        (Host.divf (broadcastInDim ⟨2, ![1, n]⟩ ![1] r1 (Host.reduceAdd h (constant (F := Ideal) S_ .f32 0x00000000#32) hr hu))
          (broadcastInDim ⟨2, ![1, n]⟩ ![] k1 (constant (F := Ideal) S_ .f32 C)))) (ix2 i j)
      = h (ix2 i j) - bnMean (Ideal.ofBits .f32 C) (fam2 h) j := by
  rw [subf_apply, broadcastInDim_oneRow_apply, hostDivf_apply]
  have e : broadcastInDim ⟨2, ![1, n]⟩ ![1] r1 (Host.reduceAdd h (constant (F := Ideal) S_ .f32 0x00000000#32) hr hu) (ix2 (0 : Fin 1) j)
      = ∑ i' : Fin m, h (ix2 i' j) := by
    rw [← colsum_apply hr hu h j]
    refine broadcastInDim_apply ![1] r1 _ (ix2 (0 : Fin 1) j) (ix1 j) ?_
    intro a
    fin_cases a
    show j.val = if n = 1 then 0 else j.val
    split_ifs with hn
    · have := j.isLt; omega
    · rfl
  rw [e]
  rfl

end Stages

section Normalisation
variable {m n : ℕ}

/-- The host's reciprocal square root at an entry. -/
theorem hostRsqrt_apply {s : Shape} (x : FVec Ideal s .f32) (i : s.Idx) : Host.rsqrt x i = Ideal.rsqrt (x i) := rfl

/-- The centred variance as the program computes it, read at j: the count is positive, so the guarded quotient is the
    quotient — the sum over the rows of the squared deviations from the mean, over the count. -/
theorem var_apply (hr : (⟨2, ![m, n]⟩ : Shape).ReducesTo [0] ⟨1, ![n]⟩) (hu : 0 < S_.numel)
    (r1 : (⟨1, ![n]⟩ : Shape).BroadcastsInDim ⟨2, ![1, n]⟩ ![1]) (r2 : (⟨2, ![1, n]⟩ : Shape).BroadcastsInDim ⟨2, ![m, n]⟩ ![0, 1])
    (k1 : S_.BroadcastsInDim ⟨2, ![1, n]⟩ (![] : Fin 0 → Fin 2)) (k0 : S_.BroadcastsInDim ⟨1, ![n]⟩ (![] : Fin 0 → Fin 1))
    (C : BitVec 32) (hpos : 0 < Ideal.ofBits .f32 C)
    (cnt : FVec Ideal S_ .f32) (hcnt : ∀ idx, cnt idx = Ideal.ofBits .f32 C) (nan : FVec Ideal S_ .f32)
    (h : FVec Ideal ⟨2, ![m, n]⟩ .f32) (j : Fin n) :
    (select (broadcastInDim ⟨1, ![n]⟩ ![] k0 (cmpf .ogt cnt (constant (F := Ideal) S_ .f32 0x00000000#32)))
      (Host.divf (Host.reduceAdd (mulf (subf h (broadcastInDim ⟨2, ![m, n]⟩ ![0, 1] r2 (Host.divf (broadcastInDim ⟨2, ![1, n]⟩ ![1] r1 (Host.reduceAdd h (constant (F := Ideal) S_ .f32 0x00000000#32) hr hu)) (broadcastInDim ⟨2, ![1, n]⟩ ![] k1 (constant (F := Ideal) S_ .f32 C))))) (subf h (broadcastInDim ⟨2, ![m, n]⟩ ![0, 1] r2 (Host.divf (broadcastInDim ⟨2, ![1, n]⟩ ![1] r1 (Host.reduceAdd h (constant (F := Ideal) S_ .f32 0x00000000#32) hr hu)) (broadcastInDim ⟨2, ![1, n]⟩ ![] k1 (constant (F := Ideal) S_ .f32 C)))))) (constant (F := Ideal) S_ .f32 0x00000000#32) hr hu) (broadcastInDim ⟨1, ![n]⟩ ![] k0 cnt))
      (broadcastInDim ⟨1, ![n]⟩ ![] k0 nan)) (ix1 j)
      = bnVar (Ideal.ofBits .f32 C) (fam2 h) j := by
  have hbit : broadcastInDim ⟨1, ![n]⟩ ![] k0 (cmpf .ogt cnt (constant (F := Ideal) S_ .f32 0x00000000#32)) (ix1 j) = 1#1 := by
    rw [broadcastInDim_scalar_apply, cmpf_apply]
    show Ideal.cmp .ogt (cnt ix0) (Ideal.ofBits .f32 0x00000000#32) = 1#1
    rw [hcnt, Ideal.ofBits_zero_f32]
    unfold Ideal.cmp
    simp [hpos]
  rw [select_apply, hbit, select_one, hostDivf_apply, colsum_apply, broadcastInDim_scalar_apply, hcnt]
  unfold bnVar
  refine congrArg (fun t => Ideal.div t (Ideal.ofBits .f32 C)) (Finset.sum_congr rfl fun i _ => ?_)
  rw [mulf_apply, dev_apply]
  rfl

/-- The normalisation `(h - mean) * rsqrt (var + eps) * gamma + beta`, every vector spread over the rows, read at (i, j). -/
theorem bn_apply (hr : (⟨2, ![m, n]⟩ : Shape).ReducesTo [0] ⟨1, ![n]⟩) (hu : 0 < S_.numel)
    (r1 : (⟨1, ![n]⟩ : Shape).BroadcastsInDim ⟨2, ![1, n]⟩ ![1]) (r2 : (⟨2, ![1, n]⟩ : Shape).BroadcastsInDim ⟨2, ![m, n]⟩ ![0, 1])
    (k1 : S_.BroadcastsInDim ⟨2, ![1, n]⟩ (![] : Fin 0 → Fin 2)) (k0 : S_.BroadcastsInDim ⟨1, ![n]⟩ (![] : Fin 0 → Fin 1))
    (C : BitVec 32) (hpos : 0 < Ideal.ofBits .f32 C)
    (cnt : FVec Ideal S_ .f32) (hcnt : ∀ idx, cnt idx = Ideal.ofBits .f32 C) (nan : FVec Ideal S_ .f32) (E : BitVec 32)
    (h : FVec Ideal ⟨2, ![m, n]⟩ .f32) (γ β : FVec Ideal ⟨1, ![n]⟩ .f32) (i : Fin m) (j : Fin n) :
    addf
        (mulf
          (mulf (subf h (broadcastInDim ⟨2, ![m, n]⟩ ![0, 1] r2 (broadcastInDim ⟨2, ![1, n]⟩ ![1] r1 (Host.divf (Host.reduceAdd h (constant (F := Ideal) S_ .f32 0x00000000#32) hr hu) (broadcastInDim ⟨1, ![n]⟩ ![] k0 (constant (F := Ideal) S_ .f32 C))))))
            (broadcastInDim ⟨2, ![m, n]⟩ ![0, 1] r2 (broadcastInDim ⟨2, ![1, n]⟩ ![1] r1 (Host.rsqrt (addf (select (broadcastInDim ⟨1, ![n]⟩ ![] k0 (cmpf .ogt cnt (constant (F := Ideal) S_ .f32 0x00000000#32)))
      (Host.divf (Host.reduceAdd (mulf (subf h (broadcastInDim ⟨2, ![m, n]⟩ ![0, 1] r2 (Host.divf (broadcastInDim ⟨2, ![1, n]⟩ ![1] r1 (Host.reduceAdd h (constant (F := Ideal) S_ .f32 0x00000000#32) hr hu)) (broadcastInDim ⟨2, ![1, n]⟩ ![] k1 (constant (F := Ideal) S_ .f32 C))))) (subf h (broadcastInDim ⟨2, ![m, n]⟩ ![0, 1] r2 (Host.divf (broadcastInDim ⟨2, ![1, n]⟩ ![1] r1 (Host.reduceAdd h (constant (F := Ideal) S_ .f32 0x00000000#32) hr hu)) (broadcastInDim ⟨2, ![1, n]⟩ ![] k1 (constant (F := Ideal) S_ .f32 C)))))) (constant (F := Ideal) S_ .f32 0x00000000#32) hr hu) (broadcastInDim ⟨1, ![n]⟩ ![] k0 cnt))
      (broadcastInDim ⟨1, ![n]⟩ ![] k0 nan)) (broadcastInDim ⟨1, ![n]⟩ ![] k0 (constant (F := Ideal) S_ .f32 E)))))))
          (broadcastInDim ⟨2, ![m, n]⟩ ![0, 1] r2 (broadcastInDim ⟨2, ![1, n]⟩ ![1] r1 γ)))
        (broadcastInDim ⟨2, ![m, n]⟩ ![0, 1] r2 (broadcastInDim ⟨2, ![1, n]⟩ ![1] r1 β)) (ix2 i j)
      = bnCentredAt (Ideal.ofBits .f32 C) (Ideal.ofBits .f32 E) (fam2 h) (fam1 γ) (fam1 β) i j := by
  rw [addf_apply, mulf_apply, mulf_apply, subf_apply, rows_apply, rows_apply, rows_apply, rows_apply]
  rw [hostRsqrt_apply, addf_apply, var_apply hr hu r1 r2 k1 k0 C hpos cnt hcnt nan h j, mean_apply hr hu k0 C h j]
  rfl

end Normalisation

/-! ## The count, as the program spells it -/

/-- One hundred thousand is positive. -/
theorem count_pos : 0 < Ideal.ofBits .f32 0x47C35000#32 := by
  rw [count_eq]; exact EReal.coe_pos.mpr (by norm_num)

/-- The variance's divisor — the count less the integer zero converted — is the count, at its one entry. -/
theorem refCount_apply (idx : S_.Idx) : refCount (F := Ideal) idx = Ideal.ofBits .f32 0x47C35000#32 := by
  show Ideal.ofBits .f32 0x47C35000#32 - ((((0#32 : BitVec 32).toInt : ℤ) : ℝ) : EReal) = _
  simp

/-! ## The stages at the network's extents -/

/-- The normalisation at width 256, entry by entry, is the centred normalisation of the specification. -/
theorem refBn256_apply (h : (⟨S100000x256, .f32⟩ : BufTy).Contents (Elt Ideal)) (γ β : (⟨S256, .f32⟩ : BufTy).Contents (Elt Ideal)) (i : Fin 100000) (j : Fin 256) :
    refBn256 (F := Ideal) h γ β (ix2 i j)
      = bnCentredAt (Ideal.ofBits .f32 0x47C35000#32) (Ideal.ofBits .f32 0x3727C5AC#32) (fam2 (A := 100000) (B := 256) h) (fam1 (A := 256) γ) (fam1 (A := 256) β) i j :=
  bn_apply (m := 100000) (n := 256) reducesTo_S100000x256_S256_d0 h_S_ bcast_S256_S1x256_1 bcast_S1x256_S100000x256_0_1 bcast_S_S1x256 bcast_S_S256
    0x47C35000#32 count_pos (refCount (F := Ideal)) refCount_apply (id (constant (F := Ideal) S_ .f32 0x7FC00000#32)) 0x3727C5AC#32 h γ β i j

/-- The normalisation at width 128, entry by entry, is the centred normalisation of the specification. -/
theorem refBn128_apply (h : (⟨S100000x128, .f32⟩ : BufTy).Contents (Elt Ideal)) (γ β : (⟨S128, .f32⟩ : BufTy).Contents (Elt Ideal)) (i : Fin 100000) (j : Fin 128) :
    refBn128 (F := Ideal) h γ β (ix2 i j)
      = bnCentredAt (Ideal.ofBits .f32 0x47C35000#32) (Ideal.ofBits .f32 0x3727C5AC#32) (fam2 (A := 100000) (B := 128) h) (fam1 (A := 128) γ) (fam1 (A := 128) β) i j :=
  bn_apply (m := 100000) (n := 128) reducesTo_S100000x128_S128_d0 h_S_ bcast_S128_S1x128_1 bcast_S1x128_S100000x128_0_1 bcast_S_S1x128 bcast_S_S128
    0x47C35000#32 count_pos (refCount (F := Ideal)) refCount_apply (id (constant (F := Ideal) S_ .f32 0x7FC00000#32)) 0x3727C5AC#32 h γ β i j

/-- The normalisation at width 64, entry by entry, is the centred normalisation of the specification. -/
theorem refBn64_apply (h : (⟨S100000x64, .f32⟩ : BufTy).Contents (Elt Ideal)) (γ β : (⟨S64, .f32⟩ : BufTy).Contents (Elt Ideal)) (i : Fin 100000) (j : Fin 64) :
    refBn64 (F := Ideal) h γ β (ix2 i j)
      = bnCentredAt (Ideal.ofBits .f32 0x47C35000#32) (Ideal.ofBits .f32 0x3727C5AC#32) (fam2 (A := 100000) (B := 64) h) (fam1 (A := 64) γ) (fam1 (A := 64) β) i j :=
  bn_apply (m := 100000) (n := 64) reducesTo_S100000x64_S64_d0 h_S_ bcast_S64_S1x64_1 bcast_S1x64_S100000x64_0_1 bcast_S_S1x64 bcast_S_S64
    0x47C35000#32 count_pos (refCount (F := Ideal)) refCount_apply (id (constant (F := Ideal) S_ .f32 0x7FC00000#32)) 0x3727C5AC#32 h γ β i j

/-- Layer 1's perceptron, entry by entry, is the specification's perceptron of the features and their neighbour sum. -/
theorem refMlp1_apply (x agg : (⟨S100000x373, .f32⟩ : BufTy).Contents (Elt Ideal)) (Wa : (⟨S373x256, .f32⟩ : BufTy).Contents (Elt Ideal)) (ba : (⟨S256, .f32⟩ : BufTy).Contents (Elt Ideal))
    (Wb : (⟨S256x256, .f32⟩ : BufTy).Contents (Elt Ideal)) (bb : (⟨S256, .f32⟩ : BufTy).Contents (Elt Ideal)) (i : Fin 100000) (j : Fin 256) :
    refMlp1 (F := Ideal) x agg Wa ba Wb bb (ix2 i j)
      = mlpAt (fam2 (A := 100000) (B := 373) x) (fam2 (A := 100000) (B := 373) agg) (fam2 (A := 373) (B := 256) Wa) (fam1 (A := 256) ba)
          (fam2 (A := 256) (B := 256) Wb) (fam1 (A := 256) bb) i j :=
  (mlp_apply (m := 100000) (a := 373) (b := 256) (c := 256) dot_S100000x373_S373x256_S100000x256_1_0_0_1_n_n rfl dot_S100000x256_S256x256_S100000x256_1_0_0_1_n_n rfl
    bcast_S_S100000x256 bcast_S_S100000x256 bcast_S256_S1x256_1 bcast_S1x256_S100000x256_0_1 bcast_S256_S1x256_1 bcast_S1x256_S100000x256_0_1
    (addf x agg) Wa ba Wb bb i j).trans rfl

/-- Layer 1 as an array is the specification's centred layer over the families, read back as an array. -/
theorem refLayer1_eq (x : (⟨S100000x373, .f32⟩ : BufTy).Contents (Elt Ideal)) (src dst : (⟨S400000, .i32⟩ : BufTy).Contents (Elt Ideal)) (Wa : (⟨S373x256, .f32⟩ : BufTy).Contents (Elt Ideal)) (ba : (⟨S256, .f32⟩ : BufTy).Contents (Elt Ideal))
    (Wb : (⟨S256x256, .f32⟩ : BufTy).Contents (Elt Ideal)) (bb γ β : (⟨S256, .f32⟩ : BufTy).Contents (Elt Ideal)) :
    refLayer1 (F := Ideal) x src dst Wa ba Wb bb γ β
      = arr2 (A := 100000) (B := 256) (layerCentred (Ideal.ofBits .f32 0x47C35000#32) (Ideal.ofBits .f32 0x3727C5AC#32) (aggF373 src dst) (fam2 (A := 100000) (B := 373) x)
          (fam2 (A := 373) (B := 256) Wa) (fam1 (A := 256) ba) (fam2 (A := 256) (B := 256) Wb) (fam1 (A := 256) bb) (fam1 (A := 256) γ) (fam1 (A := 256) β)) := by
  funext idx
  obtain ⟨i, j, rfl⟩ : ∃ (i : Fin 100000) (j : Fin 256), idx = ix2 i j := ⟨idx 0, idx 1, eq_ix2 idx⟩
  show refBn256 (F := Ideal) (refMlp1 (F := Ideal) x (refAgg373 (F := Ideal) x src dst) Wa ba Wb bb) γ β (ix2 i j) = layerCentred _ _ _ _ _ _ _ _ _ _ i j
  rw [refBn256_apply]
  unfold layerCentred
  have e : fam2 (A := 100000) (B := 256) (refMlp1 (F := Ideal) x (refAgg373 (F := Ideal) x src dst) Wa ba Wb bb)
      = mlpAt (fam2 (A := 100000) (B := 373) x) (aggF373 src dst (fam2 (A := 100000) (B := 373) x)) (fam2 (A := 373) (B := 256) Wa) (fam1 (A := 256) ba)
          (fam2 (A := 256) (B := 256) Wb) (fam1 (A := 256) bb) := by
    funext i' j'
    show refMlp1 (F := Ideal) x (refAgg373 (F := Ideal) x src dst) Wa ba Wb bb (ix2 i' j') = _
    rw [refMlp1_apply]
    unfold aggF373
    rw [arr2_fam2]
  rw [e]

/-- Layer 2's perceptron, entry by entry, is the specification's perceptron of the features and their neighbour sum. -/
theorem refMlp2_apply (x agg : (⟨S100000x256, .f32⟩ : BufTy).Contents (Elt Ideal)) (Wa : (⟨S256x128, .f32⟩ : BufTy).Contents (Elt Ideal)) (ba : (⟨S128, .f32⟩ : BufTy).Contents (Elt Ideal))
    (Wb : (⟨S128x128, .f32⟩ : BufTy).Contents (Elt Ideal)) (bb : (⟨S128, .f32⟩ : BufTy).Contents (Elt Ideal)) (i : Fin 100000) (j : Fin 128) :
    refMlp2 (F := Ideal) x agg Wa ba Wb bb (ix2 i j)
      = mlpAt (fam2 (A := 100000) (B := 256) x) (fam2 (A := 100000) (B := 256) agg) (fam2 (A := 256) (B := 128) Wa) (fam1 (A := 128) ba)
          (fam2 (A := 128) (B := 128) Wb) (fam1 (A := 128) bb) i j :=
  (mlp_apply (m := 100000) (a := 256) (b := 128) (c := 128) dot_S100000x256_S256x128_S100000x128_1_0_0_1_n_n rfl dot_S100000x128_S128x128_S100000x128_1_0_0_1_n_n rfl
    bcast_S_S100000x128 bcast_S_S100000x128 bcast_S128_S1x128_1 bcast_S1x128_S100000x128_0_1 bcast_S128_S1x128_1 bcast_S1x128_S100000x128_0_1
    (addf x agg) Wa ba Wb bb i j).trans rfl

/-- Layer 2 as an array is the specification's centred layer over the families, read back as an array. -/
theorem refLayer2_eq (x : (⟨S100000x256, .f32⟩ : BufTy).Contents (Elt Ideal)) (src dst : (⟨S400000, .i32⟩ : BufTy).Contents (Elt Ideal)) (Wa : (⟨S256x128, .f32⟩ : BufTy).Contents (Elt Ideal)) (ba : (⟨S128, .f32⟩ : BufTy).Contents (Elt Ideal))
    (Wb : (⟨S128x128, .f32⟩ : BufTy).Contents (Elt Ideal)) (bb γ β : (⟨S128, .f32⟩ : BufTy).Contents (Elt Ideal)) :
    refLayer2 (F := Ideal) x src dst Wa ba Wb bb γ β
      = arr2 (A := 100000) (B := 128) (layerCentred (Ideal.ofBits .f32 0x47C35000#32) (Ideal.ofBits .f32 0x3727C5AC#32) (aggF256 src dst) (fam2 (A := 100000) (B := 256) x)
          (fam2 (A := 256) (B := 128) Wa) (fam1 (A := 128) ba) (fam2 (A := 128) (B := 128) Wb) (fam1 (A := 128) bb) (fam1 (A := 128) γ) (fam1 (A := 128) β)) := by
  funext idx
  obtain ⟨i, j, rfl⟩ : ∃ (i : Fin 100000) (j : Fin 128), idx = ix2 i j := ⟨idx 0, idx 1, eq_ix2 idx⟩
  show refBn128 (F := Ideal) (refMlp2 (F := Ideal) x (refAgg256 (F := Ideal) x src dst) Wa ba Wb bb) γ β (ix2 i j) = layerCentred _ _ _ _ _ _ _ _ _ _ i j
  rw [refBn128_apply]
  unfold layerCentred
  have e : fam2 (A := 100000) (B := 128) (refMlp2 (F := Ideal) x (refAgg256 (F := Ideal) x src dst) Wa ba Wb bb)
      = mlpAt (fam2 (A := 100000) (B := 256) x) (aggF256 src dst (fam2 (A := 100000) (B := 256) x)) (fam2 (A := 256) (B := 128) Wa) (fam1 (A := 128) ba)
          (fam2 (A := 128) (B := 128) Wb) (fam1 (A := 128) bb) := by
    funext i' j'
    show refMlp2 (F := Ideal) x (refAgg256 (F := Ideal) x src dst) Wa ba Wb bb (ix2 i' j') = _
    rw [refMlp2_apply]
    unfold aggF256
    rw [arr2_fam2]
  rw [e]

/-- Layer 3's perceptron, entry by entry, is the specification's perceptron of the features and their neighbour sum. -/
theorem refMlp3_apply (x agg : (⟨S100000x128, .f32⟩ : BufTy).Contents (Elt Ideal)) (Wa : (⟨S128x64, .f32⟩ : BufTy).Contents (Elt Ideal)) (ba : (⟨S64, .f32⟩ : BufTy).Contents (Elt Ideal))
    (Wb : (⟨S64x64, .f32⟩ : BufTy).Contents (Elt Ideal)) (bb : (⟨S64, .f32⟩ : BufTy).Contents (Elt Ideal)) (i : Fin 100000) (j : Fin 64) :
    refMlp3 (F := Ideal) x agg Wa ba Wb bb (ix2 i j)
      = mlpAt (fam2 (A := 100000) (B := 128) x) (fam2 (A := 100000) (B := 128) agg) (fam2 (A := 128) (B := 64) Wa) (fam1 (A := 64) ba)
          (fam2 (A := 64) (B := 64) Wb) (fam1 (A := 64) bb) i j :=
  (mlp_apply (m := 100000) (a := 128) (b := 64) (c := 64) dot_S100000x128_S128x64_S100000x64_1_0_0_1_n_n rfl dot_S100000x64_S64x64_S100000x64_1_0_0_1_n_n rfl
    bcast_S_S100000x64 bcast_S_S100000x64 bcast_S64_S1x64_1 bcast_S1x64_S100000x64_0_1 bcast_S64_S1x64_1 bcast_S1x64_S100000x64_0_1
    (addf x agg) Wa ba Wb bb i j).trans rfl

/-- Layer 3 as an array is the specification's centred layer over the families, read back as an array. -/
theorem refLayer3_eq (x : (⟨S100000x128, .f32⟩ : BufTy).Contents (Elt Ideal)) (src dst : (⟨S400000, .i32⟩ : BufTy).Contents (Elt Ideal)) (Wa : (⟨S128x64, .f32⟩ : BufTy).Contents (Elt Ideal)) (ba : (⟨S64, .f32⟩ : BufTy).Contents (Elt Ideal))
    (Wb : (⟨S64x64, .f32⟩ : BufTy).Contents (Elt Ideal)) (bb γ β : (⟨S64, .f32⟩ : BufTy).Contents (Elt Ideal)) :
    refLayer3 (F := Ideal) x src dst Wa ba Wb bb γ β
      = arr2 (A := 100000) (B := 64) (layerCentred (Ideal.ofBits .f32 0x47C35000#32) (Ideal.ofBits .f32 0x3727C5AC#32) (aggF128 src dst) (fam2 (A := 100000) (B := 128) x)
          (fam2 (A := 128) (B := 64) Wa) (fam1 (A := 64) ba) (fam2 (A := 64) (B := 64) Wb) (fam1 (A := 64) bb) (fam1 (A := 64) γ) (fam1 (A := 64) β)) := by
  funext idx
  obtain ⟨i, j, rfl⟩ : ∃ (i : Fin 100000) (j : Fin 64), idx = ix2 i j := ⟨idx 0, idx 1, eq_ix2 idx⟩
  show refBn64 (F := Ideal) (refMlp3 (F := Ideal) x (refAgg128 (F := Ideal) x src dst) Wa ba Wb bb) γ β (ix2 i j) = layerCentred _ _ _ _ _ _ _ _ _ _ i j
  rw [refBn64_apply]
  unfold layerCentred
  have e : fam2 (A := 100000) (B := 64) (refMlp3 (F := Ideal) x (refAgg128 (F := Ideal) x src dst) Wa ba Wb bb)
      = mlpAt (fam2 (A := 100000) (B := 128) x) (aggF128 src dst (fam2 (A := 100000) (B := 128) x)) (fam2 (A := 128) (B := 64) Wa) (fam1 (A := 64) ba)
          (fam2 (A := 64) (B := 64) Wb) (fam1 (A := 64) bb) := by
    funext i' j'
    show refMlp3 (F := Ideal) x (refAgg128 (F := Ideal) x src dst) Wa ba Wb bb (ix2 i' j') = _
    rw [refMlp3_apply]
    unfold aggF128
    rw [arr2_fam2]
  rw [e]

/-! ## The read-out and the whole network -/

/-- The read-out perceptron's single column, entry by entry, is the specification's read-out at column zero. -/
theorem refHead_apply (p : (⟨S4096x64, .f32⟩ : BufTy).Contents (Elt Ideal)) (Wa : (⟨S64x16, .f32⟩ : BufTy).Contents (Elt Ideal)) (ba : (⟨S16, .f32⟩ : BufTy).Contents (Elt Ideal)) (Wb : (⟨S16x1, .f32⟩ : BufTy).Contents (Elt Ideal)) (bb : (⟨S1, .f32⟩ : BufTy).Contents (Elt Ideal)) (g : Fin 4096) :
    refHead (F := Ideal) p Wa ba Wb bb (ix1 g)
      = headAt (fam2 (A := 4096) (B := 64) p) (fam2 (A := 64) (B := 16) Wa) (fam1 (A := 16) ba) (fam2 (A := 16) (B := 1) Wb) (fam1 (A := 1) bb) g 0 := by
  unfold refHead
  rw [shapeCast_apply _ shapeCasts_S4096x1_S4096 (ix1 g) (ix2 g (0 : Fin 1)) (by
    rw [Shape.rowMajor_val_two, Shape.rowMajor_val_one]
    show g.val * 1 + 0 = g.val
    omega)]
  exact (mlp_apply (m := 4096) (a := 64) (b := 16) (c := 1) dot_S4096x64_S64x16_S4096x16_1_0_0_1_n_n rfl dot_S4096x16_S16x1_S4096x1_1_0_0_1_n_n rfl
    bcast_S_S4096x16 bcast_S_S4096x1 bcast_S16_S1x16_1 bcast_S1x16_S4096x16_0_1 bcast_S1_S1x1_1 bcast_S1x1_S4096x1_0_1
    p Wa ba Wb bb g 0).trans rfl

/-- The reference network at graph `g` is the specification's network with every normalisation centred. -/
theorem refNet_apply (x : (⟨S100000x373, .f32⟩ : BufTy).Contents (Elt Ideal)) (ei : (⟨S2x400000, .i32⟩ : BufTy).Contents (Elt Ideal)) (batch : (⟨S100000, .i32⟩ : BufTy).Contents (Elt Ideal)) (W1a : (⟨S373x256, .f32⟩ : BufTy).Contents (Elt Ideal)) (b1a : (⟨S256, .f32⟩ : BufTy).Contents (Elt Ideal)) (W1b : (⟨S256x256, .f32⟩ : BufTy).Contents (Elt Ideal)) (b1b : (⟨S256, .f32⟩ : BufTy).Contents (Elt Ideal)) (g1 : (⟨S256, .f32⟩ : BufTy).Contents (Elt Ideal)) (be1 : (⟨S256, .f32⟩ : BufTy).Contents (Elt Ideal)) (W2a : (⟨S256x128, .f32⟩ : BufTy).Contents (Elt Ideal)) (b2a : (⟨S128, .f32⟩ : BufTy).Contents (Elt Ideal)) (W2b : (⟨S128x128, .f32⟩ : BufTy).Contents (Elt Ideal)) (b2b : (⟨S128, .f32⟩ : BufTy).Contents (Elt Ideal)) (g2 : (⟨S128, .f32⟩ : BufTy).Contents (Elt Ideal)) (be2 : (⟨S128, .f32⟩ : BufTy).Contents (Elt Ideal)) (W3a : (⟨S128x64, .f32⟩ : BufTy).Contents (Elt Ideal)) (b3a : (⟨S64, .f32⟩ : BufTy).Contents (Elt Ideal)) (W3b : (⟨S64x64, .f32⟩ : BufTy).Contents (Elt Ideal)) (b3b : (⟨S64, .f32⟩ : BufTy).Contents (Elt Ideal)) (g3 : (⟨S64, .f32⟩ : BufTy).Contents (Elt Ideal)) (be3 : (⟨S64, .f32⟩ : BufTy).Contents (Elt Ideal)) (Wf1 : (⟨S64x16, .f32⟩ : BufTy).Contents (Elt Ideal)) (bf1 : (⟨S16, .f32⟩ : BufTy).Contents (Elt Ideal)) (Wf2 : (⟨S16x1, .f32⟩ : BufTy).Contents (Elt Ideal)) (bf2 : (⟨S1, .f32⟩ : BufTy).Contents (Elt Ideal)) (g : Fin 4096) :
    refNet (F := Ideal) x ei batch W1a b1a W1b b1b g1 be1 W2a b2a W2b b2b g2 be2 W3a b3a W3b b3b g3 be3 Wf1 bf1 Wf2 bf2 (ix1 g)
      = netCentred (Ideal.ofBits .f32 0x47C35000#32) (Ideal.ofBits .f32 0x3727C5AC#32) x ei batch W1a b1a W1b b1b g1 be1 W2a b2a W2b b2b g2 be2 W3a b3a W3b b3b g3 be3 Wf1 bf1 Wf2 bf2 g := by
  unfold refNet netCentred
  rw [refHead_apply, refLayer1_eq, refLayer2_eq, refLayer3_eq]
  simp only [fam2_arr2]

end Cert.ReferenceIdeal.RefRead

end
-- ==== Proof.Assemble.lean ====
/-
  The certificate's five conjuncts. The three frames are the generated frame certificates of the two kernel programs and
  the reference's run with its result dropped; the idealization changed nothing, so there is nothing to preserve; and the
  two idealized programs agree because the kernel computes the network with each batch normalisation folded into a scale
  and a shift, the reference the network with each normalisation centred, and on real inputs these are one function.
-/
import proofs.«101558_j53498112639139_1_alg».proof.Defs
import proofs.«101558_j53498112639139_1_alg».proof.Proof.Gen.Kernel.Frame
import proofs.«101558_j53498112639139_1_alg».proof.Proof.Gen.KernelIdeal.Frame
import proofs.«101558_j53498112639139_1_alg».proof.Proof.Gen.ReferenceIdeal
import proofs.«101558_j53498112639139_1_alg».proof.Proof.Gen.Pre_finite_inputs
import proofs.«101558_j53498112639139_1_alg».proof.Proof.KRun
import proofs.«101558_j53498112639139_1_alg».proof.Proof.RefRun
import proofs.«101558_j53498112639139_1_alg».proof.Proof.NetDef
import proofs.«101558_j53498112639139_1_alg».proof.Proof.KHost
import proofs.«101558_j53498112639139_1_alg».proof.Proof.PreFam
import proofs.«101558_j53498112639139_1_alg».proof.Proof.KFold
import proofs.«101558_j53498112639139_1_alg».proof.Proof.RefRead

noncomputable section

namespace Cert.Proof.Assemble

open Idealize.ShloMosaic Idealize.ShloMosaic.TcCoe Idealize.ShloMosaic.ValueIdx Idealize.SL.Sem

/-- The word-level kernel program runs to the end without a fault and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation: nothing to preserve. -/
theorem preserves : Cert.preserves_Kernel_KernelIdeal := trivial

/-- On extended reals the two programs, run from memories that agree on the arguments, end with equal results. The
    kernel's result at graph `g` is the network with every batch normalisation folded into one scale and one shift per
    column; the reference's is the network with every normalisation centred; the node count `100000` and the variance
    offset are the same two literals on both sides, the first the real number `100000` and the second a positive real; and
    on real (finite) inputs — which the precondition gives — the two arrangements of the network are one function. -/
theorem algebraic : Cert.algebraic_KernelIdeal_ReferenceIdeal := by
  intro m g m' g' hpre hagree
  refine ⟨fun c => Cert.ReferenceIdeal.RefRun.refOut (F := Ideal) m' c, ?_, Cert.ReferenceIdeal.RefRun.run (F := Ideal) m' g'⟩
  refine (θ_run Cert.KernelIdeal.defs _ _).mono (fun r h c => ⟨(h c).1.trans ?_, (h c).2⟩)
    (Cert.KernelIdeal.KRun.run (F := Ideal) m g)
  obtain ⟨a0, a1, a2, a3, a4, a5, a6, a7, a8, a9, a10, a11, a12, a13, a14, a15, a16, a17, a18, a19, a20, a21, a22, a23, a24⟩ := hagree c
  obtain ⟨r0, r3, r4, r5, r6, r7, r8, r9, r10, r11, r12, r13, r14, r15, r16, r17, r18, r19, r20⟩ := Cert.Proof.PreFam.reals m hpre c
  obtain ⟨e, he, hE⟩ := Cert.ReferenceIdeal.RefRead.eps_pos
  show (Cert.KernelIdeal.Gen.W18 m g c (Proc.devRef .tc Cert.KernelIdeal.main_v97) : Cert.KernelIdeal.S4096.Idx → EReal)
    = (Cert.ReferenceIdeal.RefRun.refOut (F := Ideal) m' c : Cert.KernelIdeal.S4096.Idx → EReal)
  funext idx
  obtain ⟨q, rfl⟩ : ∃ q : Fin 4096, idx = ix1 q := ⟨idx 0, eq_ix1 idx⟩
  refine (Cert.KernelIdeal.KFold.final m g c q).trans ?_
  unfold Cert.ReferenceIdeal.RefRun.refOut
  refine Eq.trans ?_ (Cert.ReferenceIdeal.RefRead.refNet_apply (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) q).symm
  rw [a0, a1, a2, a3, a4, a5, a6, a7, a8, a9, a10, a11, a12, a13, a14, a15, a16, a17, a18, a19, a20, a21, a22, a23, a24]
  have key := Cert.Gin.net_eq 100000 e (by norm_num) (by norm_num) he (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))
    r0 r3 r4 r5 r6 r7 r8 r9 r10 r11 r12 r13 r14 r15 r16 r17 r18 r19 r20 q
  rw [← Cert.ReferenceIdeal.RefRead.count_eq, ← hE] at key
  exact key

end Cert.Proof.Assemble

end
-- ==== Proof.lean ====
/-
  A three-layer graph-isomorphism network with batch normalisation, sum pooling and a two-layer read-out, as a program of ten
  kernel regions among host operations, against the same network written with whole-array operations.

  At the extended reals the two programs differ in one place only. After each layer's perceptron the kernel program
  normalises with the column sums `S` and sums of squares `SS` folded into one scale `γ · rsqrt (SS/c - (S/c)² + ε)` and one
  shift `β - (S/c) · scale` per column; the reference centres first, `(h - μ) · rsqrt (var + ε) · γ + β` with
  `var = (∑ (h - μ)²) / c`. On real entries `(∑ (h - μ)²) / c = SS/c - μ²` and the product distributes over the difference, so
  the two agree; on the extended reals these steps need every entry to be a real number, which is where the precondition
  (every float input finite) is used, layer after layer: a perceptron of real data is real, the neighbour aggregation (a
  gather and a scatter-add) of real data is real, and a normalised layer of real data is real again.

  Everything else is the same function on both sides: a matrix product accumulated from zero block by block is the
  whole-array product row by row, a column sum accumulated over the grid is the whole column sum, a format change is the
  identity, and the gather, the scatter-adds and the read-out are the same operations of equal operands.

  The three frames are the generated frames of the two kernel programs and the reference's run with its result dropped;
  the idealization rewrote nothing, so its conjunct is trivial.
-/
import proofs.«101558_j53498112639139_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Assemble.frame_k, Cert.Proof.Assemble.frame_ki, Cert.Proof.Assemble.frame_ri, Cert.Proof.Assemble.preserves,
    Cert.Proof.Assemble.algebraic⟩

end Cert.Proof

end
